-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x32 : Shape := ⟨2, ![1000000, 32]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000000x32 .f32) : IVec S_ 1 :=
  let main_v0 : FVec F S1000000x32 .f32 := Host.absf main_arg1
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1000000x32 : Shape := ⟨2, ![1000000, 32]⟩
abbrev S32x1000000 : Shape := ⟨2, ![32, 1000000]⟩
abbrev S32x64 : Shape := ⟨2, ![32, 64]⟩
abbrev S32x16384 : Shape := ⟨2, ![32, 16384]⟩
abbrev S528 : Shape := ⟨1, ![528]⟩
abbrev S8x32x128 : Shape := ⟨3, ![8, 32, 128]⟩
abbrev S32x512 : Shape := ⟨2, ![32, 512]⟩
abbrev S_ : Shape := ⟨0, ![]⟩
abbrev S512 : Shape := ⟨1, ![512]⟩
abbrev S16 : Shape := ⟨1, ![16]⟩
abbrev S1 : Shape := ⟨1, ![1]⟩
abbrev S1x32x128 : Shape := ⟨3, ![1, 32, 128]⟩
abbrev S32x128 : Shape := ⟨2, ![32, 128]⟩
abbrev S16384x32 : Shape := ⟨2, ![16384, 32]⟩

abbrev nBuf : Table → Nat
  | .hbm => 6
  | .local .scVector .vmem => 4
  | _ => 0

abbrev bufTy : (tb : Table) → Fin (nBuf tb) → BufTy
  | .hbm, ⟨0, _⟩ => ⟨S16384, .i32⟩
  | .hbm, ⟨1, _⟩ => ⟨S1000000x32, .f32⟩
  | .hbm, ⟨2, _⟩ => ⟨S32x1000000, .f32⟩
  | .hbm, ⟨3, _⟩ => ⟨S32x64, .f32⟩
  | .hbm, ⟨4, _⟩ => ⟨S32x16384, .f32⟩
  | .hbm, ⟨5, _⟩ => ⟨S16384x32, .f32⟩
  | .local .scVector .vmem, ⟨0, _⟩ => ⟨S528, .i32⟩
  | .local .scVector .vmem, ⟨1, _⟩ => ⟨S8x32x128, .f32⟩
  | .local .scVector .vmem, ⟨2, _⟩ => ⟨S32x64, .f32⟩
  | .local .scVector .vmem, ⟨3, _⟩ => ⟨S32x512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_mult1 (v8 : BitVec 32) : BitVec 32 :=
  let c7_i32 : BitVec 32 := 7#32
  let v9 : BitVec 32 := Scalar.shrsi v8 c7_i32
  let c7_i32_0 : BitVec 32 := 7#32
  let v10 : BitVec 32 := Scalar.shli v9 c7_i32_0
  let c999808_i32 : BitVec 32 := 999808#32
  let v11 : BitVec 32 := Scalar.minsi v10 c999808_i32
  v11

def k0_off2 (v8 : BitVec 32) : Fin 2 → Nat :=
  let c0_i32_3 : BitVec 32 := 0#32
  let c7_i32 : BitVec 32 := 7#32
  let v9 : BitVec 32 := Scalar.shrsi v8 c7_i32
  let c7_i32_0 : BitVec 32 := 7#32
  let v10 : BitVec 32 := Scalar.shli v9 c7_i32_0
  let c999808_i32 : BitVec 32 := 999808#32
  let v11 : BitVec 32 := Scalar.minsi v10 c999808_i32
  let v12 : BitVec 32 := v11
  ![0, v12.toNat]

def k0_chk1 (v8 : BitVec 32) : Prop :=
  (128 ∣ (k0_mult1 v8).toNat) ∧
  (∀ a, (k0_off2 v8) a + S32x128.size a ≤ S32x1000000.size a)
instance k0_chk1.dec : ∀ (v8 : BitVec 32), Decidable (k0_chk1 v8) := fun v8 => decidable_of_iff' _ (Iff.of_eq (k0_chk1.eq_1 v8))
theorem k0_mult1_dvd : ∀ (v8 : BitVec 32) (k0_hw1 : k0_chk1 v8), 128 ∣ (k0_mult1 v8).toNat := fun v8 k0_hw1 => k0_hw1.1
theorem k0_off2_inb : ∀ (v8 : BitVec 32) (k0_hw1 : k0_chk1 v8), ∀ a, (k0_off2 v8) a + S32x128.size a ≤ S32x1000000.size a := fun v8 k0_hw1 => k0_hw1.2

def k0_mult2 (v21 : BitVec 32) : BitVec 32 :=
  let c7_i32_7 : BitVec 32 := 7#32
  let v22 : BitVec 32 := Scalar.shrsi v21 c7_i32_7
  let c7_i32_8 : BitVec 32 := 7#32
  let v23 : BitVec 32 := Scalar.shli v22 c7_i32_8
  let c999808_i32_9 : BitVec 32 := 999808#32
  let v24 : BitVec 32 := Scalar.minsi v23 c999808_i32_9
  v24

def k0_off3 (v21 : BitVec 32) : Fin 2 → Nat :=
  let c0_i32_12 : BitVec 32 := 0#32
  let c7_i32_7 : BitVec 32 := 7#32
  let v22 : BitVec 32 := Scalar.shrsi v21 c7_i32_7
  let c7_i32_8 : BitVec 32 := 7#32
  let v23 : BitVec 32 := Scalar.shli v22 c7_i32_8
  let c999808_i32_9 : BitVec 32 := 999808#32
  let v24 : BitVec 32 := Scalar.minsi v23 c999808_i32_9
  let v25 : BitVec 32 := v24
  ![0, v25.toNat]

def k0_chk2 (v21 : BitVec 32) : Prop :=
  (128 ∣ (k0_mult2 v21).toNat) ∧
  (∀ a, (k0_off3 v21) a + S32x128.size a ≤ S32x1000000.size a)
instance k0_chk2.dec : ∀ (v21 : BitVec 32), Decidable (k0_chk2 v21) := fun v21 => decidable_of_iff' _ (Iff.of_eq (k0_chk2.eq_1 v21))
theorem k0_mult2_dvd : ∀ (v21 : BitVec 32) (k0_hw2 : k0_chk2 v21), 128 ∣ (k0_mult2 v21).toNat := fun v21 k0_hw2 => k0_hw2.1
theorem k0_off3_inb : ∀ (v21 : BitVec 32) (k0_hw2 : k0_chk2 v21), ∀ a, (k0_off3 v21) a + S32x128.size a ≤ S32x1000000.size a := fun v21 k0_hw2 => k0_hw2.2

def k0_mult3 (v34 : BitVec 32) : BitVec 32 :=
  let c7_i32_16 : BitVec 32 := 7#32
  let v35 : BitVec 32 := Scalar.shrsi v34 c7_i32_16
  let c7_i32_17 : BitVec 32 := 7#32
  let v36 : BitVec 32 := Scalar.shli v35 c7_i32_17
  let c999808_i32_18 : BitVec 32 := 999808#32
  let v37 : BitVec 32 := Scalar.minsi v36 c999808_i32_18
  v37

def k0_off4 (v34 : BitVec 32) : Fin 2 → Nat :=
  let c0_i32_22 : BitVec 32 := 0#32
  let c7_i32_16 : BitVec 32 := 7#32
  let v35 : BitVec 32 := Scalar.shrsi v34 c7_i32_16
  let c7_i32_17 : BitVec 32 := 7#32
  let v36 : BitVec 32 := Scalar.shli v35 c7_i32_17
  let c999808_i32_18 : BitVec 32 := 999808#32
  let v37 : BitVec 32 := Scalar.minsi v36 c999808_i32_18
  let v38 : BitVec 32 := v37
  ![0, v38.toNat]

def k0_chk3 (v34 : BitVec 32) : Prop :=
  (128 ∣ (k0_mult3 v34).toNat) ∧
  (∀ a, (k0_off4 v34) a + S32x128.size a ≤ S32x1000000.size a)
instance k0_chk3.dec : ∀ (v34 : BitVec 32), Decidable (k0_chk3 v34) := fun v34 => decidable_of_iff' _ (Iff.of_eq (k0_chk3.eq_1 v34))
theorem k0_mult3_dvd : ∀ (v34 : BitVec 32) (k0_hw3 : k0_chk3 v34), 128 ∣ (k0_mult3 v34).toNat := fun v34 k0_hw3 => k0_hw3.1
theorem k0_off4_inb : ∀ (v34 : BitVec 32) (k0_hw3 : k0_chk3 v34), ∀ a, (k0_off4 v34) a + S32x128.size a ≤ S32x1000000.size a := fun v34 k0_hw3 => k0_hw3.2

def k0_mult4 (v47 : BitVec 32) : BitVec 32 :=
  let c7_i32_26 : BitVec 32 := 7#32
  let v48 : BitVec 32 := Scalar.shrsi v47 c7_i32_26
  let c7_i32_27 : BitVec 32 := 7#32
  let v49 : BitVec 32 := Scalar.shli v48 c7_i32_27
  let c999808_i32_28 : BitVec 32 := 999808#32
  let v50 : BitVec 32 := Scalar.minsi v49 c999808_i32_28
  v50

def k0_off5 (v47 : BitVec 32) : Fin 2 → Nat :=
  let c0_i32_31 : BitVec 32 := 0#32
  let c7_i32_26 : BitVec 32 := 7#32
  let v48 : BitVec 32 := Scalar.shrsi v47 c7_i32_26
  let c7_i32_27 : BitVec 32 := 7#32
  let v49 : BitVec 32 := Scalar.shli v48 c7_i32_27
  let c999808_i32_28 : BitVec 32 := 999808#32
  let v50 : BitVec 32 := Scalar.minsi v49 c999808_i32_28
  let v51 : BitVec 32 := v50
  ![0, v51.toNat]

def k0_chk4 (v47 : BitVec 32) : Prop :=
  (128 ∣ (k0_mult4 v47).toNat) ∧
  (∀ a, (k0_off5 v47) a + S32x128.size a ≤ S32x1000000.size a)
instance k0_chk4.dec : ∀ (v47 : BitVec 32), Decidable (k0_chk4 v47) := fun v47 => decidable_of_iff' _ (Iff.of_eq (k0_chk4.eq_1 v47))
theorem k0_mult4_dvd : ∀ (v47 : BitVec 32) (k0_hw4 : k0_chk4 v47), 128 ∣ (k0_mult4 v47).toNat := fun v47 k0_hw4 => k0_hw4.1
theorem k0_off5_inb : ∀ (v47 : BitVec 32) (k0_hw4 : k0_chk4 v47), ∀ a, (k0_off5 v47) a + S32x128.size a ≤ S32x1000000.size a := fun v47 k0_hw4 => k0_hw4.2

def k0_mult5 (v60 : BitVec 32) : BitVec 32 :=
  let c7_i32_35 : BitVec 32 := 7#32
  let v61 : BitVec 32 := Scalar.shrsi v60 c7_i32_35
  let c7_i32_36 : BitVec 32 := 7#32
  let v62 : BitVec 32 := Scalar.shli v61 c7_i32_36
  let c999808_i32_37 : BitVec 32 := 999808#32
  let v63 : BitVec 32 := Scalar.minsi v62 c999808_i32_37
  v63

def k0_off6 (v60 : BitVec 32) : Fin 2 → Nat :=
  let c0_i32_40 : BitVec 32 := 0#32
  let c7_i32_35 : BitVec 32 := 7#32
  let v61 : BitVec 32 := Scalar.shrsi v60 c7_i32_35
  let c7_i32_36 : BitVec 32 := 7#32
  let v62 : BitVec 32 := Scalar.shli v61 c7_i32_36
  let c999808_i32_37 : BitVec 32 := 999808#32
  let v63 : BitVec 32 := Scalar.minsi v62 c999808_i32_37
  let v64 : BitVec 32 := v63
  ![0, v64.toNat]

def k0_chk5 (v60 : BitVec 32) : Prop :=
  (128 ∣ (k0_mult5 v60).toNat) ∧
  (∀ a, (k0_off6 v60) a + S32x128.size a ≤ S32x1000000.size a)
instance k0_chk5.dec : ∀ (v60 : BitVec 32), Decidable (k0_chk5 v60) := fun v60 => decidable_of_iff' _ (Iff.of_eq (k0_chk5.eq_1 v60))
theorem k0_mult5_dvd : ∀ (v60 : BitVec 32) (k0_hw5 : k0_chk5 v60), 128 ∣ (k0_mult5 v60).toNat := fun v60 k0_hw5 => k0_hw5.1
theorem k0_off6_inb : ∀ (v60 : BitVec 32) (k0_hw5 : k0_chk5 v60), ∀ a, (k0_off6 v60) a + S32x128.size a ≤ S32x1000000.size a := fun v60 k0_hw5 => k0_hw5.2

def k0_mult6 (v73 : BitVec 32) : BitVec 32 :=
  let c7_i32_44 : BitVec 32 := 7#32
  let v74 : BitVec 32 := Scalar.shrsi v73 c7_i32_44
  let c7_i32_45 : BitVec 32 := 7#32
  let v75 : BitVec 32 := Scalar.shli v74 c7_i32_45
  let c999808_i32_46 : BitVec 32 := 999808#32
  let v76 : BitVec 32 := Scalar.minsi v75 c999808_i32_46
  v76

def k0_off7 (v73 : BitVec 32) : Fin 2 → Nat :=
  let c0_i32_49 : BitVec 32 := 0#32
  let c7_i32_44 : BitVec 32 := 7#32
  let v74 : BitVec 32 := Scalar.shrsi v73 c7_i32_44
  let c7_i32_45 : BitVec 32 := 7#32
  let v75 : BitVec 32 := Scalar.shli v74 c7_i32_45
  let c999808_i32_46 : BitVec 32 := 999808#32
  let v76 : BitVec 32 := Scalar.minsi v75 c999808_i32_46
  let v77 : BitVec 32 := v76
  ![0, v77.toNat]

def k0_chk6 (v73 : BitVec 32) : Prop :=
  (128 ∣ (k0_mult6 v73).toNat) ∧
  (∀ a, (k0_off7 v73) a + S32x128.size a ≤ S32x1000000.size a)
instance k0_chk6.dec : ∀ (v73 : BitVec 32), Decidable (k0_chk6 v73) := fun v73 => decidable_of_iff' _ (Iff.of_eq (k0_chk6.eq_1 v73))
theorem k0_mult6_dvd : ∀ (v73 : BitVec 32) (k0_hw6 : k0_chk6 v73), 128 ∣ (k0_mult6 v73).toNat := fun v73 k0_hw6 => k0_hw6.1
theorem k0_off7_inb : ∀ (v73 : BitVec 32) (k0_hw6 : k0_chk6 v73), ∀ a, (k0_off7 v73) a + S32x128.size a ≤ S32x1000000.size a := fun v73 k0_hw6 => k0_hw6.2

def k0_mult7 (v86 : BitVec 32) : BitVec 32 :=
  let c7_i32_53 : BitVec 32 := 7#32
  let v87 : BitVec 32 := Scalar.shrsi v86 c7_i32_53
  let c7_i32_54 : BitVec 32 := 7#32
  let v88 : BitVec 32 := Scalar.shli v87 c7_i32_54
  let c999808_i32_55 : BitVec 32 := 999808#32
  let v89 : BitVec 32 := Scalar.minsi v88 c999808_i32_55
  v89

def k0_off8 (v86 : BitVec 32) : Fin 2 → Nat :=
  let c0_i32_58 : BitVec 32 := 0#32
  let c7_i32_53 : BitVec 32 := 7#32
  let v87 : BitVec 32 := Scalar.shrsi v86 c7_i32_53
  let c7_i32_54 : BitVec 32 := 7#32
  let v88 : BitVec 32 := Scalar.shli v87 c7_i32_54
  let c999808_i32_55 : BitVec 32 := 999808#32
  let v89 : BitVec 32 := Scalar.minsi v88 c999808_i32_55
  let v90 : BitVec 32 := v89
  ![0, v90.toNat]

def k0_chk7 (v86 : BitVec 32) : Prop :=
  (128 ∣ (k0_mult7 v86).toNat) ∧
  (∀ a, (k0_off8 v86) a + S32x128.size a ≤ S32x1000000.size a)
instance k0_chk7.dec : ∀ (v86 : BitVec 32), Decidable (k0_chk7 v86) := fun v86 => decidable_of_iff' _ (Iff.of_eq (k0_chk7.eq_1 v86))
theorem k0_mult7_dvd : ∀ (v86 : BitVec 32) (k0_hw7 : k0_chk7 v86), 128 ∣ (k0_mult7 v86).toNat := fun v86 k0_hw7 => k0_hw7.1
theorem k0_off8_inb : ∀ (v86 : BitVec 32) (k0_hw7 : k0_chk7 v86), ∀ a, (k0_off8 v86) a + S32x128.size a ≤ S32x1000000.size a := fun v86 k0_hw7 => k0_hw7.2

def k0_mult8 (v99 : BitVec 32) : BitVec 32 :=
  let c7_i32_62 : BitVec 32 := 7#32
  let v100 : BitVec 32 := Scalar.shrsi v99 c7_i32_62
  let c7_i32_63 : BitVec 32 := 7#32
  let v101 : BitVec 32 := Scalar.shli v100 c7_i32_63
  let c999808_i32_64 : BitVec 32 := 999808#32
  let v102 : BitVec 32 := Scalar.minsi v101 c999808_i32_64
  v102

def k0_off9 (v99 : BitVec 32) : Fin 2 → Nat :=
  let c0_i32_68 : BitVec 32 := 0#32
  let c7_i32_62 : BitVec 32 := 7#32
  let v100 : BitVec 32 := Scalar.shrsi v99 c7_i32_62
  let c7_i32_63 : BitVec 32 := 7#32
  let v101 : BitVec 32 := Scalar.shli v100 c7_i32_63
  let c999808_i32_64 : BitVec 32 := 999808#32
  let v102 : BitVec 32 := Scalar.minsi v101 c999808_i32_64
  let v103 : BitVec 32 := v102
  ![0, v103.toNat]

def k0_chk8 (v99 : BitVec 32) : Prop :=
  (128 ∣ (k0_mult8 v99).toNat) ∧
  (∀ a, (k0_off9 v99) a + S32x128.size a ≤ S32x1000000.size a)
instance k0_chk8.dec : ∀ (v99 : BitVec 32), Decidable (k0_chk8 v99) := fun v99 => decidable_of_iff' _ (Iff.of_eq (k0_chk8.eq_1 v99))
theorem k0_mult8_dvd : ∀ (v99 : BitVec 32) (k0_hw8 : k0_chk8 v99), 128 ∣ (k0_mult8 v99).toNat := fun v99 k0_hw8 => k0_hw8.1
theorem k0_off9_inb : ∀ (v99 : BitVec 32) (k0_hw8 : k0_chk8 v99), ∀ a, (k0_off9 v99) a + S32x128.size a ≤ S32x1000000.size a := fun v99 k0_hw8 => k0_hw8.2

@[reducible] def k0_t1_loop : Scf.Loop 32 :=
  let c0_i32_73 : BitVec 32 := 0#32
  let c64_i32 : BitVec 32 := 64#32
  let v110 : BitVec 32 := Scalar.addi c0_i32_73 c64_i32
  let c1_i32_74 : BitVec 32 := 1#32
  ⟨c0_i32_73, v110, c1_i32_74⟩
def k0_off10 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c0_i32_85 : BitVec 32 := 0#32
  let v118 : BitVec 32 := Scalar.addi v111 c0_i32_85
  let v119 : Index := Scalar.indexCast v118
  ![v119.toNat]

def k0_chk9 (v3 : IVec S16 32) (v5 : IVec S16 32) (v128 : IVec S16 32) : Prop :=
  (∀ a x, ((![v3, v128] : Fin 2 → IVec S16 32) a x).toNat < S32x128.size a) ∧
  (∀ a x, ((![v5, v128] : Fin 2 → IVec S16 32) a x).toNat < S32x128.size a)
instance k0_chk9.dec : ∀ (v3 : IVec S16 32) (v5 : IVec S16 32) (v128 : IVec S16 32), Decidable (k0_chk9 v3 v5 v128) := fun v3 v5 v128 => decidable_of_iff' _ (Iff.of_eq (k0_chk9.eq_1 v3 v5 v128))
theorem k0_idx1_inb : ∀ (v3 : IVec S16 32) (v5 : IVec S16 32) (v128 : IVec S16 32) (k0_hw9 : k0_chk9 v3 v5 v128), ∀ a x, ((![v3, v128] : Fin 2 → IVec S16 32) a x).toNat < S32x128.size a := fun v3 v5 v128 k0_hw9 => k0_hw9.1
theorem k0_idx4_inb : ∀ (v3 : IVec S16 32) (v5 : IVec S16 32) (v128 : IVec S16 32) (k0_hw9 : k0_chk9 v3 v5 v128), ∀ a x, ((![v5, v128] : Fin 2 → IVec S16 32) a x).toNat < S32x128.size a := fun v3 v5 v128 k0_hw9 => k0_hw9.2

def k0_chk10 (v3 : IVec S16 32) (v5 : IVec S16 32) (v132 : IVec S16 32) : Prop :=
  (∀ a x, ((![v3, v132] : Fin 2 → IVec S16 32) a x).toNat < S32x64.size a) ∧
  (∀ a x, ((![v5, v132] : Fin 2 → IVec S16 32) a x).toNat < S32x64.size a)
instance k0_chk10.dec : ∀ (v3 : IVec S16 32) (v5 : IVec S16 32) (v132 : IVec S16 32), Decidable (k0_chk10 v3 v5 v132) := fun v3 v5 v132 => decidable_of_iff' _ (Iff.of_eq (k0_chk10.eq_1 v3 v5 v132))
theorem k0_idx2_inb : ∀ (v3 : IVec S16 32) (v5 : IVec S16 32) (v132 : IVec S16 32) (k0_hw10 : k0_chk10 v3 v5 v132), ∀ a x, ((![v3, v132] : Fin 2 → IVec S16 32) a x).toNat < S32x64.size a := fun v3 v5 v132 k0_hw10 => k0_hw10.1
theorem k0_idx5_inb : ∀ (v3 : IVec S16 32) (v5 : IVec S16 32) (v132 : IVec S16 32) (k0_hw10 : k0_chk10 v3 v5 v132), ∀ a x, ((![v5, v132] : Fin 2 → IVec S16 32) a x).toNat < S32x64.size a := fun v3 v5 v132 k0_hw10 => k0_hw10.2

def k0_chk11 (v3 : IVec S16 32) (v5 : IVec S16 32) (v135 : IVec S16 32) : Prop :=
  (∀ a x, ((![v3, v135] : Fin 2 → IVec S16 32) a x).toNat < S32x512.size a) ∧
  (∀ a x, ((![v5, v135] : Fin 2 → IVec S16 32) a x).toNat < S32x512.size a)
instance k0_chk11.dec : ∀ (v3 : IVec S16 32) (v5 : IVec S16 32) (v135 : IVec S16 32), Decidable (k0_chk11 v3 v5 v135) := fun v3 v5 v135 => decidable_of_iff' _ (Iff.of_eq (k0_chk11.eq_1 v3 v5 v135))
theorem k0_idx3_inb : ∀ (v3 : IVec S16 32) (v5 : IVec S16 32) (v135 : IVec S16 32) (k0_hw11 : k0_chk11 v3 v5 v135), ∀ a x, ((![v3, v135] : Fin 2 → IVec S16 32) a x).toNat < S32x512.size a := fun v3 v5 v135 k0_hw11 => k0_hw11.1
theorem k0_idx6_inb : ∀ (v3 : IVec S16 32) (v5 : IVec S16 32) (v135 : IVec S16 32) (k0_hw11 : k0_chk11 v3 v5 v135), ∀ a x, ((![v5, v135] : Fin 2 → IVec S16 32) a x).toNat < S32x512.size a := fun v3 v5 v135 k0_hw11 => k0_hw11.2
def k0_cond1 (k0_t1 : Fin k0_t1_loop.trips) : BitVec 1 :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c0_i32_97 : BitVec 32 := 0#32
  let v146 : BitVec 32 := Scalar.addi v111 c0_i32_97
  let c8_i32_98 : BitVec 32 := 8#32
  let v147 : BitVec 32 := Scalar.addi v146 c8_i32_98
  let c512_i32_99 : BitVec 32 := 512#32
  let v148 : BitVec 1 := Scalar.cmpi .slt v147 c512_i32_99
  let v149 : BitVec 32 := Scalar.extui v148
  let c0_i32_100 : BitVec 32 := 0#32
  let v150 : BitVec 1 := Scalar.cmpi .ne v149 c0_i32_100
  v150

def k0_off11 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c0_i32_297 : BitVec 32 := 0#32
  let v424 : BitVec 32 := Scalar.addi v111 c0_i32_297
  let c8_i32_298 : BitVec 32 := 8#32
  let v425 : BitVec 32 := Scalar.addi v424 c8_i32_298
  let v426 : Index := Scalar.indexCast v425
  ![v426.toNat]
def k0_mult9 (v429 : BitVec 32) : BitVec 32 :=
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  v432

def k0_off12 (v429 : BitVec 32) : Fin 2 → Nat :=
  let c0_i32_305 : BitVec 32 := 0#32
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  let v433 : BitVec 32 := v432
  ![0, v433.toNat]

def k0_chk12 (k0_t1 : Fin k0_t1_loop.trips) (v429 : BitVec 32) : Prop :=
  (∀ (k0_h1 : k0_cond1 k0_t1 = 1#1), 128 ∣ (k0_mult9 v429).toNat) ∧
  (∀ (k0_h1 : k0_cond1 k0_t1 = 1#1), ∀ a, (k0_off12 v429) a + S32x128.size a ≤ S32x1000000.size a)
instance k0_chk12.dec : ∀ (k0_t1 : Fin k0_t1_loop.trips) (v429 : BitVec 32), Decidable (k0_chk12 k0_t1 v429) := fun k0_t1 v429 => decidable_of_iff' _ (Iff.of_eq (k0_chk12.eq_1 k0_t1 v429))
theorem k0_mult9_dvd : ∀ (k0_t1 : Fin k0_t1_loop.trips) (v429 : BitVec 32) (k0_hw12 : k0_chk12 k0_t1 v429), ∀ (k0_h1 : k0_cond1 k0_t1 = 1#1), 128 ∣ (k0_mult9 v429).toNat := fun k0_t1 v429 k0_hw12 k0_h1 => k0_hw12.1 k0_h1
theorem k0_off12_inb : ∀ (k0_t1 : Fin k0_t1_loop.trips) (v429 : BitVec 32) (k0_hw12 : k0_chk12 k0_t1 v429), ∀ (k0_h1 : k0_cond1 k0_t1 = 1#1), ∀ a, (k0_off12 v429) a + S32x128.size a ≤ S32x1000000.size a := fun k0_t1 v429 k0_hw12 k0_h1 => k0_hw12.2 k0_h1

def k0_off13 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c1_i32_110 : BitVec 32 := 1#32
  let v157 : BitVec 32 := Scalar.addi v111 c1_i32_110
  let v158 : Index := Scalar.indexCast v157
  ![v158.toNat]

def k0_chk13 (v3 : IVec S16 32) (v5 : IVec S16 32) (v167 : IVec S16 32) : Prop :=
  (∀ a x, ((![v3, v167] : Fin 2 → IVec S16 32) a x).toNat < S32x128.size a) ∧
  (∀ a x, ((![v5, v167] : Fin 2 → IVec S16 32) a x).toNat < S32x128.size a)
instance k0_chk13.dec : ∀ (v3 : IVec S16 32) (v5 : IVec S16 32) (v167 : IVec S16 32), Decidable (k0_chk13 v3 v5 v167) := fun v3 v5 v167 => decidable_of_iff' _ (Iff.of_eq (k0_chk13.eq_1 v3 v5 v167))
theorem k0_idx7_inb : ∀ (v3 : IVec S16 32) (v5 : IVec S16 32) (v167 : IVec S16 32) (k0_hw13 : k0_chk13 v3 v5 v167), ∀ a x, ((![v3, v167] : Fin 2 → IVec S16 32) a x).toNat < S32x128.size a := fun v3 v5 v167 k0_hw13 => k0_hw13.1
theorem k0_idx10_inb : ∀ (v3 : IVec S16 32) (v5 : IVec S16 32) (v167 : IVec S16 32) (k0_hw13 : k0_chk13 v3 v5 v167), ∀ a x, ((![v5, v167] : Fin 2 → IVec S16 32) a x).toNat < S32x128.size a := fun v3 v5 v167 k0_hw13 => k0_hw13.2

def k0_chk14 (v3 : IVec S16 32) (v5 : IVec S16 32) (v171 : IVec S16 32) : Prop :=
  (∀ a x, ((![v3, v171] : Fin 2 → IVec S16 32) a x).toNat < S32x64.size a) ∧
  (∀ a x, ((![v5, v171] : Fin 2 → IVec S16 32) a x).toNat < S32x64.size a)
instance k0_chk14.dec : ∀ (v3 : IVec S16 32) (v5 : IVec S16 32) (v171 : IVec S16 32), Decidable (k0_chk14 v3 v5 v171) := fun v3 v5 v171 => decidable_of_iff' _ (Iff.of_eq (k0_chk14.eq_1 v3 v5 v171))
theorem k0_idx8_inb : ∀ (v3 : IVec S16 32) (v5 : IVec S16 32) (v171 : IVec S16 32) (k0_hw14 : k0_chk14 v3 v5 v171), ∀ a x, ((![v3, v171] : Fin 2 → IVec S16 32) a x).toNat < S32x64.size a := fun v3 v5 v171 k0_hw14 => k0_hw14.1
theorem k0_idx11_inb : ∀ (v3 : IVec S16 32) (v5 : IVec S16 32) (v171 : IVec S16 32) (k0_hw14 : k0_chk14 v3 v5 v171), ∀ a x, ((![v5, v171] : Fin 2 → IVec S16 32) a x).toNat < S32x64.size a := fun v3 v5 v171 k0_hw14 => k0_hw14.2

def k0_chk15 (v3 : IVec S16 32) (v5 : IVec S16 32) (v174 : IVec S16 32) : Prop :=
  (∀ a x, ((![v3, v174] : Fin 2 → IVec S16 32) a x).toNat < S32x512.size a) ∧
  (∀ a x, ((![v5, v174] : Fin 2 → IVec S16 32) a x).toNat < S32x512.size a)
instance k0_chk15.dec : ∀ (v3 : IVec S16 32) (v5 : IVec S16 32) (v174 : IVec S16 32), Decidable (k0_chk15 v3 v5 v174) := fun v3 v5 v174 => decidable_of_iff' _ (Iff.of_eq (k0_chk15.eq_1 v3 v5 v174))
theorem k0_idx9_inb : ∀ (v3 : IVec S16 32) (v5 : IVec S16 32) (v174 : IVec S16 32) (k0_hw15 : k0_chk15 v3 v5 v174), ∀ a x, ((![v3, v174] : Fin 2 → IVec S16 32) a x).toNat < S32x512.size a := fun v3 v5 v174 k0_hw15 => k0_hw15.1
theorem k0_idx12_inb : ∀ (v3 : IVec S16 32) (v5 : IVec S16 32) (v174 : IVec S16 32) (k0_hw15 : k0_chk15 v3 v5 v174), ∀ a x, ((![v5, v174] : Fin 2 → IVec S16 32) a x).toNat < S32x512.size a := fun v3 v5 v174 k0_hw15 => k0_hw15.2
def k0_cond2 (k0_t1 : Fin k0_t1_loop.trips) : BitVec 1 :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c1_i32_125 : BitVec 32 := 1#32
  let v185 : BitVec 32 := Scalar.addi v111 c1_i32_125
  let c8_i32_126 : BitVec 32 := 8#32
  let v186 : BitVec 32 := Scalar.addi v185 c8_i32_126
  let c512_i32_127 : BitVec 32 := 512#32
  let v187 : BitVec 1 := Scalar.cmpi .slt v186 c512_i32_127
  let v188 : BitVec 32 := Scalar.extui v187
  let c0_i32_128 : BitVec 32 := 0#32
  let v189 : BitVec 1 := Scalar.cmpi .ne v188 c0_i32_128
  v189

def k0_off14 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c1_i32_297 : BitVec 32 := 1#32
  let v424 : BitVec 32 := Scalar.addi v111 c1_i32_297
  let c8_i32_298 : BitVec 32 := 8#32
  let v425 : BitVec 32 := Scalar.addi v424 c8_i32_298
  let v426 : Index := Scalar.indexCast v425
  ![v426.toNat]
def k0_mult10 (v429 : BitVec 32) : BitVec 32 :=
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  v432

def k0_off15 (v429 : BitVec 32) : Fin 2 → Nat :=
  let c0_i32_305 : BitVec 32 := 0#32
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  let v433 : BitVec 32 := v432
  ![0, v433.toNat]

def k0_chk16 (k0_t1 : Fin k0_t1_loop.trips) (v429 : BitVec 32) : Prop :=
  (∀ (k0_h2 : k0_cond2 k0_t1 = 1#1), 128 ∣ (k0_mult10 v429).toNat) ∧
  (∀ (k0_h2 : k0_cond2 k0_t1 = 1#1), ∀ a, (k0_off15 v429) a + S32x128.size a ≤ S32x1000000.size a)
instance k0_chk16.dec : ∀ (k0_t1 : Fin k0_t1_loop.trips) (v429 : BitVec 32), Decidable (k0_chk16 k0_t1 v429) := fun k0_t1 v429 => decidable_of_iff' _ (Iff.of_eq (k0_chk16.eq_1 k0_t1 v429))
theorem k0_mult10_dvd : ∀ (k0_t1 : Fin k0_t1_loop.trips) (v429 : BitVec 32) (k0_hw16 : k0_chk16 k0_t1 v429), ∀ (k0_h2 : k0_cond2 k0_t1 = 1#1), 128 ∣ (k0_mult10 v429).toNat := fun k0_t1 v429 k0_hw16 k0_h2 => k0_hw16.1 k0_h2
theorem k0_off15_inb : ∀ (k0_t1 : Fin k0_t1_loop.trips) (v429 : BitVec 32) (k0_hw16 : k0_chk16 k0_t1 v429), ∀ (k0_h2 : k0_cond2 k0_t1 = 1#1), ∀ a, (k0_off15 v429) a + S32x128.size a ≤ S32x1000000.size a := fun k0_t1 v429 k0_hw16 k0_h2 => k0_hw16.2 k0_h2

def k0_off16 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c2_i32_138 : BitVec 32 := 2#32
  let v196 : BitVec 32 := Scalar.addi v111 c2_i32_138
  let v197 : Index := Scalar.indexCast v196
  ![v197.toNat]

def k0_chk17 (v3 : IVec S16 32) (v5 : IVec S16 32) (v206 : IVec S16 32) : Prop :=
  (∀ a x, ((![v3, v206] : Fin 2 → IVec S16 32) a x).toNat < S32x128.size a) ∧
  (∀ a x, ((![v5, v206] : Fin 2 → IVec S16 32) a x).toNat < S32x128.size a)
instance k0_chk17.dec : ∀ (v3 : IVec S16 32) (v5 : IVec S16 32) (v206 : IVec S16 32), Decidable (k0_chk17 v3 v5 v206) := fun v3 v5 v206 => decidable_of_iff' _ (Iff.of_eq (k0_chk17.eq_1 v3 v5 v206))
theorem k0_idx13_inb : ∀ (v3 : IVec S16 32) (v5 : IVec S16 32) (v206 : IVec S16 32) (k0_hw17 : k0_chk17 v3 v5 v206), ∀ a x, ((![v3, v206] : Fin 2 → IVec S16 32) a x).toNat < S32x128.size a := fun v3 v5 v206 k0_hw17 => k0_hw17.1
theorem k0_idx16_inb : ∀ (v3 : IVec S16 32) (v5 : IVec S16 32) (v206 : IVec S16 32) (k0_hw17 : k0_chk17 v3 v5 v206), ∀ a x, ((![v5, v206] : Fin 2 → IVec S16 32) a x).toNat < S32x128.size a := fun v3 v5 v206 k0_hw17 => k0_hw17.2

def k0_chk18 (v3 : IVec S16 32) (v5 : IVec S16 32) (v210 : IVec S16 32) : Prop :=
  (∀ a x, ((![v3, v210] : Fin 2 → IVec S16 32) a x).toNat < S32x64.size a) ∧
  (∀ a x, ((![v5, v210] : Fin 2 → IVec S16 32) a x).toNat < S32x64.size a)
instance k0_chk18.dec : ∀ (v3 : IVec S16 32) (v5 : IVec S16 32) (v210 : IVec S16 32), Decidable (k0_chk18 v3 v5 v210) := fun v3 v5 v210 => decidable_of_iff' _ (Iff.of_eq (k0_chk18.eq_1 v3 v5 v210))
theorem k0_idx14_inb : ∀ (v3 : IVec S16 32) (v5 : IVec S16 32) (v210 : IVec S16 32) (k0_hw18 : k0_chk18 v3 v5 v210), ∀ a x, ((![v3, v210] : Fin 2 → IVec S16 32) a x).toNat < S32x64.size a := fun v3 v5 v210 k0_hw18 => k0_hw18.1
theorem k0_idx17_inb : ∀ (v3 : IVec S16 32) (v5 : IVec S16 32) (v210 : IVec S16 32) (k0_hw18 : k0_chk18 v3 v5 v210), ∀ a x, ((![v5, v210] : Fin 2 → IVec S16 32) a x).toNat < S32x64.size a := fun v3 v5 v210 k0_hw18 => k0_hw18.2

def k0_chk19 (v3 : IVec S16 32) (v5 : IVec S16 32) (v213 : IVec S16 32) : Prop :=
  (∀ a x, ((![v3, v213] : Fin 2 → IVec S16 32) a x).toNat < S32x512.size a) ∧
  (∀ a x, ((![v5, v213] : Fin 2 → IVec S16 32) a x).toNat < S32x512.size a)
instance k0_chk19.dec : ∀ (v3 : IVec S16 32) (v5 : IVec S16 32) (v213 : IVec S16 32), Decidable (k0_chk19 v3 v5 v213) := fun v3 v5 v213 => decidable_of_iff' _ (Iff.of_eq (k0_chk19.eq_1 v3 v5 v213))
theorem k0_idx15_inb : ∀ (v3 : IVec S16 32) (v5 : IVec S16 32) (v213 : IVec S16 32) (k0_hw19 : k0_chk19 v3 v5 v213), ∀ a x, ((![v3, v213] : Fin 2 → IVec S16 32) a x).toNat < S32x512.size a := fun v3 v5 v213 k0_hw19 => k0_hw19.1
theorem k0_idx18_inb : ∀ (v3 : IVec S16 32) (v5 : IVec S16 32) (v213 : IVec S16 32) (k0_hw19 : k0_chk19 v3 v5 v213), ∀ a x, ((![v5, v213] : Fin 2 → IVec S16 32) a x).toNat < S32x512.size a := fun v3 v5 v213 k0_hw19 => k0_hw19.2
def k0_cond3 (k0_t1 : Fin k0_t1_loop.trips) : BitVec 1 :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c2_i32_153 : BitVec 32 := 2#32
  let v224 : BitVec 32 := Scalar.addi v111 c2_i32_153
  let c8_i32_154 : BitVec 32 := 8#32
  let v225 : BitVec 32 := Scalar.addi v224 c8_i32_154
  let c512_i32_155 : BitVec 32 := 512#32
  let v226 : BitVec 1 := Scalar.cmpi .slt v225 c512_i32_155
  let v227 : BitVec 32 := Scalar.extui v226
  let c0_i32_156 : BitVec 32 := 0#32
  let v228 : BitVec 1 := Scalar.cmpi .ne v227 c0_i32_156
  v228

def k0_off17 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c2_i32_297 : BitVec 32 := 2#32
  let v424 : BitVec 32 := Scalar.addi v111 c2_i32_297
  let c8_i32_298 : BitVec 32 := 8#32
  let v425 : BitVec 32 := Scalar.addi v424 c8_i32_298
  let v426 : Index := Scalar.indexCast v425
  ![v426.toNat]
def k0_mult11 (v429 : BitVec 32) : BitVec 32 :=
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  v432

def k0_off18 (v429 : BitVec 32) : Fin 2 → Nat :=
  let c0_i32_305 : BitVec 32 := 0#32
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  let v433 : BitVec 32 := v432
  ![0, v433.toNat]

def k0_chk20 (k0_t1 : Fin k0_t1_loop.trips) (v429 : BitVec 32) : Prop :=
  (∀ (k0_h3 : k0_cond3 k0_t1 = 1#1), 128 ∣ (k0_mult11 v429).toNat) ∧
  (∀ (k0_h3 : k0_cond3 k0_t1 = 1#1), ∀ a, (k0_off18 v429) a + S32x128.size a ≤ S32x1000000.size a)
instance k0_chk20.dec : ∀ (k0_t1 : Fin k0_t1_loop.trips) (v429 : BitVec 32), Decidable (k0_chk20 k0_t1 v429) := fun k0_t1 v429 => decidable_of_iff' _ (Iff.of_eq (k0_chk20.eq_1 k0_t1 v429))
theorem k0_mult11_dvd : ∀ (k0_t1 : Fin k0_t1_loop.trips) (v429 : BitVec 32) (k0_hw20 : k0_chk20 k0_t1 v429), ∀ (k0_h3 : k0_cond3 k0_t1 = 1#1), 128 ∣ (k0_mult11 v429).toNat := fun k0_t1 v429 k0_hw20 k0_h3 => k0_hw20.1 k0_h3
theorem k0_off18_inb : ∀ (k0_t1 : Fin k0_t1_loop.trips) (v429 : BitVec 32) (k0_hw20 : k0_chk20 k0_t1 v429), ∀ (k0_h3 : k0_cond3 k0_t1 = 1#1), ∀ a, (k0_off18 v429) a + S32x128.size a ≤ S32x1000000.size a := fun k0_t1 v429 k0_hw20 k0_h3 => k0_hw20.2 k0_h3

def k0_off19 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c3_i32_166 : BitVec 32 := 3#32
  let v235 : BitVec 32 := Scalar.addi v111 c3_i32_166
  let v236 : Index := Scalar.indexCast v235
  ![v236.toNat]

def k0_chk21 (v3 : IVec S16 32) (v5 : IVec S16 32) (v245 : IVec S16 32) : Prop :=
  (∀ a x, ((![v3, v245] : Fin 2 → IVec S16 32) a x).toNat < S32x128.size a) ∧
  (∀ a x, ((![v5, v245] : Fin 2 → IVec S16 32) a x).toNat < S32x128.size a)
instance k0_chk21.dec : ∀ (v3 : IVec S16 32) (v5 : IVec S16 32) (v245 : IVec S16 32), Decidable (k0_chk21 v3 v5 v245) := fun v3 v5 v245 => decidable_of_iff' _ (Iff.of_eq (k0_chk21.eq_1 v3 v5 v245))
theorem k0_idx19_inb : ∀ (v3 : IVec S16 32) (v5 : IVec S16 32) (v245 : IVec S16 32) (k0_hw21 : k0_chk21 v3 v5 v245), ∀ a x, ((![v3, v245] : Fin 2 → IVec S16 32) a x).toNat < S32x128.size a := fun v3 v5 v245 k0_hw21 => k0_hw21.1
theorem k0_idx22_inb : ∀ (v3 : IVec S16 32) (v5 : IVec S16 32) (v245 : IVec S16 32) (k0_hw21 : k0_chk21 v3 v5 v245), ∀ a x, ((![v5, v245] : Fin 2 → IVec S16 32) a x).toNat < S32x128.size a := fun v3 v5 v245 k0_hw21 => k0_hw21.2

def k0_chk22 (v3 : IVec S16 32) (v5 : IVec S16 32) (v249 : IVec S16 32) : Prop :=
  (∀ a x, ((![v3, v249] : Fin 2 → IVec S16 32) a x).toNat < S32x64.size a) ∧
  (∀ a x, ((![v5, v249] : Fin 2 → IVec S16 32) a x).toNat < S32x64.size a)
instance k0_chk22.dec : ∀ (v3 : IVec S16 32) (v5 : IVec S16 32) (v249 : IVec S16 32), Decidable (k0_chk22 v3 v5 v249) := fun v3 v5 v249 => decidable_of_iff' _ (Iff.of_eq (k0_chk22.eq_1 v3 v5 v249))
theorem k0_idx20_inb : ∀ (v3 : IVec S16 32) (v5 : IVec S16 32) (v249 : IVec S16 32) (k0_hw22 : k0_chk22 v3 v5 v249), ∀ a x, ((![v3, v249] : Fin 2 → IVec S16 32) a x).toNat < S32x64.size a := fun v3 v5 v249 k0_hw22 => k0_hw22.1
theorem k0_idx23_inb : ∀ (v3 : IVec S16 32) (v5 : IVec S16 32) (v249 : IVec S16 32) (k0_hw22 : k0_chk22 v3 v5 v249), ∀ a x, ((![v5, v249] : Fin 2 → IVec S16 32) a x).toNat < S32x64.size a := fun v3 v5 v249 k0_hw22 => k0_hw22.2

def k0_chk23 (v3 : IVec S16 32) (v5 : IVec S16 32) (v252 : IVec S16 32) : Prop :=
  (∀ a x, ((![v3, v252] : Fin 2 → IVec S16 32) a x).toNat < S32x512.size a) ∧
  (∀ a x, ((![v5, v252] : Fin 2 → IVec S16 32) a x).toNat < S32x512.size a)
instance k0_chk23.dec : ∀ (v3 : IVec S16 32) (v5 : IVec S16 32) (v252 : IVec S16 32), Decidable (k0_chk23 v3 v5 v252) := fun v3 v5 v252 => decidable_of_iff' _ (Iff.of_eq (k0_chk23.eq_1 v3 v5 v252))
theorem k0_idx21_inb : ∀ (v3 : IVec S16 32) (v5 : IVec S16 32) (v252 : IVec S16 32) (k0_hw23 : k0_chk23 v3 v5 v252), ∀ a x, ((![v3, v252] : Fin 2 → IVec S16 32) a x).toNat < S32x512.size a := fun v3 v5 v252 k0_hw23 => k0_hw23.1
theorem k0_idx24_inb : ∀ (v3 : IVec S16 32) (v5 : IVec S16 32) (v252 : IVec S16 32) (k0_hw23 : k0_chk23 v3 v5 v252), ∀ a x, ((![v5, v252] : Fin 2 → IVec S16 32) a x).toNat < S32x512.size a := fun v3 v5 v252 k0_hw23 => k0_hw23.2
def k0_cond4 (k0_t1 : Fin k0_t1_loop.trips) : BitVec 1 :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c3_i32_181 : BitVec 32 := 3#32
  let v263 : BitVec 32 := Scalar.addi v111 c3_i32_181
  let c8_i32_182 : BitVec 32 := 8#32
  let v264 : BitVec 32 := Scalar.addi v263 c8_i32_182
  let c512_i32_183 : BitVec 32 := 512#32
  let v265 : BitVec 1 := Scalar.cmpi .slt v264 c512_i32_183
  let v266 : BitVec 32 := Scalar.extui v265
  let c0_i32_184 : BitVec 32 := 0#32
  let v267 : BitVec 1 := Scalar.cmpi .ne v266 c0_i32_184
  v267

def k0_off20 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c3_i32_297 : BitVec 32 := 3#32
  let v424 : BitVec 32 := Scalar.addi v111 c3_i32_297
  let c8_i32_298 : BitVec 32 := 8#32
  let v425 : BitVec 32 := Scalar.addi v424 c8_i32_298
  let v426 : Index := Scalar.indexCast v425
  ![v426.toNat]
def k0_mult12 (v429 : BitVec 32) : BitVec 32 :=
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  v432

def k0_off21 (v429 : BitVec 32) : Fin 2 → Nat :=
  let c0_i32_305 : BitVec 32 := 0#32
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  let v433 : BitVec 32 := v432
  ![0, v433.toNat]

def k0_chk24 (k0_t1 : Fin k0_t1_loop.trips) (v429 : BitVec 32) : Prop :=
  (∀ (k0_h4 : k0_cond4 k0_t1 = 1#1), 128 ∣ (k0_mult12 v429).toNat) ∧
  (∀ (k0_h4 : k0_cond4 k0_t1 = 1#1), ∀ a, (k0_off21 v429) a + S32x128.size a ≤ S32x1000000.size a)
instance k0_chk24.dec : ∀ (k0_t1 : Fin k0_t1_loop.trips) (v429 : BitVec 32), Decidable (k0_chk24 k0_t1 v429) := fun k0_t1 v429 => decidable_of_iff' _ (Iff.of_eq (k0_chk24.eq_1 k0_t1 v429))
theorem k0_mult12_dvd : ∀ (k0_t1 : Fin k0_t1_loop.trips) (v429 : BitVec 32) (k0_hw24 : k0_chk24 k0_t1 v429), ∀ (k0_h4 : k0_cond4 k0_t1 = 1#1), 128 ∣ (k0_mult12 v429).toNat := fun k0_t1 v429 k0_hw24 k0_h4 => k0_hw24.1 k0_h4
theorem k0_off21_inb : ∀ (k0_t1 : Fin k0_t1_loop.trips) (v429 : BitVec 32) (k0_hw24 : k0_chk24 k0_t1 v429), ∀ (k0_h4 : k0_cond4 k0_t1 = 1#1), ∀ a, (k0_off21 v429) a + S32x128.size a ≤ S32x1000000.size a := fun k0_t1 v429 k0_hw24 k0_h4 => k0_hw24.2 k0_h4

def k0_off22 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c4_i32_194 : BitVec 32 := 4#32
  let v274 : BitVec 32 := Scalar.addi v111 c4_i32_194
  let v275 : Index := Scalar.indexCast v274
  ![v275.toNat]

def k0_chk25 (v3 : IVec S16 32) (v5 : IVec S16 32) (v284 : IVec S16 32) : Prop :=
  (∀ a x, ((![v3, v284] : Fin 2 → IVec S16 32) a x).toNat < S32x128.size a) ∧
  (∀ a x, ((![v5, v284] : Fin 2 → IVec S16 32) a x).toNat < S32x128.size a)
instance k0_chk25.dec : ∀ (v3 : IVec S16 32) (v5 : IVec S16 32) (v284 : IVec S16 32), Decidable (k0_chk25 v3 v5 v284) := fun v3 v5 v284 => decidable_of_iff' _ (Iff.of_eq (k0_chk25.eq_1 v3 v5 v284))
theorem k0_idx25_inb : ∀ (v3 : IVec S16 32) (v5 : IVec S16 32) (v284 : IVec S16 32) (k0_hw25 : k0_chk25 v3 v5 v284), ∀ a x, ((![v3, v284] : Fin 2 → IVec S16 32) a x).toNat < S32x128.size a := fun v3 v5 v284 k0_hw25 => k0_hw25.1
theorem k0_idx28_inb : ∀ (v3 : IVec S16 32) (v5 : IVec S16 32) (v284 : IVec S16 32) (k0_hw25 : k0_chk25 v3 v5 v284), ∀ a x, ((![v5, v284] : Fin 2 → IVec S16 32) a x).toNat < S32x128.size a := fun v3 v5 v284 k0_hw25 => k0_hw25.2

def k0_chk26 (v3 : IVec S16 32) (v5 : IVec S16 32) (v288 : IVec S16 32) : Prop :=
  (∀ a x, ((![v3, v288] : Fin 2 → IVec S16 32) a x).toNat < S32x64.size a) ∧
  (∀ a x, ((![v5, v288] : Fin 2 → IVec S16 32) a x).toNat < S32x64.size a)
instance k0_chk26.dec : ∀ (v3 : IVec S16 32) (v5 : IVec S16 32) (v288 : IVec S16 32), Decidable (k0_chk26 v3 v5 v288) := fun v3 v5 v288 => decidable_of_iff' _ (Iff.of_eq (k0_chk26.eq_1 v3 v5 v288))
theorem k0_idx26_inb : ∀ (v3 : IVec S16 32) (v5 : IVec S16 32) (v288 : IVec S16 32) (k0_hw26 : k0_chk26 v3 v5 v288), ∀ a x, ((![v3, v288] : Fin 2 → IVec S16 32) a x).toNat < S32x64.size a := fun v3 v5 v288 k0_hw26 => k0_hw26.1
theorem k0_idx29_inb : ∀ (v3 : IVec S16 32) (v5 : IVec S16 32) (v288 : IVec S16 32) (k0_hw26 : k0_chk26 v3 v5 v288), ∀ a x, ((![v5, v288] : Fin 2 → IVec S16 32) a x).toNat < S32x64.size a := fun v3 v5 v288 k0_hw26 => k0_hw26.2

def k0_chk27 (v3 : IVec S16 32) (v5 : IVec S16 32) (v291 : IVec S16 32) : Prop :=
  (∀ a x, ((![v3, v291] : Fin 2 → IVec S16 32) a x).toNat < S32x512.size a) ∧
  (∀ a x, ((![v5, v291] : Fin 2 → IVec S16 32) a x).toNat < S32x512.size a)
instance k0_chk27.dec : ∀ (v3 : IVec S16 32) (v5 : IVec S16 32) (v291 : IVec S16 32), Decidable (k0_chk27 v3 v5 v291) := fun v3 v5 v291 => decidable_of_iff' _ (Iff.of_eq (k0_chk27.eq_1 v3 v5 v291))
theorem k0_idx27_inb : ∀ (v3 : IVec S16 32) (v5 : IVec S16 32) (v291 : IVec S16 32) (k0_hw27 : k0_chk27 v3 v5 v291), ∀ a x, ((![v3, v291] : Fin 2 → IVec S16 32) a x).toNat < S32x512.size a := fun v3 v5 v291 k0_hw27 => k0_hw27.1
theorem k0_idx30_inb : ∀ (v3 : IVec S16 32) (v5 : IVec S16 32) (v291 : IVec S16 32) (k0_hw27 : k0_chk27 v3 v5 v291), ∀ a x, ((![v5, v291] : Fin 2 → IVec S16 32) a x).toNat < S32x512.size a := fun v3 v5 v291 k0_hw27 => k0_hw27.2
def k0_cond5 (k0_t1 : Fin k0_t1_loop.trips) : BitVec 1 :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c4_i32_209 : BitVec 32 := 4#32
  let v302 : BitVec 32 := Scalar.addi v111 c4_i32_209
  let c8_i32_210 : BitVec 32 := 8#32
  let v303 : BitVec 32 := Scalar.addi v302 c8_i32_210
  let c512_i32_211 : BitVec 32 := 512#32
  let v304 : BitVec 1 := Scalar.cmpi .slt v303 c512_i32_211
  let v305 : BitVec 32 := Scalar.extui v304
  let c0_i32_212 : BitVec 32 := 0#32
  let v306 : BitVec 1 := Scalar.cmpi .ne v305 c0_i32_212
  v306

def k0_off23 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c4_i32_297 : BitVec 32 := 4#32
  let v424 : BitVec 32 := Scalar.addi v111 c4_i32_297
  let c8_i32_298 : BitVec 32 := 8#32
  let v425 : BitVec 32 := Scalar.addi v424 c8_i32_298
  let v426 : Index := Scalar.indexCast v425
  ![v426.toNat]
def k0_mult13 (v429 : BitVec 32) : BitVec 32 :=
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  v432

def k0_off24 (v429 : BitVec 32) : Fin 2 → Nat :=
  let c0_i32_305 : BitVec 32 := 0#32
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  let v433 : BitVec 32 := v432
  ![0, v433.toNat]

def k0_chk28 (k0_t1 : Fin k0_t1_loop.trips) (v429 : BitVec 32) : Prop :=
  (∀ (k0_h5 : k0_cond5 k0_t1 = 1#1), 128 ∣ (k0_mult13 v429).toNat) ∧
  (∀ (k0_h5 : k0_cond5 k0_t1 = 1#1), ∀ a, (k0_off24 v429) a + S32x128.size a ≤ S32x1000000.size a)
instance k0_chk28.dec : ∀ (k0_t1 : Fin k0_t1_loop.trips) (v429 : BitVec 32), Decidable (k0_chk28 k0_t1 v429) := fun k0_t1 v429 => decidable_of_iff' _ (Iff.of_eq (k0_chk28.eq_1 k0_t1 v429))
theorem k0_mult13_dvd : ∀ (k0_t1 : Fin k0_t1_loop.trips) (v429 : BitVec 32) (k0_hw28 : k0_chk28 k0_t1 v429), ∀ (k0_h5 : k0_cond5 k0_t1 = 1#1), 128 ∣ (k0_mult13 v429).toNat := fun k0_t1 v429 k0_hw28 k0_h5 => k0_hw28.1 k0_h5
theorem k0_off24_inb : ∀ (k0_t1 : Fin k0_t1_loop.trips) (v429 : BitVec 32) (k0_hw28 : k0_chk28 k0_t1 v429), ∀ (k0_h5 : k0_cond5 k0_t1 = 1#1), ∀ a, (k0_off24 v429) a + S32x128.size a ≤ S32x1000000.size a := fun k0_t1 v429 k0_hw28 k0_h5 => k0_hw28.2 k0_h5

def k0_off25 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c5_i32_222 : BitVec 32 := 5#32
  let v313 : BitVec 32 := Scalar.addi v111 c5_i32_222
  let v314 : Index := Scalar.indexCast v313
  ![v314.toNat]

def k0_chk29 (v3 : IVec S16 32) (v5 : IVec S16 32) (v323 : IVec S16 32) : Prop :=
  (∀ a x, ((![v3, v323] : Fin 2 → IVec S16 32) a x).toNat < S32x128.size a) ∧
  (∀ a x, ((![v5, v323] : Fin 2 → IVec S16 32) a x).toNat < S32x128.size a)
instance k0_chk29.dec : ∀ (v3 : IVec S16 32) (v5 : IVec S16 32) (v323 : IVec S16 32), Decidable (k0_chk29 v3 v5 v323) := fun v3 v5 v323 => decidable_of_iff' _ (Iff.of_eq (k0_chk29.eq_1 v3 v5 v323))
theorem k0_idx31_inb : ∀ (v3 : IVec S16 32) (v5 : IVec S16 32) (v323 : IVec S16 32) (k0_hw29 : k0_chk29 v3 v5 v323), ∀ a x, ((![v3, v323] : Fin 2 → IVec S16 32) a x).toNat < S32x128.size a := fun v3 v5 v323 k0_hw29 => k0_hw29.1
theorem k0_idx34_inb : ∀ (v3 : IVec S16 32) (v5 : IVec S16 32) (v323 : IVec S16 32) (k0_hw29 : k0_chk29 v3 v5 v323), ∀ a x, ((![v5, v323] : Fin 2 → IVec S16 32) a x).toNat < S32x128.size a := fun v3 v5 v323 k0_hw29 => k0_hw29.2

def k0_chk30 (v3 : IVec S16 32) (v5 : IVec S16 32) (v327 : IVec S16 32) : Prop :=
  (∀ a x, ((![v3, v327] : Fin 2 → IVec S16 32) a x).toNat < S32x64.size a) ∧
  (∀ a x, ((![v5, v327] : Fin 2 → IVec S16 32) a x).toNat < S32x64.size a)
instance k0_chk30.dec : ∀ (v3 : IVec S16 32) (v5 : IVec S16 32) (v327 : IVec S16 32), Decidable (k0_chk30 v3 v5 v327) := fun v3 v5 v327 => decidable_of_iff' _ (Iff.of_eq (k0_chk30.eq_1 v3 v5 v327))
theorem k0_idx32_inb : ∀ (v3 : IVec S16 32) (v5 : IVec S16 32) (v327 : IVec S16 32) (k0_hw30 : k0_chk30 v3 v5 v327), ∀ a x, ((![v3, v327] : Fin 2 → IVec S16 32) a x).toNat < S32x64.size a := fun v3 v5 v327 k0_hw30 => k0_hw30.1
theorem k0_idx35_inb : ∀ (v3 : IVec S16 32) (v5 : IVec S16 32) (v327 : IVec S16 32) (k0_hw30 : k0_chk30 v3 v5 v327), ∀ a x, ((![v5, v327] : Fin 2 → IVec S16 32) a x).toNat < S32x64.size a := fun v3 v5 v327 k0_hw30 => k0_hw30.2

def k0_chk31 (v3 : IVec S16 32) (v5 : IVec S16 32) (v330 : IVec S16 32) : Prop :=
  (∀ a x, ((![v3, v330] : Fin 2 → IVec S16 32) a x).toNat < S32x512.size a) ∧
  (∀ a x, ((![v5, v330] : Fin 2 → IVec S16 32) a x).toNat < S32x512.size a)
instance k0_chk31.dec : ∀ (v3 : IVec S16 32) (v5 : IVec S16 32) (v330 : IVec S16 32), Decidable (k0_chk31 v3 v5 v330) := fun v3 v5 v330 => decidable_of_iff' _ (Iff.of_eq (k0_chk31.eq_1 v3 v5 v330))
theorem k0_idx33_inb : ∀ (v3 : IVec S16 32) (v5 : IVec S16 32) (v330 : IVec S16 32) (k0_hw31 : k0_chk31 v3 v5 v330), ∀ a x, ((![v3, v330] : Fin 2 → IVec S16 32) a x).toNat < S32x512.size a := fun v3 v5 v330 k0_hw31 => k0_hw31.1
theorem k0_idx36_inb : ∀ (v3 : IVec S16 32) (v5 : IVec S16 32) (v330 : IVec S16 32) (k0_hw31 : k0_chk31 v3 v5 v330), ∀ a x, ((![v5, v330] : Fin 2 → IVec S16 32) a x).toNat < S32x512.size a := fun v3 v5 v330 k0_hw31 => k0_hw31.2
def k0_cond6 (k0_t1 : Fin k0_t1_loop.trips) : BitVec 1 :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c5_i32_237 : BitVec 32 := 5#32
  let v341 : BitVec 32 := Scalar.addi v111 c5_i32_237
  let c8_i32_238 : BitVec 32 := 8#32
  let v342 : BitVec 32 := Scalar.addi v341 c8_i32_238
  let c512_i32_239 : BitVec 32 := 512#32
  let v343 : BitVec 1 := Scalar.cmpi .slt v342 c512_i32_239
  let v344 : BitVec 32 := Scalar.extui v343
  let c0_i32_240 : BitVec 32 := 0#32
  let v345 : BitVec 1 := Scalar.cmpi .ne v344 c0_i32_240
  v345

def k0_off26 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c5_i32_297 : BitVec 32 := 5#32
  let v424 : BitVec 32 := Scalar.addi v111 c5_i32_297
  let c8_i32_298 : BitVec 32 := 8#32
  let v425 : BitVec 32 := Scalar.addi v424 c8_i32_298
  let v426 : Index := Scalar.indexCast v425
  ![v426.toNat]
def k0_mult14 (v429 : BitVec 32) : BitVec 32 :=
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  v432

def k0_off27 (v429 : BitVec 32) : Fin 2 → Nat :=
  let c0_i32_305 : BitVec 32 := 0#32
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  let v433 : BitVec 32 := v432
  ![0, v433.toNat]

def k0_chk32 (k0_t1 : Fin k0_t1_loop.trips) (v429 : BitVec 32) : Prop :=
  (∀ (k0_h6 : k0_cond6 k0_t1 = 1#1), 128 ∣ (k0_mult14 v429).toNat) ∧
  (∀ (k0_h6 : k0_cond6 k0_t1 = 1#1), ∀ a, (k0_off27 v429) a + S32x128.size a ≤ S32x1000000.size a)
instance k0_chk32.dec : ∀ (k0_t1 : Fin k0_t1_loop.trips) (v429 : BitVec 32), Decidable (k0_chk32 k0_t1 v429) := fun k0_t1 v429 => decidable_of_iff' _ (Iff.of_eq (k0_chk32.eq_1 k0_t1 v429))
theorem k0_mult14_dvd : ∀ (k0_t1 : Fin k0_t1_loop.trips) (v429 : BitVec 32) (k0_hw32 : k0_chk32 k0_t1 v429), ∀ (k0_h6 : k0_cond6 k0_t1 = 1#1), 128 ∣ (k0_mult14 v429).toNat := fun k0_t1 v429 k0_hw32 k0_h6 => k0_hw32.1 k0_h6
theorem k0_off27_inb : ∀ (k0_t1 : Fin k0_t1_loop.trips) (v429 : BitVec 32) (k0_hw32 : k0_chk32 k0_t1 v429), ∀ (k0_h6 : k0_cond6 k0_t1 = 1#1), ∀ a, (k0_off27 v429) a + S32x128.size a ≤ S32x1000000.size a := fun k0_t1 v429 k0_hw32 k0_h6 => k0_hw32.2 k0_h6

def k0_off28 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c6_i32_250 : BitVec 32 := 6#32
  let v352 : BitVec 32 := Scalar.addi v111 c6_i32_250
  let v353 : Index := Scalar.indexCast v352
  ![v353.toNat]

def k0_chk33 (v3 : IVec S16 32) (v5 : IVec S16 32) (v362 : IVec S16 32) : Prop :=
  (∀ a x, ((![v3, v362] : Fin 2 → IVec S16 32) a x).toNat < S32x128.size a) ∧
  (∀ a x, ((![v5, v362] : Fin 2 → IVec S16 32) a x).toNat < S32x128.size a)
instance k0_chk33.dec : ∀ (v3 : IVec S16 32) (v5 : IVec S16 32) (v362 : IVec S16 32), Decidable (k0_chk33 v3 v5 v362) := fun v3 v5 v362 => decidable_of_iff' _ (Iff.of_eq (k0_chk33.eq_1 v3 v5 v362))
theorem k0_idx37_inb : ∀ (v3 : IVec S16 32) (v5 : IVec S16 32) (v362 : IVec S16 32) (k0_hw33 : k0_chk33 v3 v5 v362), ∀ a x, ((![v3, v362] : Fin 2 → IVec S16 32) a x).toNat < S32x128.size a := fun v3 v5 v362 k0_hw33 => k0_hw33.1
theorem k0_idx40_inb : ∀ (v3 : IVec S16 32) (v5 : IVec S16 32) (v362 : IVec S16 32) (k0_hw33 : k0_chk33 v3 v5 v362), ∀ a x, ((![v5, v362] : Fin 2 → IVec S16 32) a x).toNat < S32x128.size a := fun v3 v5 v362 k0_hw33 => k0_hw33.2

def k0_chk34 (v3 : IVec S16 32) (v5 : IVec S16 32) (v366 : IVec S16 32) : Prop :=
  (∀ a x, ((![v3, v366] : Fin 2 → IVec S16 32) a x).toNat < S32x64.size a) ∧
  (∀ a x, ((![v5, v366] : Fin 2 → IVec S16 32) a x).toNat < S32x64.size a)
instance k0_chk34.dec : ∀ (v3 : IVec S16 32) (v5 : IVec S16 32) (v366 : IVec S16 32), Decidable (k0_chk34 v3 v5 v366) := fun v3 v5 v366 => decidable_of_iff' _ (Iff.of_eq (k0_chk34.eq_1 v3 v5 v366))
theorem k0_idx38_inb : ∀ (v3 : IVec S16 32) (v5 : IVec S16 32) (v366 : IVec S16 32) (k0_hw34 : k0_chk34 v3 v5 v366), ∀ a x, ((![v3, v366] : Fin 2 → IVec S16 32) a x).toNat < S32x64.size a := fun v3 v5 v366 k0_hw34 => k0_hw34.1
theorem k0_idx41_inb : ∀ (v3 : IVec S16 32) (v5 : IVec S16 32) (v366 : IVec S16 32) (k0_hw34 : k0_chk34 v3 v5 v366), ∀ a x, ((![v5, v366] : Fin 2 → IVec S16 32) a x).toNat < S32x64.size a := fun v3 v5 v366 k0_hw34 => k0_hw34.2

def k0_chk35 (v3 : IVec S16 32) (v5 : IVec S16 32) (v369 : IVec S16 32) : Prop :=
  (∀ a x, ((![v3, v369] : Fin 2 → IVec S16 32) a x).toNat < S32x512.size a) ∧
  (∀ a x, ((![v5, v369] : Fin 2 → IVec S16 32) a x).toNat < S32x512.size a)
instance k0_chk35.dec : ∀ (v3 : IVec S16 32) (v5 : IVec S16 32) (v369 : IVec S16 32), Decidable (k0_chk35 v3 v5 v369) := fun v3 v5 v369 => decidable_of_iff' _ (Iff.of_eq (k0_chk35.eq_1 v3 v5 v369))
theorem k0_idx39_inb : ∀ (v3 : IVec S16 32) (v5 : IVec S16 32) (v369 : IVec S16 32) (k0_hw35 : k0_chk35 v3 v5 v369), ∀ a x, ((![v3, v369] : Fin 2 → IVec S16 32) a x).toNat < S32x512.size a := fun v3 v5 v369 k0_hw35 => k0_hw35.1
theorem k0_idx42_inb : ∀ (v3 : IVec S16 32) (v5 : IVec S16 32) (v369 : IVec S16 32) (k0_hw35 : k0_chk35 v3 v5 v369), ∀ a x, ((![v5, v369] : Fin 2 → IVec S16 32) a x).toNat < S32x512.size a := fun v3 v5 v369 k0_hw35 => k0_hw35.2
def k0_cond7 (k0_t1 : Fin k0_t1_loop.trips) : BitVec 1 :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c6_i32_265 : BitVec 32 := 6#32
  let v380 : BitVec 32 := Scalar.addi v111 c6_i32_265
  let c8_i32_266 : BitVec 32 := 8#32
  let v381 : BitVec 32 := Scalar.addi v380 c8_i32_266
  let c512_i32_267 : BitVec 32 := 512#32
  let v382 : BitVec 1 := Scalar.cmpi .slt v381 c512_i32_267
  let v383 : BitVec 32 := Scalar.extui v382
  let c0_i32_268 : BitVec 32 := 0#32
  let v384 : BitVec 1 := Scalar.cmpi .ne v383 c0_i32_268
  v384

def k0_off29 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c6_i32_297 : BitVec 32 := 6#32
  let v424 : BitVec 32 := Scalar.addi v111 c6_i32_297
  let c8_i32_298 : BitVec 32 := 8#32
  let v425 : BitVec 32 := Scalar.addi v424 c8_i32_298
  let v426 : Index := Scalar.indexCast v425
  ![v426.toNat]
def k0_mult15 (v429 : BitVec 32) : BitVec 32 :=
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  v432

def k0_off30 (v429 : BitVec 32) : Fin 2 → Nat :=
  let c0_i32_305 : BitVec 32 := 0#32
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  let v433 : BitVec 32 := v432
  ![0, v433.toNat]

def k0_chk36 (k0_t1 : Fin k0_t1_loop.trips) (v429 : BitVec 32) : Prop :=
  (∀ (k0_h7 : k0_cond7 k0_t1 = 1#1), 128 ∣ (k0_mult15 v429).toNat) ∧
  (∀ (k0_h7 : k0_cond7 k0_t1 = 1#1), ∀ a, (k0_off30 v429) a + S32x128.size a ≤ S32x1000000.size a)
instance k0_chk36.dec : ∀ (k0_t1 : Fin k0_t1_loop.trips) (v429 : BitVec 32), Decidable (k0_chk36 k0_t1 v429) := fun k0_t1 v429 => decidable_of_iff' _ (Iff.of_eq (k0_chk36.eq_1 k0_t1 v429))
theorem k0_mult15_dvd : ∀ (k0_t1 : Fin k0_t1_loop.trips) (v429 : BitVec 32) (k0_hw36 : k0_chk36 k0_t1 v429), ∀ (k0_h7 : k0_cond7 k0_t1 = 1#1), 128 ∣ (k0_mult15 v429).toNat := fun k0_t1 v429 k0_hw36 k0_h7 => k0_hw36.1 k0_h7
theorem k0_off30_inb : ∀ (k0_t1 : Fin k0_t1_loop.trips) (v429 : BitVec 32) (k0_hw36 : k0_chk36 k0_t1 v429), ∀ (k0_h7 : k0_cond7 k0_t1 = 1#1), ∀ a, (k0_off30 v429) a + S32x128.size a ≤ S32x1000000.size a := fun k0_t1 v429 k0_hw36 k0_h7 => k0_hw36.2 k0_h7

def k0_off31 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c7_i32_278 : BitVec 32 := 7#32
  let v391 : BitVec 32 := Scalar.addi v111 c7_i32_278
  let v392 : Index := Scalar.indexCast v391
  ![v392.toNat]

def k0_chk37 (v3 : IVec S16 32) (v5 : IVec S16 32) (v401 : IVec S16 32) : Prop :=
  (∀ a x, ((![v3, v401] : Fin 2 → IVec S16 32) a x).toNat < S32x128.size a) ∧
  (∀ a x, ((![v5, v401] : Fin 2 → IVec S16 32) a x).toNat < S32x128.size a)
instance k0_chk37.dec : ∀ (v3 : IVec S16 32) (v5 : IVec S16 32) (v401 : IVec S16 32), Decidable (k0_chk37 v3 v5 v401) := fun v3 v5 v401 => decidable_of_iff' _ (Iff.of_eq (k0_chk37.eq_1 v3 v5 v401))
theorem k0_idx43_inb : ∀ (v3 : IVec S16 32) (v5 : IVec S16 32) (v401 : IVec S16 32) (k0_hw37 : k0_chk37 v3 v5 v401), ∀ a x, ((![v3, v401] : Fin 2 → IVec S16 32) a x).toNat < S32x128.size a := fun v3 v5 v401 k0_hw37 => k0_hw37.1
theorem k0_idx46_inb : ∀ (v3 : IVec S16 32) (v5 : IVec S16 32) (v401 : IVec S16 32) (k0_hw37 : k0_chk37 v3 v5 v401), ∀ a x, ((![v5, v401] : Fin 2 → IVec S16 32) a x).toNat < S32x128.size a := fun v3 v5 v401 k0_hw37 => k0_hw37.2

def k0_chk38 (v3 : IVec S16 32) (v5 : IVec S16 32) (v405 : IVec S16 32) : Prop :=
  (∀ a x, ((![v3, v405] : Fin 2 → IVec S16 32) a x).toNat < S32x64.size a) ∧
  (∀ a x, ((![v5, v405] : Fin 2 → IVec S16 32) a x).toNat < S32x64.size a)
instance k0_chk38.dec : ∀ (v3 : IVec S16 32) (v5 : IVec S16 32) (v405 : IVec S16 32), Decidable (k0_chk38 v3 v5 v405) := fun v3 v5 v405 => decidable_of_iff' _ (Iff.of_eq (k0_chk38.eq_1 v3 v5 v405))
theorem k0_idx44_inb : ∀ (v3 : IVec S16 32) (v5 : IVec S16 32) (v405 : IVec S16 32) (k0_hw38 : k0_chk38 v3 v5 v405), ∀ a x, ((![v3, v405] : Fin 2 → IVec S16 32) a x).toNat < S32x64.size a := fun v3 v5 v405 k0_hw38 => k0_hw38.1
theorem k0_idx47_inb : ∀ (v3 : IVec S16 32) (v5 : IVec S16 32) (v405 : IVec S16 32) (k0_hw38 : k0_chk38 v3 v5 v405), ∀ a x, ((![v5, v405] : Fin 2 → IVec S16 32) a x).toNat < S32x64.size a := fun v3 v5 v405 k0_hw38 => k0_hw38.2

def k0_chk39 (v3 : IVec S16 32) (v5 : IVec S16 32) (v408 : IVec S16 32) : Prop :=
  (∀ a x, ((![v3, v408] : Fin 2 → IVec S16 32) a x).toNat < S32x512.size a) ∧
  (∀ a x, ((![v5, v408] : Fin 2 → IVec S16 32) a x).toNat < S32x512.size a)
instance k0_chk39.dec : ∀ (v3 : IVec S16 32) (v5 : IVec S16 32) (v408 : IVec S16 32), Decidable (k0_chk39 v3 v5 v408) := fun v3 v5 v408 => decidable_of_iff' _ (Iff.of_eq (k0_chk39.eq_1 v3 v5 v408))
theorem k0_idx45_inb : ∀ (v3 : IVec S16 32) (v5 : IVec S16 32) (v408 : IVec S16 32) (k0_hw39 : k0_chk39 v3 v5 v408), ∀ a x, ((![v3, v408] : Fin 2 → IVec S16 32) a x).toNat < S32x512.size a := fun v3 v5 v408 k0_hw39 => k0_hw39.1
theorem k0_idx48_inb : ∀ (v3 : IVec S16 32) (v5 : IVec S16 32) (v408 : IVec S16 32) (k0_hw39 : k0_chk39 v3 v5 v408), ∀ a x, ((![v5, v408] : Fin 2 → IVec S16 32) a x).toNat < S32x512.size a := fun v3 v5 v408 k0_hw39 => k0_hw39.2
def k0_cond8 (k0_t1 : Fin k0_t1_loop.trips) : BitVec 1 :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c7_i32_293 : BitVec 32 := 7#32
  let v419 : BitVec 32 := Scalar.addi v111 c7_i32_293
  let c8_i32_294 : BitVec 32 := 8#32
  let v420 : BitVec 32 := Scalar.addi v419 c8_i32_294
  let c512_i32_295 : BitVec 32 := 512#32
  let v421 : BitVec 1 := Scalar.cmpi .slt v420 c512_i32_295
  let v422 : BitVec 32 := Scalar.extui v421
  let c0_i32_296 : BitVec 32 := 0#32
  let v423 : BitVec 1 := Scalar.cmpi .ne v422 c0_i32_296
  v423

def k0_off32 (k0_t1 : Fin k0_t1_loop.trips) : Fin 1 → Nat :=
  let c0_i32_73 : BitVec 32 := 0#32
  let c1_i32_74 : BitVec 32 := 1#32
  let arg18 : BitVec 32 := Scf.iv c0_i32_73 c1_i32_74 k0_t1
  let c8_i32 : BitVec 32 := 8#32
  let v111 : BitVec 32 := Scalar.muli arg18 c8_i32
  let c7_i32_297 : BitVec 32 := 7#32
  let v424 : BitVec 32 := Scalar.addi v111 c7_i32_297
  let c8_i32_298 : BitVec 32 := 8#32
  let v425 : BitVec 32 := Scalar.addi v424 c8_i32_298
  let v426 : Index := Scalar.indexCast v425
  ![v426.toNat]
def k0_mult16 (v429 : BitVec 32) : BitVec 32 :=
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  v432

def k0_off33 (v429 : BitVec 32) : Fin 2 → Nat :=
  let c0_i32_305 : BitVec 32 := 0#32
  let c7_i32_299 : BitVec 32 := 7#32
  let v430 : BitVec 32 := Scalar.shrsi v429 c7_i32_299
  let c7_i32_300 : BitVec 32 := 7#32
  let v431 : BitVec 32 := Scalar.shli v430 c7_i32_300
  let c999808_i32_301 : BitVec 32 := 999808#32
  let v432 : BitVec 32 := Scalar.minsi v431 c999808_i32_301
  let v433 : BitVec 32 := v432
  ![0, v433.toNat]

def k0_chk40 (k0_t1 : Fin k0_t1_loop.trips) (v429 : BitVec 32) : Prop :=
  (∀ (k0_h8 : k0_cond8 k0_t1 = 1#1), 128 ∣ (k0_mult16 v429).toNat) ∧
  (∀ (k0_h8 : k0_cond8 k0_t1 = 1#1), ∀ a, (k0_off33 v429) a + S32x128.size a ≤ S32x1000000.size a)
instance k0_chk40.dec : ∀ (k0_t1 : Fin k0_t1_loop.trips) (v429 : BitVec 32), Decidable (k0_chk40 k0_t1 v429) := fun k0_t1 v429 => decidable_of_iff' _ (Iff.of_eq (k0_chk40.eq_1 k0_t1 v429))
theorem k0_mult16_dvd : ∀ (k0_t1 : Fin k0_t1_loop.trips) (v429 : BitVec 32) (k0_hw40 : k0_chk40 k0_t1 v429), ∀ (k0_h8 : k0_cond8 k0_t1 = 1#1), 128 ∣ (k0_mult16 v429).toNat := fun k0_t1 v429 k0_hw40 k0_h8 => k0_hw40.1 k0_h8
theorem k0_off33_inb : ∀ (k0_t1 : Fin k0_t1_loop.trips) (v429 : BitVec 32) (k0_hw40 : k0_chk40 k0_t1 v429), ∀ (k0_h8 : k0_cond8 k0_t1 = 1#1), ∀ a, (k0_off33 v429) a + S32x128.size a ≤ S32x1000000.size a := fun k0_t1 v429 k0_hw40 k0_h8 => k0_hw40.2 k0_h8

def k0_off34 (i : grid0.Coords) : Fin 2 → Nat :=
  let c0_i32_76_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x32_S32x1000000_1_0 : S1000000x32.Transposes [1, 0] S32x1000000
  slices_S32x1000000_S32x64_0_999936 : S32x1000000.Slices ![0, 999936] S32x64
  inb_S528_S512_0 : ∀ a, (![0] : Fin 1 → Nat) a + S512.size a ≤ S528.size a
  iota_S16_d0_w32_scVector : S16.Iotas .scVector 32 [0]
  inb_S528_S16_0 : ∀ a, (![0] : Fin 1 → Nat) a + S16.size a ≤ S528.size a
  h_S16 : 0 < S16.numel
  slices_S16_o0_S1 : S16.Slices ![0] S1
  inpos_S1_p0 : ∀ a, (![0] : Fin 1 → Nat) a < S1.size a
  inb_S8x32x128_S1x32x128_0_0_0 : ∀ a, (![0, 0, 0] : Fin 3 → Nat) a + S1x32x128.size a ≤ S8x32x128.size a
  squeezes_S1x32x128_S32x128 : S1x32x128.Squeezes S32x128
  inb_S528_S16_1 : ∀ a, (![1] : Fin 1 → Nat) a + S16.size a ≤ S528.size a
  inb_S8x32x128_S1x32x128_1_0_0 : ∀ a, (![1, 0, 0] : Fin 3 → Nat) a + S1x32x128.size a ≤ S8x32x128.size a
  inb_S528_S16_2 : ∀ a, (![2] : Fin 1 → Nat) a + S16.size a ≤ S528.size a
  inb_S8x32x128_S1x32x128_2_0_0 : ∀ a, (![2, 0, 0] : Fin 3 → Nat) a + S1x32x128.size a ≤ S8x32x128.size a
  inb_S528_S16_3 : ∀ a, (![3] : Fin 1 → Nat) a + S16.size a ≤ S528.size a
  inb_S8x32x128_S1x32x128_3_0_0 : ∀ a, (![3, 0, 0] : Fin 3 → Nat) a + S1x32x128.size a ≤ S8x32x128.size a
  inb_S528_S16_4 : ∀ a, (![4] : Fin 1 → Nat) a + S16.size a ≤ S528.size a
  inb_S8x32x128_S1x32x128_4_0_0 : ∀ a, (![4, 0, 0] : Fin 3 → Nat) a + S1x32x128.size a ≤ S8x32x128.size a
  inb_S528_S16_5 : ∀ a, (![5] : Fin 1 → Nat) a + S16.size a ≤ S528.size a
  inb_S8x32x128_S1x32x128_5_0_0 : ∀ a, (![5, 0, 0] : Fin 3 → Nat) a + S1x32x128.size a ≤ S8x32x128.size a
  inb_S528_S16_6 : ∀ a, (![6] : Fin 1 → Nat) a + S16.size a ≤ S528.size a
  inb_S8x32x128_S1x32x128_6_0_0 : ∀ a, (![6, 0, 0] : Fin 3 → Nat) a + S1x32x128.size a ≤ S8x32x128.size a
  inb_S528_S16_7 : ∀ a, (![7] : Fin 1 → Nat) a + S16.size a ≤ S528.size a
  inb_S8x32x128_S1x32x128_7_0_0 : ∀ a, (![7, 0, 0] : Fin 3 → Nat) a + S1x32x128.size a ≤ S8x32x128.size a
  inb_S32x1000000_S32x128_0_0 : ∀ a, (![0, 0] : Fin 2 → Nat) a + S32x128.size a ≤ S32x1000000.size a
  h_S32x128 : 0 < S32x128.numel
  h_S32x64 : 0 < S32x64.numel
  h_S32x512 : 0 < S32x512.numel
  transposes_S32x16384_S16384x32_1_0 : S32x16384.Transposes [1, 0] S16384x32
  hcc0_scratch4 : 0 + S_.numel ≤ 11
  hcc0_scratch5 : 1 + S_.numel ≤ 11
  hcc0_scratch6 : 2 + S_.numel ≤ 11
  hcc0_scratch7 : 3 + S_.numel ≤ 11
  hcc0_scratch8 : 4 + S_.numel ≤ 11
  hcc0_scratch9 : 5 + S_.numel ≤ 11
  hcc0_scratch10 : 6 + S_.numel ≤ 11
  hcc0_scratch11 : 7 + S_.numel ≤ 11
  hcc0_scoped0 : 8 + S_.numel ≤ 11
  hcc0_scoped1 : 9 + S_.numel ≤ 11
  hcc0_scoped2 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off10_inb : ∀ k0_t1 : Fin k0_t1_loop.trips, ∀ a, (k0_off10 k0_t1) a + S16.size a ≤ S528.size a
  k0_off11_inb : ∀ k0_t1 : Fin k0_t1_loop.trips, ∀ (k0_h1 : k0_cond1 k0_t1 = 1#1), ∀ a, (k0_off11 k0_t1) a + S16.size a ≤ S528.size a
  k0_off13_inb : ∀ k0_t1 : Fin k0_t1_loop.trips, ∀ a, (k0_off13 k0_t1) a + S16.size a ≤ S528.size a
  k0_off14_inb : ∀ k0_t1 : Fin k0_t1_loop.trips, ∀ (k0_h2 : k0_cond2 k0_t1 = 1#1), ∀ a, (k0_off14 k0_t1) a + S16.size a ≤ S528.size a
  k0_off16_inb : ∀ k0_t1 : Fin k0_t1_loop.trips, ∀ a, (k0_off16 k0_t1) a + S16.size a ≤ S528.size a
  k0_off17_inb : ∀ k0_t1 : Fin k0_t1_loop.trips, ∀ (k0_h3 : k0_cond3 k0_t1 = 1#1), ∀ a, (k0_off17 k0_t1) a + S16.size a ≤ S528.size a
  k0_off19_inb : ∀ k0_t1 : Fin k0_t1_loop.trips, ∀ a, (k0_off19 k0_t1) a + S16.size a ≤ S528.size a
  k0_off20_inb : ∀ k0_t1 : Fin k0_t1_loop.trips, ∀ (k0_h4 : k0_cond4 k0_t1 = 1#1), ∀ a, (k0_off20 k0_t1) a + S16.size a ≤ S528.size a
  k0_off22_inb : ∀ k0_t1 : Fin k0_t1_loop.trips, ∀ a, (k0_off22 k0_t1) a + S16.size a ≤ S528.size a
  k0_off23_inb : ∀ k0_t1 : Fin k0_t1_loop.trips, ∀ (k0_h5 : k0_cond5 k0_t1 = 1#1), ∀ a, (k0_off23 k0_t1) a + S16.size a ≤ S528.size a
  k0_off25_inb : ∀ k0_t1 : Fin k0_t1_loop.trips, ∀ a, (k0_off25 k0_t1) a + S16.size a ≤ S528.size a
  k0_off26_inb : ∀ k0_t1 : Fin k0_t1_loop.trips, ∀ (k0_h6 : k0_cond6 k0_t1 = 1#1), ∀ a, (k0_off26 k0_t1) a + S16.size a ≤ S528.size a
  k0_off28_inb : ∀ k0_t1 : Fin k0_t1_loop.trips, ∀ a, (k0_off28 k0_t1) a + S16.size a ≤ S528.size a
  k0_off29_inb : ∀ k0_t1 : Fin k0_t1_loop.trips, ∀ (k0_h7 : k0_cond7 k0_t1 = 1#1), ∀ a, (k0_off29 k0_t1) a + S16.size a ≤ S528.size a
  k0_off31_inb : ∀ k0_t1 : Fin k0_t1_loop.trips, ∀ a, (k0_off31 k0_t1) a + S16.size a ≤ S528.size a
  k0_off32_inb : ∀ k0_t1 : Fin k0_t1_loop.trips, ∀ (k0_h8 : k0_cond8 k0_t1 = 1#1), ∀ a, (k0_off32 k0_t1) a + S16.size a ≤ S528.size a
  k0_off34_inb : ∀ i : grid0.Coords, ∀ a, (k0_off34 i) a + S32x512.size a ≤ S32x16384.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scratch10 : DmaSems sig S_ := SemArray.consecutive 6 S_ hcc0_scratch10
abbrev cc0_scratch11 : DmaSems sig S_ := SemArray.consecutive 7 S_ hcc0_scratch11
abbrev cc0_scoped0 : DmaSems sig S_ := SemArray.consecutive 8 S_ hcc0_scoped0
abbrev cc0_scoped1 : DmaSems sig S_ := SemArray.consecutive 9 S_ hcc0_scoped1
abbrev cc0_scoped2 : DmaSems sig S_ := SemArray.consecutive 10 S_ hcc0_scoped2

class Facts : Prop extends Facts₀ where

variable [Facts]
-- ==== ReferenceIdeal.lean ====
abbrev S16384 : Shape := ⟨1, ![16384]⟩
abbrev S1000000x32 : Shape := ⟨2, ![1000000, 32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x32, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x32, .f32⟩
  | .hbm, ⟨21, _⟩ => ⟨S16384x32, .i1⟩
  | .hbm, ⟨22, _⟩ => ⟨S_, .f32⟩
  | .hbm, ⟨23, _⟩ => ⟨S16384x32, .f32⟩
  | .hbm, ⟨24, _⟩ => ⟨S16384x32, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  gather_S1000000x32_S16384x1_S16384x32_1_0_n_n_0_1_132_wf : GatherDims.WF S1000000x32 S16384x1 S16384x32 [1] [0] [] [0] [] 1 ![1, 32]

variable [Facts₀]

def gather_S1000000x32_S16384x1_S16384x32_1_0_n_n_0_1_132 : GatherDims S1000000x32 S16384x1 S16384x32 where
  offsetDims := [1]
  collapsedSliceDims := [0]
  operandBatchingDims := []
  startIndicesBatchingDims := []
  startIndexMap := [0]
  indexVectorDim := 1
  sliceSizes := ![1, 32]
  wf := gather_S1000000x32_S16384x1_S16384x32_1_0_n_n_0_1_132_wf

class Facts : Prop extends Facts₀ where

variable [Facts]
-- ==== Proof.Spec.lean ====
/-
  The lookup both programs compute, as one function of the two argument arrays: entry (b, d) of the result is
  entry (cond b, d) of the table. The row index is clamped to the table's last row so that the function is total;
  where every index names a row (InRange) the clamp is the identity.
-/
import Idealize.ShloMosaic.PureOps.Ideal
import Idealize.ShloMosaic.Lib.ValueIdx

noncomputable section

namespace Cert.Lookup

open Idealize.ShloMosaic Idealize.ShloMosaic.ValueIdx

/-- The batch of indices, the table, the result. -/
abbrev SB : Shape := ⟨1, ![16384]⟩
abbrev ST : Shape := ⟨2, ![1000000, 32]⟩
abbrev SO : Shape := ⟨2, ![16384, 32]⟩

/-- Every index names a row of the table: as an unsigned word it is at most 999999 (so it is also non-negative as a
    signed word). -/
def InRange (cond : SB.Idx → BitVec 32) : Prop := ∀ b : Fin 16384, (cond (ix1 b)).toNat ≤ 999999

/-- The row the b-th index names, clamped into the table. -/
def rowOf (cond : SB.Idx → BitVec 32) (b : Fin 16384) : Fin 1000000 := ⟨min (cond (ix1 b)).toNat 999999, by omega⟩

/-- The lookup: result (b, d) = table (rowOf cond b, d). -/
def G {α : Type} (cond : SB.Idx → BitVec 32) (tab : ST.Idx → α) : SO.Idx → α :=
  fun i => tab (ix2 (rowOf cond (i 0)) (i 1))

theorem G_apply {α : Type} (cond : SB.Idx → BitVec 32) (tab : ST.Idx → α) (b : Fin 16384) (d : Fin 32) :
    G cond tab (ix2 b d) = tab (ix2 (rowOf cond b) d) := rfl

theorem rowOf_val {cond : SB.Idx → BitVec 32} (h : InRange cond) (b : Fin 16384) : (rowOf cond b).val = (cond (ix1 b)).toNat :=
  Nat.min_eq_left (h b)

end Cert.Lookup

end
-- ==== Proof.PreFacts.lean ====
/-
  What the precondition says of the index array. The precondition's second conjunct is the conjunction, over all
  16384 entries v of the index array, of (0 ≤ v) ∧ (v ≤ 999999), both compared as signed 32-bit words. When the whole
  predicate evaluates to 1, every entry is therefore, as an unsigned word, at most 999999: a signed word that is
  non-negative equals its unsigned reading.
-/
import proofs.«209800_g17188459118626_cont_7to1_163_19_alg».proof.Proof.Spec
import proofs.«209800_g17188459118626_cont_7to1_163_19_alg».proof.Proof.Gen.Pre_input_domain
import Idealize.ShloMosaic.Lib.ReduceAll
import Idealize.ShloMosaic.Lib.ValueIdx

noncomputable section

namespace Cert.Proof.PreFacts

open Idealize.ShloMosaic Idealize.ShloMosaic.ValueIdx

/-- The scalar shape has exactly one index. -/
instance : Subsingleton Cert.Pre_input_domain.S_.Idx := ⟨fun _ _ => funext fun d => d.elim0⟩

/-- One entry: if (0 ≤ v) ∧ (v ≤ 999999), signed, is the word 1, then v read unsigned is at most 999999. -/
theorem word_le (v : BitVec 32)
    (e : IntOp.andi (IntOp.cmpi .sge v 0#32) (IntOp.cmpi .sle v 999999#32) = 1#1) : v.toNat ≤ 999999 := by
  obtain ⟨h0, h1⟩ := IntOp.andi_eq_one.1 e
  have g0 := IntOp.cmpi_sge.1 h0
  have g1 := IntOp.cmpi_sle.1 h1
  simp only [BitVec.toInt_eq_toNat_cond, BitVec.toNat_ofNat, Nat.reducePow, Nat.reduceMod] at g0 g1
  omega

/-- The precondition, all ones, puts every index in the table's range. -/
theorem inRange {F : FTy → Type} [FloatOps F] [Cert.Pre_input_domain.Facts]
    (a0 : IVec Cert.Pre_input_domain.S16384 32) (a1 : FVec F Cert.Pre_input_domain.S1000000x32 .f32)
    (h : Cert.Pre_input_domain.fn (F := F) a0 a1 = fun _ => 1#1) : Cert.Lookup.InRange a0 := by
  intro b
  have e := congrFun h ix0
  dsimp only [Cert.Pre_input_domain.fn] at e
  have e2 := (IntOp.andi_eq_one.1 e).2
  have e3 := Host.reduce_andi_all _ _ _ _ _ e2 (ix1 b)
  exact word_le _ e3

end Cert.Proof.PreFacts

end
-- ==== Proof.RefRun.lean ====
/-
  The reference program's run. Its @main is one call of the lookup function, whose body is twenty-two array operations
  and one nested call (a single select); with the two bodies unfolded at their calls @main is a straight line of
  twenty-three operations. Every weakly fair execution of that line terminates, and the result buffer then holds the
  operations' composed term of the two argument arrays, which end unchanged. The composed term is named piece by piece:
  the index array with negative entries wrapped by the table's length (`wrapped`), that array as a column of start
  indices (`start`), the per-entry test that a start index names a row of the table (`mask`), and the result (`res`):
  the gathered rows where the test holds and a constant elsewhere.
-/
import proofs.«209800_g17188459118626_cont_7to1_163_19_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The indices with the negative ones wrapped: v < 0 ? v + 1000000 : v, entry by entry. -/
def wrapped (a0 : IVec S16384 32) : IVec S16384 32 :=
  select (cmpi .slt a0 (broadcastInDim S16384 ![] bcast_S_S16384 (constantI S_ 32 0#32)))
    (addi a0 (broadcastInDim S16384 ![] bcast_S_S16384 (constantI S_ 32 1000000#32))) a0

/-- The wrapped indices as a column: the gather's start indices. -/
def start (a0 : IVec S16384 32) : IVec S16384x1 32 :=
  broadcastInDim S16384x1 ![0] bcast_S16384_S16384x1_0 (wrapped a0)

/-- Entry by entry: does the start index name a row, 0 ≤ v ∧ v ≤ 999999 (signed), reduced by `and` over the unit axis. -/
def mask (a0 : IVec S16384 32) : IVec S16384 1 :=
  Host.reduce IntOp.andi
    (andi (cmpi .sge (start a0) (broadcastInDim S16384x1 ![] bcast_S_S16384x1 (constantI S_ 32 0#32)))
      (cmpi .sle (start a0) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- The reference's result: the gathered rows where the start index names a row, the constant 0x7FC00000 elsewhere. -/
def res (a0 : IVec S16384 32) (a1 : FVec F S1000000x32 .f32) : FVec F S16384x32 .f32 :=
  select (broadcastInDim S16384x32 ![0] bcast_S16384_S16384x32_0 (mask a0))
    (Host.gather gather_S1000000x32_S16384x1_S16384x32_1_0_n_n_0_1_132 a1 (start a0))
    (broadcastInDim S16384x32 ![] bcast_S_S16384x32 (constant S_ .f32 0x7FC00000#32))

/-! ## The straight line -/

/-- @main's 23 operations, in order: the lookup function's, with the nested select at its call. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000000x32_S16384x1_S16384x32_1_0_n_n_0_1_132 x i),
    TRef.unary main_call0.v12 main_call0.v14 (broadcastInDim S16384x32 ![0] bcast_S16384_S16384x32_0),
    TRef.nullary main_call0.cst (constant S_ .f32 0x7FC00000#32),
    TRef.unary main_call0.cst main_call0.v15 (broadcastInDim S16384x32 ![] bcast_S_S16384x32),
    TRef.ternary main_call0.v14 main_call0.v13 main_call0.v15 main_call0.v16 select ]

/-- @main is that line: the two functions' bodies unfolded at their calls, and sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-! ## What the buffers hold after the line -/

-- twenty-three results unfolded one inside the other: deeper than the default recursion bound
set_option maxRecDepth 8192 in
/-- The result buffer holds the composed term of the two argument buffers' contents. -/
theorem out_eq (V : Valuation τ sig (Elt F)) :
    after ops V (main_v0 : DevRef τ sig) = res (V (main_arg0 : DevRef τ sig)) (V (main_arg1 : DevRef τ sig)) := by
  after_results
  -- the typed references' transports are along equations between identical types: the identity
  simp only [TRef.toBuf, TRef.ofBuf, cast_eq]
  rfl

set_option maxRecDepth 8192 in
/-- No operation writes the index array. -/
theorem arg0_eq (V : Valuation τ sig (Elt F)) : after ops V (main_arg0 : DevRef τ sig) = V (main_arg0 : DevRef τ sig) := by
  after_results

set_option maxRecDepth 8192 in
/-- No operation writes the table. -/
theorem arg1_eq (V : Valuation τ sig (Elt F)) : after ops V (main_arg1 : DevRef τ sig) = V (main_arg1 : DevRef τ sig) := by
  after_results

/-! ## The run -/

/-- On every device, for any float values, from any memory with zero counters: every weakly fair execution of @main
    terminates with the result at `res` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _), (h c main_arg1).trans (arg1_eq _)⟩)
    (run_seq scopedRefs_eq scopedSems_eq defs main (fun _ => ops) main_eq (fun _ => ops_sub) m ρ)

end Cert.Proof.RefRun

end
-- ==== Proof.RefValue.lean ====
/-
  The reference's result is the lookup. With every index in the table's range: a wrapped index is the index itself
  (it is not negative as a signed word), the range test holds at every entry, so the outer select takes the gathered
  value; and the gather at (b, d) reads the table at row "start index b, clamped into the table" and column d, the
  clamp being the identity on an index in range.
-/
import proofs.«209800_g17188459118626_cont_7to1_163_19_alg».proof.Proof.Spec
import proofs.«209800_g17188459118626_cont_7to1_163_19_alg».proof.Proof.RefRun
import Idealize.ShloMosaic.Lib.ValueIdx
import Idealize.ShloMosaic.Lib.Affine
import Idealize.ShloMosaic.PureOps.Reduce

noncomputable section

namespace Cert.Proof.RefValue

open Cert.ReferenceIdeal Cert.ReferenceIdeal.Gen Idealize.ShloMosaic Idealize.ShloMosaic.ValueIdx Cert.Lookup Cert.Proof.RefRun

/-! ## The row gather read at an index -/

section Gather
variable {α : Type}

/-- The gather's dimension numbers: operand [1000000, 32], start indices [16384, 1], result [16384, 32]; the start
    index names the row (axis 0, collapsed), the result's axis 1 runs over the row's 32 entries. -/
abbrev rowDims : GatherDims S1000000x32 S16384x1 S16384x32 where
  offsetDims := [1]
  collapsedSliceDims := [0]
  operandBatchingDims := []
  startIndicesBatchingDims := []
  startIndexMap := [0]
  indexVectorDim := 1
  sliceSizes := ![1, 32]
  wf := gather_S1000000x32_S16384x1_S16384x32_1_0_n_n_0_1_132_wf

/-- The program's record is that one. -/
theorem gatherDims_eq : gather_S1000000x32_S16384x1_S16384x32_1_0_n_n_0_1_132 = rowDims := rfl

/-- THE GATHER READ AT (b, d): the operand at row "start index b, read signed and clamped into [0, 999999]", column d. -/
theorem gather_row_apply {w : Nat} (x : S1000000x32.Idx → α) (idx : IVec S16384x1 w) (b : Fin 16384) (d : Fin 32) :
    Host.gather rowDims x idx (ix2 b d)
      = x (ix2 (⟨min (idx (ix2 b 0)).toInt.toNat 999999, by omega⟩ : Fin 1000000) d) := by
  unfold Host.gather
  congr 1
  funext a
  refine Fin.ext ?_
  match a with
  | ⟨0, _⟩ =>
    show rowDims.start (ix2 b d) idx 0 + rowDims.batchCoord (ix2 b d) 0 + rowDims.offCoord (ix2 b d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowDims.startIndexMap from List.mem_singleton.mpr rfl)]
    have hsi : rowDims.siIdx (ix2 b d) ⟨List.idxOf (0 : Fin 2) rowDims.startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    show rowDims.start (ix2 b d) idx 1 + rowDims.batchCoord (ix2 b d) 1 + rowDims.offCoord (ix2 b d) 1 = d.val
    rw [GatherDims.batchCoord_eq_zero _ _ _ List.not_mem_nil]
    have hs : rowDims.start (ix2 b d) idx 1 = 0 := by
      unfold GatherDims.start
      rw [dif_neg (show (1 : Fin 2) ∉ rowDims.startIndexMap by decide)]
    have ho : rowDims.offCoord (ix2 b d) 1 = d.val := by
      unfold GatherDims.offCoord
      rw [dif_pos (show (1 : Fin 2) ∈ rowDims.sKept by decide)]
      rfl
    rw [hs, ho]
    omega

end Gather

/-! ## The range test -/

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A word that is, unsigned, at most 999999 passes the signed test 0 ≤ v ∧ v ≤ 999999. -/
theorem word_test (v : BitVec 32) (hv : v.toNat ≤ 999999) :
    IntOp.andi (IntOp.cmpi .sge v 0#32) (IntOp.cmpi .sle v 999999#32) = 1#1 := by
  refine IntOp.andi_eq_one.2 ⟨IntOp.cmpi_sge.2 ?_, IntOp.cmpi_sle.2 ?_⟩ <;>
    simp only [BitVec.toInt_eq_toNat_cond, BitVec.toNat_ofNat, Nat.reducePow, Nat.reduceMod] <;> omega

/-- Such a word is not negative as a signed word. -/
theorem word_not_neg (v : BitVec 32) (hv : v.toNat ≤ 999999) : IntOp.cmpi .slt v 0#32 = 0#1 := by
  refine eq_zero_of_ne_one fun e => ?_
  have g := IntOp.cmpi_slt.1 e
  simp only [BitVec.toInt_eq_toNat_cond, BitVec.toNat_ofNat, Nat.reducePow, Nat.reduceMod] at g
  omega

variable {a0 : IVec S16384 32}

/-- In range, wrapping changes no index. -/
theorem wrapped_apply (h : InRange a0) (b : Fin 16384) : wrapped a0 (ix1 b) = a0 (ix1 b) := by
  show Scalar.select (IntOp.cmpi .slt (a0 (ix1 b)) 0#32) (IntOp.addi (a0 (ix1 b)) 1000000#32) (a0 (ix1 b)) = _
  rw [word_not_neg _ (h b), select_zero]

/-- The column of start indices at (b, 0) is the wrapped index b. -/
theorem start_apply (b : Fin 16384) (u : Fin 1) : start a0 (ix2 b u) = wrapped a0 (ix1 b) := by
  unfold start broadcastInDim
  congr 1
  funext a
  match a with
  | ⟨0, _⟩ => rfl

/-- In range, the test holds at every entry. -/
theorem mask_apply (h : InRange a0) (b : Fin 16384) : mask a0 (ix1 b) = 1#1 := by
  unfold mask
  rw [Host.reduce_eq_foldl]
  refine foldl_andi_ones _ _ fun n _ => ?_
  obtain ⟨b', u, rfl⟩ : ∃ b' u, n = ix2 b' u := ⟨n 0, n 1, eq_ix2 n⟩
  show IntOp.andi (IntOp.cmpi .sge (start a0 (ix2 b' u)) 0#32) (IntOp.cmpi .sle (start a0 (ix2 b' u)) 999999#32) = 1#1
  rw [start_apply, wrapped_apply h]
  exact word_test _ (h b')

/-! ## The result -/

/-- With every index in range the reference's result is the lookup. -/
theorem res_eq {F : FTy → Type} [FloatOps F] (a0 : IVec S16384 32) (a1 : FVec F S1000000x32 .f32) (h : InRange a0) :
    res a0 a1 = G a0 a1 := by
  funext i
  obtain ⟨b, d, rfl⟩ : ∃ b d, i = ix2 b d := ⟨i 0, i 1, eq_ix2 i⟩
  have hm : broadcastInDim S16384x32 ![0] bcast_S16384_S16384x32_0 (mask a0) (ix2 b d) = 1#1 := by
    have e : broadcastInDim S16384x32 ![0] bcast_S16384_S16384x32_0 (mask a0) (ix2 b d) = mask a0 (ix1 b) := by
      unfold broadcastInDim
      congr 1
      funext a
      match a with
      | ⟨0, _⟩ => rfl
    rw [e, mask_apply h]
  unfold res
  rw [select_apply, hm, select_one, gatherDims_eq, gather_row_apply, G_apply]
  refine congrArg a1 ?_
  -- the start index is the index itself, and a word in range read signed is the word read unsigned
  have hb := h b
  have hi : (a0 (ix1 b)).toInt.toNat = (a0 (ix1 b)).toNat := by
    rw [BitVec.toInt_eq_toNat_cond]
    have := (a0 (ix1 b)).isLt
    split <;> omega
  funext c
  match c with
  | ⟨0, _⟩ =>
    refine Fin.ext ?_
    show min (start a0 (ix2 b 0)).toInt.toNat 999999 = min (a0 (ix1 b)).toNat 999999
    rw [start_apply, wrapped_apply h, hi]
  | ⟨1, _⟩ => rfl

end Cert.Proof.RefValue

end
-- ==== Proof.KI.Iface.lean ====
/-
  The kernel as the SparseCore launch theorem sees it, and what each vector subcore is handed and hands back.
  The table is handed over TRANSPOSED (32 × 1000000) together with its last 64 columns (the tail); every subcore
  reads both and its own 512 indices, and writes its own 512 columns of the 32 × 16384 result: column base + k of
  the result is column cond (base + k) of the transposed table.
-/
import proofs.«209800_g17188459118626_cont_7to1_163_19_alg».proof.Defs
import proofs.«209800_g17188459118626_cont_7to1_163_19_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209800_g17188459118626_cont_7to1_163_19_alg».proof.Proof.Gen.KernelIdeal
import proofs.«209800_g17188459118626_cont_7to1_163_19_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev MM (F : FTy → Type) : Type := MT nD τ sig (HIx 1) (Elt F) ℕ UU ℕ

abbrev EH : Emb UH (MM F) := embL

/-! ## The arrays -/

variable (m : (ℓ : Loc nD τ sig) → Buf (Elt F) ℓ)

abbrev idxLoc (d : Dev nD) : Loc nD τ sig := (SparseCore.T d).loc main_arg0
abbrev embLoc (d : Dev nD) : Loc nD τ sig := (SparseCore.T d).loc main_arg1
abbrev tabLoc (d : Dev nD) : Loc nD τ sig := (SparseCore.T d).loc main_v0
abbrev tailLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3

variable [FloatOps F]

/-- The table transposed, as @main writes it before the call. -/
def tabT (d : Dev nD) : Buf (Elt F) (tabLoc d) :=
  ((transpose S32x1000000 [1, 0] · transposes_S1000000x32_S32x1000000_1_0) : (⟨S1000000x32, .f32⟩ : BufTy).Contents (Elt F) → (⟨S32x1000000, .f32⟩ : BufTy).Contents (Elt F)) (m (embLoc d))

/-- Its last 64 columns. -/
def tailT (d : Dev nD) : Buf (Elt F) (tailLoc d) :=
  ((extractStridedSlice S32x64 ![0, 999936] · slices_S32x1000000_S32x64_0_999936) : (⟨S32x1000000, .f32⟩ : BufTy).Contents (Elt F) → (⟨S32x64, .f32⟩ : BufTy).Contents (Elt F)) (tabT m d)

/-! ## A vector subcore's share -/

/-- The subcore at grid coordinates L, its number 2 * (L 1) + (L 0) and the first of its 512 columns. -/
abbrev VT (d : Dev nD) (L : grid0.Coords) : Thread nD τ := V d ((L 0).castLE hcore0) ((L 1).castLE hsub0)
def wid (L : grid0.Coords) : ℕ := 2 * (L 1).val + (L 0).val
def base (L : grid0.Coords) : ℕ := 512 * wid L
theorem wid_lt (L : grid0.Coords) : wid L < 32 := by
  have h0 : (L 0).val < 2 := (L 0).isLt
  have h1 : (L 1).val < 16 := (L 1).isLt
  unfold wid; omega
theorem base_add_lt (L : grid0.Coords) (k : Fin 512) : base L + k.val < 16384 := by
  have := wid_lt L; have := k.isLt; unfold base; omega

/-- The read share subcore number w takes of an array every subcore reads. -/
abbrev tq (L : grid0.Coords) : PosShare TreeShare := Transfers.shareTokN fullShare (wid L)

/-- The subcore's 512 columns of the result, as its write-out slices them. -/
abbrev outBlk (L : grid0.Coords) : Memref sig .scVector .hbm S32x512 .f32 :=
  (Memref.whole main_v2_scv).slice (Rect.unit (s := S32x16384) (k0_off34 L) S32x512.size (k0_off34_inb L)) (fun _ => rfl)
abbrev outSet (L : grid0.Coords) : Finset S32x16384.Idx := (outBlk L).view.set

/-- What the subcore leaves in its columns: column base + k is column cond (base + k) of the transposed table. -/
def OutOK (d : Dev nD) (L : grid0.Coords) (f : Buf (Elt F) (outLoc d)) : Prop :=
  ∀ (r : Fin 32) (k : Fin 512),
    f (ix2 r ⟨base L + k.val, base_add_lt L k⟩) = tabT m d (ix2 r (Cert.Lookup.rowOf (m (idxLoc d)) ⟨base L + k.val, base_add_lt L k⟩))

/-- Handed to the subcore: its read shares of the transposed table, the tail and the indices, and its columns of the result. -/
def tileGo (d : Dev nD) (L : grid0.Coords) : sProp (MM F) :=
  iprop((tabLoc d ↦{tq L} tabT m d) ∗ (tailLoc d ↦{tq L} tailT m d) ∗ (idxLoc d ↦{tq L} m (idxLoc d))
    ∗ (outLoc d ↦[outSet L]{fullShare} m (outLoc d)))

/-- Handed back: the same shares, and its columns filled. -/
def tileTd (d : Dev nD) (L : grid0.Coords) : sProp (MM F) :=
  iprop((tabLoc d ↦{tq L} tabT m d) ∗ (tailLoc d ↦{tq L} tailT m d) ∗ (idxLoc d ↦{tq L} m (idxLoc d))
    ∗ ∃ f, ⌜OutOK m d L f⌝ ∗ (outLoc d ↦[outSet L]{fullShare} f))

/-! ## The subcore's task, as a statement -/

/-- The kernel's function at grid coordinates L, over the arrays and scratch the body table passes it. -/
abbrev task (L : grid0.Coords) : Prog (TpuEff nD τ sig (Elt F) Λ₀ (.scVector ((L 0).castLE hcore0) ((L 1).castLE hsub0))) PUnit :=
  cc0_gather L (Memref.whole main_v0_scv) (Memref.isWhole_whole _) (Memref.whole main_arg0_scv) (Memref.isWhole_whole _)
    (Memref.whole main_v1_scv) (Memref.isWhole_whole _) (Memref.whole main_v2_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11
    cc0_scoped0 cc0_scoped1 cc0_scoped2

/-- The task's specification: from its hand-over, its own scratch and semaphores and what it owes the launch, the task
    runs to the end and hands back its columns filled, its scratch and semaphores, and the same debt. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ tileGo m d L
        ∗ scopedBufs (VT d L) ∗ scopedSems0 (VT d L) ∗ owes (VT d L) O W)
      ⊢ wp frame (wpE (defs₀ (F := F)) 𝒱₀ (VT d L) none) Set.univ (task (F := F) L)
          fun _ => (iprop(tileTd m d L ∗ scopedBufs (VT d L) ∗ scopedSems0 (VT d L)
            ∗ ∃ W', ⌜∀ p ∈ W', p ∈ W ∨ p.2 = none⌝ ∗ owes (VT d L) O W') : sProp (MM F))

end Cert.Proof.KI

end
-- ==== Proof.KI.Launch.lean ====
/-
  The launch: from the specification of one vector subcore's task (TileBody) to the run of the whole program.
  The call hands each of the 32 subcores a read share of the transposed table, of its tail and of the indices, and
  its own 512 columns of the result; @main transposes the table and slices the tail before the call, and transposes
  the result after it. The result read off the final memory is the lookup G of the two arguments.
-/
import proofs.«209800_g17188459118626_cont_7to1_163_19_alg».proof.Proof.KI.Iface
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)

variable [FloatOps F]

/-! ## The grid -/

/-- The grid coordinates of subcore s of SparseCore c. -/
def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem nCore_eq (q : Fin 1) : (K (F := F)).nCore q = grid0.bound 0 := match q with | 0 => rfl
omit [FloatOps F] in
theorem nSub_eq (q : Fin 1) : (K (F := F)).nSub q = grid0.bound 1 := match q with | 0 => rfl

/-- The coordinates of the task the call's grid indices (c, i) name. -/
abbrev LV (q : Fin 1) (c : Fin ((K (F := F)).nCore q)) (i : Fin ((K (F := F)).nSub q)) : grid0.Coords :=
  coordsV (Fin.cast (nCore_eq q) c) (Fin.cast (nSub_eq q) i)

/-! ## What the handshakes carry -/

/-- The call hands each SparseCore its sixteen tasks' hand-overs and takes back their returns; a task is handed
    tileGo and hands back tileTd; no task consumes anything of the launch's. -/
def P : (K (F := F)).Pay (nD := nD) (Val := Elt F) (Name := ℕ) (U := UU) where
  st := fun q d c => bigSep Finset.univ fun i : Fin ((K (F := F)).nSub q) => tileGo m d (LV q c i)
  dn := fun q d c => bigSep Finset.univ fun i : Fin ((K (F := F)).nSub q) => tileTd m d (LV q c i)
  go := fun q d c i => tileGo m d (LV q c i)
  td := fun q d c i => tileTd m d (LV q c i)
  x := fun _ _ => iprop(emp)

theorem P_st (q : Fin 1) (d : Dev nD) (c : Fin ((K (F := F)).nCore q)) :
    (P m).st q d c = bigSep Finset.univ fun i : Fin ((K (F := F)).nSub q) => tileGo m d (LV q c i) := rfl
theorem P_dn (q : Fin 1) (d : Dev nD) (c : Fin ((K (F := F)).nCore q)) :
    (P m).dn q d c = bigSep Finset.univ fun i : Fin ((K (F := F)).nSub q) => tileTd m d (LV q c i) := rfl
theorem P_go (q : Fin 1) (d : Dev nD) (c : Fin ((K (F := F)).nCore q)) (i : Fin ((K (F := F)).nSub q)) :
    (P m).go q d c i = tileGo m d (LV q c i) := rfl
theorem P_td (q : Fin 1) (d : Dev nD) (c : Fin ((K (F := F)).nCore q)) (i : Fin ((K (F := F)).nSub q)) :
    (P m).td q d c i = tileTd m d (LV q c i) := rfl

instance tileGo_storable (d : Dev nD) (L : grid0.Coords) : BI.Storable (upEmb : UEmb _ (MM F)) (tileGo m d L) := by
  unfold tileGo; infer_instance
instance tileTd_storable (d : Dev nD) (L : grid0.Coords) : BI.Storable (upEmb : UEmb _ (MM F)) (tileTd m d L) := by
  unfold tileTd; infer_instance

instance P_storable : (P (F := F) m).IsStorable where
  st _ _ _ := by rw [P_st]; infer_instance
  dn _ _ _ := by rw [P_dn]; infer_instance
  go _ _ _ _ := by rw [P_go]; infer_instance
  td _ _ _ _ := by rw [P_td]; infer_instance

/-! ## The launch theorem's obligations -/

theorem defs₀_vector (c : Fin τ.nSC) (s : Fin τ.nSub) :
    defs₀ (F := F) (.scVector c s) 0 ()
      = SparseCore.onTile hcore0 hsub0 (fun c s => task (F := F) (coordsV c s)) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call meets the launch theorem's obligation, by its specification. -/
theorem tileObl (hbody : TileBody (F := F) m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

/-- A SparseCore's hand-over is its tasks' hand-overs, its return their returns. -/
theorem vecSplit : (K (F := F)).VecSplit' (P m) 0 := by
  intro d c
  rw [P_st, P_dn]
  simp only [P_go, P_td]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## The 32 tasks, numbered -/

/-- A task: its SparseCore and its subcore. -/
abbrev TI : Type := Fin (grid0.bound 0) × Fin (grid0.bound 1)
abbrev LT (t : TI) : grid0.Coords := coordsV t.1 t.2

omit [FloatOps F] in
theorem wid_LT (t : TI) : wid (LT t) = 2 * t.2.val + t.1.val := rfl

/-- The tasks are numbered 0 to 31 by wid. -/
def e32 : TI ≃ Fin 32 where
  toFun t := ⟨2 * t.2.val + t.1.val, by
    have h1 : t.1.val < 2 := t.1.isLt
    have h2 : t.2.val < 16 := t.2.isLt
    omega⟩
  invFun w := (⟨w.val % 2, Nat.mod_lt _ (by decide)⟩, ⟨w.val / 2, by
    have hw : w.val < 32 := w.isLt
    show w.val / 2 < 16
    omega⟩)
  left_inv t := by
    have h1 : t.1.val < 2 := t.1.isLt
    have h2 : t.2.val < 16 := t.2.isLt
    exact Prod.ext (Fin.ext (show (2 * t.2.val + t.1.val) % 2 = t.1.val by omega))
      (Fin.ext (show (2 * t.2.val + t.1.val) / 2 = t.2.val by omega))
  right_inv w := Fin.ext (show 2 * (w.val / 2) + w.val % 2 = w.val by omega)

omit [FloatOps F] in
theorem wid_e32_symm (w : Fin 32) : wid (LT (e32.symm w)) = w.val :=
  show 2 * (w.val / 2) + w.val % 2 = w.val by omega

omit [FloatOps F] in
theorem LT_injective {t t' : TI} (h : wid (LT t) = wid (LT t')) : t = t' := by
  have h1 : t.1.val < 2 := t.1.isLt
  have h1' : t'.1.val < 2 := t'.1.isLt
  rw [wid_LT, wid_LT] at h
  exact Prod.ext (Fin.ext (by omega)) (Fin.ext (by omega))

/-! ## An array every task reads: one read share each, the rest kept aside -/

omit [FloatOps F] in
theorem toks_split {ℓ : Loc nD τ sig} (f : Buf (Elt F) ℓ) :
    (ℓ ↦{fullShare} f : sProp (MM F))
      ⊣⊢ iprop((ℓ ↦{Transfers.shareDrop fullShare 32} f) ∗ bigSep Finset.univ fun t : TI => ℓ ↦{tq (LT t)} f) := by
  rw [show (bigSep Finset.univ fun t : TI => (ℓ ↦{tq (LT t)} f : sProp (MM F)))
      = bigSep Finset.univ fun w : Fin 32 => ℓ ↦{Transfers.shareTok fullShare 32 w} f from
    (bigSep_univ_equiv e32 (fun w : Fin 32 => (ℓ ↦{Transfers.shareTok fullShare 32 w} f : sProp (MM F)))).symm]
  exact Transfers.pointsTo_toks fullShare 32

/-! ## The result: each task's 512 columns -/

omit [FloatOps F] in
theorem outSet_eq (L : grid0.Coords) :
    outSet L = (Rect.unit (s := S32x16384) (k0_off34 L) S32x512.size (k0_off34_inb L)).set := by
  show ((View.whole (main_v2_scv : Ref sig .scVector)).slice _).set = _
  rw [View.set_slice]; exact Finset.map_refl

omit [FloatOps F] in
/-- Task L's columns are those from base L to base L + 511. -/
theorem mem_outSet (L : grid0.Coords) (i : S32x16384.Idx) : i ∈ outSet L ↔ base L ≤ (i 1).val ∧ (i 1).val < base L + 512 := by
  rw [outSet_eq, Rect.mem_set_unit, k0_off34_eq]
  unfold base wid
  constructor
  · intro h
    have h1 := h (1 : Fin 2)
    simp only [Matrix.cons_val_one, Matrix.cons_val_zero, Matrix.head_cons] at h1
    omega
  · intro h a
    have e0 : S32x512.size (0 : Fin 2) = 32 := rfl
    have e1 : S32x512.size (1 : Fin 2) = 512 := rfl
    have hi0 : (i 0).val < 32 := (i 0).isLt
    match a with
    | ⟨0, _⟩ =>
      show (0 : ℕ) ≤ (i 0).val ∧ (i 0).val < 0 + S32x512.size (0 : Fin 2)
      rw [e0]; omega
    | ⟨1, _⟩ =>
      show 1024 * (L 1).val + 512 * (L 0).val ≤ (i 1).val ∧ (i 1).val < 1024 * (L 1).val + 512 * (L 0).val + S32x512.size (1 : Fin 2)
      rw [e1]; omega

omit [FloatOps F] in
theorem outSet_disjoint : ∀ t ∈ (Finset.univ : Finset TI), ∀ t' ∈ (Finset.univ : Finset TI), t ≠ t' →
    Disjoint (outSet (LT t)) (outSet (LT t')) := by
  intro t _ t' _ hne
  refine Finset.disjoint_left.mpr fun i hi hi' => hne (LT_injective ?_)
  rw [mem_outSet] at hi hi'
  unfold base at hi hi'
  omega

omit [FloatOps F] in
/-- The task whose block holds column col. -/
def taskOf (col : Fin 16384) : TI := e32.symm ⟨col.val / 512, by have := col.isLt; omega⟩

omit [FloatOps F] in
theorem base_taskOf (col : Fin 16384) : base (LT (taskOf col)) = 512 * (col.val / 512) := by
  unfold base taskOf; rw [wid_e32_symm]

omit [FloatOps F] in
theorem mem_outSet_taskOf (r : Fin 32) (col : Fin 16384) : (ix2 r col : S32x16384.Idx) ∈ outSet (LT (taskOf col)) := by
  rw [mem_outSet, base_taskOf]
  show 512 * (col.val / 512) ≤ col.val ∧ col.val < 512 * (col.val / 512) + 512
  omega

omit [FloatOps F] in
theorem outSet_cover : (Finset.univ : Finset TI).biUnion (fun t => outSet (LT t)) = Finset.univ := by
  ext i
  obtain ⟨r, col, rfl⟩ : ∃ (r : Fin 32) (col : Fin 16384), i = ix2 r col := ⟨_, _, eq_ix2 i⟩
  simp only [Finset.mem_biUnion, Finset.mem_univ, true_and, iff_true]
  exact ⟨taskOf col, mem_outSet_taskOf r col⟩

omit [FloatOps F] in
theorem out_blocks (d : Dev nD) (f : Buf (Elt F) (outLoc d)) :
    (outLoc d ↦{fullShare} f : sProp (MM F)) = bigSep Finset.univ fun t : TI => outLoc d ↦[outSet (LT t)]{fullShare} f := by
  rw [← pointsTo_biUnion Finset.univ (ℓ := outLoc d) (fun t : TI => outSet (LT t)) outSet_disjoint, outSet_cover]

/-- The result as the tasks leave it: column col is column cond col of the transposed table. -/
def OutAll (d : Dev nD) (g : Buf (Elt F) (outLoc d)) : Prop :=
  ∀ (r : Fin 32) (col : Fin 16384), g (ix2 r col) = tabT m d (ix2 r (Cert.Lookup.rowOf (m (idxLoc d)) col))

/-- The 32 blocks, each filled by its task, are the result filled. -/
theorem out_join (d : Dev nD) :
    (bigSep Finset.univ fun t : TI => iprop(∃ f, ⌜OutOK m d (LT t) f⌝ ∗ outLoc d ↦[outSet (LT t)]{fullShare} f))
      ⊢ (iprop(∃ g, ⌜OutAll m d g⌝ ∗ outLoc d ↦{fullShare} g) : sProp (MM F)) := by
  refine (bigSep_exists_pi Finset.univ
    (fun (t : TI) (f : Buf (Elt F) (outLoc d)) => iprop(⌜OutOK m d (LT t) f⌝ ∗ outLoc d ↦[outSet (LT t)]{fullShare} f))).trans ?_
  iintro ⟨%fs, H⟩
  ihave H1 := (bigSep_pure_sep Finset.univ (fun t : TI => OutOK m d (LT t) (fs t))
    (fun t : TI => (outLoc d ↦[outSet (LT t)]{fullShare} fs t : sProp (MM F)))) $$ H
  icases H1 with ⟨%hok, H⟩
  ihave H' := (pointsTo_biUnion_join Finset.univ (fun t : TI => outSet (LT t)) fs (fs (taskOf 0)) outSet_disjoint) $$ H
  icases H' with ⟨%g, %hg, Hg⟩
  rw [outSet_cover]
  iexists g
  isplitr
  · ipureintro
    intro r col
    rw [hg (taskOf col) (Finset.mem_univ _) _ (mem_outSet_taskOf r col)]
    have hb := base_taskOf col
    have hk : col.val % 512 < 512 := Nat.mod_lt _ (by decide)
    have h := hok (taskOf col) (Finset.mem_univ _) r ⟨col.val % 512, hk⟩
    have e : (⟨base (LT (taskOf col)) + col.val % 512, base_add_lt (LT (taskOf col)) ⟨col.val % 512, hk⟩⟩ : Fin 16384) = col :=
      Fin.ext (by show base (LT (taskOf col)) + col.val % 512 = col.val; rw [hb]; omega)
    rw [e] at h
    exact h
  · iexact Hg

/-! ## @main on the TensorCore -/

abbrev arg0' : DevRef τ sig := Proc.devRef .tc (main_arg0 : Ref sig .tc)
abbrev arg1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- @main's three host operations: the table transposed, its last 64 columns, the result transposed. -/
abbrev opT1 : HloOp τ sig (Elt F) :=
  StableHlo.unary main_arg1 main_v0 ((transpose S32x1000000 [1, 0] · transposes_S1000000x32_S32x1000000_1_0) : (⟨S1000000x32, .f32⟩ : BufTy).Contents (Elt F) → (⟨S32x1000000, .f32⟩ : BufTy).Contents (Elt F))
abbrev opSl : HloOp τ sig (Elt F) :=
  StableHlo.unary main_v0 main_v1 ((extractStridedSlice S32x64 ![0, 999936] · slices_S32x1000000_S32x64_0_999936) : (⟨S32x1000000, .f32⟩ : BufTy).Contents (Elt F) → (⟨S32x64, .f32⟩ : BufTy).Contents (Elt F))
abbrev opT2 : HloOp τ sig (Elt F) :=
  StableHlo.unary main_v2 main_v3 ((transpose S16384x32 [1, 0] · transposes_S32x16384_S16384x32_1_0) : (⟨S32x16384, .f32⟩ : BufTy).Contents (Elt F) → (⟨S16384x32, .f32⟩ : BufTy).Contents (Elt F))

omit [FloatOps F] in
theorem unscopedBufs_eq (d : Dev nD) (W : (b : Ref sig .tc) → Buf (Elt F) ((d.tc : Thread nD τ).loc b)) :
    (unscopedBufs d W : sProp (MM F)) = iprop((idxLoc d ↦{fullShare} W main_arg0) ∗ (embLoc d ↦{fullShare} W main_arg1)
      ∗ (tabLoc d ↦{fullShare} W main_v0) ∗ (tailLoc d ↦{fullShare} W main_v1) ∗ (outLoc d ↦{fullShare} W main_v2) ∗ resLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation; the result at g. -/
def V0 (d : Dev nD) : Valuation τ sig (Elt F) := fun b => m (d, b)
def V3 (d : Dev nD) (g : Buf (Elt F) (outLoc d)) : Valuation τ sig (Elt F) := Function.update (V0 m d) v2' g

omit [FloatOps F] in
theorem held_pair (d : Dev nD) {x y : DevRef τ sig} (h : x ∉ ({y} : Finset (DevRef τ sig))) (W : Valuation τ sig (Elt F)) :
    (held (T d) {x, y} W : sProp (MM F)) = iprop(((d, x) ↦{fullShare} W x) ∗ (d, y) ↦{fullShare} W y) := by
  unfold held
  rw [SparseCore.bigSep_insert' h, bigSep_singleton]

theorem held1 (d : Dev nD) :
    (held (T d) {arg1', v0'} (V0 m d) : sProp (MM F)) = iprop((embLoc d ↦{fullShare} m (embLoc d)) ∗ tabLoc d ↦{fullShare} m (tabLoc d)) :=
  held_pair d (by decide) _
theorem held1' (d : Dev nD) :
    (held (T d) {arg1', v0'} ((opT1 (F := F)).result (V0 m d)) : sProp (MM F))
      = iprop((embLoc d ↦{fullShare} m (embLoc d)) ∗ tabLoc d ↦{fullShare} tabT m d) := by
  rw [held_pair d (by decide),
    (opT1 (F := F)).result_of_not_mem (V0 m d) (b := arg1') (show arg1' ∉ ({v0'} : Finset (DevRef τ sig)) by decide)]
  rfl
theorem held2 (d : Dev nD) :
    (held (T d) {v0', v1'} ((opT1 (F := F)).result (V0 m d)) : sProp (MM F))
      = iprop((tabLoc d ↦{fullShare} tabT m d) ∗ tailLoc d ↦{fullShare} m (tailLoc d)) := by
  rw [held_pair d (by decide),
    (opT1 (F := F)).result_of_not_mem (V0 m d) (b := v1') (show v1' ∉ ({v0'} : Finset (DevRef τ sig)) by decide)]
  rfl
theorem held2' (d : Dev nD) :
    (held (T d) {v0', v1'} ((opSl (F := F)).result ((opT1 (F := F)).result (V0 m d))) : sProp (MM F))
      = iprop((tabLoc d ↦{fullShare} tabT m d) ∗ tailLoc d ↦{fullShare} tailT m d) := by
  rw [held_pair d (by decide),
    (opSl (F := F)).result_of_not_mem ((opT1 (F := F)).result (V0 m d)) (b := v0') (show v0' ∉ ({v1'} : Finset (DevRef τ sig)) by decide)]
  rfl
theorem held3 (d : Dev nD) (g : Buf (Elt F) (outLoc d)) :
    (held (T d) {v2', v3'} (V3 m d g) : sProp (MM F)) = iprop((outLoc d ↦{fullShare} g) ∗ resLoc d ↦{fullShare} m (resLoc d)) := by
  rw [held_pair d (by decide)]
  unfold V3
  rw [Function.update_self, Function.update_of_ne (show v3' ≠ v2' by decide)]
  rfl

/-- The result transposed back. -/
def resT (d : Dev nD) (g : Buf (Elt F) (outLoc d)) : Buf (Elt F) (resLoc d) :=
  ((transpose S16384x32 [1, 0] · transposes_S32x16384_S16384x32_1_0) : (⟨S32x16384, .f32⟩ : BufTy).Contents (Elt F) → (⟨S16384x32, .f32⟩ : BufTy).Contents (Elt F)) g

theorem held3' (d : Dev nD) (g : Buf (Elt F) (outLoc d)) :
    (held (T d) {v2', v3'} ((opT2 (F := F)).result (V3 m d g)) : sProp (MM F))
      = iprop((outLoc d ↦{fullShare} g) ∗ resLoc d ↦{fullShare} resT d g) := by
  rw [held_pair d (by decide),
    (opT2 (F := F)).result_of_not_mem (V3 m d g) (b := v2') (show v2' ∉ ({v3'} : Finset (DevRef τ sig)) by decide),
    show (opT2 (F := F)).result (V3 m d g) v3' = resT d (V3 m d g v2') from StableHlo.unary_result _ _ _ _ _ _]
  unfold V3
  rw [Function.update_self]

/-- The result filled by the tasks, transposed back, is the lookup. -/
theorem resT_eq (d : Dev nD) {g : Buf (Elt F) (outLoc d)} (hg : OutAll m d g) :
    resT d g = Cert.Lookup.G (m (idxLoc d)) (m (embLoc d)) := by
  funext j
  obtain ⟨b, r, rfl⟩ : ∃ (b : Fin 16384) (r : Fin 32), j = ix2 b r := ⟨_, _, eq_ix2 j⟩
  unfold resT
  refine (transpose_ix2_apply (a := 32) (b := 16384) g _ b r).trans ?_
  rw [hg r b, Cert.Lookup.G_apply]
  exact transpose_ix2_apply (a := 1000000) (b := 32) (m (embLoc d)) _ r (Cert.Lookup.rowOf (m (idxLoc d)) b)

/-- What the call takes for the two SparseCores, and what it hands back. -/
theorem st0_eq (d : Dev nD) :
    (bigSep Finset.univ fun c : Fin ((K (F := F)).nCore 0) => (P m).st 0 d c)
      = iprop((bigSep Finset.univ fun t : TI => tabLoc d ↦{tq (LT t)} tabT m d)
        ∗ (bigSep Finset.univ fun t : TI => tailLoc d ↦{tq (LT t)} tailT m d)
        ∗ (bigSep Finset.univ fun t : TI => idxLoc d ↦{tq (LT t)} m (idxLoc d))
        ∗ bigSep Finset.univ fun t : TI => outLoc d ↦[outSet (LT t)]{fullShare} m (outLoc d)) := by
  rw [← bigSep_sep', ← bigSep_sep', ← bigSep_sep', bigSep_univ_prod]
  simp only [P_st]
  unfold tileGo
  rfl
theorem dn0_eq (d : Dev nD) :
    (bigSep Finset.univ fun c : Fin ((K (F := F)).nCore 0) => (P m).dn 0 d c)
      = iprop((bigSep Finset.univ fun t : TI => tabLoc d ↦{tq (LT t)} tabT m d)
        ∗ (bigSep Finset.univ fun t : TI => tailLoc d ↦{tq (LT t)} tailT m d)
        ∗ (bigSep Finset.univ fun t : TI => idxLoc d ↦{tq (LT t)} m (idxLoc d))
        ∗ bigSep Finset.univ fun t : TI => iprop(∃ f, ⌜OutOK m d (LT t) f⌝ ∗ outLoc d ↦[outSet (LT t)]{fullShare} f)) := by
  rw [← bigSep_sep', ← bigSep_sep', ← bigSep_sep', bigSep_univ_prod]
  simp only [P_dn]
  unfold tileTd
  rfl

theorem opT1_bufs : (opT1 (F := F)).bufs ⊆ {arg1', v0'} := Finset.Subset.refl _
theorem opSl_bufs : (opSl (F := F)).bufs ⊆ {v0', v1'} := Finset.Subset.refl _
theorem opT2_bufs : (opT2 (F := F)).bufs ⊆ {v2', v3'} := Finset.Subset.refl _

/-- What @main leaves the claim: the result at the lookup, the two arguments at their launch contents (of the indices,
    the share the TensorCore kept aside). -/
abbrev FIN (d : Dev nD) : sProp (MM F) :=
  iprop((resLoc d ↦{fullShare} Cert.Lookup.G (m (idxLoc d)) (m (embLoc d)))
    ∗ (idxLoc d ↦{Transfers.shareDrop fullShare 32} m (idxLoc d)) ∗ embLoc d ↦{fullShare} m (embLoc d))

/-- @main on device d's TensorCore: the table transposed and its tail sliced; the call, each task handed its read shares
    and its columns; the filled result transposed back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, He, Ht, Htl, Ho, Hr⟩, -, -⟩, -⟩
  -- the table transposed
  iapply (wp_hlo_within 𝒱 (SparseCore.T d) none Set.univ (op := opT1) (S := {arg1', v0'}) opT1_bufs (V := V0 m d)) $$ [Hb He Ht]
  · isplitl [Hb]; · iexact Hb
    rw [held1]
    isplitl [He]; · iexact He
    iexact Ht
  iintro ⟨Hb, Hheld⟩
  ihave Hh := (Entails.of_eq (held1' (F := F) m d)) $$ Hheld
  icases Hh with ⟨He, Ht⟩
  rw [wp_ret]; imodintro
  -- its last 64 columns
  iapply (wp_hlo_within 𝒱 (SparseCore.T d) none Set.univ (op := opSl) (S := {v0', v1'}) opSl_bufs (V := (opT1 (F := F)).result (V0 m d))) $$ [Hb Ht Htl]
  · isplitl [Hb]; · iexact Hb
    rw [held2]
    isplitl [Ht]; · iexact Ht
    iexact Htl
  iintro ⟨Hb, Hheld⟩
  ihave Hh := (Entails.of_eq (held2' (F := F) m d)) $$ Hheld
  icases Hh with ⟨Ht, Htl⟩
  rw [wp_ret]; imodintro
  -- the call: a read share of the table, the tail and the indices and its own columns of the result to each task
  ihave Ht' := (toks_split (F := F) (tabT m d)).1 $$ Ht
  icases Ht' with ⟨-, Htt⟩
  ihave Htl' := (toks_split (F := F) (tailT m d)).1 $$ Htl
  icases Htl' with ⟨-, Htlt⟩
  ihave Hi' := (toks_split (F := F) (m (idxLoc d))).1 $$ Hi
  icases Hi' with ⟨Hid, Hit⟩
  ihave Ho' := (Entails.of_eq (out_blocks (F := F) d (m (outLoc d)))) $$ Ho
  iapply ((K (F := F)).wp_run (D (F := F)) 𝒱 (EH := EH) (P := P m) κ d 0) $$ [Hst Htt Htlt Hit Ho' Hb Hr Hid He]
  isplitr; · iexact Hctx
  isplitl [Hst]; · iexact Hst
  isplitl [Htt Htlt Hit Ho']
  · rw [st0_eq]
    isplitl [Htt]; · iexact Htt
    isplitl [Htlt]; · iexact Htlt
    isplitl [Hit]; · iexact Hit
    iexact Ho'
  iintro ⟨Hst, Hdn⟩
  ihave Hdn' := (Entails.of_eq (dn0_eq m d)) $$ Hdn
  icases Hdn' with ⟨-, -, -, Hob⟩
  ihave Hg := (out_join m d) $$ Hob
  icases Hg with ⟨%g, %hg, Hg⟩
  -- the filled result transposed back
  iapply (wp_hlo_within 𝒱 (SparseCore.T d) none Set.univ (op := opT2) (S := {v2', v3'}) opT2_bufs (V := V3 m d g)) $$ [Hb Hg Hr]
  · isplitl [Hb]; · iexact Hb
    rw [held3]
    isplitl [Hg]; · iexact Hg
    iexact Hr
  iintro ⟨Hb, Hheld⟩
  ihave Hh := (Entails.of_eq (held3' (F := F) m d g)) $$ Hheld
  icases Hh with ⟨-, Hr⟩
  rw [wp_ret]; imodintro; imodintro
  isplitl [Hst]; · iexact Hst
  isplitl [Hr]; · rw [← resT_eq m d hg]; iexact Hr
  isplitl [Hid]; · iexact Hid
  iexact He

/-! ## The final memory -/

def fq (d : Dev nD) (s' : Phys nD τ sig (Elt F)) : Prop :=
  s'.mem.mem (resLoc d) = Cert.Lookup.G (m (idxLoc d)) (m (embLoc d)) ∧ s'.mem.mem (idxLoc d) = m (idxLoc d) ∧ s'.mem.mem (embLoc d) = m (embLoc d)

theorem hfin (d : Dev nD) (s' : Phys nD τ sig (Elt F)) : iprop(FIN m d ∗ SI s') ⊢ (⌜fq m d s'⌝ : sProp (MM F)) := by
  iintro ⟨⟨Hr, Hi, He⟩, HSI⟩
  ihave H := (persistent_entails_right (SI_pointsTo_agree (st := s') (ℓ := resLoc d) (I := Finset.univ) (q := fullShare)
    (f := Cert.Lookup.G (m (idxLoc d)) (m (embLoc d))))) $$ [HSI Hr]
  · isplitl [HSI] <;> iassumption
  icases H with ⟨%h1, HSI, -⟩
  ihave H := (persistent_entails_right (SI_pointsTo_agree (st := s') (ℓ := idxLoc d) (I := Finset.univ) (q := Transfers.shareDrop fullShare 32)
    (f := m (idxLoc d)))) $$ [HSI Hi]
  · isplitl [HSI] <;> iassumption
  icases H with ⟨%h2, HSI, -⟩
  ihave H := (SI_pointsTo_agree (st := s') (ℓ := embLoc d) (I := Finset.univ) (q := fullShare) (f := m (embLoc d))) $$ [HSI He]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- From the specification of one subcore's task: the whole program runs to its end, the result is the lookup of the two
    arguments and the arguments are unchanged. -/
theorem run [∀ e, Nonempty (Elt F e)] (m : (ℓ : Loc nD τ sig) → Buf (Elt F) ℓ) (ρ : Dev nD → PrngReg) (hbody : TileBody (F := F) m) :
    θ_run (Cert.KernelIdeal.defs (F := F)) (Cert.KernelIdeal.threads (F := F)) ⟨m, fun _ => 0, ρ⟩
      (fun r => ∀ c : Dev nD,
        r.2.mem ((c.tc : Thread nD τ).loc main_v3) = Cert.Lookup.G (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h c => h c)

end Cert.Proof.KI

end
-- ==== Proof.KB.Iface.lean ====
/-
  The kernel as the SparseCore launch theorem sees it, and what each vector subcore is handed and hands back.
  The table is handed over TRANSPOSED (32 × 1000000) together with its last 64 columns (the tail); every subcore
  reads both and its own 512 indices, and writes its own 512 columns of the 32 × 16384 result: column base + k of
  the result is column cond (base + k) of the transposed table.
-/
import proofs.«209800_g17188459118626_cont_7to1_163_19_alg».proof.Defs
import proofs.«209800_g17188459118626_cont_7to1_163_19_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209800_g17188459118626_cont_7to1_163_19_alg».proof.Proof.Gen.Kernel
import proofs.«209800_g17188459118626_cont_7to1_163_19_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev MM (F : FTy → Type) : Type := MT nD τ sig (HIx 1) (Elt F) ℕ UU ℕ

abbrev EH : Emb UH (MM F) := embL

/-! ## The arrays -/

variable (m : (ℓ : Loc nD τ sig) → Buf (Elt F) ℓ)

abbrev idxLoc (d : Dev nD) : Loc nD τ sig := (SparseCore.T d).loc main_arg0
abbrev embLoc (d : Dev nD) : Loc nD τ sig := (SparseCore.T d).loc main_arg1
abbrev tabLoc (d : Dev nD) : Loc nD τ sig := (SparseCore.T d).loc main_v0
abbrev tailLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3

variable [FloatOps F]

/-- The table transposed, as @main writes it before the call. -/
def tabT (d : Dev nD) : Buf (Elt F) (tabLoc d) :=
  ((transpose S32x1000000 [1, 0] · transposes_S1000000x32_S32x1000000_1_0) : (⟨S1000000x32, .f32⟩ : BufTy).Contents (Elt F) → (⟨S32x1000000, .f32⟩ : BufTy).Contents (Elt F)) (m (embLoc d))

/-- Its last 64 columns. -/
def tailT (d : Dev nD) : Buf (Elt F) (tailLoc d) :=
  ((extractStridedSlice S32x64 ![0, 999936] · slices_S32x1000000_S32x64_0_999936) : (⟨S32x1000000, .f32⟩ : BufTy).Contents (Elt F) → (⟨S32x64, .f32⟩ : BufTy).Contents (Elt F)) (tabT m d)

/-! ## A vector subcore's share -/

/-- The subcore at grid coordinates L, its number 2 * (L 1) + (L 0) and the first of its 512 columns. -/
abbrev VT (d : Dev nD) (L : grid0.Coords) : Thread nD τ := V d ((L 0).castLE hcore0) ((L 1).castLE hsub0)
def wid (L : grid0.Coords) : ℕ := 2 * (L 1).val + (L 0).val
def base (L : grid0.Coords) : ℕ := 512 * wid L
theorem wid_lt (L : grid0.Coords) : wid L < 32 := by
  have h0 : (L 0).val < 2 := (L 0).isLt
  have h1 : (L 1).val < 16 := (L 1).isLt
  unfold wid; omega
theorem base_add_lt (L : grid0.Coords) (k : Fin 512) : base L + k.val < 16384 := by
  have := wid_lt L; have := k.isLt; unfold base; omega

/-- The read share subcore number w takes of an array every subcore reads. -/
abbrev tq (L : grid0.Coords) : PosShare TreeShare := Transfers.shareTokN fullShare (wid L)

/-- The subcore's 512 columns of the result, as its write-out slices them. -/
abbrev outBlk (L : grid0.Coords) : Memref sig .scVector .hbm S32x512 .f32 :=
  (Memref.whole main_v2_scv).slice (Rect.unit (s := S32x16384) (k0_off34 L) S32x512.size (k0_off34_inb L)) (fun _ => rfl)
abbrev outSet (L : grid0.Coords) : Finset S32x16384.Idx := (outBlk L).view.set

/-- What the subcore leaves in its columns: column base + k is column cond (base + k) of the transposed table. -/
def OutOK (d : Dev nD) (L : grid0.Coords) (f : Buf (Elt F) (outLoc d)) : Prop :=
  ∀ (r : Fin 32) (k : Fin 512),
    f (ix2 r ⟨base L + k.val, base_add_lt L k⟩) = tabT m d (ix2 r (Cert.Lookup.rowOf (m (idxLoc d)) ⟨base L + k.val, base_add_lt L k⟩))

/-- Handed to the subcore: its read shares of the transposed table, the tail and the indices, and its columns of the result. -/
def tileGo (d : Dev nD) (L : grid0.Coords) : sProp (MM F) :=
  iprop((tabLoc d ↦{tq L} tabT m d) ∗ (tailLoc d ↦{tq L} tailT m d) ∗ (idxLoc d ↦{tq L} m (idxLoc d))
    ∗ (outLoc d ↦[outSet L]{fullShare} m (outLoc d)))

/-- Handed back: the same shares, and its columns filled. -/
def tileTd (d : Dev nD) (L : grid0.Coords) : sProp (MM F) :=
  iprop((tabLoc d ↦{tq L} tabT m d) ∗ (tailLoc d ↦{tq L} tailT m d) ∗ (idxLoc d ↦{tq L} m (idxLoc d))
    ∗ ∃ f, ⌜OutOK m d L f⌝ ∗ (outLoc d ↦[outSet L]{fullShare} f))

/-! ## The subcore's task, as a statement -/

/-- The kernel's function at grid coordinates L, over the arrays and scratch the body table passes it. -/
abbrev task (L : grid0.Coords) : Prog (TpuEff nD τ sig (Elt F) Λ₀ (.scVector ((L 0).castLE hcore0) ((L 1).castLE hsub0))) PUnit :=
  cc0_gather L (Memref.whole main_v0_scv) (Memref.isWhole_whole _) (Memref.whole main_arg0_scv) (Memref.isWhole_whole _)
    (Memref.whole main_v1_scv) (Memref.isWhole_whole _) (Memref.whole main_v2_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11
    cc0_scoped0 cc0_scoped1 cc0_scoped2

/-- The task's specification: from its hand-over, its own scratch and semaphores and what it owes the launch, the task
    runs to the end and hands back its columns filled, its scratch and semaphores, and the same debt. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ tileGo m d L
        ∗ scopedBufs (VT d L) ∗ scopedSems0 (VT d L) ∗ owes (VT d L) O W)
      ⊢ wp frame (wpE (defs₀ (F := F)) 𝒱₀ (VT d L) none) Set.univ (task (F := F) L)
          fun _ => (iprop(tileTd m d L ∗ scopedBufs (VT d L) ∗ scopedSems0 (VT d L)
            ∗ ∃ W', ⌜∀ p ∈ W', p ∈ W ∨ p.2 = none⌝ ∗ owes (VT d L) O W') : sProp (MM F))

end Cert.Proof.KB

end
-- ==== Proof.KB.Launch.lean ====
/-
  The launch: from the specification of one vector subcore's task (TileBody) to the run of the whole program.
  The call hands each of the 32 subcores a read share of the transposed table, of its tail and of the indices, and
  its own 512 columns of the result; @main transposes the table and slices the tail before the call, and transposes
  the result after it. The result read off the final memory is the lookup G of the two arguments.
-/
import proofs.«209800_g17188459118626_cont_7to1_163_19_alg».proof.Proof.KB.Iface
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within)
open Idealize.ShloMosaic.Tactic

variable {F : FTy → Type}

variable (m : (ℓ : Loc nD τ sig) → Buf (Elt F) ℓ) (ρ : Dev nD → PrngReg)

variable [FloatOps F]

/-! ## The grid -/

/-- The grid coordinates of subcore s of SparseCore c. -/
def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem nCore_eq (q : Fin 1) : (K (F := F)).nCore q = grid0.bound 0 := match q with | 0 => rfl
omit [FloatOps F] in
theorem nSub_eq (q : Fin 1) : (K (F := F)).nSub q = grid0.bound 1 := match q with | 0 => rfl

/-- The coordinates of the task the call's grid indices (c, i) name. -/
abbrev LV (q : Fin 1) (c : Fin ((K (F := F)).nCore q)) (i : Fin ((K (F := F)).nSub q)) : grid0.Coords :=
  coordsV (Fin.cast (nCore_eq q) c) (Fin.cast (nSub_eq q) i)

/-! ## What the handshakes carry -/

/-- The call hands each SparseCore its sixteen tasks' hand-overs and takes back their returns; a task is handed
    tileGo and hands back tileTd; no task consumes anything of the launch's. -/
def P : (K (F := F)).Pay (nD := nD) (Val := Elt F) (Name := ℕ) (U := UU) where
  st := fun q d c => bigSep Finset.univ fun i : Fin ((K (F := F)).nSub q) => tileGo m d (LV q c i)
  dn := fun q d c => bigSep Finset.univ fun i : Fin ((K (F := F)).nSub q) => tileTd m d (LV q c i)
  go := fun q d c i => tileGo m d (LV q c i)
  td := fun q d c i => tileTd m d (LV q c i)
  x := fun _ _ => iprop(emp)

theorem P_st (q : Fin 1) (d : Dev nD) (c : Fin ((K (F := F)).nCore q)) :
    (P m).st q d c = bigSep Finset.univ fun i : Fin ((K (F := F)).nSub q) => tileGo m d (LV q c i) := rfl
theorem P_dn (q : Fin 1) (d : Dev nD) (c : Fin ((K (F := F)).nCore q)) :
    (P m).dn q d c = bigSep Finset.univ fun i : Fin ((K (F := F)).nSub q) => tileTd m d (LV q c i) := rfl
theorem P_go (q : Fin 1) (d : Dev nD) (c : Fin ((K (F := F)).nCore q)) (i : Fin ((K (F := F)).nSub q)) :
    (P m).go q d c i = tileGo m d (LV q c i) := rfl
theorem P_td (q : Fin 1) (d : Dev nD) (c : Fin ((K (F := F)).nCore q)) (i : Fin ((K (F := F)).nSub q)) :
    (P m).td q d c i = tileTd m d (LV q c i) := rfl

instance tileGo_storable (d : Dev nD) (L : grid0.Coords) : BI.Storable (upEmb : UEmb _ (MM F)) (tileGo m d L) := by
  unfold tileGo; infer_instance
instance tileTd_storable (d : Dev nD) (L : grid0.Coords) : BI.Storable (upEmb : UEmb _ (MM F)) (tileTd m d L) := by
  unfold tileTd; infer_instance

instance P_storable : (P (F := F) m).IsStorable where
  st _ _ _ := by rw [P_st]; infer_instance
  dn _ _ _ := by rw [P_dn]; infer_instance
  go _ _ _ _ := by rw [P_go]; infer_instance
  td _ _ _ _ := by rw [P_td]; infer_instance

/-! ## The launch theorem's obligations -/

theorem defs₀_vector (c : Fin τ.nSC) (s : Fin τ.nSub) :
    defs₀ (F := F) (.scVector c s) 0 ()
      = SparseCore.onTile hcore0 hsub0 (fun c s => task (F := F) (coordsV c s)) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call meets the launch theorem's obligation, by its specification. -/
theorem tileObl (hbody : TileBody (F := F) m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

/-- A SparseCore's hand-over is its tasks' hand-overs, its return their returns. -/
theorem vecSplit : (K (F := F)).VecSplit' (P m) 0 := by
  intro d c
  rw [P_st, P_dn]
  simp only [P_go, P_td]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## The 32 tasks, numbered -/

/-- A task: its SparseCore and its subcore. -/
abbrev TI : Type := Fin (grid0.bound 0) × Fin (grid0.bound 1)
abbrev LT (t : TI) : grid0.Coords := coordsV t.1 t.2

omit [FloatOps F] in
theorem wid_LT (t : TI) : wid (LT t) = 2 * t.2.val + t.1.val := rfl

/-- The tasks are numbered 0 to 31 by wid. -/
def e32 : TI ≃ Fin 32 where
  toFun t := ⟨2 * t.2.val + t.1.val, by
    have h1 : t.1.val < 2 := t.1.isLt
    have h2 : t.2.val < 16 := t.2.isLt
    omega⟩
  invFun w := (⟨w.val % 2, Nat.mod_lt _ (by decide)⟩, ⟨w.val / 2, by
    have hw : w.val < 32 := w.isLt
    show w.val / 2 < 16
    omega⟩)
  left_inv t := by
    have h1 : t.1.val < 2 := t.1.isLt
    have h2 : t.2.val < 16 := t.2.isLt
    exact Prod.ext (Fin.ext (show (2 * t.2.val + t.1.val) % 2 = t.1.val by omega))
      (Fin.ext (show (2 * t.2.val + t.1.val) / 2 = t.2.val by omega))
  right_inv w := Fin.ext (show 2 * (w.val / 2) + w.val % 2 = w.val by omega)

omit [FloatOps F] in
theorem wid_e32_symm (w : Fin 32) : wid (LT (e32.symm w)) = w.val :=
  show 2 * (w.val / 2) + w.val % 2 = w.val by omega

omit [FloatOps F] in
theorem LT_injective {t t' : TI} (h : wid (LT t) = wid (LT t')) : t = t' := by
  have h1 : t.1.val < 2 := t.1.isLt
  have h1' : t'.1.val < 2 := t'.1.isLt
  rw [wid_LT, wid_LT] at h
  exact Prod.ext (Fin.ext (by omega)) (Fin.ext (by omega))

/-! ## An array every task reads: one read share each, the rest kept aside -/

omit [FloatOps F] in
theorem toks_split {ℓ : Loc nD τ sig} (f : Buf (Elt F) ℓ) :
    (ℓ ↦{fullShare} f : sProp (MM F))
      ⊣⊢ iprop((ℓ ↦{Transfers.shareDrop fullShare 32} f) ∗ bigSep Finset.univ fun t : TI => ℓ ↦{tq (LT t)} f) := by
  rw [show (bigSep Finset.univ fun t : TI => (ℓ ↦{tq (LT t)} f : sProp (MM F)))
      = bigSep Finset.univ fun w : Fin 32 => ℓ ↦{Transfers.shareTok fullShare 32 w} f from
    (bigSep_univ_equiv e32 (fun w : Fin 32 => (ℓ ↦{Transfers.shareTok fullShare 32 w} f : sProp (MM F)))).symm]
  exact Transfers.pointsTo_toks fullShare 32

/-! ## The result: each task's 512 columns -/

omit [FloatOps F] in
theorem outSet_eq (L : grid0.Coords) :
    outSet L = (Rect.unit (s := S32x16384) (k0_off34 L) S32x512.size (k0_off34_inb L)).set := by
  show ((View.whole (main_v2_scv : Ref sig .scVector)).slice _).set = _
  rw [View.set_slice]; exact Finset.map_refl

omit [FloatOps F] in
/-- Task L's columns are those from base L to base L + 511. -/
theorem mem_outSet (L : grid0.Coords) (i : S32x16384.Idx) : i ∈ outSet L ↔ base L ≤ (i 1).val ∧ (i 1).val < base L + 512 := by
  rw [outSet_eq, Rect.mem_set_unit, k0_off34_eq]
  unfold base wid
  constructor
  · intro h
    have h1 := h (1 : Fin 2)
    simp only [Matrix.cons_val_one, Matrix.cons_val_zero, Matrix.head_cons] at h1
    omega
  · intro h a
    have e0 : S32x512.size (0 : Fin 2) = 32 := rfl
    have e1 : S32x512.size (1 : Fin 2) = 512 := rfl
    have hi0 : (i 0).val < 32 := (i 0).isLt
    match a with
    | ⟨0, _⟩ =>
      show (0 : ℕ) ≤ (i 0).val ∧ (i 0).val < 0 + S32x512.size (0 : Fin 2)
      rw [e0]; omega
    | ⟨1, _⟩ =>
      show 1024 * (L 1).val + 512 * (L 0).val ≤ (i 1).val ∧ (i 1).val < 1024 * (L 1).val + 512 * (L 0).val + S32x512.size (1 : Fin 2)
      rw [e1]; omega

omit [FloatOps F] in
theorem outSet_disjoint : ∀ t ∈ (Finset.univ : Finset TI), ∀ t' ∈ (Finset.univ : Finset TI), t ≠ t' →
    Disjoint (outSet (LT t)) (outSet (LT t')) := by
  intro t _ t' _ hne
  refine Finset.disjoint_left.mpr fun i hi hi' => hne (LT_injective ?_)
  rw [mem_outSet] at hi hi'
  unfold base at hi hi'
  omega

omit [FloatOps F] in
/-- The task whose block holds column col. -/
def taskOf (col : Fin 16384) : TI := e32.symm ⟨col.val / 512, by have := col.isLt; omega⟩

omit [FloatOps F] in
theorem base_taskOf (col : Fin 16384) : base (LT (taskOf col)) = 512 * (col.val / 512) := by
  unfold base taskOf; rw [wid_e32_symm]

omit [FloatOps F] in
theorem mem_outSet_taskOf (r : Fin 32) (col : Fin 16384) : (ix2 r col : S32x16384.Idx) ∈ outSet (LT (taskOf col)) := by
  rw [mem_outSet, base_taskOf]
  show 512 * (col.val / 512) ≤ col.val ∧ col.val < 512 * (col.val / 512) + 512
  omega

omit [FloatOps F] in
theorem outSet_cover : (Finset.univ : Finset TI).biUnion (fun t => outSet (LT t)) = Finset.univ := by
  ext i
  obtain ⟨r, col, rfl⟩ : ∃ (r : Fin 32) (col : Fin 16384), i = ix2 r col := ⟨_, _, eq_ix2 i⟩
  simp only [Finset.mem_biUnion, Finset.mem_univ, true_and, iff_true]
  exact ⟨taskOf col, mem_outSet_taskOf r col⟩

omit [FloatOps F] in
theorem out_blocks (d : Dev nD) (f : Buf (Elt F) (outLoc d)) :
    (outLoc d ↦{fullShare} f : sProp (MM F)) = bigSep Finset.univ fun t : TI => outLoc d ↦[outSet (LT t)]{fullShare} f := by
  rw [← pointsTo_biUnion Finset.univ (ℓ := outLoc d) (fun t : TI => outSet (LT t)) outSet_disjoint, outSet_cover]

/-- The result as the tasks leave it: column col is column cond col of the transposed table. -/
def OutAll (d : Dev nD) (g : Buf (Elt F) (outLoc d)) : Prop :=
  ∀ (r : Fin 32) (col : Fin 16384), g (ix2 r col) = tabT m d (ix2 r (Cert.Lookup.rowOf (m (idxLoc d)) col))

/-- The 32 blocks, each filled by its task, are the result filled. -/
theorem out_join (d : Dev nD) :
    (bigSep Finset.univ fun t : TI => iprop(∃ f, ⌜OutOK m d (LT t) f⌝ ∗ outLoc d ↦[outSet (LT t)]{fullShare} f))
      ⊢ (iprop(∃ g, ⌜OutAll m d g⌝ ∗ outLoc d ↦{fullShare} g) : sProp (MM F)) := by
  refine (bigSep_exists_pi Finset.univ
    (fun (t : TI) (f : Buf (Elt F) (outLoc d)) => iprop(⌜OutOK m d (LT t) f⌝ ∗ outLoc d ↦[outSet (LT t)]{fullShare} f))).trans ?_
  iintro ⟨%fs, H⟩
  ihave H1 := (bigSep_pure_sep Finset.univ (fun t : TI => OutOK m d (LT t) (fs t))
    (fun t : TI => (outLoc d ↦[outSet (LT t)]{fullShare} fs t : sProp (MM F)))) $$ H
  icases H1 with ⟨%hok, H⟩
  ihave H' := (pointsTo_biUnion_join Finset.univ (fun t : TI => outSet (LT t)) fs (fs (taskOf 0)) outSet_disjoint) $$ H
  icases H' with ⟨%g, %hg, Hg⟩
  rw [outSet_cover]
  iexists g
  isplitr
  · ipureintro
    intro r col
    rw [hg (taskOf col) (Finset.mem_univ _) _ (mem_outSet_taskOf r col)]
    have hb := base_taskOf col
    have hk : col.val % 512 < 512 := Nat.mod_lt _ (by decide)
    have h := hok (taskOf col) (Finset.mem_univ _) r ⟨col.val % 512, hk⟩
    have e : (⟨base (LT (taskOf col)) + col.val % 512, base_add_lt (LT (taskOf col)) ⟨col.val % 512, hk⟩⟩ : Fin 16384) = col :=
      Fin.ext (by show base (LT (taskOf col)) + col.val % 512 = col.val; rw [hb]; omega)
    rw [e] at h
    exact h
  · iexact Hg

/-! ## @main on the TensorCore -/

abbrev arg0' : DevRef τ sig := Proc.devRef .tc (main_arg0 : Ref sig .tc)
abbrev arg1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- @main's three host operations: the table transposed, its last 64 columns, the result transposed. -/
abbrev opT1 : HloOp τ sig (Elt F) :=
  StableHlo.unary main_arg1 main_v0 ((transpose S32x1000000 [1, 0] · transposes_S1000000x32_S32x1000000_1_0) : (⟨S1000000x32, .f32⟩ : BufTy).Contents (Elt F) → (⟨S32x1000000, .f32⟩ : BufTy).Contents (Elt F))
abbrev opSl : HloOp τ sig (Elt F) :=
  StableHlo.unary main_v0 main_v1 ((extractStridedSlice S32x64 ![0, 999936] · slices_S32x1000000_S32x64_0_999936) : (⟨S32x1000000, .f32⟩ : BufTy).Contents (Elt F) → (⟨S32x64, .f32⟩ : BufTy).Contents (Elt F))
abbrev opT2 : HloOp τ sig (Elt F) :=
  StableHlo.unary main_v2 main_v3 ((transpose S16384x32 [1, 0] · transposes_S32x16384_S16384x32_1_0) : (⟨S32x16384, .f32⟩ : BufTy).Contents (Elt F) → (⟨S16384x32, .f32⟩ : BufTy).Contents (Elt F))

omit [FloatOps F] in
theorem unscopedBufs_eq (d : Dev nD) (W : (b : Ref sig .tc) → Buf (Elt F) ((d.tc : Thread nD τ).loc b)) :
    (unscopedBufs d W : sProp (MM F)) = iprop((idxLoc d ↦{fullShare} W main_arg0) ∗ (embLoc d ↦{fullShare} W main_arg1)
      ∗ (tabLoc d ↦{fullShare} W main_v0) ∗ (tailLoc d ↦{fullShare} W main_v1) ∗ (outLoc d ↦{fullShare} W main_v2) ∗ resLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch valuation; the result at g. -/
def V0 (d : Dev nD) : Valuation τ sig (Elt F) := fun b => m (d, b)
def V3 (d : Dev nD) (g : Buf (Elt F) (outLoc d)) : Valuation τ sig (Elt F) := Function.update (V0 m d) v2' g

omit [FloatOps F] in
theorem held_pair (d : Dev nD) {x y : DevRef τ sig} (h : x ∉ ({y} : Finset (DevRef τ sig))) (W : Valuation τ sig (Elt F)) :
    (held (T d) {x, y} W : sProp (MM F)) = iprop(((d, x) ↦{fullShare} W x) ∗ (d, y) ↦{fullShare} W y) := by
  unfold held
  rw [SparseCore.bigSep_insert' h, bigSep_singleton]

theorem held1 (d : Dev nD) :
    (held (T d) {arg1', v0'} (V0 m d) : sProp (MM F)) = iprop((embLoc d ↦{fullShare} m (embLoc d)) ∗ tabLoc d ↦{fullShare} m (tabLoc d)) :=
  held_pair d (by decide) _
theorem held1' (d : Dev nD) :
    (held (T d) {arg1', v0'} ((opT1 (F := F)).result (V0 m d)) : sProp (MM F))
      = iprop((embLoc d ↦{fullShare} m (embLoc d)) ∗ tabLoc d ↦{fullShare} tabT m d) := by
  rw [held_pair d (by decide),
    (opT1 (F := F)).result_of_not_mem (V0 m d) (b := arg1') (show arg1' ∉ ({v0'} : Finset (DevRef τ sig)) by decide)]
  rfl
theorem held2 (d : Dev nD) :
    (held (T d) {v0', v1'} ((opT1 (F := F)).result (V0 m d)) : sProp (MM F))
      = iprop((tabLoc d ↦{fullShare} tabT m d) ∗ tailLoc d ↦{fullShare} m (tailLoc d)) := by
  rw [held_pair d (by decide),
    (opT1 (F := F)).result_of_not_mem (V0 m d) (b := v1') (show v1' ∉ ({v0'} : Finset (DevRef τ sig)) by decide)]
  rfl
theorem held2' (d : Dev nD) :
    (held (T d) {v0', v1'} ((opSl (F := F)).result ((opT1 (F := F)).result (V0 m d))) : sProp (MM F))
      = iprop((tabLoc d ↦{fullShare} tabT m d) ∗ tailLoc d ↦{fullShare} tailT m d) := by
  rw [held_pair d (by decide),
    (opSl (F := F)).result_of_not_mem ((opT1 (F := F)).result (V0 m d)) (b := v0') (show v0' ∉ ({v1'} : Finset (DevRef τ sig)) by decide)]
  rfl
theorem held3 (d : Dev nD) (g : Buf (Elt F) (outLoc d)) :
    (held (T d) {v2', v3'} (V3 m d g) : sProp (MM F)) = iprop((outLoc d ↦{fullShare} g) ∗ resLoc d ↦{fullShare} m (resLoc d)) := by
  rw [held_pair d (by decide)]
  unfold V3
  rw [Function.update_self, Function.update_of_ne (show v3' ≠ v2' by decide)]
  rfl

/-- The result transposed back. -/
def resT (d : Dev nD) (g : Buf (Elt F) (outLoc d)) : Buf (Elt F) (resLoc d) :=
  ((transpose S16384x32 [1, 0] · transposes_S32x16384_S16384x32_1_0) : (⟨S32x16384, .f32⟩ : BufTy).Contents (Elt F) → (⟨S16384x32, .f32⟩ : BufTy).Contents (Elt F)) g

theorem held3' (d : Dev nD) (g : Buf (Elt F) (outLoc d)) :
    (held (T d) {v2', v3'} ((opT2 (F := F)).result (V3 m d g)) : sProp (MM F))
      = iprop((outLoc d ↦{fullShare} g) ∗ resLoc d ↦{fullShare} resT d g) := by
  rw [held_pair d (by decide),
    (opT2 (F := F)).result_of_not_mem (V3 m d g) (b := v2') (show v2' ∉ ({v3'} : Finset (DevRef τ sig)) by decide),
    show (opT2 (F := F)).result (V3 m d g) v3' = resT d (V3 m d g v2') from StableHlo.unary_result _ _ _ _ _ _]
  unfold V3
  rw [Function.update_self]

/-- The result filled by the tasks, transposed back, is the lookup. -/
theorem resT_eq (d : Dev nD) {g : Buf (Elt F) (outLoc d)} (hg : OutAll m d g) :
    resT d g = Cert.Lookup.G (m (idxLoc d)) (m (embLoc d)) := by
  funext j
  obtain ⟨b, r, rfl⟩ : ∃ (b : Fin 16384) (r : Fin 32), j = ix2 b r := ⟨_, _, eq_ix2 j⟩
  unfold resT
  refine (transpose_ix2_apply (a := 32) (b := 16384) g _ b r).trans ?_
  rw [hg r b, Cert.Lookup.G_apply]
  exact transpose_ix2_apply (a := 1000000) (b := 32) (m (embLoc d)) _ r (Cert.Lookup.rowOf (m (idxLoc d)) b)

/-- What the call takes for the two SparseCores, and what it hands back. -/
theorem st0_eq (d : Dev nD) :
    (bigSep Finset.univ fun c : Fin ((K (F := F)).nCore 0) => (P m).st 0 d c)
      = iprop((bigSep Finset.univ fun t : TI => tabLoc d ↦{tq (LT t)} tabT m d)
        ∗ (bigSep Finset.univ fun t : TI => tailLoc d ↦{tq (LT t)} tailT m d)
        ∗ (bigSep Finset.univ fun t : TI => idxLoc d ↦{tq (LT t)} m (idxLoc d))
        ∗ bigSep Finset.univ fun t : TI => outLoc d ↦[outSet (LT t)]{fullShare} m (outLoc d)) := by
  rw [← bigSep_sep', ← bigSep_sep', ← bigSep_sep', bigSep_univ_prod]
  simp only [P_st]
  unfold tileGo
  rfl
theorem dn0_eq (d : Dev nD) :
    (bigSep Finset.univ fun c : Fin ((K (F := F)).nCore 0) => (P m).dn 0 d c)
      = iprop((bigSep Finset.univ fun t : TI => tabLoc d ↦{tq (LT t)} tabT m d)
        ∗ (bigSep Finset.univ fun t : TI => tailLoc d ↦{tq (LT t)} tailT m d)
        ∗ (bigSep Finset.univ fun t : TI => idxLoc d ↦{tq (LT t)} m (idxLoc d))
        ∗ bigSep Finset.univ fun t : TI => iprop(∃ f, ⌜OutOK m d (LT t) f⌝ ∗ outLoc d ↦[outSet (LT t)]{fullShare} f)) := by
  rw [← bigSep_sep', ← bigSep_sep', ← bigSep_sep', bigSep_univ_prod]
  simp only [P_dn]
  unfold tileTd
  rfl

theorem opT1_bufs : (opT1 (F := F)).bufs ⊆ {arg1', v0'} := Finset.Subset.refl _
theorem opSl_bufs : (opSl (F := F)).bufs ⊆ {v0', v1'} := Finset.Subset.refl _
theorem opT2_bufs : (opT2 (F := F)).bufs ⊆ {v2', v3'} := Finset.Subset.refl _

/-- What @main leaves the claim: the result at the lookup, the two arguments at their launch contents (of the indices,
    the share the TensorCore kept aside). -/
abbrev FIN (d : Dev nD) : sProp (MM F) :=
  iprop((resLoc d ↦{fullShare} Cert.Lookup.G (m (idxLoc d)) (m (embLoc d)))
    ∗ (idxLoc d ↦{Transfers.shareDrop fullShare 32} m (idxLoc d)) ∗ embLoc d ↦{fullShare} m (embLoc d))

/-- @main on device d's TensorCore: the table transposed and its tail sliced; the call, each task handed its read shares
    and its columns; the filled result transposed back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, He, Ht, Htl, Ho, Hr⟩, -, -⟩, -⟩
  -- the table transposed
  iapply (wp_hlo_within 𝒱 (SparseCore.T d) none Set.univ (op := opT1) (S := {arg1', v0'}) opT1_bufs (V := V0 m d)) $$ [Hb He Ht]
  · isplitl [Hb]; · iexact Hb
    rw [held1]
    isplitl [He]; · iexact He
    iexact Ht
  iintro ⟨Hb, Hheld⟩
  ihave Hh := (Entails.of_eq (held1' (F := F) m d)) $$ Hheld
  icases Hh with ⟨He, Ht⟩
  rw [wp_ret]; imodintro
  -- its last 64 columns
  iapply (wp_hlo_within 𝒱 (SparseCore.T d) none Set.univ (op := opSl) (S := {v0', v1'}) opSl_bufs (V := (opT1 (F := F)).result (V0 m d))) $$ [Hb Ht Htl]
  · isplitl [Hb]; · iexact Hb
    rw [held2]
    isplitl [Ht]; · iexact Ht
    iexact Htl
  iintro ⟨Hb, Hheld⟩
  ihave Hh := (Entails.of_eq (held2' (F := F) m d)) $$ Hheld
  icases Hh with ⟨Ht, Htl⟩
  rw [wp_ret]; imodintro
  -- the call: a read share of the table, the tail and the indices and its own columns of the result to each task
  ihave Ht' := (toks_split (F := F) (tabT m d)).1 $$ Ht
  icases Ht' with ⟨-, Htt⟩
  ihave Htl' := (toks_split (F := F) (tailT m d)).1 $$ Htl
  icases Htl' with ⟨-, Htlt⟩
  ihave Hi' := (toks_split (F := F) (m (idxLoc d))).1 $$ Hi
  icases Hi' with ⟨Hid, Hit⟩
  ihave Ho' := (Entails.of_eq (out_blocks (F := F) d (m (outLoc d)))) $$ Ho
  iapply ((K (F := F)).wp_run (D (F := F)) 𝒱 (EH := EH) (P := P m) κ d 0) $$ [Hst Htt Htlt Hit Ho' Hb Hr Hid He]
  isplitr; · iexact Hctx
  isplitl [Hst]; · iexact Hst
  isplitl [Htt Htlt Hit Ho']
  · rw [st0_eq]
    isplitl [Htt]; · iexact Htt
    isplitl [Htlt]; · iexact Htlt
    isplitl [Hit]; · iexact Hit
    iexact Ho'
  iintro ⟨Hst, Hdn⟩
  ihave Hdn' := (Entails.of_eq (dn0_eq m d)) $$ Hdn
  icases Hdn' with ⟨-, -, -, Hob⟩
  ihave Hg := (out_join m d) $$ Hob
  icases Hg with ⟨%g, %hg, Hg⟩
  -- the filled result transposed back
  iapply (wp_hlo_within 𝒱 (SparseCore.T d) none Set.univ (op := opT2) (S := {v2', v3'}) opT2_bufs (V := V3 m d g)) $$ [Hb Hg Hr]
  · isplitl [Hb]; · iexact Hb
    rw [held3]
    isplitl [Hg]; · iexact Hg
    iexact Hr
  iintro ⟨Hb, Hheld⟩
  ihave Hh := (Entails.of_eq (held3' (F := F) m d g)) $$ Hheld
  icases Hh with ⟨-, Hr⟩
  rw [wp_ret]; imodintro; imodintro
  isplitl [Hst]; · iexact Hst
  isplitl [Hr]; · rw [← resT_eq m d hg]; iexact Hr
  isplitl [Hid]; · iexact Hid
  iexact He

/-! ## The final memory -/

def fq (d : Dev nD) (s' : Phys nD τ sig (Elt F)) : Prop :=
  s'.mem.mem (resLoc d) = Cert.Lookup.G (m (idxLoc d)) (m (embLoc d)) ∧ s'.mem.mem (idxLoc d) = m (idxLoc d) ∧ s'.mem.mem (embLoc d) = m (embLoc d)

theorem hfin (d : Dev nD) (s' : Phys nD τ sig (Elt F)) : iprop(FIN m d ∗ SI s') ⊢ (⌜fq m d s'⌝ : sProp (MM F)) := by
  iintro ⟨⟨Hr, Hi, He⟩, HSI⟩
  ihave H := (persistent_entails_right (SI_pointsTo_agree (st := s') (ℓ := resLoc d) (I := Finset.univ) (q := fullShare)
    (f := Cert.Lookup.G (m (idxLoc d)) (m (embLoc d))))) $$ [HSI Hr]
  · isplitl [HSI] <;> iassumption
  icases H with ⟨%h1, HSI, -⟩
  ihave H := (persistent_entails_right (SI_pointsTo_agree (st := s') (ℓ := idxLoc d) (I := Finset.univ) (q := Transfers.shareDrop fullShare 32)
    (f := m (idxLoc d)))) $$ [HSI Hi]
  · isplitl [HSI] <;> iassumption
  icases H with ⟨%h2, HSI, -⟩
  ihave H := (SI_pointsTo_agree (st := s') (ℓ := embLoc d) (I := Finset.univ) (q := fullShare) (f := m (embLoc d))) $$ [HSI He]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- From the specification of one subcore's task: the whole program runs to its end, the result is the lookup of the two
    arguments and the arguments are unchanged. -/
theorem run [∀ e, Nonempty (Elt F e)] (m : (ℓ : Loc nD τ sig) → Buf (Elt F) ℓ) (ρ : Dev nD → PrngReg) (hbody : TileBody (F := F) m) :
    θ_run (Cert.Kernel.defs (F := F)) (Cert.Kernel.threads (F := F)) ⟨m, fun _ => 0, ρ⟩
      (fun r => ∀ c : Dev nD,
        r.2.mem ((c.tc : Thread nD τ).loc main_v3) = Cert.Lookup.G (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h c => h c)

end Cert.Proof.KB

end
-- ==== Proof.Assemble.lean ====
/-
  The certificate's five conjuncts, from the specification of one vector subcore's task at the two float instances.
  Both programs compute the lookup G of their two arguments: result (b, d) = table (cond b, d). The kernel's run ends
  with its result at G of the arguments and the arguments unchanged, once every subcore's task meets its specification;
  the reference's run ends with its result at its composed term, which is G wherever every index names a row of the
  table, and that is what the precondition says of the index array. So each frame is the corresponding run with the
  value dropped, the idealization rewrote no operation, and at the ideal instance the two results are the same array,
  G of arguments that agree: no law of arithmetic is used, only the indices' range.
-/
import proofs.«209800_g17188459118626_cont_7to1_163_19_alg».proof.Defs
import proofs.«209800_g17188459118626_cont_7to1_163_19_alg».proof.Proof.Spec
import proofs.«209800_g17188459118626_cont_7to1_163_19_alg».proof.Proof.PreFacts
import proofs.«209800_g17188459118626_cont_7to1_163_19_alg».proof.Proof.RefRun
import proofs.«209800_g17188459118626_cont_7to1_163_19_alg».proof.Proof.RefValue
import proofs.«209800_g17188459118626_cont_7to1_163_19_alg».proof.Proof.KI.Launch
import proofs.«209800_g17188459118626_cont_7to1_163_19_alg».proof.Proof.KB.Launch
import proofs.«209800_g17188459118626_cont_7to1_163_19_alg».proof.Proof.Gen.ReferenceIdeal
import proofs.«209800_g17188459118626_cont_7to1_163_19_alg».proof.Proof.Gen.Pre_input_domain

noncomputable section

namespace Cert.Proof.Assemble

open Idealize.ShloMosaic Idealize.SL.Sem

/-! ## The precondition: every index names a row -/

theorem inRange_KI (m : (ℓ : Loc Cert.KernelIdeal.nD Cert.KernelIdeal.τ Cert.KernelIdeal.sig) → Buf (Elt Ideal) ℓ)
    (h : Cert.Pre_KernelIdeal m) (d : Dev Cert.KernelIdeal.nD) : Cert.Lookup.InRange (m (Cert.Proof.KI.idxLoc d)) :=
  Cert.Proof.PreFacts.inRange (F := Ideal) _ _ (h d)

theorem inRange_KB (m : (ℓ : Loc Cert.Kernel.nD Cert.Kernel.τ Cert.Kernel.sig) → Buf (Elt Bits) ℓ)
    (h : Cert.Pre_Kernel m) (d : Dev Cert.Kernel.nD) : Cert.Lookup.InRange (m (Cert.Proof.KB.idxLoc d)) :=
  Cert.Proof.PreFacts.inRange (F := Bits) _ _ (h d)

/-! ## The claims -/

section

variable
  (hKI : ∀ (m : (ℓ : Loc Cert.KernelIdeal.nD Cert.KernelIdeal.τ Cert.KernelIdeal.sig) → Buf (Elt Ideal) ℓ),
    (∀ d, Cert.Lookup.InRange (m (Cert.Proof.KI.idxLoc d))) → Cert.Proof.KI.TileBody (F := Ideal) m)
  (hKB : ∀ (m : (ℓ : Loc Cert.Kernel.nD Cert.Kernel.τ Cert.Kernel.sig) → Buf (Elt Bits) ℓ),
    (∀ d, Cert.Lookup.InRange (m (Cert.Proof.KB.idxLoc d))) → Cert.Proof.KB.TileBody (F := Bits) m)

include hKB in
/-- The kernel as printed runs and leaves its arguments unchanged: its run, the value dropped. -/
theorem frame_k : Cert.frame_Kernel := fun m ρ hpre =>
  (θ_run Cert.Kernel.defs _ _).mono (fun _ h c => (h c).2) (Cert.Proof.KB.run (F := Bits) m ρ (hKB m (inRange_KB m hpre)))

include hKI in
/-- The same at the ideal instance. -/
theorem frame_ki : Cert.frame_KernelIdeal := fun m ρ hpre =>
  (θ_run Cert.KernelIdeal.defs _ _).mono (fun _ h c => (h c).2) (Cert.Proof.KI.run (F := Ideal) m ρ (hKI m (inRange_KI m hpre)))

/-- The reference runs and leaves its arguments unchanged: its run, the result dropped. -/
theorem frame_ri : Cert.frame_ReferenceIdeal := fun m ρ _ =>
  (θ_run Cert.ReferenceIdeal.defs _ _).mono (fun _ h c => (h c).2) (Cert.Proof.RefRun.run (F := Ideal) m ρ)

/-- The idealization rewrote no operation. -/
theorem preserves : Cert.preserves_Kernel_KernelIdeal := trivial

include hKI in
/-- At the ideal instance, from arguments that agree, both results are the lookup G of the kernel's arguments: the kernel's
    by its run, the reference's by its run and the value of its composed term where every index names a row. -/
theorem algebraic : Cert.algebraic_KernelIdeal_ReferenceIdeal := by
  intro m ρ m' ρ' hpre hagree
  refine ⟨fun c => Cert.Lookup.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Proof.KI.run (F := Ideal) m ρ (hKI m (inRange_KI m hpre)), ?_⟩
  refine (θ_run Cert.ReferenceIdeal.defs _ _).mono (fun _ h c => ⟨(h c).1.trans ?_, (h c).2⟩)
    (Cert.Proof.RefRun.run (F := Ideal) m' ρ')
  rw [(hagree c).1, (hagree c).2]
  exact Cert.Proof.RefValue.res_eq _ _ (inRange_KI m hpre c)

include hKI hKB in
/-- The certificate's claim, given the specification of one subcore's task at each instance. -/
theorem claim_of : Cert.Claim :=
  ⟨Cert.Kernel.Gen.facts, Cert.KernelIdeal.Gen.facts, Cert.ReferenceIdeal.Gen.facts, Cert.Pre_input_domain.Gen.facts,
    frame_k hKB, frame_ki hKI, frame_ri, preserves, algebraic hKI⟩

end

end Cert.Proof.Assemble

end
-- ==== Proof.KI.Words.lean ====
/-
  The 32-bit word arithmetic of the column lookup.  For an index word c with 0 ≤ c ≤ 999999 the kernel
  fetches the 128-column slab that starts at t = min ((c >>> 7) <<< 7) 999808, reads lane min (c − t) 127
  of it, reads column min 63 (max 0 (c − 999936)) of the last 64 columns (which start at 999936), and takes
  the latter exactly when c ≥ 999936 (every comparison signed).  Since c < 2^31 its sign bit is clear, so
  the arithmetic shift is the division by 128, the left shift the multiplication by 128 (no wrap), and the
  signed comparisons of the non-negative words are the comparisons of their values; the only word that may
  be negative is c − 999936, which is compared with 0 through its integer value.
-/
import proofs.«209800_g17188459118626_cont_7to1_163_19_alg».proof.Proof.Gen.KernelIdeal
import Idealize.ShloMosaic.PureOps

noncomputable section

namespace Cert.Proof.KI.Words

open Idealize.ShloMosaic Cert.KernelIdeal Cert.KernelIdeal.Gen

/-- The first column of the slab fetched for index c. -/
def slabW (c : BitVec 32) : BitVec 32 := Scalar.minsi (Scalar.shli (Scalar.shrsi c 7#32) 7#32) 999808#32
/-- The lane of the slab read for index c. -/
def laneW (c : BitVec 32) : BitVec 32 := Scalar.minsi (Scalar.subi c (slabW c)) 127#32
/-- The column of the last 64 columns read for index c. -/
def tailW (c : BitVec 32) : BitVec 32 := Scalar.minsi 63#32 (Scalar.maxsi 0#32 (Scalar.subi c 999936#32))
/-- Whether the value is taken from the last 64 columns. -/
def useTailW (c : BitVec 32) : BitVec 1 := Scalar.cmpi .sge c 999936#32
/-- The lane numbers 0 … 15. -/
def iotaV : IVec S16 32 := iota .scVector S16 32 [0] iota_S16_d0_w32_scVector
/-- The lane numbers 16 … 31. -/
def iota16V : IVec S16 32 := addi iotaV (broadcast S16 16#32)

/-! ## Signed comparison of words below 2^31 -/

/-- A word below 2^31 has its value as integer value. -/
theorem toInt_of_lt (x : BitVec 32) (hx : x.toNat < 2147483648) : x.toInt = (x.toNat : Int) := by
  rw [BitVec.toInt_eq_toNat_cond]; split <;> omega

/-- Signed < of two words below 2^31 is < of their values. -/
theorem slt_of_lt (x y : BitVec 32) (hx : x.toNat < 2147483648) (hy : y.toNat < 2147483648) :
    x.slt y = decide (x.toNat < y.toNat) := by
  rw [BitVec.slt_eq_decide, toInt_of_lt x hx, toInt_of_lt y hy]
  simp only [Int.ofNat_lt]

/-- Signed ≤ of two words below 2^31 is ≤ of their values. -/
theorem sle_of_lt (x y : BitVec 32) (hx : x.toNat < 2147483648) (hy : y.toNat < 2147483648) :
    x.sle y = decide (x.toNat ≤ y.toNat) := by
  rw [BitVec.sle_eq_decide, toInt_of_lt x hx, toInt_of_lt y hy]
  simp only [Int.ofNat_le]

/-! ## The slab -/

/-- (c >>ₛ 7) <<< 7 of a word below 2^31 is c / 128 * 128. -/
theorem shift_toNat (c : BitVec 32) (hc : c.toNat < 2147483648) :
    (Scalar.shli (Scalar.shrsi c 7#32) 7#32).toNat = c.toNat / 128 * 128 := by
  have hmsb : c.msb = false := by rw [BitVec.msb_eq_false_iff_two_mul_lt]; omega
  have h7 : (7#32 : BitVec 32).toNat = 7 := by decide
  have hs : (Scalar.shrsi c 7#32).toNat = c.toNat / 128 := by
    unfold Scalar.shrsi IntOp.shrsi
    rw [if_pos (by rw [h7]; omega), BitVec.toNat_sshiftRight'_of_msb_false hmsb, h7,
      Nat.shiftRight_eq_div_pow]
  unfold Scalar.shli IntOp.shli
  rw [if_pos (by rw [h7]; omega), BitVec.shiftLeft_eq', BitVec.toNat_shiftLeft, h7, hs,
    Nat.shiftLeft_eq]
  omega

theorem slabW_toNat (c : BitVec 32) (hc : c.toNat ≤ 999999) :
    (slabW c).toNat = min (c.toNat / 128 * 128) 999808 := by
  have hs := shift_toNat c (by omega)
  have hk : (999808#32 : BitVec 32).toNat = 999808 := by decide
  unfold slabW Scalar.minsi IntOp.minsi
  rw [slt_of_lt _ _ (by rw [hs]; omega) (by rw [hk]; omega), hs, hk]
  by_cases h : c.toNat / 128 * 128 < 999808
  · rw [if_pos (by simpa using h), hs]; omega
  · rw [if_neg (by simpa using h), hk]; omega

theorem slabW_le (c : BitVec 32) (hc : c.toNat ≤ 999999) : (slabW c).toNat ≤ c.toNat := by
  rw [slabW_toNat c hc]; omega

theorem slabW_dvd (c : BitVec 32) (hc : c.toNat ≤ 999999) : 128 ∣ (slabW c).toNat := by
  rw [slabW_toNat c hc]; omega

/-! ## The lane -/

theorem laneW_toNat (c : BitVec 32) (hc : c.toNat ≤ 999999) :
    (laneW c).toNat = if c.toNat < 999936 then c.toNat % 128 else 127 := by
  have hs := slabW_toNat c hc
  have hd : (Scalar.subi c (slabW c)).toNat = c.toNat - (slabW c).toNat := by
    unfold Scalar.subi IntOp.subi
    rw [BitVec.toNat_sub_of_le (by rw [BitVec.le_def]; exact slabW_le c hc)]
  have hk : (127#32 : BitVec 32).toNat = 127 := by decide
  unfold laneW Scalar.minsi IntOp.minsi
  rw [slt_of_lt _ _ (by rw [hd]; omega) (by rw [hk]; omega), hd, hk]
  by_cases h : c.toNat - (slabW c).toNat < 127
  · rw [if_pos (by simpa using h), hd]; split <;> omega
  · rw [if_neg (by simpa using h), hk]; split <;> omega

theorem laneW_lt (c : BitVec 32) (hc : c.toNat ≤ 999999) : (laneW c).toNat < 128 := by
  rw [laneW_toNat c hc]; split <;> omega

/-! ## The column of the last 64 -/

theorem tailW_toNat (c : BitVec 32) (hc : c.toNat ≤ 999999) :
    (tailW c).toNat = if 999936 ≤ c.toNat then c.toNat - 999936 else 0 := by
  have hk : (999936#32 : BitVec 32).toNat = 999936 := by decide
  have h63 : (63#32 : BitVec 32).toNat = 63 := by decide
  have h0 : (0#32 : BitVec 32).toNat = 0 := by decide
  have h0i : (0#32 : BitVec 32).toInt = 0 := by decide
  unfold tailW Scalar.minsi Scalar.maxsi Scalar.subi IntOp.minsi IntOp.maxsi IntOp.subi
  by_cases h : 999936 ≤ c.toNat
  · have hd : (c - 999936#32).toNat = c.toNat - 999936 := by
      rw [BitVec.toNat_sub_of_le (by rw [BitVec.le_def, hk]; exact h), hk]
    have hm : (if (c - 999936#32).slt 0#32 then 0#32 else c - 999936#32) = c - 999936#32 := by
      rw [slt_of_lt _ _ (by rw [hd]; omega) (by rw [h0]; omega), h0]; simp
    rw [hm, slt_of_lt _ _ (by rw [h63]; omega) (by rw [hd]; omega), h63, hd, if_pos h]
    by_cases h' : 63 < c.toNat - 999936
    · omega
    · rw [if_neg (by simpa using h'), hd]
  · have hd : (c - 999936#32).toNat = c.toNat + 4294967296 - 999936 := by
      rw [BitVec.toNat_sub, hk]; omega
    have hm : (if (c - 999936#32).slt 0#32 then 0#32 else c - 999936#32) = 0#32 := by
      rw [if_pos]
      rw [BitVec.slt_eq_decide, h0i, BitVec.toInt_eq_toNat_cond, hd]
      simp only [decide_eq_true_eq]; split <;> omega
    rw [hm, slt_of_lt _ _ (by rw [h63]; omega) (by rw [h0]; omega), h63, h0, if_neg h]
    simp

theorem tailW_lt (c : BitVec 32) (hc : c.toNat ≤ 999999) : (tailW c).toNat < 64 := by
  rw [tailW_toNat c hc]; split <;> omega

/-! ## The selector -/

theorem useTailW_eq (c : BitVec 32) (hc : c.toNat ≤ 999999) : useTailW c = 1#1 ↔ 999936 ≤ c.toNat := by
  have hk : (999936#32 : BitVec 32).toNat = 999936 := by decide
  unfold useTailW Scalar.cmpi IntOp.cmpi
  show BitVec.ofBool ((999936#32 : BitVec 32).sle c) = 1#1 ↔ _
  rw [sle_of_lt _ _ (by rw [hk]; omega) (by omega), hk]
  by_cases h : 999936 ≤ c.toNat <;> simp [h]

theorem useTailW_eq_zero (c : BitVec 32) (hc : c.toNat ≤ 999999) : useTailW c = 0#1 ↔ c.toNat < 999936 := by
  have hk : (999936#32 : BitVec 32).toNat = 999936 := by decide
  unfold useTailW Scalar.cmpi IntOp.cmpi
  show BitVec.ofBool ((999936#32 : BitVec 32).sle c) = 0#1 ↔ _
  rw [sle_of_lt _ _ (by rw [hk]; omega) (by omega), hk]
  by_cases h : 999936 ≤ c.toNat <;> simp [h] <;> omega

/-! ## The column read is column c -/

theorem column_eq (c : BitVec 32) (hc : c.toNat ≤ 999999) :
    (if 999936 ≤ c.toNat then 999936 + (tailW c).toNat else (slabW c).toNat + (laneW c).toNat) = c.toNat := by
  rw [tailW_toNat c hc, slabW_toNat c hc, laneW_toNat c hc]
  by_cases h : 999936 ≤ c.toNat
  · rw [if_pos h, if_pos h]; omega
  · rw [if_neg h, if_pos (by omega)]; omega

/-! ## The slab is a whole number of 128-column blocks inside the table -/

theorem fire_ok (c : BitVec 32) (hc : c.toNat ≤ 999999) :
    (128 ∣ (slabW c).toNat) ∧
    (∀ a, (![0, (slabW c).toNat] : Fin 2 → Nat) a + S32x128.size a ≤ S32x1000000.size a) := by
  refine ⟨slabW_dvd c hc, ?_⟩
  have hs := slabW_toNat c hc
  intro a
  fin_cases a
  · show 0 + 32 ≤ 32; omega
  · show (slabW c).toNat + 128 ≤ 1000000; omega

theorem fire_ok_cond (P : Prop) (c : BitVec 32) (hc : c.toNat ≤ 999999) :
    (∀ _ : P, 128 ∣ (slabW c).toNat) ∧
    (∀ _ : P, ∀ a, (![0, (slabW c).toNat] : Fin 2 → Nat) a + S32x128.size a ≤ S32x1000000.size a) :=
  ⟨fun _ => (fire_ok c hc).1, fun _ => (fire_ok c hc).2⟩

example (c : BitVec 32) (hc : c.toNat ≤ 999999) : k0_chk1 c := fire_ok c hc
example (c : BitVec 32) (hc : c.toNat ≤ 999999) : k0_chk2 c := fire_ok c hc
example (c : BitVec 32) (hc : c.toNat ≤ 999999) : k0_chk3 c := fire_ok c hc
example (c : BitVec 32) (hc : c.toNat ≤ 999999) : k0_chk4 c := fire_ok c hc
example (c : BitVec 32) (hc : c.toNat ≤ 999999) : k0_chk5 c := fire_ok c hc
example (c : BitVec 32) (hc : c.toNat ≤ 999999) : k0_chk6 c := fire_ok c hc
example (c : BitVec 32) (hc : c.toNat ≤ 999999) : k0_chk7 c := fire_ok c hc
example (c : BitVec 32) (hc : c.toNat ≤ 999999) : k0_chk8 c := fire_ok c hc
example (t : Fin k0_t1_loop.trips) (c : BitVec 32) (hc : c.toNat ≤ 999999) : k0_chk12 t c := fire_ok_cond _ c hc
example (t : Fin k0_t1_loop.trips) (c : BitVec 32) (hc : c.toNat ≤ 999999) : k0_chk16 t c := fire_ok_cond _ c hc
example (t : Fin k0_t1_loop.trips) (c : BitVec 32) (hc : c.toNat ≤ 999999) : k0_chk20 t c := fire_ok_cond _ c hc
example (t : Fin k0_t1_loop.trips) (c : BitVec 32) (hc : c.toNat ≤ 999999) : k0_chk24 t c := fire_ok_cond _ c hc
example (t : Fin k0_t1_loop.trips) (c : BitVec 32) (hc : c.toNat ≤ 999999) : k0_chk28 t c := fire_ok_cond _ c hc
example (t : Fin k0_t1_loop.trips) (c : BitVec 32) (hc : c.toNat ≤ 999999) : k0_chk32 t c := fire_ok_cond _ c hc
example (t : Fin k0_t1_loop.trips) (c : BitVec 32) (hc : c.toNat ≤ 999999) : k0_chk36 t c := fire_ok_cond _ c hc
example (t : Fin k0_t1_loop.trips) (c : BitVec 32) (hc : c.toNat ≤ 999999) : k0_chk40 t c := fire_ok_cond _ c hc

/-! ## The lane numbers -/

theorem iotaV_toNat (x : S16.Idx) : (iotaV x).toNat = (x 0).val := by
  have hx : (x 0).val < 16 := (x 0).isLt
  show (BitVec.ofNat 32 (0 * 16 + (x 0).val)).toNat = (x 0).val
  rw [BitVec.toNat_ofNat]; omega

theorem iota16V_toNat (x : S16.Idx) : (iota16V x).toNat = (x 0).val + 16 := by
  have hx : (x 0).val < 16 := (x 0).isLt
  have hk : (16#32 : BitVec 32).toNat = 16 := by decide
  show (iotaV x + 16#32).toNat = (x 0).val + 16
  rw [BitVec.toNat_add, iotaV_toNat, hk]; omega

/-! ## Row r and column e of a 32 × n block: r is a lane number below 32, e is below n -/

theorem chk_gen (n : Nat) (e : BitVec 32) (he : e.toNat < n) :
    (∀ a x, ((![iotaV, broadcast S16 e] : Fin 2 → IVec S16 32) a x).toNat < (⟨2, ![32, n]⟩ : Shape).size a) ∧
    (∀ a x, ((![iota16V, broadcast S16 e] : Fin 2 → IVec S16 32) a x).toNat < (⟨2, ![32, n]⟩ : Shape).size a) := by
  constructor <;> intro a x <;> fin_cases a
  · have hx : (x 0).val < 16 := (x 0).isLt
    show (iotaV x).toNat < 32
    rw [iotaV_toNat]; omega
  · show e.toNat < n
    exact he
  · have hx : (x 0).val < 16 := (x 0).isLt
    show (iota16V x).toNat < 32
    rw [iota16V_toNat]; omega
  · show e.toNat < n
    exact he

theorem chkSlab (c : BitVec 32) (hc : c.toNat ≤ 999999) :
    (∀ a x, ((![iotaV, broadcast S16 (laneW c)] : Fin 2 → IVec S16 32) a x).toNat < S32x128.size a) ∧
    (∀ a x, ((![iota16V, broadcast S16 (laneW c)] : Fin 2 → IVec S16 32) a x).toNat < S32x128.size a) :=
  chk_gen 128 (laneW c) (laneW_lt c hc)

theorem chkTail (c : BitVec 32) (hc : c.toNat ≤ 999999) :
    (∀ a x, ((![iotaV, broadcast S16 (tailW c)] : Fin 2 → IVec S16 32) a x).toNat < S32x64.size a) ∧
    (∀ a x, ((![iota16V, broadcast S16 (tailW c)] : Fin 2 → IVec S16 32) a x).toNat < S32x64.size a) :=
  chk_gen 64 (tailW c) (tailW_lt c hc)

theorem chkCol (e : BitVec 32) (he : e.toNat < 512) :
    (∀ a x, ((![iotaV, broadcast S16 e] : Fin 2 → IVec S16 32) a x).toNat < S32x512.size a) ∧
    (∀ a x, ((![iota16V, broadcast S16 e] : Fin 2 → IVec S16 32) a x).toNat < S32x512.size a) :=
  chk_gen 512 e he

example (c : BitVec 32) (hc : c.toNat ≤ 999999) : k0_chk9 iotaV iota16V (broadcast S16 (laneW c)) := chkSlab c hc
example (c : BitVec 32) (hc : c.toNat ≤ 999999) : k0_chk10 iotaV iota16V (broadcast S16 (tailW c)) := chkTail c hc
example (e : BitVec 32) (he : e.toNat < 512) : k0_chk11 iotaV iota16V (broadcast S16 e) := chkCol e he

end Cert.Proof.KI.Words
-- ==== Proof.KI.Mems.lean ====
/-
  The pieces of memory a subcore's task names, in the program's own spelling: slab b of the eight-slab scratch
  (one 32 × 128 block), and the 128 columns of the transposed table that start at a given column.
-/
import proofs.«209800_g17188459118626_cont_7to1_163_19_alg».proof.Proof.KI.Iface
import proofs.«209800_g17188459118626_cont_7to1_163_19_alg».proof.Proof.KI.Words

noncomputable section

namespace Cert.Proof.KI

open Cert.KernelIdeal Cert.KernelIdeal.Gen
open Idealize.ShloMosaic

/-- Slab b of the slab scratch, as the program slices and squeezes it. -/
abbrev slabM (b : ℕ) (hb : ∀ a, (![b, 0, 0] : Fin 3 → Nat) a + S1x32x128.size a ≤ S8x32x128.size a) : Memref sig .scVector .vmem S32x128 .f32 :=
  ((Memref.whole cc0_scratch1 : Memref sig .scVector .vmem S8x32x128 .f32).slice (Rect.unit (s := S8x32x128) ![b, 0, 0] S1x32x128.size hb) (fun _ => rfl)).squeeze S32x128 squeezes_S1x32x128_S32x128

theorem slab_inb (b : Fin 8) : ∀ a, (![b.val, 0, 0] : Fin 3 → Nat) a + S1x32x128.size a ≤ S8x32x128.size a := by
  have := b.isLt; intro a; fin_cases a
  · show b.val + 1 ≤ 8; omega
  · show 0 + 32 ≤ 32; omega
  · show 0 + 128 ≤ 128; omega

/-- The 128 columns of the transposed table starting at column o 1 (o 0 = 0 in every use). -/
abbrev srcM (o : Fin 2 → Nat) (ho : ∀ a, o a + S32x128.size a ≤ S32x1000000.size a) : Memref sig .scVector .hbm S32x128 .f32 :=
  (Memref.whole main_v0_scv : Memref sig .scVector .hbm S32x1000000 .f32).slice (Rect.unit (s := S32x1000000) o S32x128.size ho) (fun _ => rfl)

/-- The slab of columns the index word c names: columns slabW c … slabW c + 127. -/
abbrev srcW (c : BitVec 32) (hc : c.toNat ≤ 999999) : Memref sig .scVector .hbm S32x128 .f32 :=
  srcM ![0, (Words.slabW c).toNat] (Words.fire_ok c hc).2

end Cert.Proof.KI

end
-- ==== Proof.KI.Inv.lean ====
/-
  What a subcore's task holds between two trips of its loop. Before trip j (j = 0 … 64): the index scratch holds the
  subcore's 512 indices, the tail scratch the table's last 64 columns, columns 0 … 8 j − 1 of the column scratch are
  filled with the looked-up columns, and — while trips remain — each of the eight slots is fetching the 128-column
  group of element 8 j + b; after the last trip every slot is at rest.
-/
import proofs.«209800_g17188459118626_cont_7to1_163_19_alg».proof.Proof.KI.Mems

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

/-- The arrays and scratches whole, as the body table passes them. -/
abbrev tabW : Memref sig .scVector .hbm S32x1000000 .f32 := Memref.whole main_v0_scv
abbrev idxW : Memref sig .scVector .hbm S16384 .i32 := Memref.whole main_arg0_scv
abbrev tailW : Memref sig .scVector .hbm S32x64 .f32 := Memref.whole main_v1_scv
abbrev outW : Memref sig .scVector .hbm S32x16384 .f32 := Memref.whole main_v2_scv
abbrev sIdxW : Memref sig .scVector .vmem S528 .i32 := Memref.whole cc0_scratch0
abbrev sSlabW : Memref sig .scVector .vmem S8x32x128 .f32 := Memref.whole cc0_scratch1
abbrev sTailW : Memref sig .scVector .vmem S32x64 .f32 := Memref.whole cc0_scratch2
abbrev sColW : Memref sig .scVector .vmem S32x512 .f32 := Memref.whole cc0_scratch3

/-- An index word that names a row of the table. -/
abbrev RW : Type := {v : BitVec 32 // v.toNat ≤ 999999}

variable (m : (ℓ : Loc nD τ sig) → Buf (Elt F) ℓ) (d : Dev nD) (L : grid0.Coords)

/-- Word e of the index scratch (zero past its end). -/
def cw (gi : Buf (Elt F) ((sIdxW).view.loc (VT d L))) (e : ℕ) : BitVec 32 :=
  if h : e < 528 then gi (ix1 ⟨e, h⟩) else 0#32

variable [FloatOps F]

/-- Slot 0 fetching the 128 columns the index word w names: the wait's capability, which delivers the slab filled
    and the lent piece of the slot's read token, beside the rest of that token. -/
def fly0 (w : RW) : sProp (MM F) :=
  iprop((∃ f, Transfers.Flight countersEmb (VT d L) (SemLoc.dma ⟨0, by decide⟩ : SemLoc sig) default 131072
        iprop(((slabM 0 inb_S8x32x128_S1x32x128_0_0_0).view.loc (VT d L) ↦[(slabM 0 inb_S8x32x128_S1x32x128_0_0_0).view.set]{fullShare}
              (slabM 0 inb_S8x32x128_S1x32x128_0_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 0} tabT m d)))
    ∗ ((tabW).view.loc (VT d L) ↦[Finset.univ \ (srcW w.1 w.2).view.set]{Transfers.shareTokN (tq L) 0} tabT m d))

/-- Slot 0 at rest: its counter at zero, its slab at anything, its read token whole. -/
def free0 : sProp (MM F) :=
  iprop(semVal ((VT d L, (SemLoc.dma ⟨0, by decide⟩ : SemLoc sig)) : GSem nD τ sig) 0
    ∗ (∃ f, (slabM 0 inb_S8x32x128_S1x32x128_0_0_0).view.loc (VT d L) ↦[(slabM 0 inb_S8x32x128_S1x32x128_0_0_0).view.set]{fullShare} f)
    ∗ ((tabW).view.loc (VT d L) ↦{Transfers.shareTokN (tq L) 0} tabT m d))

/-- Slot 0 before trip j: fetching for element 8 j + 0 while trips remain, at rest after the last. -/
def slot0 (gi : Buf (Elt F) ((sIdxW).view.loc (VT d L))) (j : ℕ) : sProp (MM F) :=
  if j < 64 then iprop(∃ w : RW, ⌜w.1 = cw d L gi (8 * j + 0)⌝ ∗ fly0 m d L w) else free0 m d L

/-- Slot 1 fetching the 128 columns the index word w names: the wait's capability, which delivers the slab filled
    and the lent piece of the slot's read token, beside the rest of that token. -/
def fly1 (w : RW) : sProp (MM F) :=
  iprop((∃ f, Transfers.Flight countersEmb (VT d L) (SemLoc.dma ⟨1, by decide⟩ : SemLoc sig) default 131072
        iprop(((slabM 1 inb_S8x32x128_S1x32x128_1_0_0).view.loc (VT d L) ↦[(slabM 1 inb_S8x32x128_S1x32x128_1_0_0).view.set]{fullShare}
              (slabM 1 inb_S8x32x128_S1x32x128_1_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 1} tabT m d)))
    ∗ ((tabW).view.loc (VT d L) ↦[Finset.univ \ (srcW w.1 w.2).view.set]{Transfers.shareTokN (tq L) 1} tabT m d))

/-- Slot 1 at rest: its counter at zero, its slab at anything, its read token whole. -/
def free1 : sProp (MM F) :=
  iprop(semVal ((VT d L, (SemLoc.dma ⟨1, by decide⟩ : SemLoc sig)) : GSem nD τ sig) 0
    ∗ (∃ f, (slabM 1 inb_S8x32x128_S1x32x128_1_0_0).view.loc (VT d L) ↦[(slabM 1 inb_S8x32x128_S1x32x128_1_0_0).view.set]{fullShare} f)
    ∗ ((tabW).view.loc (VT d L) ↦{Transfers.shareTokN (tq L) 1} tabT m d))

/-- Slot 1 before trip j: fetching for element 8 j + 1 while trips remain, at rest after the last. -/
def slot1 (gi : Buf (Elt F) ((sIdxW).view.loc (VT d L))) (j : ℕ) : sProp (MM F) :=
  if j < 64 then iprop(∃ w : RW, ⌜w.1 = cw d L gi (8 * j + 1)⌝ ∗ fly1 m d L w) else free1 m d L

/-- Slot 2 fetching the 128 columns the index word w names: the wait's capability, which delivers the slab filled
    and the lent piece of the slot's read token, beside the rest of that token. -/
def fly2 (w : RW) : sProp (MM F) :=
  iprop((∃ f, Transfers.Flight countersEmb (VT d L) (SemLoc.dma ⟨2, by decide⟩ : SemLoc sig) default 131072
        iprop(((slabM 2 inb_S8x32x128_S1x32x128_2_0_0).view.loc (VT d L) ↦[(slabM 2 inb_S8x32x128_S1x32x128_2_0_0).view.set]{fullShare}
              (slabM 2 inb_S8x32x128_S1x32x128_2_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 2} tabT m d)))
    ∗ ((tabW).view.loc (VT d L) ↦[Finset.univ \ (srcW w.1 w.2).view.set]{Transfers.shareTokN (tq L) 2} tabT m d))

/-- Slot 2 at rest: its counter at zero, its slab at anything, its read token whole. -/
def free2 : sProp (MM F) :=
  iprop(semVal ((VT d L, (SemLoc.dma ⟨2, by decide⟩ : SemLoc sig)) : GSem nD τ sig) 0
    ∗ (∃ f, (slabM 2 inb_S8x32x128_S1x32x128_2_0_0).view.loc (VT d L) ↦[(slabM 2 inb_S8x32x128_S1x32x128_2_0_0).view.set]{fullShare} f)
    ∗ ((tabW).view.loc (VT d L) ↦{Transfers.shareTokN (tq L) 2} tabT m d))

/-- Slot 2 before trip j: fetching for element 8 j + 2 while trips remain, at rest after the last. -/
def slot2 (gi : Buf (Elt F) ((sIdxW).view.loc (VT d L))) (j : ℕ) : sProp (MM F) :=
  if j < 64 then iprop(∃ w : RW, ⌜w.1 = cw d L gi (8 * j + 2)⌝ ∗ fly2 m d L w) else free2 m d L

/-- Slot 3 fetching the 128 columns the index word w names: the wait's capability, which delivers the slab filled
    and the lent piece of the slot's read token, beside the rest of that token. -/
def fly3 (w : RW) : sProp (MM F) :=
  iprop((∃ f, Transfers.Flight countersEmb (VT d L) (SemLoc.dma ⟨3, by decide⟩ : SemLoc sig) default 131072
        iprop(((slabM 3 inb_S8x32x128_S1x32x128_3_0_0).view.loc (VT d L) ↦[(slabM 3 inb_S8x32x128_S1x32x128_3_0_0).view.set]{fullShare}
              (slabM 3 inb_S8x32x128_S1x32x128_3_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 3} tabT m d)))
    ∗ ((tabW).view.loc (VT d L) ↦[Finset.univ \ (srcW w.1 w.2).view.set]{Transfers.shareTokN (tq L) 3} tabT m d))

/-- Slot 3 at rest: its counter at zero, its slab at anything, its read token whole. -/
def free3 : sProp (MM F) :=
  iprop(semVal ((VT d L, (SemLoc.dma ⟨3, by decide⟩ : SemLoc sig)) : GSem nD τ sig) 0
    ∗ (∃ f, (slabM 3 inb_S8x32x128_S1x32x128_3_0_0).view.loc (VT d L) ↦[(slabM 3 inb_S8x32x128_S1x32x128_3_0_0).view.set]{fullShare} f)
    ∗ ((tabW).view.loc (VT d L) ↦{Transfers.shareTokN (tq L) 3} tabT m d))

/-- Slot 3 before trip j: fetching for element 8 j + 3 while trips remain, at rest after the last. -/
def slot3 (gi : Buf (Elt F) ((sIdxW).view.loc (VT d L))) (j : ℕ) : sProp (MM F) :=
  if j < 64 then iprop(∃ w : RW, ⌜w.1 = cw d L gi (8 * j + 3)⌝ ∗ fly3 m d L w) else free3 m d L

/-- Slot 4 fetching the 128 columns the index word w names: the wait's capability, which delivers the slab filled
    and the lent piece of the slot's read token, beside the rest of that token. -/
def fly4 (w : RW) : sProp (MM F) :=
  iprop((∃ f, Transfers.Flight countersEmb (VT d L) (SemLoc.dma ⟨4, by decide⟩ : SemLoc sig) default 131072
        iprop(((slabM 4 inb_S8x32x128_S1x32x128_4_0_0).view.loc (VT d L) ↦[(slabM 4 inb_S8x32x128_S1x32x128_4_0_0).view.set]{fullShare}
              (slabM 4 inb_S8x32x128_S1x32x128_4_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 4} tabT m d)))
    ∗ ((tabW).view.loc (VT d L) ↦[Finset.univ \ (srcW w.1 w.2).view.set]{Transfers.shareTokN (tq L) 4} tabT m d))

/-- Slot 4 at rest: its counter at zero, its slab at anything, its read token whole. -/
def free4 : sProp (MM F) :=
  iprop(semVal ((VT d L, (SemLoc.dma ⟨4, by decide⟩ : SemLoc sig)) : GSem nD τ sig) 0
    ∗ (∃ f, (slabM 4 inb_S8x32x128_S1x32x128_4_0_0).view.loc (VT d L) ↦[(slabM 4 inb_S8x32x128_S1x32x128_4_0_0).view.set]{fullShare} f)
    ∗ ((tabW).view.loc (VT d L) ↦{Transfers.shareTokN (tq L) 4} tabT m d))

/-- Slot 4 before trip j: fetching for element 8 j + 4 while trips remain, at rest after the last. -/
def slot4 (gi : Buf (Elt F) ((sIdxW).view.loc (VT d L))) (j : ℕ) : sProp (MM F) :=
  if j < 64 then iprop(∃ w : RW, ⌜w.1 = cw d L gi (8 * j + 4)⌝ ∗ fly4 m d L w) else free4 m d L

/-- Slot 5 fetching the 128 columns the index word w names: the wait's capability, which delivers the slab filled
    and the lent piece of the slot's read token, beside the rest of that token. -/
def fly5 (w : RW) : sProp (MM F) :=
  iprop((∃ f, Transfers.Flight countersEmb (VT d L) (SemLoc.dma ⟨5, by decide⟩ : SemLoc sig) default 131072
        iprop(((slabM 5 inb_S8x32x128_S1x32x128_5_0_0).view.loc (VT d L) ↦[(slabM 5 inb_S8x32x128_S1x32x128_5_0_0).view.set]{fullShare}
              (slabM 5 inb_S8x32x128_S1x32x128_5_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 5} tabT m d)))
    ∗ ((tabW).view.loc (VT d L) ↦[Finset.univ \ (srcW w.1 w.2).view.set]{Transfers.shareTokN (tq L) 5} tabT m d))

/-- Slot 5 at rest: its counter at zero, its slab at anything, its read token whole. -/
def free5 : sProp (MM F) :=
  iprop(semVal ((VT d L, (SemLoc.dma ⟨5, by decide⟩ : SemLoc sig)) : GSem nD τ sig) 0
    ∗ (∃ f, (slabM 5 inb_S8x32x128_S1x32x128_5_0_0).view.loc (VT d L) ↦[(slabM 5 inb_S8x32x128_S1x32x128_5_0_0).view.set]{fullShare} f)
    ∗ ((tabW).view.loc (VT d L) ↦{Transfers.shareTokN (tq L) 5} tabT m d))

/-- Slot 5 before trip j: fetching for element 8 j + 5 while trips remain, at rest after the last. -/
def slot5 (gi : Buf (Elt F) ((sIdxW).view.loc (VT d L))) (j : ℕ) : sProp (MM F) :=
  if j < 64 then iprop(∃ w : RW, ⌜w.1 = cw d L gi (8 * j + 5)⌝ ∗ fly5 m d L w) else free5 m d L

/-- Slot 6 fetching the 128 columns the index word w names: the wait's capability, which delivers the slab filled
    and the lent piece of the slot's read token, beside the rest of that token. -/
def fly6 (w : RW) : sProp (MM F) :=
  iprop((∃ f, Transfers.Flight countersEmb (VT d L) (SemLoc.dma ⟨6, by decide⟩ : SemLoc sig) default 131072
        iprop(((slabM 6 inb_S8x32x128_S1x32x128_6_0_0).view.loc (VT d L) ↦[(slabM 6 inb_S8x32x128_S1x32x128_6_0_0).view.set]{fullShare}
              (slabM 6 inb_S8x32x128_S1x32x128_6_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 6} tabT m d)))
    ∗ ((tabW).view.loc (VT d L) ↦[Finset.univ \ (srcW w.1 w.2).view.set]{Transfers.shareTokN (tq L) 6} tabT m d))

/-- Slot 6 at rest: its counter at zero, its slab at anything, its read token whole. -/
def free6 : sProp (MM F) :=
  iprop(semVal ((VT d L, (SemLoc.dma ⟨6, by decide⟩ : SemLoc sig)) : GSem nD τ sig) 0
    ∗ (∃ f, (slabM 6 inb_S8x32x128_S1x32x128_6_0_0).view.loc (VT d L) ↦[(slabM 6 inb_S8x32x128_S1x32x128_6_0_0).view.set]{fullShare} f)
    ∗ ((tabW).view.loc (VT d L) ↦{Transfers.shareTokN (tq L) 6} tabT m d))

/-- Slot 6 before trip j: fetching for element 8 j + 6 while trips remain, at rest after the last. -/
def slot6 (gi : Buf (Elt F) ((sIdxW).view.loc (VT d L))) (j : ℕ) : sProp (MM F) :=
  if j < 64 then iprop(∃ w : RW, ⌜w.1 = cw d L gi (8 * j + 6)⌝ ∗ fly6 m d L w) else free6 m d L

/-- Slot 7 fetching the 128 columns the index word w names: the wait's capability, which delivers the slab filled
    and the lent piece of the slot's read token, beside the rest of that token. -/
def fly7 (w : RW) : sProp (MM F) :=
  iprop((∃ f, Transfers.Flight countersEmb (VT d L) (SemLoc.dma ⟨7, by decide⟩ : SemLoc sig) default 131072
        iprop(((slabM 7 inb_S8x32x128_S1x32x128_7_0_0).view.loc (VT d L) ↦[(slabM 7 inb_S8x32x128_S1x32x128_7_0_0).view.set]{fullShare}
              (slabM 7 inb_S8x32x128_S1x32x128_7_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 7} tabT m d)))
    ∗ ((tabW).view.loc (VT d L) ↦[Finset.univ \ (srcW w.1 w.2).view.set]{Transfers.shareTokN (tq L) 7} tabT m d))

/-- Slot 7 at rest: its counter at zero, its slab at anything, its read token whole. -/
def free7 : sProp (MM F) :=
  iprop(semVal ((VT d L, (SemLoc.dma ⟨7, by decide⟩ : SemLoc sig)) : GSem nD τ sig) 0
    ∗ (∃ f, (slabM 7 inb_S8x32x128_S1x32x128_7_0_0).view.loc (VT d L) ↦[(slabM 7 inb_S8x32x128_S1x32x128_7_0_0).view.set]{fullShare} f)
    ∗ ((tabW).view.loc (VT d L) ↦{Transfers.shareTokN (tq L) 7} tabT m d))

/-- Slot 7 before trip j: fetching for element 8 j + 7 while trips remain, at rest after the last. -/
def slot7 (gi : Buf (Elt F) ((sIdxW).view.loc (VT d L))) (j : ℕ) : sProp (MM F) :=
  if j < 64 then iprop(∃ w : RW, ⌜w.1 = cw d L gi (8 * j + 7)⌝ ∗ fly7 m d L w) else free7 m d L

/-- Columns 0 … n − 1 of the column scratch are the looked-up columns. -/
def ColsOK (n : ℕ) (gc : Buf (Elt F) ((sColW).view.loc (VT d L))) : Prop :=
  ∀ (r : Fin 32) (k : Fin 512), k.val < n →
    gc (ix2 r k) = tabT m d (ix2 r (Cert.Lookup.rowOf (m (idxLoc d)) ⟨base L + k.val, base_add_lt L k⟩))

/-- The loop's invariant before trip j. -/
def inv (O : CellTallies nD τ sig (HIx 1)) (W : Waits sig (HIx 1))
    (gi : Buf (Elt F) ((sIdxW).view.loc (VT d L))) (gt : Buf (Elt F) ((sTailW).view.loc (VT d L))) (j : ℕ) (_ : Unit) : sProp (MM F) :=
  iprop(Transfers.MayWaits (VT d L) (none : HIx 1) O
    ∗ ((sIdxW).view.loc (VT d L) ↦{fullShare} gi)
    ∗ ((sTailW).view.loc (VT d L) ↦{fullShare} gt)
    ∗ (∃ gc, ⌜ColsOK m d L (8 * j) gc⌝ ∗ ((sColW).view.loc (VT d L) ↦{fullShare} gc))
    ∗ slot0 m d L gi j ∗ slot1 m d L gi j ∗ slot2 m d L gi j ∗ slot3 m d L gi j
    ∗ slot4 m d L gi j ∗ slot5 m d L gi j ∗ slot6 m d L gi j ∗ slot7 m d L gi j
    ∗ ∃ W', ⌜∀ p ∈ W', p ∈ W ∨ p.2 = none⌝ ∗ owes (VT d L) O W')

/-- The index scratch holds the subcore's 512 indices. -/
def IdxHolds (gi : Buf (Elt F) ((sIdxW).view.loc (VT d L))) : Prop :=
  ∀ k : Fin 512, gi (ix1 ⟨k.val, by have := k.isLt; omega⟩) = m (idxLoc d) (ix1 ⟨base L + k.val, base_add_lt L k⟩)

/-- The tail scratch holds the table's last 64 columns. -/
def TailHolds (gt : Buf (Elt F) ((sTailW).view.loc (VT d L))) : Prop :=
  ∀ (r : Fin 32) (l : Fin 64), gt (ix2 r l) = tabT m d (ix2 r ⟨999936 + l.val, by have := l.isLt; omega⟩)

/-- One trip of the loop takes the invariant before it to the invariant after it. -/
def RegionStep (O : CellTallies nD τ sig (HIx 1)) (W : Waits sig (HIx 1))
    (gi : Buf (Elt F) ((sIdxW).view.loc (VT d L))) (gt : Buf (Elt F) ((sTailW).view.loc (VT d L))) : Prop :=
  ∀ (k : Fin k0_t1_loop.trips) (acc : Unit),
    inv m d L O W gi gt k.val acc
      ⊢ wp frame (wpE (defs₀ (F := F)) 𝒱₀ (VT d L) none) Set.univ
          (k0_t1_body (F := F) L tabW (Memref.isWhole_whole _) idxW (Memref.isWhole_whole _) tailW (Memref.isWhole_whole _) outW (Memref.isWhole_whole _)
            sIdxW (Memref.isWhole_whole _) sSlabW (Memref.isWhole_whole _) sTailW (Memref.isWhole_whole _) sColW (Memref.isWhole_whole _)
            cc0_scratch4 cc0_scratch5 cc0_scratch6 cc0_scratch7 cc0_scratch8 cc0_scratch9 cc0_scratch10 cc0_scratch11 cc0_scoped0 cc0_scoped1 cc0_scoped2
            Words.iotaV Words.iota16V 0#32 1#32 k acc)
          (inv m d L O W gi gt (k.val + 1))

end Cert.Proof.KI

end
-- ==== Proof.KI.Open.lean ====
/-
  Opening a vector subcore's resources into the separate hypotheses a step-by-step run of its task names, and
  closing them again: its eleven scoped DMA semaphores (at zero) and four scratch buffers out of everything it
  owns, the eight 32 × 128 slabs of the slab scratch, the arrays under the spelling the task's memrefs give
  them, and the subcore's read share of the transposed table cut into eight tokens and a remainder.
  Separation-logic algebra over finite sets only: a separating conjunction over a finite set is the
  conjunction over any duplicate-free list of its elements beside the conjunction over the rest, and a
  points-to over a disjoint union is the conjunction of the points-tos over the parts.
-/
import proofs.«209800_g17188459118626_cont_7to1_163_19_alg».proof.Proof.KI.Mems
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## Separating conjunctions over lists -/

section Lists

variable {M : Type} [URA M] {I : Type} [DecidableEq I]

/-- The propositions of a list, separated (right-nested, no trailing emp after the last). -/
def sepList : List (sProp M) → sProp M
  | [] => iprop(emp)
  | [P] => P
  | P :: Q :: l => iprop(P ∗ sepList (Q :: l))

/-- Over the elements of a duplicate-free list, the conjunction is the list's. -/
theorem bigSep_toFinset (l : List I) (hnd : l.Nodup) (Φ : I → sProp M) :
    bigSep l.toFinset Φ = sepList (l.map Φ) := by
  induction l with
  | nil => rw [List.toFinset_nil, bigSep_empty]; rfl
  | cons a l ih =>
    have hnd' := List.nodup_cons.mp hnd
    cases l with
    | nil => rw [List.toFinset_cons, List.toFinset_nil, LawfulSingleton.insert_empty_eq, bigSep_singleton]; rfl
    | cons b l =>
      have ha : a ∉ (b :: l).toFinset := by rw [List.mem_toFinset]; exact hnd'.1
      rw [List.toFinset_cons, SparseCore.bigSep_insert' ha, ih hnd'.2]; rfl

/-- A finite set that holds the elements of a duplicate-free list: they first, one by one, then the rest. -/
theorem bigSep_open_list (l : List I) (hnd : l.Nodup) (s : Finset I) (hs : ∀ a ∈ l, a ∈ s) (Φ : I → sProp M) :
    bigSep s Φ = l.foldr (fun a P => iprop(Φ a ∗ P)) (bigSep (s \ l.toFinset) Φ) := by
  induction l generalizing s with
  | nil => rw [List.toFinset_nil, Finset.sdiff_empty]; rfl
  | cons a l ih =>
    have hnd' := List.nodup_cons.mp hnd
    have e : s.erase a \ l.toFinset = s \ (a :: l).toFinset := by
      ext x
      simp only [Finset.mem_sdiff, Finset.mem_erase, List.toFinset_cons, Finset.mem_insert]
      tauto
    rw [SparseCore.bigSep_erase' (hs a (List.mem_cons_self ..)),
      ih hnd'.2 (s.erase a) (fun b hb => Finset.mem_erase.mpr
        ⟨fun e => hnd'.1 (e ▸ hb), hs b (List.mem_cons_of_mem _ hb)⟩), e]
    rfl

end Lists

section Tile

variable (d : Dev nD) (L : grid0.Coords)

/-! ## The subcore's own semaphores and buffers -/

/-- The subcore's eleven scoped DMA semaphores. -/
def semLocs : List (SemLoc sig) :=
  [.dma (SemArray.sem cc0_scratch4), .dma (SemArray.sem cc0_scratch5), .dma (SemArray.sem cc0_scratch6),
   .dma (SemArray.sem cc0_scratch7), .dma (SemArray.sem cc0_scratch8), .dma (SemArray.sem cc0_scratch9),
   .dma (SemArray.sem cc0_scratch10), .dma (SemArray.sem cc0_scratch11), .dma (SemArray.sem cc0_scoped0),
   .dma (SemArray.sem cc0_scoped1), .dma (SemArray.sem cc0_scoped2)]

/-- Their cells on a thread. -/
def semCells (thr : Thread nD τ) : Finset (GSem nD τ sig) :=
  (semLocs.map fun a => ((thr, a) : GSem nD τ sig)).toFinset

theorem semLocs_nodup : semLocs.Nodup := by decide
theorem semLocs_scoped : ∀ a ∈ semLocs, a.isScoped .scVector = true := by decide

theorem ownSems0_VT :
    (ownSems0 (VT d L) : sProp (MM F))
      = iprop(semVal ((VT d L, SemLoc.dma (SemArray.sem cc0_scratch4)) : GSem nD τ sig) 0
          ∗ semVal ((VT d L, SemLoc.dma (SemArray.sem cc0_scratch5)) : GSem nD τ sig) 0
          ∗ semVal ((VT d L, SemLoc.dma (SemArray.sem cc0_scratch6)) : GSem nD τ sig) 0
          ∗ semVal ((VT d L, SemLoc.dma (SemArray.sem cc0_scratch7)) : GSem nD τ sig) 0
          ∗ semVal ((VT d L, SemLoc.dma (SemArray.sem cc0_scratch8)) : GSem nD τ sig) 0
          ∗ semVal ((VT d L, SemLoc.dma (SemArray.sem cc0_scratch9)) : GSem nD τ sig) 0
          ∗ semVal ((VT d L, SemLoc.dma (SemArray.sem cc0_scratch10)) : GSem nD τ sig) 0
          ∗ semVal ((VT d L, SemLoc.dma (SemArray.sem cc0_scratch11)) : GSem nD τ sig) 0
          ∗ semVal ((VT d L, SemLoc.dma (SemArray.sem cc0_scoped0)) : GSem nD τ sig) 0
          ∗ semVal ((VT d L, SemLoc.dma (SemArray.sem cc0_scoped1)) : GSem nD τ sig) 0
          ∗ semVal ((VT d L, SemLoc.dma (SemArray.sem cc0_scoped2)) : GSem nD τ sig) 0
          ∗ bigSep (ownCells (VT d L) \ semCells (VT d L)) fun g => semVal g 0) := by
  unfold SparseCore.Cfg.ownSems0 semCells
  have h := bigSep_open_list (M := MM F) (semLocs.map fun a => ((VT d L, a) : GSem nD τ sig))
    (List.Nodup.map (fun a b e => (Prod.ext_iff.mp e).2) semLocs_nodup)
    (ownCells (VT d L))
    (fun g hg => by
      obtain ⟨a, ha, rfl⟩ := List.mem_map.mp hg
      exact mem_ownCells.mpr ⟨rfl, semLocs_scoped a ha⟩)
    (fun g => semVal g 0)
  simpa only [semLocs, List.map_cons, List.map_nil, List.foldr_cons, List.foldr_nil] using h

/-- The subcore's four scratch buffers. -/
def bufList : List (Ref sig .scVector) := [cc0_scratch0, cc0_scratch1, cc0_scratch2, cc0_scratch3]

/-- The same as buffers of a processor. -/
def bufRefs (c : Fin τ.nSC) (i : Fin τ.nSub) : Finset (DevRef τ sig) :=
  (bufList.map (Proc.scVector c i).devRef).toFinset

theorem bufList_nodup : bufList.Nodup := by decide

theorem ownBufs_VT :
    (ownBufs (VT d L) : sProp (MM F))
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (ownRefs (τ := τ) (.scVector ((L 0).castLE hcore0) ((L 1).castLE hsub0)) \ bufRefs ((L 0).castLE hcore0) ((L 1).castLE hsub0))
              fun b => iprop(∃ f, (((VT d L).1, b) : Loc nD τ sig) ↦{fullShare} f)) := by
  unfold SparseCore.Cfg.ownBufs bufRefs
  have h := bigSep_open_list (M := MM F) (bufList.map (Proc.scVector ((L 0).castLE hcore0) ((L 1).castLE hsub0)).devRef)
    (List.Nodup.map (Proc.devRef_injective _) bufList_nodup)
    (ownRefs (τ := τ) (.scVector ((L 0).castLE hcore0) ((L 1).castLE hsub0)))
    (fun b hb => by
      obtain ⟨r, hr, rfl⟩ := List.mem_map.mp hb
      simp only [bufList, List.mem_cons, List.mem_nil_iff, or_false] at hr
      rcases hr with rfl | rfl | rfl | rfl <;> exact SparseCore.Cfg.mem_ownRefs_of_owner rfl)
    (fun b => iprop(∃ f, (((VT d L).1, b) : Loc nD τ sig) ↦{fullShare} f))
  simpa only [bufList, List.map_cons, List.map_nil, List.foldr_cons, List.foldr_nil] using h

/-! ## The slab scratch as its eight slabs -/

/-- The elements of slab b of the slab scratch: those whose first coordinate is b. -/
def slabSet (b : Fin 8) : Finset S8x32x128.Idx := (slabM b.val (slab_inb b)).view.set

theorem slabSet_eq (b : Fin 8) :
    slabSet b = (Rect.unit (s := S8x32x128) ![b.val, 0, 0] S1x32x128.size (slab_inb b)).set := by
  unfold slabSet
  simp only [Memref.view_squeeze, Memref.view_slice, Memref.view_whole, View.set_reshape, View.set_slice_whole]

/-- Two different slabs share no element: they differ in the first coordinate. -/
theorem slab_disjoint : ∀ b ∈ (Finset.univ : Finset (Fin 8)), ∀ b' ∈ (Finset.univ : Finset (Fin 8)), b ≠ b' →
    Disjoint (slabSet b) (slabSet b') := by
  intro b _ b' _ h
  rw [slabSet_eq, slabSet_eq]
  refine Rect.unit_disjoint (0 : Fin 3) ?_
  have hne : b.val ≠ b'.val := fun e => h (Fin.ext e)
  show b.val + 1 ≤ b'.val ∨ b'.val + 1 ≤ b.val
  omega

/-- Every element lies in the slab its first coordinate names. -/
theorem slab_cover : (Finset.univ : Finset (Fin 8)).biUnion slabSet = Finset.univ := by
  ext i
  simp only [Finset.mem_biUnion, Finset.mem_univ, true_and, iff_true]
  have h0 : (i 0).val < 8 := (i 0).isLt
  have h1 : (i 1).val < 32 := (i 1).isLt
  have h2 : (i 2).val < 128 := (i 2).isLt
  refine ⟨⟨(i 0).val, h0⟩, ?_⟩
  rw [slabSet_eq]
  refine Rect.mem_set_unit.mpr fun a => ?_
  fin_cases a
  · show (i 0).val ≤ (i 0).val ∧ (i 0).val < (i 0).val + 1; omega
  · show 0 ≤ (i 1).val ∧ (i 1).val < 0 + 32; omega
  · show 0 ≤ (i 2).val ∧ (i 2).val < 0 + 128; omega

/-- The slab scratch whole is its eight slabs. -/
theorem scratch1_slabs (q : PosShare TreeShare) (f : Buf (Elt F) ((VT d L).loc cc0_scratch1)) :
    ((VT d L).loc cc0_scratch1 ↦{q} f : sProp (MM F))
      = bigSep Finset.univ fun b : Fin 8 => (VT d L).loc cc0_scratch1 ↦[slabSet b]{q} f := by
  rw [← pointsTo_biUnion Finset.univ (ℓ := (VT d L).loc cc0_scratch1) slabSet slab_disjoint, slab_cover]

/-- A conjunction over the eight slab numbers, written out. -/
theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = ([0, 1, 2, 3, 4, 5, 6, 7] : List (Fin 8)).toFinset by decide,
    bigSep_toFinset _ (by decide)]
  simp only [List.map_cons, List.map_nil, sepList]

/-- Slab b under the task's spelling is the slab scratch over the elements of slab b. -/
theorem slabPts_eq (b : Fin 8) (hb : ∀ a, (![b.val, 0, 0] : Fin 3 → Nat) a + S1x32x128.size a ≤ S8x32x128.size a)
    (q : PosShare TreeShare) (f : Buf (Elt F) ((VT d L).loc cc0_scratch1)) :
    ((slabM b.val hb).view.loc (VT d L) ↦[(slabM b.val hb).view.set]{q} f : sProp (MM F))
      = ((VT d L).loc cc0_scratch1 ↦[slabSet b]{q} f) := rfl

theorem slabs_split (f : Buf (Elt F) ((VT d L).loc cc0_scratch1)) :
    ((VT d L).loc cc0_scratch1 ↦{fullShare} f : sProp (MM F))
      ⊣⊢ iprop(((slabM 0 inb_S8x32x128_S1x32x128_0_0_0).view.loc (VT d L) ↦[(slabM 0 inb_S8x32x128_S1x32x128_0_0_0).view.set]{fullShare} f)
          ∗ ((slabM 1 inb_S8x32x128_S1x32x128_1_0_0).view.loc (VT d L) ↦[(slabM 1 inb_S8x32x128_S1x32x128_1_0_0).view.set]{fullShare} f)
          ∗ ((slabM 2 inb_S8x32x128_S1x32x128_2_0_0).view.loc (VT d L) ↦[(slabM 2 inb_S8x32x128_S1x32x128_2_0_0).view.set]{fullShare} f)
          ∗ ((slabM 3 inb_S8x32x128_S1x32x128_3_0_0).view.loc (VT d L) ↦[(slabM 3 inb_S8x32x128_S1x32x128_3_0_0).view.set]{fullShare} f)
          ∗ ((slabM 4 inb_S8x32x128_S1x32x128_4_0_0).view.loc (VT d L) ↦[(slabM 4 inb_S8x32x128_S1x32x128_4_0_0).view.set]{fullShare} f)
          ∗ ((slabM 5 inb_S8x32x128_S1x32x128_5_0_0).view.loc (VT d L) ↦[(slabM 5 inb_S8x32x128_S1x32x128_5_0_0).view.set]{fullShare} f)
          ∗ ((slabM 6 inb_S8x32x128_S1x32x128_6_0_0).view.loc (VT d L) ↦[(slabM 6 inb_S8x32x128_S1x32x128_6_0_0).view.set]{fullShare} f)
          ∗ ((slabM 7 inb_S8x32x128_S1x32x128_7_0_0).view.loc (VT d L) ↦[(slabM 7 inb_S8x32x128_S1x32x128_7_0_0).view.set]{fullShare} f)) := by
  rw [scratch1_slabs d L fullShare f, bigSep_fin8]
  exact BIBase.BiEntails.rfl

/-- Eight slabs, each at some contents, are the slab scratch at some contents (contents exist: the element type is
    inhabited). -/
theorem slabs_join [FloatOps F] :
    iprop((∃ f, (slabM 0 inb_S8x32x128_S1x32x128_0_0_0).view.loc (VT d L) ↦[(slabM 0 inb_S8x32x128_S1x32x128_0_0_0).view.set]{fullShare} f)
        ∗ (∃ f, (slabM 1 inb_S8x32x128_S1x32x128_1_0_0).view.loc (VT d L) ↦[(slabM 1 inb_S8x32x128_S1x32x128_1_0_0).view.set]{fullShare} f)
        ∗ (∃ f, (slabM 2 inb_S8x32x128_S1x32x128_2_0_0).view.loc (VT d L) ↦[(slabM 2 inb_S8x32x128_S1x32x128_2_0_0).view.set]{fullShare} f)
        ∗ (∃ f, (slabM 3 inb_S8x32x128_S1x32x128_3_0_0).view.loc (VT d L) ↦[(slabM 3 inb_S8x32x128_S1x32x128_3_0_0).view.set]{fullShare} f)
        ∗ (∃ f, (slabM 4 inb_S8x32x128_S1x32x128_4_0_0).view.loc (VT d L) ↦[(slabM 4 inb_S8x32x128_S1x32x128_4_0_0).view.set]{fullShare} f)
        ∗ (∃ f, (slabM 5 inb_S8x32x128_S1x32x128_5_0_0).view.loc (VT d L) ↦[(slabM 5 inb_S8x32x128_S1x32x128_5_0_0).view.set]{fullShare} f)
        ∗ (∃ f, (slabM 6 inb_S8x32x128_S1x32x128_6_0_0).view.loc (VT d L) ↦[(slabM 6 inb_S8x32x128_S1x32x128_6_0_0).view.set]{fullShare} f)
        ∗ (∃ f, (slabM 7 inb_S8x32x128_S1x32x128_7_0_0).view.loc (VT d L) ↦[(slabM 7 inb_S8x32x128_S1x32x128_7_0_0).view.set]{fullShare} f))
      ⊢ (iprop(∃ f, (VT d L).loc cc0_scratch1 ↦{fullShare} f) : sProp (MM F)) := by
  have e : (iprop((∃ f, (slabM 0 inb_S8x32x128_S1x32x128_0_0_0).view.loc (VT d L) ↦[(slabM 0 inb_S8x32x128_S1x32x128_0_0_0).view.set]{fullShare} f)
        ∗ (∃ f, (slabM 1 inb_S8x32x128_S1x32x128_1_0_0).view.loc (VT d L) ↦[(slabM 1 inb_S8x32x128_S1x32x128_1_0_0).view.set]{fullShare} f)
        ∗ (∃ f, (slabM 2 inb_S8x32x128_S1x32x128_2_0_0).view.loc (VT d L) ↦[(slabM 2 inb_S8x32x128_S1x32x128_2_0_0).view.set]{fullShare} f)
        ∗ (∃ f, (slabM 3 inb_S8x32x128_S1x32x128_3_0_0).view.loc (VT d L) ↦[(slabM 3 inb_S8x32x128_S1x32x128_3_0_0).view.set]{fullShare} f)
        ∗ (∃ f, (slabM 4 inb_S8x32x128_S1x32x128_4_0_0).view.loc (VT d L) ↦[(slabM 4 inb_S8x32x128_S1x32x128_4_0_0).view.set]{fullShare} f)
        ∗ (∃ f, (slabM 5 inb_S8x32x128_S1x32x128_5_0_0).view.loc (VT d L) ↦[(slabM 5 inb_S8x32x128_S1x32x128_5_0_0).view.set]{fullShare} f)
        ∗ (∃ f, (slabM 6 inb_S8x32x128_S1x32x128_6_0_0).view.loc (VT d L) ↦[(slabM 6 inb_S8x32x128_S1x32x128_6_0_0).view.set]{fullShare} f)
        ∗ (∃ f, (slabM 7 inb_S8x32x128_S1x32x128_7_0_0).view.loc (VT d L) ↦[(slabM 7 inb_S8x32x128_S1x32x128_7_0_0).view.set]{fullShare} f)) : sProp (MM F))
      = bigSep Finset.univ fun b : Fin 8 =>
          iprop(∃ f : Buf (Elt F) ((VT d L).loc cc0_scratch1), (VT d L).loc cc0_scratch1 ↦[slabSet b]{fullShare} f) :=
    (bigSep_fin8 (fun b : Fin 8 =>
      (iprop(∃ f : Buf (Elt F) ((VT d L).loc cc0_scratch1), (VT d L).loc cc0_scratch1 ↦[slabSet b]{fullShare} f) : sProp (MM F)))).symm
  rw [e]
  refine (bigSep_exists_pi Finset.univ
    (fun b (f : Buf (Elt F) ((VT d L).loc cc0_scratch1)) => ((VT d L).loc cc0_scratch1 ↦[slabSet b]{fullShare} f : sProp (MM F)))).trans ?_
  iintro ⟨%fs, H⟩
  ihave H' := (pointsTo_biUnion_join Finset.univ slabSet fs (fs 0) slab_disjoint) $$ H
  icases H' with ⟨%g, -, Hg⟩
  rw [slab_cover]
  iexists g; iexact Hg

/-! ## The arrays under the spelling the task's memrefs give them -/

theorem pts_tab (S : Finset (Idx (tabLoc d))) (q : PosShare TreeShare) (f : Buf (Elt F) (tabLoc d)) :
    ((Memref.whole main_v0_scv : Memref sig .scVector .hbm S32x1000000 .f32).view.loc (VT d L) ↦[S]{q} f : sProp (MM F))
      = (tabLoc d ↦[S]{q} f) := rfl
theorem pts_tail (S : Finset (Idx (tailLoc d))) (q : PosShare TreeShare) (f : Buf (Elt F) (tailLoc d)) :
    ((Memref.whole main_v1_scv : Memref sig .scVector .hbm S32x64 .f32).view.loc (VT d L) ↦[S]{q} f : sProp (MM F))
      = (tailLoc d ↦[S]{q} f) := rfl
theorem pts_idx (S : Finset (Idx (idxLoc d))) (q : PosShare TreeShare) (f : Buf (Elt F) (idxLoc d)) :
    ((Memref.whole main_arg0_scv : Memref sig .scVector .hbm S16384 .i32).view.loc (VT d L) ↦[S]{q} f : sProp (MM F))
      = (idxLoc d ↦[S]{q} f) := rfl
theorem pts_out (q : PosShare TreeShare) (f : Buf (Elt F) (outLoc d)) :
    ((outBlk L).view.loc (VT d L) ↦[(outBlk L).view.set]{q} f : sProp (MM F)) = (outLoc d ↦[outSet L]{q} f) := rfl
theorem pts_s0 (q : PosShare TreeShare) (f : Buf (Elt F) ((VT d L).loc cc0_scratch0)) :
    ((Memref.whole cc0_scratch0 : Memref sig .scVector .vmem S528 .i32).view.loc (VT d L) ↦{q} f : sProp (MM F))
      = ((VT d L).loc cc0_scratch0 ↦{q} f) := rfl
theorem pts_s1 (q : PosShare TreeShare) (f : Buf (Elt F) ((VT d L).loc cc0_scratch1)) :
    ((Memref.whole cc0_scratch1 : Memref sig .scVector .vmem S8x32x128 .f32).view.loc (VT d L) ↦{q} f : sProp (MM F))
      = ((VT d L).loc cc0_scratch1 ↦{q} f) := rfl
theorem pts_s2 (q : PosShare TreeShare) (f : Buf (Elt F) ((VT d L).loc cc0_scratch2)) :
    ((Memref.whole cc0_scratch2 : Memref sig .scVector .vmem S32x64 .f32).view.loc (VT d L) ↦{q} f : sProp (MM F))
      = ((VT d L).loc cc0_scratch2 ↦{q} f) := rfl
theorem pts_s3 (q : PosShare TreeShare) (f : Buf (Elt F) ((VT d L).loc cc0_scratch3)) :
    ((Memref.whole cc0_scratch3 : Memref sig .scVector .vmem S32x512 .f32).view.loc (VT d L) ↦{q} f : sProp (MM F))
      = ((VT d L).loc cc0_scratch3 ↦{q} f) := rfl

/-! ## The read share of the transposed table as eight tokens and a remainder -/

theorem toks8 (f : Buf (Elt F) (tabLoc d)) :
    (tabLoc d ↦{tq L} f : sProp (MM F))
      ⊣⊢ iprop((tabLoc d ↦{Transfers.shareDrop (tq L) 8} f)
          ∗ (tabLoc d ↦{Transfers.shareTokN (tq L) 0} f) ∗ (tabLoc d ↦{Transfers.shareTokN (tq L) 1} f)
          ∗ (tabLoc d ↦{Transfers.shareTokN (tq L) 2} f) ∗ (tabLoc d ↦{Transfers.shareTokN (tq L) 3} f)
          ∗ (tabLoc d ↦{Transfers.shareTokN (tq L) 4} f) ∗ (tabLoc d ↦{Transfers.shareTokN (tq L) 5} f)
          ∗ (tabLoc d ↦{Transfers.shareTokN (tq L) 6} f) ∗ (tabLoc d ↦{Transfers.shareTokN (tq L) 7} f)) := by
  have h := Transfers.pointsTo_toks_range (nD := nD) (τ := τ) (sig := sig) (Ix := HIx 1) (Val := Elt F) (Name := ℕ) (U := UU) (Lvl := ℕ)
    (ℓ := tabLoc d) (S := Finset.univ) (f := f) (tq L) 8
  rw [show Finset.range 8 = ([0, 1, 2, 3, 4, 5, 6, 7] : List ℕ).toFinset by decide, bigSep_toFinset _ (by decide)] at h
  simpa only [List.map_cons, List.map_nil, sepList] using h

end Tile

end Cert.Proof.KI

end
-- ==== Proof.KI.Lanes.lean ====
/-
  The vector subcore's indexed load and store, read lane by lane. An indexed load's lane x reads the base array at the
  index the index vectors name for x. An unmasked, non-adding indexed store is a left fold over the lanes, each writing
  its element at the index it names; an index some lane names ends at that lane's element when no other lane names it,
  and an index no lane names keeps what it held. With the row vector "lane + off" and one broadcast column word these
  read as a 16-entry piece of one column: rows off … off + 15 of column ce.
-/
import proofs.«209800_g17188459118626_cont_7to1_163_19_alg».proof.Proof.Gen.KernelIdeal
import Idealize.ShloMosaic.Lib.ValueIdx

noncomputable section

namespace Cert.Proof.KI.Lanes

open Idealize.ShloMosaic Idealize.ShloMosaic.ValueIdx Cert.KernelIdeal Cert.KernelIdeal.Gen

variable {F : FTy → Type} [FloatOps F] {e : EltTy}

/-! ## A left fold of writes at one index -/

section Fold
variable {ι β γ : Type} (step : (β → γ) → ι → (β → γ)) (hit : ι → β → Prop) (val : ι → γ)

/-- A fold of writes, none of which names j, leaves j as it was. -/
theorem foldl_miss (hs0 : ∀ g k j, ¬hit k j → step g k j = g j) (j : β) :
    ∀ (L : List ι) (g : β → γ), (∀ k ∈ L, ¬hit k j) → L.foldl step g j = g j
  | [], _, _ => rfl
  | a :: L, g, h => by
    rw [List.foldl_cons, foldl_miss hs0 j L _ fun k hk => h k (List.mem_cons_of_mem _ hk), hs0 g a j (h a List.mem_cons_self)]

/-- A fold of writes over distinct positions, exactly one of which (k0) names j, leaves k0's value at j. -/
theorem foldl_hit (hs1 : ∀ g k j, hit k j → step g k j = val k) (hs0 : ∀ g k j, ¬hit k j → step g k j = g j) (j : β) (k0 : ι)
    (hk0 : hit k0 j) :
    ∀ (L : List ι) (g : β → γ), L.Nodup → k0 ∈ L → (∀ k ∈ L, hit k j → k = k0) → L.foldl step g j = val k0
  | [], _, _, hm, _ => nomatch hm
  | a :: L, g, hnd, hm, hu => by
    rw [List.foldl_cons]
    by_cases ha : a = k0
    · subst ha
      have hnot : ∀ k ∈ L, ¬hit k j := fun k hk hh =>
        (List.nodup_cons.1 hnd).1 (hu k (List.mem_cons_of_mem _ hk) hh ▸ hk)
      rw [foldl_miss step hit hs0 j L _ hnot, hs1 g a j hk0]
    · have hm' : k0 ∈ L := by
        rcases List.mem_cons.1 hm with h | h
        · exact absurd h.symm ha
        · exact h
      exact foldl_hit hs1 hs0 j k0 hk0 L _ (List.nodup_cons.1 hnd).2 hm' fun k hk => hu k (List.mem_cons_of_mem _ hk)

end Fold

/-! ## The indexed store at an index -/

section Store
variable {s : Shape} {d : Fin 1 → Nat} (f : Vec F s e) (idxs : Fin s.rank → IVec ⟨1, d⟩ 32) (v : Vec F ⟨1, d⟩ e)
  (h : ∀ a x, (idxs a x).toNat < s.size a) (j : s.Idx)

/-- A lane's multi-index has the lane as its one coordinate. -/
theorem ofLane_val (k : Fin (d 0)) : ((Shape.ofLane k : (⟨1, d⟩ : Shape).Idx) 0).val = k.val := rfl

/-- An unmasked, non-adding indexed store at an index exactly one lane (k0) names: that lane's element. -/
theorem storeIdx_hit (k0 : Fin (d 0)) (hk0 : ∀ a, (j a).val = (idxs a (Shape.ofLane k0)).toNat)
    (huniq : ∀ k : Fin (d 0), (∀ a, (j a).val = (idxs a (Shape.ofLane k)).toNat) → k = k0) :
    storeIdx f idxs v (fun _ => 1#1) false h j = v (Shape.ofLane k0) := by
  unfold storeIdx
  refine foldl_hit _ (fun k j => ∀ a, (j a).val = (idxs a (Shape.ofLane k)).toNat) (fun k => v (Shape.ofLane k)) ?_ ?_ j k0 hk0
    (List.finRange (d 0)) f (List.nodup_finRange _) (List.mem_finRange _) (fun k _ => huniq k)
  · intro g k j hh
    show (if (1#1 : BitVec 1) = 1 then _ else g) j = _
    rw [if_pos (show (1#1 : BitVec 1) = 1 from rfl)]
    exact if_pos hh
  · intro g k j hh
    show (if (1#1 : BitVec 1) = 1 then _ else g) j = _
    rw [if_pos (show (1#1 : BitVec 1) = 1 from rfl)]
    exact if_neg hh

/-- An unmasked, non-adding indexed store at an index no lane names: what was there. -/
theorem storeIdx_miss (hmiss : ∀ k : Fin (d 0), ¬∀ a, (j a).val = (idxs a (Shape.ofLane k)).toNat) :
    storeIdx f idxs v (fun _ => 1#1) false h j = f j := by
  unfold storeIdx
  refine foldl_miss _ (fun k j => ∀ a, (j a).val = (idxs a (Shape.ofLane k)).toNat) ?_ j (List.finRange (d 0)) f (fun k _ => hmiss k)
  intro g k j hh
  show (if (1#1 : BitVec 1) = 1 then _ else g) j = _
  rw [if_pos (show (1#1 : BitVec 1) = 1 from rfl)]
  exact if_neg hh

end Store

/-! ## Rows "lane + off" of one column -/

/-- (L1) THE INDEXED LOAD AT A LANE, rank-2 base [R, C], rows "lane + off", one column word l: lane x reads the base
    at row (x + off), column l. -/
theorem loadIdx_apply {R C : Nat} (f : Vec F ⟨2, ![R, C]⟩ e) (rv : IVec S16 32) (off : Nat)
    (hrv : ∀ x : S16.Idx, (rv x).toNat = (x 0).val + off) (hoff : off + 16 ≤ R) (l : BitVec 32) (hl : l.toNat < C)
    (h : ∀ a x, ((![rv, broadcast S16 l] : Fin 2 → IVec S16 32) a x).toNat < (⟨2, ![R, C]⟩ : Shape).size a) (x : S16.Idx) :
    loadIdx f ![rv, broadcast S16 l] h x
      = f (ix2 (⟨(x 0).val + off, by have hx : (x 0).val < 16 := (x 0).isLt; omega⟩ : Fin R) (⟨l.toNat, hl⟩ : Fin C)) := by
  unfold loadIdx
  refine congrArg f (funext fun a => ?_)
  match a with
  | ⟨0, _⟩ => exact Fin.ext (hrv x)
  | ⟨1, _⟩ => exact Fin.ext rfl

/-- (L2) THE INDEXED STORE AT AN INDEX, base [32, 512], rows "lane + off", one column word ce, unmasked and not adding:
    entry (r, k) is lane (r − off)'s element when k is the column and off ≤ r < off + 16, and what was there otherwise. -/
theorem storeIdx_apply (cols : Vec F S32x512 e) (rv : IVec S16 32) (off : Nat)
    (hrv : ∀ x : S16.Idx, (rv x).toNat = (x 0).val + off) (ce : BitVec 32) (v : Vec F S16 e)
    (h : ∀ a x, ((![rv, broadcast S16 ce] : Fin 2 → IVec S16 32) a x).toNat < S32x512.size a) (r : Fin 32) (k : Fin 512) :
    storeIdx cols ![rv, broadcast S16 ce] v (fun _ => 1#1) false h (ix2 r k)
      = if hc : k.val = ce.toNat ∧ off ≤ r.val ∧ r.val < off + 16 then v (ix1 (⟨r.val - off, by omega⟩ : Fin 16))
        else cols (ix2 r k) := by
  by_cases hc : k.val = ce.toNat ∧ off ≤ r.val ∧ r.val < off + 16
  · rw [dif_pos hc]
    have hlt : r.val - off < 16 := by omega
    refine (storeIdx_hit cols ![rv, broadcast S16 ce] v h (ix2 r k) ⟨r.val - off, hlt⟩ ?_ ?_).trans ?_
    · intro a
      match a with
      | ⟨0, _⟩ =>
        show r.val = (rv (Shape.ofLane _)).toNat
        rw [hrv]
        show r.val = (r.val - off) + off
        omega
      | ⟨1, _⟩ => exact hc.1
    · intro kk hkk
      have h0 : r.val = (rv (Shape.ofLane kk)).toNat := hkk ⟨0, Nat.zero_lt_two⟩
      rw [hrv] at h0
      have h0' : r.val = kk.val + off := h0
      exact Fin.ext (by show kk.val = r.val - off; omega)
    · exact congrArg v (funext fun a => match a with | ⟨0, _⟩ => rfl)
  · rw [dif_neg hc]
    refine storeIdx_miss cols ![rv, broadcast S16 ce] v h (ix2 r k) fun kk hkk => hc ?_
    have h0 : r.val = (rv (Shape.ofLane kk)).toNat := hkk ⟨0, Nat.zero_lt_two⟩
    rw [hrv] at h0
    have h0' : r.val = kk.val + off := h0
    have h1 : k.val = ce.toNat := hkk ⟨1, Nat.one_lt_two⟩
    have hk : kk.val < 16 := kk.isLt
    exact ⟨h1, by omega, by omega⟩

/-- (L3) THE TWO STORES OF ONE COLUMN TOGETHER: rows 0 … 15 from vA, then rows 16 … 31 from vB, both at column ce. -/
theorem storeIdx_pair (cols : Vec F S32x512 e) (rvA rvB : IVec S16 32)
    (hrvA : ∀ x : S16.Idx, (rvA x).toNat = (x 0).val) (hrvB : ∀ x : S16.Idx, (rvB x).toNat = (x 0).val + 16)
    (ce : BitVec 32) (vA vB : Vec F S16 e)
    (hA : ∀ a x, ((![rvA, broadcast S16 ce] : Fin 2 → IVec S16 32) a x).toNat < S32x512.size a)
    (hB : ∀ a x, ((![rvB, broadcast S16 ce] : Fin 2 → IVec S16 32) a x).toNat < S32x512.size a) (r : Fin 32) (k : Fin 512) :
    storeIdx (storeIdx cols ![rvA, broadcast S16 ce] vA (fun _ => 1#1) false hA) ![rvB, broadcast S16 ce] vB (fun _ => 1#1) false hB
        (ix2 r k)
      = if k.val = ce.toNat then
          (if h16 : r.val < 16 then vA (ix1 (⟨r.val, h16⟩ : Fin 16)) else vB (ix1 (⟨r.val - 16, by omega⟩ : Fin 16)))
        else cols (ix2 r k) := by
  have hr : r.val < 32 := r.isLt
  rw [storeIdx_apply _ rvB 16 hrvB, storeIdx_apply cols rvA 0 hrvA]
  by_cases hk : k.val = ce.toNat
  · rw [if_pos hk]
    by_cases h16 : r.val < 16
    · rw [dif_neg (by omega), dif_pos ⟨hk, by omega, by omega⟩, dif_pos h16]
      rfl
    · rw [dif_pos ⟨hk, by omega, by omega⟩, dif_neg h16]
  · rw [if_neg hk, dif_neg (fun hc => hk hc.1), dif_neg (fun hc => hk hc.1)]

/-- (L4) A SELECT ON A BROADCAST BIT, AT A LANE: the bit decides for every lane. -/
theorem select_broadcast_apply {s : Shape} {α : Type} (b : BitVec 1) (u v : s.Idx → α) (x : s.Idx) :
    select (broadcast s b) u v x = if b = 1#1 then u x else v x := rfl

end Cert.Proof.KI.Lanes

end
-- ==== Proof.KI.Value.lean ====
/-
  What the scratches hold, read at an index, and what one element's two indexed stores leave in the column scratch.
  For an index word c in the table's range the kernel reads row r of column c of the transposed table either from the
  128-column slab that starts at column slabW c (lane laneW c) or from the last 64 columns (column tailW c), the
  selector choosing the latter exactly when c ≥ 999936; either way the word read is entry (r, c) of the table. The two
  stores of an element put rows 0 … 15 and rows 16 … 31 of that column into column e of the column scratch.
-/
import proofs.«209800_g17188459118626_cont_7to1_163_19_alg».proof.Proof.KI.Mems
import proofs.«209800_g17188459118626_cont_7to1_163_19_alg».proof.Proof.KI.Lanes

noncomputable section

namespace Cert.Proof.KI.Value

open Idealize.ShloMosaic Idealize.ShloMosaic.ValueIdx Cert.KernelIdeal Cert.KernelIdeal.Gen Cert.Proof.KI

variable {F : FTy → Type} [FloatOps F]

/-! ## One element's column, lane by lane -/

section Block
variable {e : EltTy} (T : Vec F S32x1000000 e) (slab : Vec F S32x128 e) (tail : Vec F S32x64 e)
  (c : BitVec 32) (hc : c.toNat ≤ 999999)
  (hslab : ∀ (r : Fin 32) (l : Fin 128),
    slab (ix2 r l) = T (ix2 r (⟨(Words.slabW c).toNat + l.val, by have := Words.slabW_toNat c hc; have := l.isLt; omega⟩ : Fin 1000000)))
  (htail : ∀ (r : Fin 32) (l : Fin 64),
    tail (ix2 r l) = T (ix2 r (⟨999936 + l.val, by have := l.isLt; omega⟩ : Fin 1000000)))
include hc hslab htail

/-- The selected load at a lane: with rows "lane + off", lane x holds entry (x + off, c) of the table, whether it was
    read from the slab or from the last 64 columns. -/
theorem pick_apply (rv : IVec S16 32) (off : Nat) (hrv : ∀ x : S16.Idx, (rv x).toNat = (x 0).val + off) (hoff : off + 16 ≤ 32)
    (h1 : ∀ a x, ((![rv, broadcast S16 (Words.laneW c)] : Fin 2 → IVec S16 32) a x).toNat < S32x128.size a)
    (h2 : ∀ a x, ((![rv, broadcast S16 (Words.tailW c)] : Fin 2 → IVec S16 32) a x).toNat < S32x64.size a) (x : S16.Idx) :
    select (broadcast S16 (Words.useTailW c)) (loadIdx tail ![rv, broadcast S16 (Words.tailW c)] h2)
        (loadIdx slab ![rv, broadcast S16 (Words.laneW c)] h1) x
      = T (ix2 (⟨(x 0).val + off, by have hx : (x 0).val < 16 := (x 0).isLt; omega⟩ : Fin 32) (⟨c.toNat, by omega⟩ : Fin 1000000)) := by
  rw [Lanes.select_broadcast_apply]
  have hcol := Words.column_eq c hc
  by_cases hu : Words.useTailW c = 1#1
  · rw [if_pos hu, Lanes.loadIdx_apply tail rv off hrv hoff (Words.tailW c) (Words.tailW_lt c hc) h2 x, htail]
    rw [if_pos ((Words.useTailW_eq c hc).1 hu)] at hcol
    refine congrArg T (funext fun a => ?_)
    match a with
    | ⟨0, _⟩ => rfl
    | ⟨1, _⟩ => exact Fin.ext hcol
  · rw [if_neg hu, Lanes.loadIdx_apply slab rv off hrv hoff (Words.laneW c) (Words.laneW_lt c hc) h1 x, hslab]
    rw [if_neg (fun hge => hu ((Words.useTailW_eq c hc).2 hge))] at hcol
    refine congrArg T (funext fun a => ?_)
    match a with
    | ⟨0, _⟩ => rfl
    | ⟨1, _⟩ => exact Fin.ext hcol

/-- (V1) ONE ELEMENT'S TWO STORES: after them column e of the column scratch is column c of the table, and every other
    column is what it was. -/
theorem block_value (cols : Vec F S32x512 e) (ce : BitVec 32)
    (h1 : ∀ a x, ((![Words.iotaV, broadcast S16 (Words.laneW c)] : Fin 2 → IVec S16 32) a x).toNat < S32x128.size a)
    (h2 : ∀ a x, ((![Words.iotaV, broadcast S16 (Words.tailW c)] : Fin 2 → IVec S16 32) a x).toNat < S32x64.size a)
    (h3 : ∀ a x, ((![Words.iota16V, broadcast S16 (Words.laneW c)] : Fin 2 → IVec S16 32) a x).toNat < S32x128.size a)
    (h4 : ∀ a x, ((![Words.iota16V, broadcast S16 (Words.tailW c)] : Fin 2 → IVec S16 32) a x).toNat < S32x64.size a)
    (h5 : ∀ a x, ((![Words.iotaV, broadcast S16 ce] : Fin 2 → IVec S16 32) a x).toNat < S32x512.size a)
    (h6 : ∀ a x, ((![Words.iota16V, broadcast S16 ce] : Fin 2 → IVec S16 32) a x).toNat < S32x512.size a)
    (r : Fin 32) (k : Fin 512) :
    storeIdx
        (storeIdx cols ![Words.iotaV, broadcast S16 ce]
          (select (broadcast S16 (Words.useTailW c)) (loadIdx tail ![Words.iotaV, broadcast S16 (Words.tailW c)] h2)
            (loadIdx slab ![Words.iotaV, broadcast S16 (Words.laneW c)] h1)) (fun _ => 1#1) false h5)
        ![Words.iota16V, broadcast S16 ce]
        (select (broadcast S16 (Words.useTailW c)) (loadIdx tail ![Words.iota16V, broadcast S16 (Words.tailW c)] h4)
          (loadIdx slab ![Words.iota16V, broadcast S16 (Words.laneW c)] h3)) (fun _ => 1#1) false h6 (ix2 r k)
      = if k.val = ce.toNat then T (ix2 r (⟨c.toNat, by omega⟩ : Fin 1000000)) else cols (ix2 r k) := by
  have hr : r.val < 32 := r.isLt
  rw [Lanes.storeIdx_pair cols Words.iotaV Words.iota16V Words.iotaV_toNat Words.iota16V_toNat ce _ _ h5 h6 r k]
  by_cases hk : k.val = ce.toNat
  · rw [if_pos hk, if_pos hk]
    by_cases h16 : r.val < 16
    · rw [dif_pos h16, pick_apply T slab tail c hc hslab htail Words.iotaV 0 Words.iotaV_toNat (by omega) h1 h2]
      exact congrArg T (funext fun a => match a with | ⟨0, _⟩ => rfl | ⟨1, _⟩ => rfl)
    · rw [dif_neg h16, pick_apply T slab tail c hc hslab htail Words.iota16V 16 Words.iota16V_toNat (by omega) h3 h4]
      refine congrArg T (funext fun a => ?_)
      match a with
      | ⟨0, _⟩ => exact Fin.ext (by show r.val - 16 + 16 = r.val; omega)
      | ⟨1, _⟩ => rfl
  · rw [if_neg hk, if_neg hk]

/-- THE COLUMN SCRATCH'S INVARIANT ADVANCED BY ONE ELEMENT: if columns below n of the column scratch agree with R, and the
    element stored at column n (= ce) is column c of the table, which R names at column n, then after the element's two
    stores columns below n + 1 agree with R. -/
theorem upd_step (cols : Vec F S32x512 e) (ce : BitVec 32)
    (h1 : ∀ a x, ((![Words.iotaV, broadcast S16 (Words.laneW c)] : Fin 2 → IVec S16 32) a x).toNat < S32x128.size a)
    (h2 : ∀ a x, ((![Words.iotaV, broadcast S16 (Words.tailW c)] : Fin 2 → IVec S16 32) a x).toNat < S32x64.size a)
    (h3 : ∀ a x, ((![Words.iota16V, broadcast S16 (Words.laneW c)] : Fin 2 → IVec S16 32) a x).toNat < S32x128.size a)
    (h4 : ∀ a x, ((![Words.iota16V, broadcast S16 (Words.tailW c)] : Fin 2 → IVec S16 32) a x).toNat < S32x64.size a)
    (h5 : ∀ a x, ((![Words.iotaV, broadcast S16 ce] : Fin 2 → IVec S16 32) a x).toNat < S32x512.size a)
    (h6 : ∀ a x, ((![Words.iota16V, broadcast S16 ce] : Fin 2 → IVec S16 32) a x).toNat < S32x512.size a)
    (n : ℕ) (R : Fin 32 → Fin 512 → Elt F e) (hce : ce.toNat = n)
    (hR : ∀ (r : Fin 32) (k : Fin 512), k.val = n → T (ix2 r (⟨c.toNat, by omega⟩ : Fin 1000000)) = R r k)
    (hcols : ∀ (r : Fin 32) (k : Fin 512), k.val < n → cols (ix2 r k) = R r k) :
    ∀ (r : Fin 32) (k : Fin 512), k.val < n + 1 →
      storeIdx
          (storeIdx cols ![Words.iotaV, broadcast S16 ce]
            (select (broadcast S16 (Words.useTailW c)) (loadIdx tail ![Words.iotaV, broadcast S16 (Words.tailW c)] h2)
              (loadIdx slab ![Words.iotaV, broadcast S16 (Words.laneW c)] h1)) (fun _ => 1#1) false h5)
          ![Words.iota16V, broadcast S16 ce]
          (select (broadcast S16 (Words.useTailW c)) (loadIdx tail ![Words.iota16V, broadcast S16 (Words.tailW c)] h4)
            (loadIdx slab ![Words.iota16V, broadcast S16 (Words.laneW c)] h3)) (fun _ => 1#1) false h6 (ix2 r k)
        = R r k := by
  intro r k hk
  rw [block_value T slab tail c hc hslab htail cols ce h1 h2 h3 h4 h5 h6 r k]
  by_cases hkc : k.val = ce.toNat
  · rw [if_pos hkc]
    exact hR r k (hkc.trans hce)
  · rw [if_neg hkc]
    exact hcols r k (by omega)

end Block

/-! ## What the scratches hold -/

section Scratches
variable (m : (ℓ : Loc nD τ sig) → Buf (Elt F) ℓ) (d : Dev nD)

/-- (V2) A SLAB AFTER ITS TRANSFER LANDED, read whole: entry (r, l) is entry (r, o 1 + l) of the transposed table, for a
    transfer out of the 128 columns that start at column o 1 (row offset o 0 = 0). -/
theorem slab_read (b : ℕ) (hb : ∀ a, (![b, 0, 0] : Fin 3 → Nat) a + S1x32x128.size a ≤ S8x32x128.size a)
    (o : Fin 2 → Nat) (ho : ∀ a, o a + S32x128.size a ≤ S32x1000000.size a) (ho0 : o 0 = 0)
    (f : (slabM b hb).view.ty.Contents (Elt F)) (r : Fin 32) (l : Fin 128) :
    ((slabM b hb).access (.whole S32x128)).read (Elt F)
        ((slabM b hb).view.writes (Elt F) f
          [⟨Rect.whole S32x128, ReadAs.same.apply ((srcM o ho).view.read (Elt F) (tabT m d))⟩]) (ix2 r l)
      = tabT m d (ix2 r (⟨o 1 + l.val, by have h1 : o 1 + 128 ≤ 1000000 := ho 1; have := l.isLt; omega⟩ : Fin 1000000)) := by
  refine ((View.read_writes_cons_emb (slabM b hb).view f (Rect.whole S32x128)
    (ReadAs.same.apply ((srcM o ho).view.read (Elt F) (tabT m d))) [] (ix2 r l)).trans ?_)
  refine ((View.read_apply (v := (srcM o ho).view) (tabT m d) (ix2 r l)).trans (cast_eq _ _)).trans ?_
  refine congrArg (tabT m d) (funext fun a => ?_)
  match a with
  | ⟨0, _⟩ => exact Fin.ext (by show o 0 + 1 * r.val = r.val; rw [ho0]; omega)
  | ⟨1, _⟩ => exact Fin.ext (by show o 1 + 1 * l.val = o 1 + l.val; omega)

/-- (V3) THE TAIL SCRATCH AFTER ITS COPY, read whole: entry (r, l) is entry (r, 999936 + l) of the transposed table. -/
theorem tail_read (ft : (Memref.whole cc0_scratch2).view.ty.Contents (Elt F)) (r : Fin 32) (l : Fin 64) :
    ((Memref.whole cc0_scratch2).access (.whole S32x64)).read (Elt F)
        ((Memref.whole cc0_scratch2).view.write (Elt F) ft
          (ReadAs.same.apply ((Memref.whole main_v1_scv).view.read (Elt F) (tailT m d))) Finset.univ) (ix2 r l)
      = tabT m d (ix2 r (⟨999936 + l.val, by have := l.isLt; omega⟩ : Fin 1000000)) := by
  refine (congrFun (Memref.read_access_whole (Elt F) cc0_scratch2 _) (ix2 r l)).trans ?_
  refine (congrFun (View.write_whole_univ cc0_scratch2 ft _) (ix2 r l)).trans ?_
  show tailT m d (ix2 r l) = _
  unfold tailT extractStridedSlice
  refine congrArg (tabT m d) (funext fun a => ?_)
  match a with
  | ⟨0, _⟩ => exact Fin.ext (by show 0 + r.val = r.val; omega)
  | ⟨1, _⟩ => rfl

/-- (V4) THE INDEX SCRATCH AFTER ITS COPY: word k < 512 is index base L + k. -/
theorem idx_read (L : grid0.Coords) (fi : (Memref.whole cc0_scratch0).view.ty.Contents (Elt F)) (k : Nat) (hk : k < 512) :
    ((Memref.whole cc0_scratch0).view.writes (Elt F) fi
        [⟨Rect.unit (s := S528) ![0] S512.size inb_S528_S512_0,
          ReadAs.same.apply (((Memref.whole main_arg0_scv).slice (Rect.unit (s := S16384) (k0_off1 L) S512.size (k0_off1_inb L))
            (fun _ => rfl)).view.read (Elt F) (m (idxLoc d)))⟩]) (ix1 (⟨k, by omega⟩ : Fin 528))
      = m (idxLoc d) (ix1 (⟨base L + k, base_add_lt L ⟨k, hk⟩⟩ : Fin 16384)) := by
  have e := View.read_writes_cons_emb (Memref.whole cc0_scratch0).view fi (Rect.unit (s := S528) ![0] S512.size inb_S528_S512_0)
    (ReadAs.same.apply (((Memref.whole main_arg0_scv).slice (Rect.unit (s := S16384) (k0_off1 L) S512.size (k0_off1_inb L))
      (fun _ => rfl)).view.read (Elt F) (m (idxLoc d)))) [] (ix1 (⟨k, hk⟩ : Fin 512))
  have hemb : (Rect.unit (s := S528) ![0] S512.size inb_S528_S512_0).emb (ix1 (⟨k, hk⟩ : Fin 512)) = ix1 (⟨k, by omega⟩ : Fin 528) :=
    funext fun a => match a with | ⟨0, _⟩ => Fin.ext (by show 0 + 1 * k = k; omega)
  rw [hemb] at e
  refine e.trans ?_
  refine ((View.read_apply (v := ((Memref.whole main_arg0_scv).slice (Rect.unit (s := S16384) (k0_off1 L) S512.size (k0_off1_inb L))
      (fun _ => rfl)).view) (m (idxLoc d)) (ix1 (⟨k, hk⟩ : Fin 512))).trans (cast_eq _ _)).trans ?_
  refine congrArg (m (idxLoc d)) (funext fun a => ?_)
  match a with
  | ⟨0, _⟩ =>
    refine Fin.ext ?_
    show (k0_off1 L) 0 + 1 * k = base L + k
    rw [k0_off1_eq L]
    show 1024 * (L 1).val + 512 * (L 0).val + 1 * k = base L + k
    unfold base wid
    omega

/-- (V5) THE WORD A 16-LANE LOAD OF THE INDEX SCRATCH PUTS IN LANE 0: the scratch's word at the load's offset. -/
theorem lane0_read (gi : (Memref.whole cc0_scratch0).view.ty.Contents (Elt F)) (o : Fin 1 → Nat)
    (ho : ∀ a, o a + S16.size a ≤ S528.size a) :
    extractAt ![0] (extractStridedSlice (s := S16) S1 ![0]
        ((Memref.whole cc0_scratch0).view.readAt (Elt F) (Rect.unit (s := S528) o S16.size ho).toLoadRect gi)
        slices_S16_o0_S1) inpos_S1_p0
      = gi (ix1 (⟨o 0, by have h0 : o 0 + 16 ≤ 528 := ho 0; omega⟩ : Fin 528)) := by
  unfold extractAt extractStridedSlice
  refine (View.readAt_apply _ _ _).trans ?_
  refine ((View.read_apply (v := (Memref.whole cc0_scratch0).view) gi _).trans (cast_eq _ _)).trans ?_
  refine congrArg gi (funext fun a => ?_)
  match a with
  | ⟨0, _⟩ => exact Fin.ext (by show o 0 + 1 * (0 + 0) = o 0; omega)

end Scratches

/-- The tail scratch read through its whole-rectangle access is its contents: what the contents hold, the access reads. -/
theorem tail_of_holds (gt : Vec F S32x64 .f32) (T : Vec F S32x1000000 .f32)
    (h : ∀ (r : Fin 32) (l : Fin 64), gt (ix2 r l) = T (ix2 r (⟨999936 + l.val, by have := l.isLt; omega⟩ : Fin 1000000))) :
    ∀ (r : Fin 32) (l : Fin 64),
      ((Memref.whole cc0_scratch2 : Memref sig .scVector .vmem S32x64 .f32).access (.whole S32x64)).read (Elt F) gt (ix2 r l)
        = T (ix2 r (⟨999936 + l.val, by have := l.isLt; omega⟩ : Fin 1000000)) :=
  fun r l => (congrFun (Memref.read_access_whole (Elt F) cc0_scratch2 gt) (ix2 r l)).trans (h r l)

/-- THE SUBCORE'S 512 COLUMNS OF THE RESULT AFTER ITS WRITE-OUT: column base L + k of the result array is column k of
    the column scratch. -/
theorem out_read (L : grid0.Coords) (f0 : (outBlk L).view.ty.Contents (Elt F))
    (gc : (Memref.whole cc0_scratch3 : Memref sig .scVector .vmem S32x512 .f32).view.ty.Contents (Elt F)) (r : Fin 32) (k : Fin 512) :
    ((outBlk L).view.writes (Elt F) f0
        [⟨Rect.whole S32x512,
          ReadAs.same.apply ((Memref.whole cc0_scratch3 : Memref sig .scVector .vmem S32x512 .f32).view.read (Elt F) gc)⟩])
        (ix2 r (⟨base L + k.val, base_add_lt L k⟩ : Fin 16384))
      = gc (ix2 r k) := by
  have e := View.read_writes_cons_emb (outBlk L).view f0 (Rect.whole S32x512)
    (ReadAs.same.apply ((Memref.whole cc0_scratch3 : Memref sig .scVector .vmem S32x512 .f32).view.read (Elt F) gc)) [] (ix2 r k)
  rw [View.read_apply] at e
  have hidx : (outBlk L).view.emb ((Rect.whole S32x512).emb (ix2 r k)) = ix2 r (⟨base L + k.val, base_add_lt L k⟩ : Fin 16384) :=
    funext fun a => match a with
      | ⟨0, _⟩ => Fin.ext (by
          show (k0_off34 L) 0 + 1 * (0 + 1 * r.val) = r.val
          rw [k0_off34_eq L]
          show 0 + 1 * (0 + 1 * r.val) = r.val
          omega)
      | ⟨1, _⟩ => Fin.ext (by
          show (k0_off34 L) 1 + 1 * (0 + 1 * k.val) = base L + k.val
          rw [k0_off34_eq L]
          show 1024 * (L 1).val + 512 * (L 0).val + 1 * (0 + 1 * k.val) = base L + k.val
          unfold base wid
          omega)
  rw [hidx] at e
  exact ((cast_eq _ _).symm.trans e).trans rfl

end Cert.Proof.KI.Value

end
-- ==== Proof.KI.Steps.lean ====
/-
  The indexed load and the indexed store of a vector subcore, as steps from hypotheses in the spelling the
  rest of the run keeps them in: a memref held by its own elements, or a whole scratch buffer.
-/
import proofs.«209800_g17188459118626_cont_7to1_163_19_alg».proof.Proof.KI.Mems

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable {Λ : Labels} {defs : Defs nD τ sig (Elt F) Λ} (𝒱 : Variants) (c : Thread nD τ) (bd : Option 𝒱.V) (E : Set ℕ)
variable {αp : Type} {s t : Shape} {e : EltTy}

set_option maxHeartbeats 1000000 in
omit [FloatOps F] in
/-- The whole-rectangle access of a memref goes through the memref's own elements. -/
theorem set_access_whole' {κ : Kind} {sp : Space} (mm : Memref sig κ sp s e) : (mm.access (Rect.whole s)).set = mm.view.set := by
  show (mm.view.slice (Rect.whole s)).set = mm.view.set
  rw [View.set_slice, Rect.set_whole]; rfl

/-- The indexed load through a memref held by its own elements. -/
theorem wp_loadIdx_own {base : Memref sig c.2.kind .vmem s e} {idxs : Fin s.rank → IVec t 32}
    {h : ∀ a x, (idxs a x).toNat < s.size a} {hl : base.view.Loads} {k : Vec F t e → Prog (TpuEff nD τ sig (Elt F) Λ c.2) αp}
    {q : PosShare TreeShare} {f : Buf (Elt F) (base.view.loc c)} {Qp : αp → sProp (MT nD τ sig (HIx 1) (Elt F) ℕ UU ℕ)} :
    (base.view.loc c ↦[base.view.set]{q} f : sProp 𝕄)
      ⊢ iprop(((base.view.loc c ↦[base.view.set]{q} f)
          -∗ wp frame (wpE defs 𝒱 c bd) E (k (loadIdx ((base.access (.whole s)).read (Elt F) f) idxs h)) Qp)
        -∗ wp frame (wpE defs 𝒱 c bd) E (SparseCore.vectorLoadIdx base idxs h hl >>= k) Qp) := by
  exact SparseCore.wp_vectorLoadIdx (defs := defs) 𝒱 c bd E (base := base) (idxs := idxs) (h := h) (hl := hl) (q := q) (f := f)
    (S := base.view.set) (set_access_whole' base).le

/-- The indexed load through a buffer held whole. -/
theorem wp_loadIdx_univ {base : Memref sig c.2.kind .vmem s e} {idxs : Fin s.rank → IVec t 32}
    {h : ∀ a x, (idxs a x).toNat < s.size a} {hl : base.view.Loads} {k : Vec F t e → Prog (TpuEff nD τ sig (Elt F) Λ c.2) αp}
    {q : PosShare TreeShare} {f : Buf (Elt F) (base.view.loc c)} {Qp : αp → sProp (MT nD τ sig (HIx 1) (Elt F) ℕ UU ℕ)} :
    (base.view.loc c ↦{q} f : sProp 𝕄)
      ⊢ iprop(((base.view.loc c ↦{q} f)
          -∗ wp frame (wpE defs 𝒱 c bd) E (k (loadIdx ((base.access (.whole s)).read (Elt F) f) idxs h)) Qp)
        -∗ wp frame (wpE defs 𝒱 c bd) E (SparseCore.vectorLoadIdx base idxs h hl >>= k) Qp) := by
  exact SparseCore.wp_vectorLoadIdx (defs := defs) 𝒱 c bd E (base := base) (idxs := idxs) (h := h) (hl := hl) (q := q) (f := f)
    (S := Finset.univ) (Finset.subset_univ _)

/-- The column scratch, whole. -/
abbrev sColsW : Memref sig .scVector .vmem S32x512 .f32 := Memref.whole cc0_scratch3

/-- The indexed store into the column scratch held whole: it ends holding the scatter of what it held. -/
theorem wp_storeCols (d : Dev nD) (L : grid0.Coords) (bd : Option 𝒱.V) {idxs : Fin S32x512.rank → IVec S16 32} {v : Vec F S16 .f32}
    {mask : IVec S16 1} {add : Bool} {h : ∀ a x, (idxs a x).toNat < S32x512.size a} {hs : (sColsW.access (.whole S32x512)).Stores Finset.univ}
    {k : PUnit → Prog (TpuEff nD τ sig (Elt F) Λ (VT d L).2) αp} {f : Buf (Elt F) (sColsW.view.loc (VT d L))}
    {Qp : αp → sProp (MT nD τ sig (HIx 1) (Elt F) ℕ UU ℕ)} :
    (sColsW.view.loc (VT d L) ↦{fullShare} f : sProp 𝕄)
      ⊢ iprop(((sColsW.view.loc (VT d L) ↦{fullShare} (storeIdx f idxs v mask add h : Vec F S32x512 .f32))
          -∗ wp frame (wpE defs 𝒱 (VT d L) bd) E (k ⟨⟩) Qp)
        -∗ wp frame (wpE defs 𝒱 (VT d L) bd) E (SparseCore.vectorStoreIdx sColsW idxs v mask add h hs >>= k) Qp) := by
  have key := SparseCore.wp_vectorStoreIdx (defs := defs) 𝒱 (VT d L) bd E (base := sColsW) (idxs := idxs) (v := v) (mask := mask) (add := add)
    (h := h) (hs := hs) (k := k) (f := f) (Q := Qp)
  have e1 : (sColsW.access (Rect.whole S32x512)).set = Finset.univ := Memref.set_access_whole cc0_scratch3
  have e2 : ∀ g : Vec F S32x512 .f32, (sColsW.access (Rect.whole S32x512)).read (Elt F) g = g := Memref.read_access_whole (Elt F) cc0_scratch3
  have e3 : ∀ g w : Vec F S32x512 .f32, (sColsW.access (Rect.whole S32x512)).write (Elt F) g w Finset.univ = w :=
    Memref.write_access_whole_univ (Elt F) cc0_scratch3
  rw [e1, e2, e3] at key
  exact key

end Cert.Proof.KI

end
-- ==== Proof.KI.Chk.lean ====
/-
  The side conditions one trip of the loop owes, each from the fact that the index word it was computed from names
  a row of the table: the slab's start is a multiple of 128 inside the table, the lane is below 128, the tail column
  below 64, the column written below 512; and each "fetch ahead" condition holds exactly on the trips before the last.
-/
import proofs.«209800_g17188459118626_cont_7to1_163_19_alg».proof.Proof.KI.Inv
import proofs.«209800_g17188459118626_cont_7to1_163_19_alg».proof.Proof.KI.Value

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

local notation "𝕄" => MT nD τ sig (HIx 1) (Elt F) ℕ UU ℕ

-- the trip's side conditions, one lemma per check
variable (m : (ℓ : Loc nD τ sig) → Buf (Elt F) ℓ) (d : Dev nD) (L : grid0.Coords)

/-- The loop makes 64 trips. -/
theorem trips_eq : k0_t1_loop.trips = 64 := by decide +kernel

/-- Element 8 k + b of the trip, as the program computes its word. -/
theorem elt_toNat (b : Fin 8) : ∀ k : Fin k0_t1_loop.trips,
    (Scalar.addi (Scalar.muli (Scf.iv 0#32 1#32 k) 8#32) (BitVec.ofNat 32 b.val)).toNat = 8 * k.val + b.val := by
  revert b; decide +kernel

/-- The word a 16-lane load of the index scratch at an offset below 512 puts in lane 0 names a row of the table. -/
theorem lane_le (hr : Cert.Lookup.InRange (m (idxLoc d))) (gi : Buf (Elt F) ((sIdxW).view.loc (VT d L))) (hgi : IdxHolds m d L gi)
    (o : Fin 1 → Nat) (ho : ∀ a, o a + S16.size a ≤ S528.size a) (h512 : o 0 < 512) :
    (extractAt ![0] (extractStridedSlice (s := S16) S1 ![0] ((sIdxW).view.readAt (Elt F) (Rect.unit (s := S528) o S16.size ho).toLoadRect gi) slices_S16_o0_S1) inpos_S1_p0).toNat ≤ 999999 := by
  rw [Value.lane0_read]
  have := hgi ⟨o 0, h512⟩
  rw [this]
  exact hr ⟨base L + o 0, base_add_lt L ⟨o 0, h512⟩⟩

theorem chk9_of (c : BitVec 32) (hc : c.toNat ≤ 999999) : k0_chk9 Words.iotaV Words.iota16V (broadcast S16 (Words.laneW c)) := Words.chkSlab c hc
theorem chk10_of (c : BitVec 32) (hc : c.toNat ≤ 999999) : k0_chk10 Words.iotaV Words.iota16V (broadcast S16 (Words.tailW c)) := Words.chkTail c hc
theorem chk11_of (e : BitVec 32) (he : e.toNat < 512) : k0_chk11 Words.iotaV Words.iota16V (broadcast S16 e) := Words.chkCol e he
theorem chk12_of (k : Fin k0_t1_loop.trips) (c : BitVec 32) (hc : c.toNat ≤ 999999) : k0_chk12 k c := Words.fire_ok_cond _ c hc
theorem cond1_iff : ∀ k : Fin k0_t1_loop.trips, k0_cond1 k = 1#1 ↔ k.val < 63 := by decide +kernel
theorem off10_lt (k : Fin k0_t1_loop.trips) : (k0_off10 k) 0 < 512 := by
  have h : k.val < 64 := lt_of_lt_of_eq k.isLt trips_eq; rw [k0_off10_eq]; show 8 * k.val + 0 < 512; omega
theorem off11_lt (k : Fin k0_t1_loop.trips) (hk : k.val < 63) : (k0_off11 k) 0 < 512 := by
  rw [k0_off11_eq]; show 8 * k.val + 8 < 512; omega

theorem chk13_of (c : BitVec 32) (hc : c.toNat ≤ 999999) : k0_chk13 Words.iotaV Words.iota16V (broadcast S16 (Words.laneW c)) := Words.chkSlab c hc
theorem chk14_of (c : BitVec 32) (hc : c.toNat ≤ 999999) : k0_chk14 Words.iotaV Words.iota16V (broadcast S16 (Words.tailW c)) := Words.chkTail c hc
theorem chk15_of (e : BitVec 32) (he : e.toNat < 512) : k0_chk15 Words.iotaV Words.iota16V (broadcast S16 e) := Words.chkCol e he
theorem chk16_of (k : Fin k0_t1_loop.trips) (c : BitVec 32) (hc : c.toNat ≤ 999999) : k0_chk16 k c := Words.fire_ok_cond _ c hc
theorem cond2_iff : ∀ k : Fin k0_t1_loop.trips, k0_cond2 k = 1#1 ↔ k.val < 63 := by decide +kernel
theorem off13_lt (k : Fin k0_t1_loop.trips) : (k0_off13 k) 0 < 512 := by
  have h : k.val < 64 := lt_of_lt_of_eq k.isLt trips_eq; rw [k0_off13_eq]; show 8 * k.val + 1 < 512; omega
theorem off14_lt (k : Fin k0_t1_loop.trips) (hk : k.val < 63) : (k0_off14 k) 0 < 512 := by
  rw [k0_off14_eq]; show 8 * k.val + 9 < 512; omega

theorem chk17_of (c : BitVec 32) (hc : c.toNat ≤ 999999) : k0_chk17 Words.iotaV Words.iota16V (broadcast S16 (Words.laneW c)) := Words.chkSlab c hc
theorem chk18_of (c : BitVec 32) (hc : c.toNat ≤ 999999) : k0_chk18 Words.iotaV Words.iota16V (broadcast S16 (Words.tailW c)) := Words.chkTail c hc
theorem chk19_of (e : BitVec 32) (he : e.toNat < 512) : k0_chk19 Words.iotaV Words.iota16V (broadcast S16 e) := Words.chkCol e he
theorem chk20_of (k : Fin k0_t1_loop.trips) (c : BitVec 32) (hc : c.toNat ≤ 999999) : k0_chk20 k c := Words.fire_ok_cond _ c hc
theorem cond3_iff : ∀ k : Fin k0_t1_loop.trips, k0_cond3 k = 1#1 ↔ k.val < 63 := by decide +kernel
theorem off16_lt (k : Fin k0_t1_loop.trips) : (k0_off16 k) 0 < 512 := by
  have h : k.val < 64 := lt_of_lt_of_eq k.isLt trips_eq; rw [k0_off16_eq]; show 8 * k.val + 2 < 512; omega
theorem off17_lt (k : Fin k0_t1_loop.trips) (hk : k.val < 63) : (k0_off17 k) 0 < 512 := by
  rw [k0_off17_eq]; show 8 * k.val + 10 < 512; omega

theorem chk21_of (c : BitVec 32) (hc : c.toNat ≤ 999999) : k0_chk21 Words.iotaV Words.iota16V (broadcast S16 (Words.laneW c)) := Words.chkSlab c hc
theorem chk22_of (c : BitVec 32) (hc : c.toNat ≤ 999999) : k0_chk22 Words.iotaV Words.iota16V (broadcast S16 (Words.tailW c)) := Words.chkTail c hc
theorem chk23_of (e : BitVec 32) (he : e.toNat < 512) : k0_chk23 Words.iotaV Words.iota16V (broadcast S16 e) := Words.chkCol e he
theorem chk24_of (k : Fin k0_t1_loop.trips) (c : BitVec 32) (hc : c.toNat ≤ 999999) : k0_chk24 k c := Words.fire_ok_cond _ c hc
theorem cond4_iff : ∀ k : Fin k0_t1_loop.trips, k0_cond4 k = 1#1 ↔ k.val < 63 := by decide +kernel
theorem off19_lt (k : Fin k0_t1_loop.trips) : (k0_off19 k) 0 < 512 := by
  have h : k.val < 64 := lt_of_lt_of_eq k.isLt trips_eq; rw [k0_off19_eq]; show 8 * k.val + 3 < 512; omega
theorem off20_lt (k : Fin k0_t1_loop.trips) (hk : k.val < 63) : (k0_off20 k) 0 < 512 := by
  rw [k0_off20_eq]; show 8 * k.val + 11 < 512; omega

theorem chk25_of (c : BitVec 32) (hc : c.toNat ≤ 999999) : k0_chk25 Words.iotaV Words.iota16V (broadcast S16 (Words.laneW c)) := Words.chkSlab c hc
theorem chk26_of (c : BitVec 32) (hc : c.toNat ≤ 999999) : k0_chk26 Words.iotaV Words.iota16V (broadcast S16 (Words.tailW c)) := Words.chkTail c hc
theorem chk27_of (e : BitVec 32) (he : e.toNat < 512) : k0_chk27 Words.iotaV Words.iota16V (broadcast S16 e) := Words.chkCol e he
theorem chk28_of (k : Fin k0_t1_loop.trips) (c : BitVec 32) (hc : c.toNat ≤ 999999) : k0_chk28 k c := Words.fire_ok_cond _ c hc
theorem cond5_iff : ∀ k : Fin k0_t1_loop.trips, k0_cond5 k = 1#1 ↔ k.val < 63 := by decide +kernel
theorem off22_lt (k : Fin k0_t1_loop.trips) : (k0_off22 k) 0 < 512 := by
  have h : k.val < 64 := lt_of_lt_of_eq k.isLt trips_eq; rw [k0_off22_eq]; show 8 * k.val + 4 < 512; omega
theorem off23_lt (k : Fin k0_t1_loop.trips) (hk : k.val < 63) : (k0_off23 k) 0 < 512 := by
  rw [k0_off23_eq]; show 8 * k.val + 12 < 512; omega

theorem chk29_of (c : BitVec 32) (hc : c.toNat ≤ 999999) : k0_chk29 Words.iotaV Words.iota16V (broadcast S16 (Words.laneW c)) := Words.chkSlab c hc
theorem chk30_of (c : BitVec 32) (hc : c.toNat ≤ 999999) : k0_chk30 Words.iotaV Words.iota16V (broadcast S16 (Words.tailW c)) := Words.chkTail c hc
theorem chk31_of (e : BitVec 32) (he : e.toNat < 512) : k0_chk31 Words.iotaV Words.iota16V (broadcast S16 e) := Words.chkCol e he
theorem chk32_of (k : Fin k0_t1_loop.trips) (c : BitVec 32) (hc : c.toNat ≤ 999999) : k0_chk32 k c := Words.fire_ok_cond _ c hc
theorem cond6_iff : ∀ k : Fin k0_t1_loop.trips, k0_cond6 k = 1#1 ↔ k.val < 63 := by decide +kernel
theorem off25_lt (k : Fin k0_t1_loop.trips) : (k0_off25 k) 0 < 512 := by
  have h : k.val < 64 := lt_of_lt_of_eq k.isLt trips_eq; rw [k0_off25_eq]; show 8 * k.val + 5 < 512; omega
theorem off26_lt (k : Fin k0_t1_loop.trips) (hk : k.val < 63) : (k0_off26 k) 0 < 512 := by
  rw [k0_off26_eq]; show 8 * k.val + 13 < 512; omega

theorem chk33_of (c : BitVec 32) (hc : c.toNat ≤ 999999) : k0_chk33 Words.iotaV Words.iota16V (broadcast S16 (Words.laneW c)) := Words.chkSlab c hc
theorem chk34_of (c : BitVec 32) (hc : c.toNat ≤ 999999) : k0_chk34 Words.iotaV Words.iota16V (broadcast S16 (Words.tailW c)) := Words.chkTail c hc
theorem chk35_of (e : BitVec 32) (he : e.toNat < 512) : k0_chk35 Words.iotaV Words.iota16V (broadcast S16 e) := Words.chkCol e he
theorem chk36_of (k : Fin k0_t1_loop.trips) (c : BitVec 32) (hc : c.toNat ≤ 999999) : k0_chk36 k c := Words.fire_ok_cond _ c hc
theorem cond7_iff : ∀ k : Fin k0_t1_loop.trips, k0_cond7 k = 1#1 ↔ k.val < 63 := by decide +kernel
theorem off28_lt (k : Fin k0_t1_loop.trips) : (k0_off28 k) 0 < 512 := by
  have h : k.val < 64 := lt_of_lt_of_eq k.isLt trips_eq; rw [k0_off28_eq]; show 8 * k.val + 6 < 512; omega
theorem off29_lt (k : Fin k0_t1_loop.trips) (hk : k.val < 63) : (k0_off29 k) 0 < 512 := by
  rw [k0_off29_eq]; show 8 * k.val + 14 < 512; omega

theorem chk37_of (c : BitVec 32) (hc : c.toNat ≤ 999999) : k0_chk37 Words.iotaV Words.iota16V (broadcast S16 (Words.laneW c)) := Words.chkSlab c hc
theorem chk38_of (c : BitVec 32) (hc : c.toNat ≤ 999999) : k0_chk38 Words.iotaV Words.iota16V (broadcast S16 (Words.tailW c)) := Words.chkTail c hc
theorem chk39_of (e : BitVec 32) (he : e.toNat < 512) : k0_chk39 Words.iotaV Words.iota16V (broadcast S16 e) := Words.chkCol e he
theorem chk40_of (k : Fin k0_t1_loop.trips) (c : BitVec 32) (hc : c.toNat ≤ 999999) : k0_chk40 k c := Words.fire_ok_cond _ c hc
theorem cond8_iff : ∀ k : Fin k0_t1_loop.trips, k0_cond8 k = 1#1 ↔ k.val < 63 := by decide +kernel
theorem off31_lt (k : Fin k0_t1_loop.trips) : (k0_off31 k) 0 < 512 := by
  have h : k.val < 64 := lt_of_lt_of_eq k.isLt trips_eq; rw [k0_off31_eq]; show 8 * k.val + 7 < 512; omega
theorem off32_lt (k : Fin k0_t1_loop.trips) (hk : k.val < 63) : (k0_off32 k) 0 < 512 := by
  rw [k0_off32_eq]; show 8 * k.val + 15 < 512; omega

theorem elt0 : ∀ k : Fin k0_t1_loop.trips, (Scalar.addi (Scalar.muli (Scf.iv 0#32 1#32 k) 8#32) 0#32).toNat = 8 * k.val + 0 := by decide +kernel
theorem elt1 : ∀ k : Fin k0_t1_loop.trips, (Scalar.addi (Scalar.muli (Scf.iv 0#32 1#32 k) 8#32) 1#32).toNat = 8 * k.val + 1 := by decide +kernel
theorem elt2 : ∀ k : Fin k0_t1_loop.trips, (Scalar.addi (Scalar.muli (Scf.iv 0#32 1#32 k) 8#32) 2#32).toNat = 8 * k.val + 2 := by decide +kernel
theorem elt3 : ∀ k : Fin k0_t1_loop.trips, (Scalar.addi (Scalar.muli (Scf.iv 0#32 1#32 k) 8#32) 3#32).toNat = 8 * k.val + 3 := by decide +kernel
theorem elt4 : ∀ k : Fin k0_t1_loop.trips, (Scalar.addi (Scalar.muli (Scf.iv 0#32 1#32 k) 8#32) 4#32).toNat = 8 * k.val + 4 := by decide +kernel
theorem elt5 : ∀ k : Fin k0_t1_loop.trips, (Scalar.addi (Scalar.muli (Scf.iv 0#32 1#32 k) 8#32) 5#32).toNat = 8 * k.val + 5 := by decide +kernel
theorem elt6 : ∀ k : Fin k0_t1_loop.trips, (Scalar.addi (Scalar.muli (Scf.iv 0#32 1#32 k) 8#32) 6#32).toNat = 8 * k.val + 6 := by decide +kernel
theorem elt7 : ∀ k : Fin k0_t1_loop.trips, (Scalar.addi (Scalar.muli (Scf.iv 0#32 1#32 k) 8#32) 7#32).toNat = 8 * k.val + 7 := by decide +kernel

end Cert.Proof.KI

end
-- ==== Proof.KI.Cw.lean ====
/-
  The index word a trip of the loop works on. A 16-lane load of the index scratch at offset o puts the scratch's
  word o in lane 0; while the scratch holds the subcore's 512 indices, word e < 512 is index base + e of the batch,
  so (every index naming a row of the table) it is at most 999999, its value is the row the lookup takes for
  element base + e, and column (that value) of the transposed table is the column the result owes there.
-/
import proofs.«209800_g17188459118626_cont_7to1_163_19_alg».proof.Proof.KI.Inv
import proofs.«209800_g17188459118626_cont_7to1_163_19_alg».proof.Proof.KI.Value

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
variable (m : (ℓ : Loc nD τ sig) → Buf (Elt F) ℓ) (d : Dev nD) (L : grid0.Coords)

/-- Lane 0 of a 16-lane load of the index scratch at offset o is word o of the scratch. -/
theorem lw_eq_cw (gi : Buf (Elt F) ((sIdxW).view.loc (VT d L))) (o : Fin 1 → Nat)
    (ho : ∀ a, o a + S16.size a ≤ S528.size a) :
    extractAt ![0] (extractStridedSlice (s := S16) S1 ![0]
        ((sIdxW).view.readAt (Elt F) (Rect.unit (s := S528) o S16.size ho).toLoadRect gi)
        slices_S16_o0_S1) inpos_S1_p0
      = cw d L gi (o 0) := by
  have h0 : o 0 + 16 ≤ 528 := ho 0
  refine (Value.lane0_read gi o ho).trans ?_
  unfold cw
  rw [dif_pos (show o 0 < 528 by omega)]

/-- Word e < 512 of the index scratch is index base + e of the batch. -/
theorem cw_eq (gi : Buf (Elt F) ((sIdxW).view.loc (VT d L))) (hgi : IdxHolds m d L gi) (e : ℕ) (he : e < 512) :
    cw d L gi e = m (idxLoc d) (ix1 ⟨base L + e, base_add_lt L ⟨e, he⟩⟩) := by
  unfold cw
  rw [dif_pos (show e < 528 by omega)]
  exact hgi ⟨e, he⟩

/-- It names a row of the table. -/
theorem cw_le (gi : Buf (Elt F) ((sIdxW).view.loc (VT d L))) (hr : Cert.Lookup.InRange (m (idxLoc d)))
    (hgi : IdxHolds m d L gi) (e : ℕ) (he : e < 512) : (cw d L gi e).toNat ≤ 999999 := by
  rw [cw_eq m d L gi hgi e he]
  exact hr ⟨base L + e, base_add_lt L ⟨e, he⟩⟩

/-- Its value is the row the lookup takes for element base + e. -/
theorem cw_row (gi : Buf (Elt F) ((sIdxW).view.loc (VT d L))) (hr : Cert.Lookup.InRange (m (idxLoc d)))
    (hgi : IdxHolds m d L gi) (e : ℕ) (he : e < 512) :
    (cw d L gi e).toNat = (Cert.Lookup.rowOf (m (idxLoc d)) ⟨base L + e, base_add_lt L ⟨e, he⟩⟩).val := by
  rw [Cert.Lookup.rowOf_val hr, cw_eq m d L gi hgi e he]

/-- Column (its value) of the transposed table is the column the result owes at element base + e. -/
theorem cw_col (gi : Buf (Elt F) ((sIdxW).view.loc (VT d L))) (hr : Cert.Lookup.InRange (m (idxLoc d)))
    (hgi : IdxHolds m d L gi) (e : ℕ) (he : e < 512) (r : Fin 32) (h : (cw d L gi e).toNat < 1000000) :
    tabT m d (ix2 r ⟨(cw d L gi e).toNat, h⟩)
      = tabT m d (ix2 r (Cert.Lookup.rowOf (m (idxLoc d)) ⟨base L + e, base_add_lt L ⟨e, he⟩⟩)) := by
  refine congrArg (tabT m d) (funext fun a => ?_)
  match a with
  | ⟨0, _⟩ => rfl
  | ⟨1, _⟩ => exact Fin.ext (cw_row m d L gi hr hgi e he)

end Cert.Proof.KI

end
-- ==== Proof.KI.Region.lean ====
/-
  One trip of the loop. Before trip k every slot b holds a fetch in flight for element 8 k + b. The trip goes slot by
  slot: it waits for the fetch, so that slab b holds columns slabW c … slabW c + 127 of the transposed table, c the
  element's index word; it reads lane laneW c of the slab and column tailW c of the tail, for rows 0 … 15 and then
  16 … 31, keeps the tail's value exactly when c ≥ 999936, and writes the 32 values into column 8 k + b of the column
  scratch — which is therefore column c of the table, because slabW c + laneW c = c below 999936 and
  999936 + tailW c = c from there on; then, except on the last trip, it starts the fetch for element 8 (k + 1) + b
  into the same slab. So the invariant holds again at k + 1: eight more columns filled, every slot fetching for the
  next trip, or at rest after the last.
-/
import proofs.«209800_g17188459118626_cont_7to1_163_19_alg».proof.Proof.KI.Inv
import proofs.«209800_g17188459118626_cont_7to1_163_19_alg».proof.Proof.KI.Steps
import proofs.«209800_g17188459118626_cont_7to1_163_19_alg».proof.Proof.KI.Value
import proofs.«209800_g17188459118626_cont_7to1_163_19_alg».proof.Proof.KI.Chk
import proofs.«209800_g17188459118626_cont_7to1_163_19_alg».proof.Proof.KI.Cw

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-- Lane 0 of the 16-lane load of the index scratch at offset o: the index word a slot's element works on. -/
abbrev laneWord (gi : Buf (Elt F) ((sIdxW).view.loc (VT d L))) (o : Fin 1 → Nat) (ho : ∀ a, o a + S16.size a ≤ S528.size a) : BitVec 32 :=
  extractAt ![0] (extractStridedSlice (s := S16) S1 ![0]
    ((sIdxW).view.readAt (Elt F) (Rect.unit (s := S528) o S16.size ho).toLoadRect gi) slices_S16_o0_S1) inpos_S1_p0

/-- ONE ELEMENT OF A TRIP: slab b holds the 128 columns fetched for the index word w = word n of the index scratch, which
    is also lane 0 of the load at offset o = n; the element's two indexed stores at column ce = n take "columns below n
    are the looked-up ones" to "columns below n + 1 are". -/
theorem slot_step (hr : Cert.Lookup.InRange (m (idxLoc d))) (gi : Buf (Elt F) ((sIdxW).view.loc (VT d L))) (hgi : IdxHolds m d L gi)
    (gt : Buf (Elt F) ((sTailW).view.loc (VT d L))) (hgt : TailHolds m d L gt)
    (b : ℕ) (hb : ∀ a, (![b, 0, 0] : Fin 3 → Nat) a + S1x32x128.size a ≤ S8x32x128.size a)
    (o : Fin 1 → Nat) (ho : ∀ a, o a + S16.size a ≤ S528.size a) (n : ℕ) (hn : n < 512) (hon : o 0 = n)
    (w : RW) (hw : w.1 = cw d L gi n) (f : (slabM b hb).view.ty.Contents (Elt F))
    (cols : Buf (Elt F) ((sColW).view.loc (VT d L))) (ce : BitVec 32) (hce : ce.toNat = n)
    (h1 : ∀ a x, ((![Words.iotaV, broadcast S16 (Words.laneW (laneWord d L gi o ho))] : Fin 2 → IVec S16 32) a x).toNat < S32x128.size a)
    (h2 : ∀ a x, ((![Words.iotaV, broadcast S16 (Words.tailW (laneWord d L gi o ho))] : Fin 2 → IVec S16 32) a x).toNat < S32x64.size a)
    (h3 : ∀ a x, ((![Words.iota16V, broadcast S16 (Words.laneW (laneWord d L gi o ho))] : Fin 2 → IVec S16 32) a x).toNat < S32x128.size a)
    (h4 : ∀ a x, ((![Words.iota16V, broadcast S16 (Words.tailW (laneWord d L gi o ho))] : Fin 2 → IVec S16 32) a x).toNat < S32x64.size a)
    (h5 : ∀ a x, ((![Words.iotaV, broadcast S16 ce] : Fin 2 → IVec S16 32) a x).toNat < S32x512.size a)
    (h6 : ∀ a x, ((![Words.iota16V, broadcast S16 ce] : Fin 2 → IVec S16 32) a x).toNat < S32x512.size a)
    (hcols : ColsOK m d L n cols) :
    ColsOK m d L (n + 1)
      (storeIdx
        (storeIdx cols ![Words.iotaV, broadcast S16 ce]
          (select (broadcast S16 (Words.useTailW (laneWord d L gi o ho)))
            (loadIdx (View.read (Elt F) (sTailW.access (Rect.whole S32x64)) gt)
              ![Words.iotaV, broadcast S16 (Words.tailW (laneWord d L gi o ho))] h2)
            (loadIdx
              (View.read (Elt F) ((slabM b hb).access (Rect.whole S32x128))
                ((slabM b hb).view.writes (Elt F) f
                  [⟨Rect.whole S32x128, ReadAs.same.apply (View.read (Elt F) (srcW w.1 w.2).view (tabT m d))⟩]))
              ![Words.iotaV, broadcast S16 (Words.laneW (laneWord d L gi o ho))] h1))
          (fun _ => 1#1) false h5)
        ![Words.iota16V, broadcast S16 ce]
        (select (broadcast S16 (Words.useTailW (laneWord d L gi o ho)))
          (loadIdx (View.read (Elt F) (sTailW.access (Rect.whole S32x64)) gt)
            ![Words.iota16V, broadcast S16 (Words.tailW (laneWord d L gi o ho))] h4)
          (loadIdx
            (View.read (Elt F) ((slabM b hb).access (Rect.whole S32x128))
              ((slabM b hb).view.writes (Elt F) f
                [⟨Rect.whole S32x128, ReadAs.same.apply (View.read (Elt F) (srcW w.1 w.2).view (tabT m d))⟩]))
            ![Words.iota16V, broadcast S16 (Words.laneW (laneWord d L gi o ho))] h3))
        (fun _ => 1#1) false h6) := by
  have hc : (laneWord d L gi o ho).toNat ≤ 999999 := lane_le m d L hr gi hgi o ho (by omega)
  have ecn : laneWord d L gi o ho = cw d L gi n := (lw_eq_cw d L gi o ho).trans (congrArg (cw d L gi) hon)
  have ec : laneWord d L gi o ho = w.1 := ecn.trans hw.symm
  have hslab : ∀ (r : Fin 32) (l : Fin 128),
      View.read (Elt F) ((slabM b hb).access (Rect.whole S32x128))
          ((slabM b hb).view.writes (Elt F) f
            [⟨Rect.whole S32x128, ReadAs.same.apply (View.read (Elt F) (srcW w.1 w.2).view (tabT m d))⟩]) (ix2 r l)
        = tabT m d (ix2 r (⟨(Words.slabW (laneWord d L gi o ho)).toNat + l.val,
            by have := Words.slabW_toNat (laneWord d L gi o ho) hc; have := l.isLt; omega⟩ : Fin 1000000)) := fun r l =>
    (Value.slab_read m d b hb ![0, (Words.slabW w.1).toNat] (Words.fire_ok w.1 w.2).2 rfl f r l).trans
      (congrArg (tabT m d) (funext fun a => match a with
        | ⟨0, _⟩ => rfl
        | ⟨1, _⟩ => Fin.ext (by show (Words.slabW w.1).toNat + l.val = (Words.slabW (laneWord d L gi o ho)).toNat + l.val; rw [ec])))
  have htail := Value.tail_of_holds gt (tabT m d) hgt
  have hR : ∀ (r : Fin 32) (k' : Fin 512), k'.val = n →
      tabT m d (ix2 r (⟨(laneWord d L gi o ho).toNat, by omega⟩ : Fin 1000000))
        = tabT m d (ix2 r (Cert.Lookup.rowOf (m (idxLoc d)) ⟨base L + k'.val, base_add_lt L k'⟩)) := by
    intro r k' hk'
    have e1 : laneWord d L gi o ho = cw d L gi k'.val := by rw [hk']; exact ecn
    have hle := cw_le m d L gi hr hgi k'.val k'.isLt
    exact (congrArg (fun j : Fin 1000000 => tabT m d (ix2 r j))
      (Fin.ext (congrArg BitVec.toNat e1) :
        (⟨(laneWord d L gi o ho).toNat, by omega⟩ : Fin 1000000) = ⟨(cw d L gi k'.val).toNat, by omega⟩)).trans
      (cw_col m d L gi hr hgi k'.val k'.isLt r (by omega))
  exact Value.upd_step (tabT m d) _ _ (laneWord d L gi o ho) hc hslab htail cols ce h1 h2 h3 h4 h5 h6 n
    (fun r k' => tabT m d (ix2 r (Cert.Lookup.rowOf (m (idxLoc d)) ⟨base L + k'.val, base_add_lt L k'⟩))) hce hR hcols

set_option hygiene false in
/-- The side conditions of a trip before the last, each from the range of the index word it was computed from. -/
local macro "trip_disch" : tactic => `(tactic| first
    | (guard_target = k0_chk9 _ _ _; exact chk9_of _ (lane_le m d L hr gi hgi _ _ (off10_lt k)))
    | (guard_target = k0_chk10 _ _ _; exact chk10_of _ (lane_le m d L hr gi hgi _ _ (off10_lt k)))
    | (guard_target = k0_chk11 _ _ _; exact chk11_of _ (lt_of_eq_of_lt (elt0 k) (by omega)))
    | (guard_target = k0_chk12 _ _; exact chk12_of k _ (lane_le m d L hr gi hgi _ _ (off11_lt k hk)))
    | (guard_target = k0_chk13 _ _ _; exact chk13_of _ (lane_le m d L hr gi hgi _ _ (off13_lt k)))
    | (guard_target = k0_chk14 _ _ _; exact chk14_of _ (lane_le m d L hr gi hgi _ _ (off13_lt k)))
    | (guard_target = k0_chk15 _ _ _; exact chk15_of _ (lt_of_eq_of_lt (elt1 k) (by omega)))
    | (guard_target = k0_chk16 _ _; exact chk16_of k _ (lane_le m d L hr gi hgi _ _ (off14_lt k hk)))
    | (guard_target = k0_chk17 _ _ _; exact chk17_of _ (lane_le m d L hr gi hgi _ _ (off16_lt k)))
    | (guard_target = k0_chk18 _ _ _; exact chk18_of _ (lane_le m d L hr gi hgi _ _ (off16_lt k)))
    | (guard_target = k0_chk19 _ _ _; exact chk19_of _ (lt_of_eq_of_lt (elt2 k) (by omega)))
    | (guard_target = k0_chk20 _ _; exact chk20_of k _ (lane_le m d L hr gi hgi _ _ (off17_lt k hk)))
    | (guard_target = k0_chk21 _ _ _; exact chk21_of _ (lane_le m d L hr gi hgi _ _ (off19_lt k)))
    | (guard_target = k0_chk22 _ _ _; exact chk22_of _ (lane_le m d L hr gi hgi _ _ (off19_lt k)))
    | (guard_target = k0_chk23 _ _ _; exact chk23_of _ (lt_of_eq_of_lt (elt3 k) (by omega)))
    | (guard_target = k0_chk24 _ _; exact chk24_of k _ (lane_le m d L hr gi hgi _ _ (off20_lt k hk)))
    | (guard_target = k0_chk25 _ _ _; exact chk25_of _ (lane_le m d L hr gi hgi _ _ (off22_lt k)))
    | (guard_target = k0_chk26 _ _ _; exact chk26_of _ (lane_le m d L hr gi hgi _ _ (off22_lt k)))
    | (guard_target = k0_chk27 _ _ _; exact chk27_of _ (lt_of_eq_of_lt (elt4 k) (by omega)))
    | (guard_target = k0_chk28 _ _; exact chk28_of k _ (lane_le m d L hr gi hgi _ _ (off23_lt k hk)))
    | (guard_target = k0_chk29 _ _ _; exact chk29_of _ (lane_le m d L hr gi hgi _ _ (off25_lt k)))
    | (guard_target = k0_chk30 _ _ _; exact chk30_of _ (lane_le m d L hr gi hgi _ _ (off25_lt k)))
    | (guard_target = k0_chk31 _ _ _; exact chk31_of _ (lt_of_eq_of_lt (elt5 k) (by omega)))
    | (guard_target = k0_chk32 _ _; exact chk32_of k _ (lane_le m d L hr gi hgi _ _ (off26_lt k hk)))
    | (guard_target = k0_chk33 _ _ _; exact chk33_of _ (lane_le m d L hr gi hgi _ _ (off28_lt k)))
    | (guard_target = k0_chk34 _ _ _; exact chk34_of _ (lane_le m d L hr gi hgi _ _ (off28_lt k)))
    | (guard_target = k0_chk35 _ _ _; exact chk35_of _ (lt_of_eq_of_lt (elt6 k) (by omega)))
    | (guard_target = k0_chk36 _ _; exact chk36_of k _ (lane_le m d L hr gi hgi _ _ (off29_lt k hk)))
    | (guard_target = k0_chk37 _ _ _; exact chk37_of _ (lane_le m d L hr gi hgi _ _ (off31_lt k)))
    | (guard_target = k0_chk38 _ _ _; exact chk38_of _ (lane_le m d L hr gi hgi _ _ (off31_lt k)))
    | (guard_target = k0_chk39 _ _ _; exact chk39_of _ (lt_of_eq_of_lt (elt7 k) (by omega)))
    | (guard_target = k0_chk40 _ _; exact chk40_of k _ (lane_le m d L hr gi hgi _ _ (off32_lt k hk))))

set_option hygiene false in
/-- The side conditions of the last trip (no fetch ahead). -/
local macro "last_disch" : tactic => `(tactic| first
    | (guard_target = k0_chk9 _ _ _; exact chk9_of _ (lane_le m d L hr gi hgi _ _ (off10_lt k)))
    | (guard_target = k0_chk10 _ _ _; exact chk10_of _ (lane_le m d L hr gi hgi _ _ (off10_lt k)))
    | (guard_target = k0_chk11 _ _ _; exact chk11_of _ (lt_of_eq_of_lt (elt0 k) (by omega)))
    | (guard_target = k0_chk13 _ _ _; exact chk13_of _ (lane_le m d L hr gi hgi _ _ (off13_lt k)))
    | (guard_target = k0_chk14 _ _ _; exact chk14_of _ (lane_le m d L hr gi hgi _ _ (off13_lt k)))
    | (guard_target = k0_chk15 _ _ _; exact chk15_of _ (lt_of_eq_of_lt (elt1 k) (by omega)))
    | (guard_target = k0_chk17 _ _ _; exact chk17_of _ (lane_le m d L hr gi hgi _ _ (off16_lt k)))
    | (guard_target = k0_chk18 _ _ _; exact chk18_of _ (lane_le m d L hr gi hgi _ _ (off16_lt k)))
    | (guard_target = k0_chk19 _ _ _; exact chk19_of _ (lt_of_eq_of_lt (elt2 k) (by omega)))
    | (guard_target = k0_chk21 _ _ _; exact chk21_of _ (lane_le m d L hr gi hgi _ _ (off19_lt k)))
    | (guard_target = k0_chk22 _ _ _; exact chk22_of _ (lane_le m d L hr gi hgi _ _ (off19_lt k)))
    | (guard_target = k0_chk23 _ _ _; exact chk23_of _ (lt_of_eq_of_lt (elt3 k) (by omega)))
    | (guard_target = k0_chk25 _ _ _; exact chk25_of _ (lane_le m d L hr gi hgi _ _ (off22_lt k)))
    | (guard_target = k0_chk26 _ _ _; exact chk26_of _ (lane_le m d L hr gi hgi _ _ (off22_lt k)))
    | (guard_target = k0_chk27 _ _ _; exact chk27_of _ (lt_of_eq_of_lt (elt4 k) (by omega)))
    | (guard_target = k0_chk29 _ _ _; exact chk29_of _ (lane_le m d L hr gi hgi _ _ (off25_lt k)))
    | (guard_target = k0_chk30 _ _ _; exact chk30_of _ (lane_le m d L hr gi hgi _ _ (off25_lt k)))
    | (guard_target = k0_chk31 _ _ _; exact chk31_of _ (lt_of_eq_of_lt (elt5 k) (by omega)))
    | (guard_target = k0_chk33 _ _ _; exact chk33_of _ (lane_le m d L hr gi hgi _ _ (off28_lt k)))
    | (guard_target = k0_chk34 _ _ _; exact chk34_of _ (lane_le m d L hr gi hgi _ _ (off28_lt k)))
    | (guard_target = k0_chk35 _ _ _; exact chk35_of _ (lt_of_eq_of_lt (elt6 k) (by omega)))
    | (guard_target = k0_chk37 _ _ _; exact chk37_of _ (lane_le m d L hr gi hgi _ _ (off31_lt k)))
    | (guard_target = k0_chk38 _ _ _; exact chk38_of _ (lane_le m d L hr gi hgi _ _ (off31_lt k)))
    | (guard_target = k0_chk39 _ _ _; exact chk39_of _ (lt_of_eq_of_lt (elt7 k) (by omega))))

set_option maxHeartbeats 8000000 in
theorem region_lt (O : CellTallies nD τ sig (HIx 1)) (W : Waits sig (HIx 1))
    (gi : Buf (Elt F) ((sIdxW).view.loc (VT d L))) (gt : Buf (Elt F) ((sTailW).view.loc (VT d L)))
    (hr : Cert.Lookup.InRange (m (idxLoc d))) (hgi : IdxHolds m d L gi) (hgt : TailHolds m d L gt) (hO : ∀ g, O g none = 0)
    (k : Fin k0_t1_loop.trips) (hk : k.val < 63) (acc : Unit) :
    inv m d L O W gi gt k.val acc
      ⊢ wp frame (wpE (defs₀ (F := F)) 𝒱₀ (VT d L) none) Set.univ
          (k0_t1_body (F := F) L tabW (Memref.isWhole_whole _) idxW (Memref.isWhole_whole _) tailW (Memref.isWhole_whole _) outW (Memref.isWhole_whole _)
            sIdxW (Memref.isWhole_whole _) sSlabW (Memref.isWhole_whole _) sTailW (Memref.isWhole_whole _) sColW (Memref.isWhole_whole _)
            cc0_scratch4 cc0_scratch5 cc0_scratch6 cc0_scratch7 cc0_scratch8 cc0_scratch9 cc0_scratch10 cc0_scratch11 cc0_scoped0 cc0_scoped1 cc0_scoped2
            Words.iotaV Words.iota16V 0#32 1#32 k acc)
          (inv m d L O W gi gt (k.val + 1)) := by
  have hk64 : k.val < 64 := by omega
  have hc1 : k0_cond1 k = 1#1 := (cond1_iff k).mpr hk
  have hc2 : k0_cond2 k = 1#1 := (cond2_iff k).mpr hk
  have hc3 : k0_cond3 k = 1#1 := (cond3_iff k).mpr hk
  have hc4 : k0_cond4 k = 1#1 := (cond4_iff k).mpr hk
  have hc5 : k0_cond5 k = 1#1 := (cond5_iff k).mpr hk
  have hc6 : k0_cond6 k = 1#1 := (cond6_iff k).mpr hk
  have hc7 : k0_cond7 k = 1#1 := (cond7_iff k).mpr hk
  have hc8 : k0_cond8 k = 1#1 := (cond8_iff k).mpr hk
  unfold inv slot0 slot1 slot2 slot3 slot4 slot5 slot6 slot7
  have hk1 : k.val + 1 < 64 := by omega
  rw [if_pos hk64, if_pos hk64, if_pos hk64, if_pos hk64, if_pos hk64, if_pos hk64, if_pos hk64, if_pos hk64]
  rw [if_pos hk1, if_pos hk1, if_pos hk1, if_pos hk1, if_pos hk1, if_pos hk1, if_pos hk1, if_pos hk1]
  unfold fly0 fly1 fly2 fly3 fly4 fly5 fly6 fly7
  unfold k0_t1_body
  iintro ⟨#Hmw, Hsi, Hst, ⟨%gc, %hgc, Hsc⟩, ⟨%w0, %hw0, ⟨%f0, Hf0⟩, Hk0⟩, ⟨%w1, %hw1, ⟨%f1, Hf1⟩, Hk1⟩, ⟨%w2, %hw2, ⟨%f2, Hf2⟩, Hk2⟩, ⟨%w3, %hw3, ⟨%f3, Hf3⟩, Hk3⟩, ⟨%w4, %hw4, ⟨%f4, Hf4⟩, Hk4⟩, ⟨%w5, %hw5, ⟨%f5, Hf5⟩, Hk5⟩, ⟨%w6, %hw6, ⟨%f6, Hf6⟩, Hk6⟩, ⟨%w7, %hw7, ⟨%f7, Hf7⟩, Hk7⟩, ⟨%W', %hW', HO⟩⟩
  try sl_exec (disch := trip_disch)
  iapply (wp_loadIdx_own 𝒱₀ (VT d L) none Set.univ (base := slabM 0 inb_S8x32x128_S1x32x128_0_0_0)) $$ Hf0_dst
  iintro Hf0_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 0 inb_S8x32x128_S1x32x128_0_0_0)) $$ Hf0_dst
  iintro Hf0_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 1 inb_S8x32x128_S1x32x128_1_0_0)) $$ Hf1_dst
  iintro Hf1_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 1 inb_S8x32x128_S1x32x128_1_0_0)) $$ Hf1_dst
  iintro Hf1_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 2 inb_S8x32x128_S1x32x128_2_0_0)) $$ Hf2_dst
  iintro Hf2_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 2 inb_S8x32x128_S1x32x128_2_0_0)) $$ Hf2_dst
  iintro Hf2_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 3 inb_S8x32x128_S1x32x128_3_0_0)) $$ Hf3_dst
  iintro Hf3_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 3 inb_S8x32x128_S1x32x128_3_0_0)) $$ Hf3_dst
  iintro Hf3_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 4 inb_S8x32x128_S1x32x128_4_0_0)) $$ Hf4_dst
  iintro Hf4_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 4 inb_S8x32x128_S1x32x128_4_0_0)) $$ Hf4_dst
  iintro Hf4_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 5 inb_S8x32x128_S1x32x128_5_0_0)) $$ Hf5_dst
  iintro Hf5_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 5 inb_S8x32x128_S1x32x128_5_0_0)) $$ Hf5_dst
  iintro Hf5_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 6 inb_S8x32x128_S1x32x128_6_0_0)) $$ Hf6_dst
  iintro Hf6_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 6 inb_S8x32x128_S1x32x128_6_0_0)) $$ Hf6_dst
  iintro Hf6_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 7 inb_S8x32x128_S1x32x128_7_0_0)) $$ Hf7_dst
  iintro Hf7_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 7 inb_S8x32x128_S1x32x128_7_0_0)) $$ Hf7_dst
  iintro Hf7_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  sl_step
  isplitr
  · iexact Hmw
  isplitl [Hsi]
  · iexact Hsi
  isplitl [Hst]
  · iexact Hst
  isplitl [Hsc]
  · iexists _
    isplitr
    rotate_left
    · iexact Hsc
    · ipureintro
      rw [show 8 * (k.val + 1) = 8 * k.val + 7 + 1 from by omega]
      refine slot_step m d L hr gi hgi gt hgt 7 _ (k0_off31 k) (k0_off31_inb k) (8 * k.val + 7) (by omega) (by rw [k0_off31_eq]; rfl) w7 hw7 f7 _ _ (elt7 k) _ _ _ _ _ _ ?_
      refine slot_step m d L hr gi hgi gt hgt 6 _ (k0_off28 k) (k0_off28_inb k) (8 * k.val + 6) (by omega) (by rw [k0_off28_eq]; rfl) w6 hw6 f6 _ _ (elt6 k) _ _ _ _ _ _ ?_
      refine slot_step m d L hr gi hgi gt hgt 5 _ (k0_off25 k) (k0_off25_inb k) (8 * k.val + 5) (by omega) (by rw [k0_off25_eq]; rfl) w5 hw5 f5 _ _ (elt5 k) _ _ _ _ _ _ ?_
      refine slot_step m d L hr gi hgi gt hgt 4 _ (k0_off22 k) (k0_off22_inb k) (8 * k.val + 4) (by omega) (by rw [k0_off22_eq]; rfl) w4 hw4 f4 _ _ (elt4 k) _ _ _ _ _ _ ?_
      refine slot_step m d L hr gi hgi gt hgt 3 _ (k0_off19 k) (k0_off19_inb k) (8 * k.val + 3) (by omega) (by rw [k0_off19_eq]; rfl) w3 hw3 f3 _ _ (elt3 k) _ _ _ _ _ _ ?_
      refine slot_step m d L hr gi hgi gt hgt 2 _ (k0_off16 k) (k0_off16_inb k) (8 * k.val + 2) (by omega) (by rw [k0_off16_eq]; rfl) w2 hw2 f2 _ _ (elt2 k) _ _ _ _ _ _ ?_
      refine slot_step m d L hr gi hgi gt hgt 1 _ (k0_off13 k) (k0_off13_inb k) (8 * k.val + 1) (by omega) (by rw [k0_off13_eq]; rfl) w1 hw1 f1 _ _ (elt1 k) _ _ _ _ _ _ ?_
      refine slot_step m d L hr gi hgi gt hgt 0 _ (k0_off10 k) (k0_off10_inb k) (8 * k.val + 0) (by omega) (by rw [k0_off10_eq]; rfl) w0 hw0 f0 _ _ (elt0 k) _ _ _ _ _ _ ?_
      exact hgc
  isplitl [Hf0 Hk0]
  · iexists ⟨_, lane_le m d L hr gi hgi (k0_off11 k) (k0_off11_inb k hc1) (off11_lt k hk)⟩
    isplitr
    · ipureintro
      exact (lw_eq_cw d L gi _ _).trans (congrArg (cw d L gi) (by rw [k0_off11_eq]; show 8 * k.val + 8 = 8 * (k.val + 1) + 0; omega))
    isplitl [Hf0]
    · iexists _
      iexact Hf0
    · iexact Hk0
  isplitl [Hf1 Hk1]
  · iexists ⟨_, lane_le m d L hr gi hgi (k0_off14 k) (k0_off14_inb k hc2) (off14_lt k hk)⟩
    isplitr
    · ipureintro
      exact (lw_eq_cw d L gi _ _).trans (congrArg (cw d L gi) (by rw [k0_off14_eq]; show 8 * k.val + 9 = 8 * (k.val + 1) + 1; omega))
    isplitl [Hf1]
    · iexists _
      iexact Hf1
    · iexact Hk1
  isplitl [Hf2 Hk2]
  · iexists ⟨_, lane_le m d L hr gi hgi (k0_off17 k) (k0_off17_inb k hc3) (off17_lt k hk)⟩
    isplitr
    · ipureintro
      exact (lw_eq_cw d L gi _ _).trans (congrArg (cw d L gi) (by rw [k0_off17_eq]; show 8 * k.val + 10 = 8 * (k.val + 1) + 2; omega))
    isplitl [Hf2]
    · iexists _
      iexact Hf2
    · iexact Hk2
  isplitl [Hf3 Hk3]
  · iexists ⟨_, lane_le m d L hr gi hgi (k0_off20 k) (k0_off20_inb k hc4) (off20_lt k hk)⟩
    isplitr
    · ipureintro
      exact (lw_eq_cw d L gi _ _).trans (congrArg (cw d L gi) (by rw [k0_off20_eq]; show 8 * k.val + 11 = 8 * (k.val + 1) + 3; omega))
    isplitl [Hf3]
    · iexists _
      iexact Hf3
    · iexact Hk3
  isplitl [Hf4 Hk4]
  · iexists ⟨_, lane_le m d L hr gi hgi (k0_off23 k) (k0_off23_inb k hc5) (off23_lt k hk)⟩
    isplitr
    · ipureintro
      exact (lw_eq_cw d L gi _ _).trans (congrArg (cw d L gi) (by rw [k0_off23_eq]; show 8 * k.val + 12 = 8 * (k.val + 1) + 4; omega))
    isplitl [Hf4]
    · iexists _
      iexact Hf4
    · iexact Hk4
  isplitl [Hf5 Hk5]
  · iexists ⟨_, lane_le m d L hr gi hgi (k0_off26 k) (k0_off26_inb k hc6) (off26_lt k hk)⟩
    isplitr
    · ipureintro
      exact (lw_eq_cw d L gi _ _).trans (congrArg (cw d L gi) (by rw [k0_off26_eq]; show 8 * k.val + 13 = 8 * (k.val + 1) + 5; omega))
    isplitl [Hf5]
    · iexists _
      iexact Hf5
    · iexact Hk5
  isplitl [Hf6 Hk6]
  · iexists ⟨_, lane_le m d L hr gi hgi (k0_off29 k) (k0_off29_inb k hc7) (off29_lt k hk)⟩
    isplitr
    · ipureintro
      exact (lw_eq_cw d L gi _ _).trans (congrArg (cw d L gi) (by rw [k0_off29_eq]; show 8 * k.val + 14 = 8 * (k.val + 1) + 6; omega))
    isplitl [Hf6]
    · iexists _
      iexact Hf6
    · iexact Hk6
  isplitl [Hf7 Hk7]
  · iexists ⟨_, lane_le m d L hr gi hgi (k0_off32 k) (k0_off32_inb k hc8) (off32_lt k hk)⟩
    isplitr
    · ipureintro
      exact (lw_eq_cw d L gi _ _).trans (congrArg (cw d L gi) (by rw [k0_off32_eq]; show 8 * k.val + 15 = 8 * (k.val + 1) + 7; omega))
    isplitl [Hf7]
    · iexists _
      iexact Hf7
    · iexact Hk7
  iexists _
  isplitr
  rotate_left
  · iexact HO
  · ipureintro
    intro p hp
    simp only [Finset.mem_insert] at hp
    rcases hp with rfl | rfl | rfl | rfl | rfl | rfl | rfl | rfl | hp
    all_goals first | exact Or.inr rfl | exact hW' p hp

set_option maxHeartbeats 8000000 in
theorem region_last (O : CellTallies nD τ sig (HIx 1)) (W : Waits sig (HIx 1))
    (gi : Buf (Elt F) ((sIdxW).view.loc (VT d L))) (gt : Buf (Elt F) ((sTailW).view.loc (VT d L)))
    (hr : Cert.Lookup.InRange (m (idxLoc d))) (hgi : IdxHolds m d L gi) (hgt : TailHolds m d L gt) (hO : ∀ g, O g none = 0)
    (k : Fin k0_t1_loop.trips) (hk : ¬ k.val < 63) (acc : Unit) :
    inv m d L O W gi gt k.val acc
      ⊢ wp frame (wpE (defs₀ (F := F)) 𝒱₀ (VT d L) none) Set.univ
          (k0_t1_body (F := F) L tabW (Memref.isWhole_whole _) idxW (Memref.isWhole_whole _) tailW (Memref.isWhole_whole _) outW (Memref.isWhole_whole _)
            sIdxW (Memref.isWhole_whole _) sSlabW (Memref.isWhole_whole _) sTailW (Memref.isWhole_whole _) sColW (Memref.isWhole_whole _)
            cc0_scratch4 cc0_scratch5 cc0_scratch6 cc0_scratch7 cc0_scratch8 cc0_scratch9 cc0_scratch10 cc0_scratch11 cc0_scoped0 cc0_scoped1 cc0_scoped2
            Words.iotaV Words.iota16V 0#32 1#32 k acc)
          (inv m d L O W gi gt (k.val + 1)) := by
  have hk64 : k.val < 64 := lt_of_lt_of_eq k.isLt trips_eq
  have hc1 : ¬ k0_cond1 k = 1#1 := fun h => hk ((cond1_iff k).mp h)
  have hc2 : ¬ k0_cond2 k = 1#1 := fun h => hk ((cond2_iff k).mp h)
  have hc3 : ¬ k0_cond3 k = 1#1 := fun h => hk ((cond3_iff k).mp h)
  have hc4 : ¬ k0_cond4 k = 1#1 := fun h => hk ((cond4_iff k).mp h)
  have hc5 : ¬ k0_cond5 k = 1#1 := fun h => hk ((cond5_iff k).mp h)
  have hc6 : ¬ k0_cond6 k = 1#1 := fun h => hk ((cond6_iff k).mp h)
  have hc7 : ¬ k0_cond7 k = 1#1 := fun h => hk ((cond7_iff k).mp h)
  have hc8 : ¬ k0_cond8 k = 1#1 := fun h => hk ((cond8_iff k).mp h)
  unfold inv slot0 slot1 slot2 slot3 slot4 slot5 slot6 slot7
  have hk1 : ¬ k.val + 1 < 64 := by omega
  rw [if_pos hk64, if_pos hk64, if_pos hk64, if_pos hk64, if_pos hk64, if_pos hk64, if_pos hk64, if_pos hk64]
  rw [if_neg hk1, if_neg hk1, if_neg hk1, if_neg hk1, if_neg hk1, if_neg hk1, if_neg hk1, if_neg hk1]
  unfold fly0 fly1 fly2 fly3 fly4 fly5 fly6 fly7
  unfold k0_t1_body
  iintro ⟨#Hmw, Hsi, Hst, ⟨%gc, %hgc, Hsc⟩, ⟨%w0, %hw0, ⟨%f0, Hf0⟩, Hk0⟩, ⟨%w1, %hw1, ⟨%f1, Hf1⟩, Hk1⟩, ⟨%w2, %hw2, ⟨%f2, Hf2⟩, Hk2⟩, ⟨%w3, %hw3, ⟨%f3, Hf3⟩, Hk3⟩, ⟨%w4, %hw4, ⟨%f4, Hf4⟩, Hk4⟩, ⟨%w5, %hw5, ⟨%f5, Hf5⟩, Hk5⟩, ⟨%w6, %hw6, ⟨%f6, Hf6⟩, Hk6⟩, ⟨%w7, %hw7, ⟨%f7, Hf7⟩, Hk7⟩, ⟨%W', %hW', HO⟩⟩
  try sl_exec (disch := last_disch)
  iapply (wp_loadIdx_own 𝒱₀ (VT d L) none Set.univ (base := slabM 0 inb_S8x32x128_S1x32x128_0_0_0)) $$ Hf0_dst
  iintro Hf0_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 0 inb_S8x32x128_S1x32x128_0_0_0)) $$ Hf0_dst
  iintro Hf0_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 1 inb_S8x32x128_S1x32x128_1_0_0)) $$ Hf1_dst
  iintro Hf1_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 1 inb_S8x32x128_S1x32x128_1_0_0)) $$ Hf1_dst
  iintro Hf1_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 2 inb_S8x32x128_S1x32x128_2_0_0)) $$ Hf2_dst
  iintro Hf2_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 2 inb_S8x32x128_S1x32x128_2_0_0)) $$ Hf2_dst
  iintro Hf2_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 3 inb_S8x32x128_S1x32x128_3_0_0)) $$ Hf3_dst
  iintro Hf3_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 3 inb_S8x32x128_S1x32x128_3_0_0)) $$ Hf3_dst
  iintro Hf3_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 4 inb_S8x32x128_S1x32x128_4_0_0)) $$ Hf4_dst
  iintro Hf4_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 4 inb_S8x32x128_S1x32x128_4_0_0)) $$ Hf4_dst
  iintro Hf4_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 5 inb_S8x32x128_S1x32x128_5_0_0)) $$ Hf5_dst
  iintro Hf5_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 5 inb_S8x32x128_S1x32x128_5_0_0)) $$ Hf5_dst
  iintro Hf5_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 6 inb_S8x32x128_S1x32x128_6_0_0)) $$ Hf6_dst
  iintro Hf6_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 6 inb_S8x32x128_S1x32x128_6_0_0)) $$ Hf6_dst
  iintro Hf6_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 7 inb_S8x32x128_S1x32x128_7_0_0)) $$ Hf7_dst
  iintro Hf7_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 7 inb_S8x32x128_S1x32x128_7_0_0)) $$ Hf7_dst
  iintro Hf7_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  sl_step
  isplitr
  · iexact Hmw
  isplitl [Hsi]
  · iexact Hsi
  isplitl [Hst]
  · iexact Hst
  isplitl [Hsc]
  · iexists _
    isplitr
    rotate_left
    · iexact Hsc
    · ipureintro
      rw [show 8 * (k.val + 1) = 8 * k.val + 7 + 1 from by omega]
      refine slot_step m d L hr gi hgi gt hgt 7 _ (k0_off31 k) (k0_off31_inb k) (8 * k.val + 7) (by omega) (by rw [k0_off31_eq]; rfl) w7 hw7 f7 _ _ (elt7 k) _ _ _ _ _ _ ?_
      refine slot_step m d L hr gi hgi gt hgt 6 _ (k0_off28 k) (k0_off28_inb k) (8 * k.val + 6) (by omega) (by rw [k0_off28_eq]; rfl) w6 hw6 f6 _ _ (elt6 k) _ _ _ _ _ _ ?_
      refine slot_step m d L hr gi hgi gt hgt 5 _ (k0_off25 k) (k0_off25_inb k) (8 * k.val + 5) (by omega) (by rw [k0_off25_eq]; rfl) w5 hw5 f5 _ _ (elt5 k) _ _ _ _ _ _ ?_
      refine slot_step m d L hr gi hgi gt hgt 4 _ (k0_off22 k) (k0_off22_inb k) (8 * k.val + 4) (by omega) (by rw [k0_off22_eq]; rfl) w4 hw4 f4 _ _ (elt4 k) _ _ _ _ _ _ ?_
      refine slot_step m d L hr gi hgi gt hgt 3 _ (k0_off19 k) (k0_off19_inb k) (8 * k.val + 3) (by omega) (by rw [k0_off19_eq]; rfl) w3 hw3 f3 _ _ (elt3 k) _ _ _ _ _ _ ?_
      refine slot_step m d L hr gi hgi gt hgt 2 _ (k0_off16 k) (k0_off16_inb k) (8 * k.val + 2) (by omega) (by rw [k0_off16_eq]; rfl) w2 hw2 f2 _ _ (elt2 k) _ _ _ _ _ _ ?_
      refine slot_step m d L hr gi hgi gt hgt 1 _ (k0_off13 k) (k0_off13_inb k) (8 * k.val + 1) (by omega) (by rw [k0_off13_eq]; rfl) w1 hw1 f1 _ _ (elt1 k) _ _ _ _ _ _ ?_
      refine slot_step m d L hr gi hgi gt hgt 0 _ (k0_off10 k) (k0_off10_inb k) (8 * k.val + 0) (by omega) (by rw [k0_off10_eq]; rfl) w0 hw0 f0 _ _ (elt0 k) _ _ _ _ _ _ ?_
      exact hgc
  isplitl [Hf0 Hf0_dst Hk0]
  · unfold free0
    isplitl [Hf0]
    · iexact Hf0
    isplitl [Hf0_dst]
    · iexists _
      iexact Hf0_dst
    · iexact Hk0
  isplitl [Hf1 Hf1_dst Hk1]
  · unfold free1
    isplitl [Hf1]
    · iexact Hf1
    isplitl [Hf1_dst]
    · iexists _
      iexact Hf1_dst
    · iexact Hk1
  isplitl [Hf2 Hf2_dst Hk2]
  · unfold free2
    isplitl [Hf2]
    · iexact Hf2
    isplitl [Hf2_dst]
    · iexists _
      iexact Hf2_dst
    · iexact Hk2
  isplitl [Hf3 Hf3_dst Hk3]
  · unfold free3
    isplitl [Hf3]
    · iexact Hf3
    isplitl [Hf3_dst]
    · iexists _
      iexact Hf3_dst
    · iexact Hk3
  isplitl [Hf4 Hf4_dst Hk4]
  · unfold free4
    isplitl [Hf4]
    · iexact Hf4
    isplitl [Hf4_dst]
    · iexists _
      iexact Hf4_dst
    · iexact Hk4
  isplitl [Hf5 Hf5_dst Hk5]
  · unfold free5
    isplitl [Hf5]
    · iexact Hf5
    isplitl [Hf5_dst]
    · iexists _
      iexact Hf5_dst
    · iexact Hk5
  isplitl [Hf6 Hf6_dst Hk6]
  · unfold free6
    isplitl [Hf6]
    · iexact Hf6
    isplitl [Hf6_dst]
    · iexists _
      iexact Hf6_dst
    · iexact Hk6
  isplitl [Hf7 Hf7_dst Hk7]
  · unfold free7
    isplitl [Hf7]
    · iexact Hf7
    isplitl [Hf7_dst]
    · iexists _
      iexact Hf7_dst
    · iexact Hk7
  iexists _
  isplitr
  rotate_left
  · iexact HO
  · ipureintro
    intro p hp
    simp only [Finset.mem_insert] at hp
    rcases hp with rfl | rfl | rfl | rfl | rfl | rfl | rfl | rfl | hp
    all_goals first | exact Or.inr rfl | exact hW' p hp

/-- One trip of the loop takes the invariant before it to the invariant after it. -/
theorem region_step (O : CellTallies nD τ sig (HIx 1)) (W : Waits sig (HIx 1))
    (gi : Buf (Elt F) ((sIdxW).view.loc (VT d L))) (gt : Buf (Elt F) ((sTailW).view.loc (VT d L)))
    (hr : Cert.Lookup.InRange (m (idxLoc d))) (hgi : IdxHolds m d L gi) (hgt : TailHolds m d L gt) (hO : ∀ g, O g none = 0) :
    RegionStep m d L O W gi gt := by
  intro k acc
  by_cases hk : k.val < 63
  · exact region_lt m d L O W gi gt hr hgi hgt hO k hk acc
  · exact region_last m d L O W gi gt hr hgi hgt hO k hk acc

end Cert.Proof.KI

end
-- ==== Proof.KI.Exit.lean ====
/-
  The end of a subcore's task. After the last trip all 512 columns of the column scratch are the looked-up ones and
  every slot is at rest; the write-out copies the column scratch into the subcore's 512 columns of the result; what
  the subcore then holds is exactly what it hands back: its three read shares, its columns of the result filled, its
  own scratch buffers and its own semaphores at zero.
-/
import proofs.«209800_g17188459118626_cont_7to1_163_19_alg».proof.Proof.KI.Inv
import proofs.«209800_g17188459118626_cont_7to1_163_19_alg».proof.Proof.KI.Open

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-- The loop makes 64 trips. -/
theorem trips64 : Scf.trips k0_t1_loop.lb k0_t1_loop.ub k0_t1_loop.st = 64 := by decide +kernel

/-- After the last trip: all 512 columns are filled and every slot is at rest. -/
theorem inv_exit (O : CellTallies nD τ sig (HIx 1)) (W : Waits sig (HIx 1))
    (gi : Buf (Elt F) ((sIdxW).view.loc (VT d L))) (gt : Buf (Elt F) ((sTailW).view.loc (VT d L))) (acc : Unit) :
    inv m d L O W gi gt (Scf.trips k0_t1_loop.lb k0_t1_loop.ub k0_t1_loop.st) acc
    ⊢ iprop(Transfers.MayWaits (VT d L) (none : HIx 1) O
      ∗ ((sIdxW).view.loc (VT d L) ↦{fullShare} gi) ∗ ((sTailW).view.loc (VT d L) ↦{fullShare} gt)
      ∗ (∃ gc, ⌜ColsOK m d L 512 gc⌝ ∗ ((sColW).view.loc (VT d L) ↦{fullShare} gc))
      ∗ free0 m d L ∗ free1 m d L ∗ free2 m d L ∗ free3 m d L ∗ free4 m d L ∗ free5 m d L ∗ free6 m d L ∗ free7 m d L
      ∗ ∃ W', ⌜∀ p ∈ W', p ∈ W ∨ p.2 = none⌝ ∗ owes (VT d L) O W') := by
  have h64 : ¬ (64 : ℕ) < 64 := by decide
  rw [trips64]
  unfold inv slot0 slot1 slot2 slot3 slot4 slot5 slot6 slot7
  rw [if_neg h64, if_neg h64, if_neg h64, if_neg h64, if_neg h64, if_neg h64, if_neg h64, if_neg h64]

/-- Everything the subcore holds at the end is what it hands back and what it owns. -/
theorem close_task (gi : Buf (Elt F) ((VT d L).loc cc0_scratch0)) (gt : Buf (Elt F) ((VT d L).loc cc0_scratch2))
    (gc : Buf (Elt F) ((VT d L).loc cc0_scratch3)) (fout : Buf (Elt F) (outLoc d)) (hout : OutOK m d L fout) :
    iprop((tabLoc d ↦{Transfers.shareDrop (tq L) 8} tabT m d) ∗ (tailLoc d ↦{tq L} tailT m d) ∗ (idxLoc d ↦{tq L} m (idxLoc d))
        ∗ (outLoc d ↦[outSet L]{fullShare} fout)
        ∗ ((VT d L).loc cc0_scratch0 ↦{fullShare} gi) ∗ ((VT d L).loc cc0_scratch2 ↦{fullShare} gt) ∗ ((VT d L).loc cc0_scratch3 ↦{fullShare} gc)
        ∗ free0 m d L ∗ free1 m d L ∗ free2 m d L ∗ free3 m d L ∗ free4 m d L ∗ free5 m d L ∗ free6 m d L ∗ free7 m d L
        ∗ semVal ((VT d L, SemLoc.dma (SemArray.sem cc0_scoped0)) : GSem nD τ sig) 0
        ∗ semVal ((VT d L, SemLoc.dma (SemArray.sem cc0_scoped1)) : GSem nD τ sig) 0
        ∗ semVal ((VT d L, SemLoc.dma (SemArray.sem cc0_scoped2)) : GSem nD τ sig) 0
        ∗ (bigSep (ownRefs (τ := τ) (.scVector ((L 0).castLE hcore0) ((L 1).castLE hsub0)) \ bufRefs ((L 0).castLE hcore0) ((L 1).castLE hsub0))
            fun b => iprop(∃ f, (((VT d L).1, b) : Loc nD τ sig) ↦{fullShare} f))
        ∗ (bigSep (ownCells (VT d L) \ semCells (VT d L)) fun g => semVal g 0))
      ⊢ (iprop(tileTd m d L ∗ scopedBufs (VT d L) ∗ scopedSems0 (VT d L)) : sProp 𝕄) := by
  rw [(K (F := F)).scopedBufs_V facts d _ _, ownBufs_VT, SparseCore.Cfg.scopedSems0_V (Val := Elt F) d _ _, ownSems0_VT]
  unfold tileTd free0 free1 free2 free3 free4 free5 free6 free7
  iintro ⟨Htrest, Htail, Hidx, Hout, Hsi, Hst, Hsc, ⟨Hc0, Hs0, Ht0⟩, ⟨Hc1, Hs1, Ht1⟩, ⟨Hc2, Hs2, Ht2⟩, ⟨Hc3, Hs3, Ht3⟩, ⟨Hc4, Hs4, Ht4⟩, ⟨Hc5, Hs5, Ht5⟩, ⟨Hc6, Hs6, Ht6⟩, ⟨Hc7, Hs7, Ht7⟩, Hr0, Hr1, Hr2, Hbrest, Hsrest⟩
  isplitl [Htrest Ht0 Ht1 Ht2 Ht3 Ht4 Ht5 Ht6 Ht7 Htail Hidx Hout]
  · isplitl [Htrest Ht0 Ht1 Ht2 Ht3 Ht4 Ht5 Ht6 Ht7]
    · iapply (toks8 (F := F) d L (tabT m d)).2
      isplitl [Htrest]; · iexact Htrest
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    isplitl [Htail]; · iexact Htail
    isplitl [Hidx]; · iexact Hidx
    iexists fout
    isplitr
    · ipureintro; exact hout
    · iexact Hout
  isplitl [Hsi Hst Hsc Hs0 Hs1 Hs2 Hs3 Hs4 Hs5 Hs6 Hs7 Hbrest]
  · isplitl [Hsi]; · iexists gi; iexact Hsi
    isplitl [Hs0 Hs1 Hs2 Hs3 Hs4 Hs5 Hs6 Hs7]
    · iapply (slabs_join (F := F) d L)
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    isplitl [Hst]; · iexists gt; iexact Hst
    isplitl [Hsc]; · iexists gc; iexact Hsc
    iexact Hbrest
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hr0]; · iexact Hr0
  isplitl [Hr1]; · iexact Hr1
  isplitl [Hr2]; · iexact Hr2
  iexact Hsrest

end Cert.Proof.KI

end
-- ==== Proof.KI.OutOK.lean ====
/-
  The subcore's columns of the result after its write-out: when every column of the column scratch is the looked-up
  column, the 512 columns of the result the subcore owns hold what the result owes there.
-/
import proofs.«209800_g17188459118626_cont_7to1_163_19_alg».proof.Proof.KI.Inv
import proofs.«209800_g17188459118626_cont_7to1_163_19_alg».proof.Proof.KI.Value

noncomputable section

namespace Cert.Proof.KI

open Cert.KernelIdeal Cert.KernelIdeal.Gen
open Idealize.ShloMosaic Idealize.ShloMosaic.ValueIdx

variable {F : FTy → Type} [FloatOps F]
variable (m : (ℓ : Loc nD τ sig) → Buf (Elt F) ℓ) (d : Dev nD) (L : grid0.Coords)

/-- All 512 columns of the column scratch looked up: the write-out leaves the subcore's columns of the result right. -/
theorem outOK_of_cols (gc : Buf (Elt F) ((sColW).view.loc (VT d L))) (hgc : ColsOK m d L 512 gc) :
    OutOK m d L ((outBlk L).view.writes (Elt F) (m (outLoc d))
      [⟨Rect.whole S32x512,
        ReadAs.same.apply (View.read (Elt F) (Memref.whole cc0_scratch3 : Memref sig .scVector .vmem S32x512 .f32).view gc)⟩]) :=
  fun r k => (Value.out_read L (m (outLoc d)) gc r k).trans (hgc r k k.isLt)

end Cert.Proof.KI

end
-- ==== Proof.KI.Body.lean ====
/-
  One vector subcore's task meets its specification. The task copies its 512 indices and the table's last 64 columns into
  its scratch, reads its first eight index words and starts, for each, the fetch of the 128 columns of the transposed
  table that hold the column the word names — one fetch per slot, each reading through its own share of the table —,
  then makes 64 trips, each waiting for the eight fetches in turn, copying the looked-up column of each into the column
  scratch and starting the fetch for the element eight places on; after the last trip every slot is at rest and all 512
  columns of the column scratch are the looked-up ones, and the write-out copies them to the subcore's columns of the
  result. Every index word read is an entry of the index array, so it names a row of the table: that is what lets each
  fetch start. The trips are the step proved apart (Region.lean); here are the state before the first trip, the
  loop by its invariant, and the end, where what the subcore holds is what it hands back and what it owns.
-/
import proofs.«209800_g17188459118626_cont_7to1_163_19_alg».proof.Proof.KI.Inv
import proofs.«209800_g17188459118626_cont_7to1_163_19_alg».proof.Proof.KI.Open
import proofs.«209800_g17188459118626_cont_7to1_163_19_alg».proof.Proof.KI.Value
import proofs.«209800_g17188459118626_cont_7to1_163_19_alg».proof.Proof.KI.Region
import proofs.«209800_g17188459118626_cont_7to1_163_19_alg».proof.Proof.KI.Exit
import proofs.«209800_g17188459118626_cont_7to1_163_19_alg».proof.Proof.KI.OutOK

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

variable (m : (ℓ : Loc nD τ sig) → Buf (Elt F) ℓ)

variable [FloatOps F]

/-! ## The index words the prologue loads -/

/-- The index scratch after its copy, and the tail scratch after its copy. -/
abbrev giOf (d : Dev nD) (L : grid0.Coords) (fi : Buf (Elt F) ((sIdxW).view.loc (VT d L))) : Buf (Elt F) ((sIdxW).view.loc (VT d L)) :=
  (sIdxW).view.writes (Elt F) fi
    [⟨Rect.unit (s := S528) ![0] S512.size inb_S528_S512_0,
      ReadAs.same.apply (((idxW).slice (Rect.unit (s := S16384) (k0_off1 L) S512.size (k0_off1_inb L)) (fun _ => rfl)).view.read (Elt F) (m (idxLoc d)))⟩]
abbrev gtOf (d : Dev nD) (L : grid0.Coords) (ft : Buf (Elt F) ((sTailW).view.loc (VT d L))) : Buf (Elt F) ((sTailW).view.loc (VT d L)) :=
  (sTailW).view.write (Elt F) ft (ReadAs.same.apply ((tailW).view.read (Elt F) (tailT m d))) Finset.univ

/-- Lane 0 of a 16-lane load of the index scratch at offset o < 512, after the copy: index base L + o of the index array. -/
theorem cov_word (d : Dev nD) (L : grid0.Coords) (o : Fin 1 → ℕ) (ho : ∀ a, o a + S16.size a ≤ S528.size a) (hk : o 0 < 512)
    (hsl : S16.Slices ![0] S1) (hp : ∀ a, (![0] : Fin 1 → Nat) a < S1.size a) :
    extractAt ![0] (extractStridedSlice (s := S16) S1 ![0]
        ((sIdxW).view.readCov (Val := Elt F)
          [⟨Rect.unit (s := S528) ![0] S512.size inb_S528_S512_0,
            ReadAs.same.apply (((idxW).slice (Rect.unit (s := S16384) (k0_off1 L) S512.size (k0_off1_inb L)) (fun _ => rfl)).view.read (Elt F) (m (idxLoc d)))⟩]
          (Rect.unit (s := S528) o S16.size ho).toLoadRect) hsl) hp
      = m (idxLoc d) (ix1 ⟨base L + o 0, base_add_lt L ⟨o 0, hk⟩⟩) := by
  unfold View.readCov
  exact (Value.lane0_read _ o ho).trans (Value.idx_read m d L _ (o 0) hk)

theorem cov_word_le (d : Dev nD) (L : grid0.Coords) (hr : Cert.Lookup.InRange (m (idxLoc d))) (o : Fin 1 → ℕ)
    (ho : ∀ a, o a + S16.size a ≤ S528.size a) (hk : o 0 < 512)
    (hsl : S16.Slices ![0] S1) (hp : ∀ a, (![0] : Fin 1 → Nat) a < S1.size a) :
    (extractAt ![0] (extractStridedSlice (s := S16) S1 ![0]
        ((sIdxW).view.readCov (Val := Elt F)
          [⟨Rect.unit (s := S528) ![0] S512.size inb_S528_S512_0,
            ReadAs.same.apply (((idxW).slice (Rect.unit (s := S16384) (k0_off1 L) S512.size (k0_off1_inb L)) (fun _ => rfl)).view.read (Elt F) (m (idxLoc d)))⟩]
          (Rect.unit (s := S528) o S16.size ho).toLoadRect) hsl) hp).toNat ≤ 999999 := by
  rw [cov_word m d L o ho hk hsl hp]; exact hr _

theorem idxHolds (d : Dev nD) (L : grid0.Coords) (fi : Buf (Elt F) ((sIdxW).view.loc (VT d L))) : IdxHolds m d L (giOf m d L fi) :=
  fun k => Value.idx_read m d L fi k.val k.isLt

theorem tailHolds (d : Dev nD) (L : grid0.Coords) (ft : Buf (Elt F) ((sTailW).view.loc (VT d L))) : TailHolds m d L (gtOf m d L ft) :=
  fun r l => (congrFun (Memref.read_access_whole (Elt F) cc0_scratch2 _) (ix2 r l)).symm.trans (Value.tail_read m d ft r l)

theorem cov_word_cw (d : Dev nD) (L : grid0.Coords) (fi : Buf (Elt F) ((sIdxW).view.loc (VT d L))) (b : ℕ)
    (hb : ∀ a, (![b] : Fin 1 → ℕ) a + S16.size a ≤ S528.size a) (hk : b < 512)
    (hsl : S16.Slices ![0] S1) (hp : ∀ a, (![0] : Fin 1 → Nat) a < S1.size a) (e : ℕ) (he : e = b) :
    extractAt ![0] (extractStridedSlice (s := S16) S1 ![0]
        ((sIdxW).view.readCov (Val := Elt F) [⟨Rect.unit (s := S528) ![0] S512.size inb_S528_S512_0,
      ReadAs.same.apply (((idxW).slice (Rect.unit (s := S16384) (k0_off1 L) S512.size (k0_off1_inb L)) (fun _ => rfl)).view.read (Elt F) (m (idxLoc d)))⟩]
          (Rect.unit (s := S528) ![b] S16.size hb).toLoadRect) hsl) hp
      = cw d L (giOf m d L fi) e := by
  subst he
  unfold cw
  rw [dif_pos (by omega : e < 528)]
  exact (cov_word m d L ![e] hb hk hsl hp).trans (Value.idx_read m d L fi e hk).symm
theorem waits_ins {W W' : Waits sig (HIx 1)} (a : SemLoc sig) (h : ∀ p ∈ W', p ∈ W ∨ p.2 = none) :
    ∀ p ∈ insert (a, (default : HIx 1)) W', p ∈ W ∨ p.2 = none := by
  intro p hp
  rcases Finset.mem_insert.mp hp with rfl | hp
  · exact .inr rfl
  · exact h p hp

/-- Before the first trip: no column is filled yet, and every slot is fetching for its own first element. -/
theorem inv_zero (d : Dev nD) (L : grid0.Coords) (O : CellTallies nD τ sig (HIx 1)) (W : Waits sig (HIx 1))
    (gi : Buf (Elt F) ((sIdxW).view.loc (VT d L))) (gt : Buf (Elt F) ((sTailW).view.loc (VT d L))) (gc : Buf (Elt F) ((sColW).view.loc (VT d L)))
    (w0 : RW) (h0 : w0.1 = cw d L gi (8 * 0 + 0)) (w1 : RW) (h1 : w1.1 = cw d L gi (8 * 0 + 1)) (w2 : RW) (h2 : w2.1 = cw d L gi (8 * 0 + 2)) (w3 : RW) (h3 : w3.1 = cw d L gi (8 * 0 + 3)) (w4 : RW) (h4 : w4.1 = cw d L gi (8 * 0 + 4)) (w5 : RW) (h5 : w5.1 = cw d L gi (8 * 0 + 5)) (w6 : RW) (h6 : w6.1 = cw d L gi (8 * 0 + 6)) (w7 : RW) (h7 : w7.1 = cw d L gi (8 * 0 + 7)) :
    iprop(Transfers.MayWaits (VT d L) (none : HIx 1) O
      ∗ ((sIdxW).view.loc (VT d L) ↦{fullShare} gi) ∗ ((sTailW).view.loc (VT d L) ↦{fullShare} gt) ∗ ((sColW).view.loc (VT d L) ↦{fullShare} gc)
      ∗ fly0 m d L w0 ∗ fly1 m d L w1 ∗ fly2 m d L w2 ∗ fly3 m d L w3 ∗ fly4 m d L w4 ∗ fly5 m d L w5 ∗ fly6 m d L w6 ∗ fly7 m d L w7
      ∗ ∃ W', ⌜∀ p ∈ W', p ∈ W ∨ p.2 = none⌝ ∗ owes (VT d L) O W')
    ⊢ inv m d L O W gi gt 0 () := by
  have h64 : (0 : ℕ) < 64 := by decide
  unfold inv slot0 slot1 slot2 slot3 slot4 slot5 slot6 slot7
  rw [if_pos h64, if_pos h64, if_pos h64, if_pos h64, if_pos h64, if_pos h64, if_pos h64, if_pos h64]
  iintro ⟨Hmw, Hsi, Hst, Hsc, H0, H1, H2, H3, H4, H5, H6, H7, HO⟩
  isplitl [Hmw]; · iexact Hmw
  isplitl [Hsi]; · iexact Hsi
  isplitl [Hst]; · iexact Hst
  isplitl [Hsc]
  · iexists gc; isplitr
    · ipureintro; exact fun r k h => absurd h (by omega)
    · iexact Hsc
  isplitl [H0]
  · iexists w0; isplitr
    · ipureintro; exact h0
    · iexact H0
  isplitl [H1]
  · iexists w1; isplitr
    · ipureintro; exact h1
    · iexact H1
  isplitl [H2]
  · iexists w2; isplitr
    · ipureintro; exact h2
    · iexact H2
  isplitl [H3]
  · iexists w3; isplitr
    · ipureintro; exact h3
    · iexact H3
  isplitl [H4]
  · iexists w4; isplitr
    · ipureintro; exact h4
    · iexact H4
  isplitl [H5]
  · iexists w5; isplitr
    · ipureintro; exact h5
    · iexact H5
  isplitl [H6]
  · iexists w6; isplitr
    · ipureintro; exact h6
    · iexact H6
  isplitl [H7]
  · iexists w7; isplitr
    · ipureintro; exact h7
    · iexact H7
  iexact HO

/-- Before the first trip, from what the prologue leaves: no column is filled yet, and slot b is fetching the 128 columns
    the index word v b names. -/
theorem init_goal (d : Dev nD) (L : grid0.Coords) (O : CellTallies nD τ sig (HIx 1)) (W : Waits sig (HIx 1))
    (gi : Buf (Elt F) ((sIdxW).view.loc (VT d L))) (gt : Buf (Elt F) ((sTailW).view.loc (VT d L))) (gc : Buf (Elt F) ((sColW).view.loc (VT d L)))
    (fs : Buf (Elt F) ((VT d L).loc cc0_scratch1))
    (v0 : BitVec 32) (hv0 : v0.toNat ≤ 999999) (hc0 : v0 = cw d L gi (8 * 0 + 0)) (p0 : ∀ a, (k0_off2 v0) a + S32x128.size a ≤ S32x1000000.size a)
    (v1 : BitVec 32) (hv1 : v1.toNat ≤ 999999) (hc1 : v1 = cw d L gi (8 * 0 + 1)) (p1 : ∀ a, (k0_off3 v1) a + S32x128.size a ≤ S32x1000000.size a)
    (v2 : BitVec 32) (hv2 : v2.toNat ≤ 999999) (hc2 : v2 = cw d L gi (8 * 0 + 2)) (p2 : ∀ a, (k0_off4 v2) a + S32x128.size a ≤ S32x1000000.size a)
    (v3 : BitVec 32) (hv3 : v3.toNat ≤ 999999) (hc3 : v3 = cw d L gi (8 * 0 + 3)) (p3 : ∀ a, (k0_off5 v3) a + S32x128.size a ≤ S32x1000000.size a)
    (v4 : BitVec 32) (hv4 : v4.toNat ≤ 999999) (hc4 : v4 = cw d L gi (8 * 0 + 4)) (p4 : ∀ a, (k0_off6 v4) a + S32x128.size a ≤ S32x1000000.size a)
    (v5 : BitVec 32) (hv5 : v5.toNat ≤ 999999) (hc5 : v5 = cw d L gi (8 * 0 + 5)) (p5 : ∀ a, (k0_off7 v5) a + S32x128.size a ≤ S32x1000000.size a)
    (v6 : BitVec 32) (hv6 : v6.toNat ≤ 999999) (hc6 : v6 = cw d L gi (8 * 0 + 6)) (p6 : ∀ a, (k0_off8 v6) a + S32x128.size a ≤ S32x1000000.size a)
    (v7 : BitVec 32) (hv7 : v7.toNat ≤ 999999) (hc7 : v7 = cw d L gi (8 * 0 + 7)) (p7 : ∀ a, (k0_off9 v7) a + S32x128.size a ≤ S32x1000000.size a) :
    iprop(Transfers.MayWaits (VT d L) (none : HIx 1) O
      ∗ ((sIdxW).view.loc (VT d L) ↦{fullShare} gi) ∗ ((sTailW).view.loc (VT d L) ↦{fullShare} gt) ∗ ((sColW).view.loc (VT d L) ↦{fullShare} gc)
      ∗ (Transfers.Flight countersEmb (VT d L) (SemLoc.dma ⟨0, by decide⟩ : SemLoc sig) default 131072
          iprop(((slabM 0 inb_S8x32x128_S1x32x128_0_0_0).view.loc (VT d L) ↦[(slabM 0 inb_S8x32x128_S1x32x128_0_0_0).view.set]{fullShare}
                (slabM 0 inb_S8x32x128_S1x32x128_0_0_0).view.writes (Elt F) fs [⟨Rect.whole S32x128, ReadAs.same.apply (View.read (Elt F) ((Memref.whole main_v0_scv : Memref sig .scVector .hbm S32x1000000 .f32).slice (Rect.unit (s := S32x1000000) (k0_off2 v0) S32x128.size p0) (fun _ => rfl)).view (tabT m d))⟩])
            ∗ ((tabW).view.loc (VT d L) ↦[((Memref.whole main_v0_scv : Memref sig .scVector .hbm S32x1000000 .f32).slice (Rect.unit (s := S32x1000000) (k0_off2 v0) S32x128.size p0) (fun _ => rfl)).view.set]{Transfers.shareTokN (tq L) 0} tabT m d)))
      ∗ ((tabW).view.loc (VT d L) ↦[Finset.univ \ ((Memref.whole main_v0_scv : Memref sig .scVector .hbm S32x1000000 .f32).slice (Rect.unit (s := S32x1000000) (k0_off2 v0) S32x128.size p0) (fun _ => rfl)).view.set]{Transfers.shareTokN (tq L) 0} tabT m d)
      ∗ (Transfers.Flight countersEmb (VT d L) (SemLoc.dma ⟨1, by decide⟩ : SemLoc sig) default 131072
          iprop(((slabM 1 inb_S8x32x128_S1x32x128_1_0_0).view.loc (VT d L) ↦[(slabM 1 inb_S8x32x128_S1x32x128_1_0_0).view.set]{fullShare}
                (slabM 1 inb_S8x32x128_S1x32x128_1_0_0).view.writes (Elt F) fs [⟨Rect.whole S32x128, ReadAs.same.apply (View.read (Elt F) ((Memref.whole main_v0_scv : Memref sig .scVector .hbm S32x1000000 .f32).slice (Rect.unit (s := S32x1000000) (k0_off3 v1) S32x128.size p1) (fun _ => rfl)).view (tabT m d))⟩])
            ∗ ((tabW).view.loc (VT d L) ↦[((Memref.whole main_v0_scv : Memref sig .scVector .hbm S32x1000000 .f32).slice (Rect.unit (s := S32x1000000) (k0_off3 v1) S32x128.size p1) (fun _ => rfl)).view.set]{Transfers.shareTokN (tq L) 1} tabT m d)))
      ∗ ((tabW).view.loc (VT d L) ↦[Finset.univ \ ((Memref.whole main_v0_scv : Memref sig .scVector .hbm S32x1000000 .f32).slice (Rect.unit (s := S32x1000000) (k0_off3 v1) S32x128.size p1) (fun _ => rfl)).view.set]{Transfers.shareTokN (tq L) 1} tabT m d)
      ∗ (Transfers.Flight countersEmb (VT d L) (SemLoc.dma ⟨2, by decide⟩ : SemLoc sig) default 131072
          iprop(((slabM 2 inb_S8x32x128_S1x32x128_2_0_0).view.loc (VT d L) ↦[(slabM 2 inb_S8x32x128_S1x32x128_2_0_0).view.set]{fullShare}
                (slabM 2 inb_S8x32x128_S1x32x128_2_0_0).view.writes (Elt F) fs [⟨Rect.whole S32x128, ReadAs.same.apply (View.read (Elt F) ((Memref.whole main_v0_scv : Memref sig .scVector .hbm S32x1000000 .f32).slice (Rect.unit (s := S32x1000000) (k0_off4 v2) S32x128.size p2) (fun _ => rfl)).view (tabT m d))⟩])
            ∗ ((tabW).view.loc (VT d L) ↦[((Memref.whole main_v0_scv : Memref sig .scVector .hbm S32x1000000 .f32).slice (Rect.unit (s := S32x1000000) (k0_off4 v2) S32x128.size p2) (fun _ => rfl)).view.set]{Transfers.shareTokN (tq L) 2} tabT m d)))
      ∗ ((tabW).view.loc (VT d L) ↦[Finset.univ \ ((Memref.whole main_v0_scv : Memref sig .scVector .hbm S32x1000000 .f32).slice (Rect.unit (s := S32x1000000) (k0_off4 v2) S32x128.size p2) (fun _ => rfl)).view.set]{Transfers.shareTokN (tq L) 2} tabT m d)
      ∗ (Transfers.Flight countersEmb (VT d L) (SemLoc.dma ⟨3, by decide⟩ : SemLoc sig) default 131072
          iprop(((slabM 3 inb_S8x32x128_S1x32x128_3_0_0).view.loc (VT d L) ↦[(slabM 3 inb_S8x32x128_S1x32x128_3_0_0).view.set]{fullShare}
                (slabM 3 inb_S8x32x128_S1x32x128_3_0_0).view.writes (Elt F) fs [⟨Rect.whole S32x128, ReadAs.same.apply (View.read (Elt F) ((Memref.whole main_v0_scv : Memref sig .scVector .hbm S32x1000000 .f32).slice (Rect.unit (s := S32x1000000) (k0_off5 v3) S32x128.size p3) (fun _ => rfl)).view (tabT m d))⟩])
            ∗ ((tabW).view.loc (VT d L) ↦[((Memref.whole main_v0_scv : Memref sig .scVector .hbm S32x1000000 .f32).slice (Rect.unit (s := S32x1000000) (k0_off5 v3) S32x128.size p3) (fun _ => rfl)).view.set]{Transfers.shareTokN (tq L) 3} tabT m d)))
      ∗ ((tabW).view.loc (VT d L) ↦[Finset.univ \ ((Memref.whole main_v0_scv : Memref sig .scVector .hbm S32x1000000 .f32).slice (Rect.unit (s := S32x1000000) (k0_off5 v3) S32x128.size p3) (fun _ => rfl)).view.set]{Transfers.shareTokN (tq L) 3} tabT m d)
      ∗ (Transfers.Flight countersEmb (VT d L) (SemLoc.dma ⟨4, by decide⟩ : SemLoc sig) default 131072
          iprop(((slabM 4 inb_S8x32x128_S1x32x128_4_0_0).view.loc (VT d L) ↦[(slabM 4 inb_S8x32x128_S1x32x128_4_0_0).view.set]{fullShare}
                (slabM 4 inb_S8x32x128_S1x32x128_4_0_0).view.writes (Elt F) fs [⟨Rect.whole S32x128, ReadAs.same.apply (View.read (Elt F) ((Memref.whole main_v0_scv : Memref sig .scVector .hbm S32x1000000 .f32).slice (Rect.unit (s := S32x1000000) (k0_off6 v4) S32x128.size p4) (fun _ => rfl)).view (tabT m d))⟩])
            ∗ ((tabW).view.loc (VT d L) ↦[((Memref.whole main_v0_scv : Memref sig .scVector .hbm S32x1000000 .f32).slice (Rect.unit (s := S32x1000000) (k0_off6 v4) S32x128.size p4) (fun _ => rfl)).view.set]{Transfers.shareTokN (tq L) 4} tabT m d)))
      ∗ ((tabW).view.loc (VT d L) ↦[Finset.univ \ ((Memref.whole main_v0_scv : Memref sig .scVector .hbm S32x1000000 .f32).slice (Rect.unit (s := S32x1000000) (k0_off6 v4) S32x128.size p4) (fun _ => rfl)).view.set]{Transfers.shareTokN (tq L) 4} tabT m d)
      ∗ (Transfers.Flight countersEmb (VT d L) (SemLoc.dma ⟨5, by decide⟩ : SemLoc sig) default 131072
          iprop(((slabM 5 inb_S8x32x128_S1x32x128_5_0_0).view.loc (VT d L) ↦[(slabM 5 inb_S8x32x128_S1x32x128_5_0_0).view.set]{fullShare}
                (slabM 5 inb_S8x32x128_S1x32x128_5_0_0).view.writes (Elt F) fs [⟨Rect.whole S32x128, ReadAs.same.apply (View.read (Elt F) ((Memref.whole main_v0_scv : Memref sig .scVector .hbm S32x1000000 .f32).slice (Rect.unit (s := S32x1000000) (k0_off7 v5) S32x128.size p5) (fun _ => rfl)).view (tabT m d))⟩])
            ∗ ((tabW).view.loc (VT d L) ↦[((Memref.whole main_v0_scv : Memref sig .scVector .hbm S32x1000000 .f32).slice (Rect.unit (s := S32x1000000) (k0_off7 v5) S32x128.size p5) (fun _ => rfl)).view.set]{Transfers.shareTokN (tq L) 5} tabT m d)))
      ∗ ((tabW).view.loc (VT d L) ↦[Finset.univ \ ((Memref.whole main_v0_scv : Memref sig .scVector .hbm S32x1000000 .f32).slice (Rect.unit (s := S32x1000000) (k0_off7 v5) S32x128.size p5) (fun _ => rfl)).view.set]{Transfers.shareTokN (tq L) 5} tabT m d)
      ∗ (Transfers.Flight countersEmb (VT d L) (SemLoc.dma ⟨6, by decide⟩ : SemLoc sig) default 131072
          iprop(((slabM 6 inb_S8x32x128_S1x32x128_6_0_0).view.loc (VT d L) ↦[(slabM 6 inb_S8x32x128_S1x32x128_6_0_0).view.set]{fullShare}
                (slabM 6 inb_S8x32x128_S1x32x128_6_0_0).view.writes (Elt F) fs [⟨Rect.whole S32x128, ReadAs.same.apply (View.read (Elt F) ((Memref.whole main_v0_scv : Memref sig .scVector .hbm S32x1000000 .f32).slice (Rect.unit (s := S32x1000000) (k0_off8 v6) S32x128.size p6) (fun _ => rfl)).view (tabT m d))⟩])
            ∗ ((tabW).view.loc (VT d L) ↦[((Memref.whole main_v0_scv : Memref sig .scVector .hbm S32x1000000 .f32).slice (Rect.unit (s := S32x1000000) (k0_off8 v6) S32x128.size p6) (fun _ => rfl)).view.set]{Transfers.shareTokN (tq L) 6} tabT m d)))
      ∗ ((tabW).view.loc (VT d L) ↦[Finset.univ \ ((Memref.whole main_v0_scv : Memref sig .scVector .hbm S32x1000000 .f32).slice (Rect.unit (s := S32x1000000) (k0_off8 v6) S32x128.size p6) (fun _ => rfl)).view.set]{Transfers.shareTokN (tq L) 6} tabT m d)
      ∗ (Transfers.Flight countersEmb (VT d L) (SemLoc.dma ⟨7, by decide⟩ : SemLoc sig) default 131072
          iprop(((slabM 7 inb_S8x32x128_S1x32x128_7_0_0).view.loc (VT d L) ↦[(slabM 7 inb_S8x32x128_S1x32x128_7_0_0).view.set]{fullShare}
                (slabM 7 inb_S8x32x128_S1x32x128_7_0_0).view.writes (Elt F) fs [⟨Rect.whole S32x128, ReadAs.same.apply (View.read (Elt F) ((Memref.whole main_v0_scv : Memref sig .scVector .hbm S32x1000000 .f32).slice (Rect.unit (s := S32x1000000) (k0_off9 v7) S32x128.size p7) (fun _ => rfl)).view (tabT m d))⟩])
            ∗ ((tabW).view.loc (VT d L) ↦[((Memref.whole main_v0_scv : Memref sig .scVector .hbm S32x1000000 .f32).slice (Rect.unit (s := S32x1000000) (k0_off9 v7) S32x128.size p7) (fun _ => rfl)).view.set]{Transfers.shareTokN (tq L) 7} tabT m d)))
      ∗ ((tabW).view.loc (VT d L) ↦[Finset.univ \ ((Memref.whole main_v0_scv : Memref sig .scVector .hbm S32x1000000 .f32).slice (Rect.unit (s := S32x1000000) (k0_off9 v7) S32x128.size p7) (fun _ => rfl)).view.set]{Transfers.shareTokN (tq L) 7} tabT m d)
      ∗ ∃ W', ⌜∀ p ∈ W', p ∈ W ∨ p.2 = none⌝ ∗ owes (VT d L) O W')
    ⊢ inv m d L O W gi gt 0 () := by
  refine BIBase.Entails.trans ?_ (inv_zero m d L O W gi gt gc ⟨v0, hv0⟩ hc0 ⟨v1, hv1⟩ hc1 ⟨v2, hv2⟩ hc2 ⟨v3, hv3⟩ hc3 ⟨v4, hv4⟩ hc4 ⟨v5, hv5⟩ hc5 ⟨v6, hv6⟩ hc6 ⟨v7, hv7⟩ hc7)
  iintro ⟨Hmw, Hsi, Hst, Hsc, Hc0, Ht0, Hc1, Ht1, Hc2, Ht2, Hc3, Ht3, Hc4, Ht4, Hc5, Ht5, Hc6, Ht6, Hc7, Ht7, HO⟩
  isplitl [Hmw]; · iexact Hmw
  isplitl [Hsi]; · iexact Hsi
  isplitl [Hst]; · iexact Hst
  isplitl [Hsc]; · iexact Hsc
  isplitl [Hc0 Ht0]
  · unfold fly0
    isplitl [Hc0]
    · iexists fs; iexact Hc0
    · iexact Ht0
  isplitl [Hc1 Ht1]
  · unfold fly1
    isplitl [Hc1]
    · iexists fs; iexact Hc1
    · iexact Ht1
  isplitl [Hc2 Ht2]
  · unfold fly2
    isplitl [Hc2]
    · iexists fs; iexact Hc2
    · iexact Ht2
  isplitl [Hc3 Ht3]
  · unfold fly3
    isplitl [Hc3]
    · iexists fs; iexact Hc3
    · iexact Ht3
  isplitl [Hc4 Ht4]
  · unfold fly4
    isplitl [Hc4]
    · iexists fs; iexact Hc4
    · iexact Ht4
  isplitl [Hc5 Ht5]
  · unfold fly5
    isplitl [Hc5]
    · iexists fs; iexact Hc5
    · iexact Ht5
  isplitl [Hc6 Ht6]
  · unfold fly6
    isplitl [Hc6]
    · iexists fs; iexact Hc6
    · iexact Ht6
  isplitl [Hc7 Ht7]
  · unfold fly7
    isplitl [Hc7]
    · iexists fs; iexact Hc7
    · iexact Ht7
  iexact HO

set_option maxHeartbeats 8000000 in
theorem tile_body_at
    (d : Dev nD) (L : grid0.Coords) (O : CellTallies nD τ sig (HIx 1)) (W : Waits sig (HIx 1)) (hO : ∀ g, O g none = 0)
    (hr : Cert.Lookup.InRange (m (idxLoc d))) :
    iprop(levAts (K (F := F)).L (K (F := F)).lev ∗ emp ∗ tileGo m d L
        ∗ scopedBufs (VT d L) ∗ scopedSems0 (VT d L) ∗ owes (VT d L) O W)
      ⊢ wp frame (wpE (defs₀ (F := F)) 𝒱₀ (VT d L) none) Set.univ (task (F := F) L)
          fun _ => (iprop(tileTd m d L ∗ scopedBufs (VT d L) ∗ scopedSems0 (VT d L)
            ∗ ∃ W', ⌜∀ p ∈ W', p ∈ W ∨ p.2 = none⌝ ∗ owes (VT d L) O W') : sProp (MM F)) := by
  unfold tileGo
  unfold task
  rw [cc0_gather_eq_skeleton]; unfold cc0_gather_skel
  iintro ⟨#Hlv, -, ⟨Htab, Htail, Hidx, Hout⟩, Hsb, Hss, HO⟩
  ihave Hsb' := (Entails.of_eq ((K (F := F)).scopedBufs_V facts d _ _)) $$ Hsb
  ihave Hob := (Entails.of_eq (ownBufs_VT (F := F) d L)) $$ Hsb'
  icases Hob with ⟨⟨%fi, Hsi⟩, ⟨%fs, Hs⟩, ⟨%ft, Hst⟩, ⟨%fc, Hsc⟩, Hbrest⟩
  ihave Hss' := (Entails.of_eq (SparseCore.Cfg.scopedSems0_V (Val := Elt F) d _ _)) $$ Hss
  ihave Hos := (Entails.of_eq (ownSems0_VT (F := F) d L)) $$ Hss'
  icases Hos with ⟨Hc0, Hc1, Hc2, Hc3, Hc4, Hc5, Hc6, Hc7, Hr0, Hr1, Hr2, Hsrest⟩
  ihave Hmw := ((K (F := F)).mayWaits_none (thr := VT d L) hO) $$ Hlv
  ihave Ht8 := (toks8 (F := F) d L (tabT m d)).1 $$ Htab
  icases Ht8 with ⟨Htrest, Ht0, Ht1, Ht2, Ht3, Ht4, Ht5, Ht6, Ht7⟩
  ihave Hs8 := (slabs_split (F := F) d L fs).1 $$ Hs
  icases Hs8 with ⟨Hs0, Hs1, Hs2, Hs3, Hs4, Hs5, Hs6, Hs7⟩
  -- the arrays and scratches under the spelling the task's memrefs give them
  ihave Ht0 := (Entails.of_eq (pts_tab (F := F) d L Finset.univ _ _).symm) $$ Ht0
  ihave Ht1 := (Entails.of_eq (pts_tab (F := F) d L Finset.univ _ _).symm) $$ Ht1
  ihave Ht2 := (Entails.of_eq (pts_tab (F := F) d L Finset.univ _ _).symm) $$ Ht2
  ihave Ht3 := (Entails.of_eq (pts_tab (F := F) d L Finset.univ _ _).symm) $$ Ht3
  ihave Ht4 := (Entails.of_eq (pts_tab (F := F) d L Finset.univ _ _).symm) $$ Ht4
  ihave Ht5 := (Entails.of_eq (pts_tab (F := F) d L Finset.univ _ _).symm) $$ Ht5
  ihave Ht6 := (Entails.of_eq (pts_tab (F := F) d L Finset.univ _ _).symm) $$ Ht6
  ihave Ht7 := (Entails.of_eq (pts_tab (F := F) d L Finset.univ _ _).symm) $$ Ht7
  ihave Htail := (Entails.of_eq (pts_tail (F := F) d L Finset.univ _ _).symm) $$ Htail
  ihave Hidx := (Entails.of_eq (pts_idx (F := F) d L Finset.univ _ _).symm) $$ Hidx
  ihave Hout := (Entails.of_eq (pts_out (F := F) d L _ _).symm) $$ Hout
  ihave Hsi := (Entails.of_eq (pts_s0 (F := F) d L _ _).symm) $$ Hsi
  ihave Hst := (Entails.of_eq (pts_s2 (F := F) d L _ _).symm) $$ Hst
  ihave Hsc := (Entails.of_eq (pts_s3 (F := F) d L _ _).symm) $$ Hsc
  sl_exec (disch := exact Words.fire_ok _ (cov_word_le m d L hr _ _ (by decide) _ _))
  have hgi : IdxHolds m d L ((sIdxW).view.writes (Elt F) fi [⟨Rect.unit (s := S528) ![0] S512.size inb_S528_S512_0, tile_body_at.sl.dma0 m d L⟩]) := idxHolds m d L fi
  have hgt : TailHolds m d L ((sTailW).view.write (Elt F) ft (tile_body_at.sl.dma0_1 m d) Finset.univ) := tailHolds m d L ft
  have hv0 : (tile_body_at.sl.v8 m d L).toNat ≤ 999999 := cov_word_le m d L hr ![0] inb_S528_S16_0 (by decide) _ _
  have hc0 : tile_body_at.sl.v8 m d L = cw d L ((sIdxW).view.writes (Elt F) fi [⟨Rect.unit (s := S528) ![0] S512.size inb_S528_S512_0, tile_body_at.sl.dma0 m d L⟩]) (8 * 0 + 0) := cov_word_cw m d L fi 0 inb_S528_S16_0 (by decide) _ _ _ rfl
  have hv1 : (tile_body_at.sl.v21 m d L).toNat ≤ 999999 := cov_word_le m d L hr ![1] inb_S528_S16_1 (by decide) _ _
  have hc1 : tile_body_at.sl.v21 m d L = cw d L ((sIdxW).view.writes (Elt F) fi [⟨Rect.unit (s := S528) ![0] S512.size inb_S528_S512_0, tile_body_at.sl.dma0 m d L⟩]) (8 * 0 + 1) := cov_word_cw m d L fi 1 inb_S528_S16_1 (by decide) _ _ _ rfl
  have hv2 : (tile_body_at.sl.v34 m d L).toNat ≤ 999999 := cov_word_le m d L hr ![2] inb_S528_S16_2 (by decide) _ _
  have hc2 : tile_body_at.sl.v34 m d L = cw d L ((sIdxW).view.writes (Elt F) fi [⟨Rect.unit (s := S528) ![0] S512.size inb_S528_S512_0, tile_body_at.sl.dma0 m d L⟩]) (8 * 0 + 2) := cov_word_cw m d L fi 2 inb_S528_S16_2 (by decide) _ _ _ rfl
  have hv3 : (tile_body_at.sl.v47 m d L).toNat ≤ 999999 := cov_word_le m d L hr ![3] inb_S528_S16_3 (by decide) _ _
  have hc3 : tile_body_at.sl.v47 m d L = cw d L ((sIdxW).view.writes (Elt F) fi [⟨Rect.unit (s := S528) ![0] S512.size inb_S528_S512_0, tile_body_at.sl.dma0 m d L⟩]) (8 * 0 + 3) := cov_word_cw m d L fi 3 inb_S528_S16_3 (by decide) _ _ _ rfl
  have hv4 : (tile_body_at.sl.v60 m d L).toNat ≤ 999999 := cov_word_le m d L hr ![4] inb_S528_S16_4 (by decide) _ _
  have hc4 : tile_body_at.sl.v60 m d L = cw d L ((sIdxW).view.writes (Elt F) fi [⟨Rect.unit (s := S528) ![0] S512.size inb_S528_S512_0, tile_body_at.sl.dma0 m d L⟩]) (8 * 0 + 4) := cov_word_cw m d L fi 4 inb_S528_S16_4 (by decide) _ _ _ rfl
  have hv5 : (tile_body_at.sl.v73 m d L).toNat ≤ 999999 := cov_word_le m d L hr ![5] inb_S528_S16_5 (by decide) _ _
  have hc5 : tile_body_at.sl.v73 m d L = cw d L ((sIdxW).view.writes (Elt F) fi [⟨Rect.unit (s := S528) ![0] S512.size inb_S528_S512_0, tile_body_at.sl.dma0 m d L⟩]) (8 * 0 + 5) := cov_word_cw m d L fi 5 inb_S528_S16_5 (by decide) _ _ _ rfl
  have hv6 : (tile_body_at.sl.v86 m d L).toNat ≤ 999999 := cov_word_le m d L hr ![6] inb_S528_S16_6 (by decide) _ _
  have hc6 : tile_body_at.sl.v86 m d L = cw d L ((sIdxW).view.writes (Elt F) fi [⟨Rect.unit (s := S528) ![0] S512.size inb_S528_S512_0, tile_body_at.sl.dma0 m d L⟩]) (8 * 0 + 6) := cov_word_cw m d L fi 6 inb_S528_S16_6 (by decide) _ _ _ rfl
  have hv7 : (tile_body_at.sl.v99 m d L).toNat ≤ 999999 := cov_word_le m d L hr ![7] inb_S528_S16_7 (by decide) _ _
  have hc7 : tile_body_at.sl.v99 m d L = cw d L ((sIdxW).view.writes (Elt F) fi [⟨Rect.unit (s := S528) ![0] S512.size inb_S528_S512_0, tile_body_at.sl.dma0 m d L⟩]) (8 * 0 + 7) := cov_word_cw m d L fi 7 inb_S528_S16_7 (by decide) _ _ _ rfl
  sl_for (inv m d L O W ((sIdxW).view.writes (Elt F) fi [⟨Rect.unit (s := S528) ![0] S512.size inb_S528_S512_0, tile_body_at.sl.dma0 m d L⟩]) ((sTailW).view.write (Elt F) ft (tile_body_at.sl.dma0_1 m d) Finset.univ)) $$ [Hmw Hsi Hst Hsc Hc0 Ht0 Hc1 Ht1 Hc2 Ht2 Hc3 Ht3 Hc4 Ht4 Hc5 Ht5 Hc6 Ht6 Hc7 Ht7 HO]
  case region => exact region_step m d L O W _ _ hr hgi hgt hO
  · -- before the first trip: slot b is fetching for the index word the prologue loaded at offset b
    iapply (init_goal m d L O W ((sIdxW).view.writes (Elt F) fi [⟨Rect.unit (s := S528) ![0] S512.size inb_S528_S512_0, tile_body_at.sl.dma0 m d L⟩]) ((sTailW).view.write (Elt F) ft (tile_body_at.sl.dma0_1 m d) Finset.univ) fc fs
      (tile_body_at.sl.v8 m d L) hv0 hc0 (k0_off2_inb _ (Words.fire_ok _ hv0))
      (tile_body_at.sl.v21 m d L) hv1 hc1 (k0_off3_inb _ (Words.fire_ok _ hv1))
      (tile_body_at.sl.v34 m d L) hv2 hc2 (k0_off4_inb _ (Words.fire_ok _ hv2))
      (tile_body_at.sl.v47 m d L) hv3 hc3 (k0_off5_inb _ (Words.fire_ok _ hv3))
      (tile_body_at.sl.v60 m d L) hv4 hc4 (k0_off6_inb _ (Words.fire_ok _ hv4))
      (tile_body_at.sl.v73 m d L) hv5 hc5 (k0_off7_inb _ (Words.fire_ok _ hv5))
      (tile_body_at.sl.v86 m d L) hv6 hc6 (k0_off8_inb _ (Words.fire_ok _ hv6))
      (tile_body_at.sl.v99 m d L) hv7 hc7 (k0_off9_inb _ (Words.fire_ok _ hv7)))
    isplitl [Hmw]; · iexact Hmw
    isplitl [Hsi]; · iexact Hsi
    isplitl [Hst]; · iexact Hst
    isplitl [Hsc]; · iexact Hsc
    isplitl [Hc0]; · iexact Hc0
    isplitl [Ht0]; · iexact Ht0
    isplitl [Hc1]; · iexact Hc1
    isplitl [Ht1]; · iexact Ht1
    isplitl [Hc2]; · iexact Hc2
    isplitl [Ht2]; · iexact Ht2
    isplitl [Hc3]; · iexact Hc3
    isplitl [Ht3]; · iexact Ht3
    isplitl [Hc4]; · iexact Hc4
    isplitl [Ht4]; · iexact Ht4
    isplitl [Hc5]; · iexact Hc5
    isplitl [Ht5]; · iexact Ht5
    isplitl [Hc6]; · iexact Hc6
    isplitl [Ht6]; · iexact Ht6
    isplitl [Hc7]; · iexact Hc7
    isplitl [Ht7]; · iexact Ht7
    iexists _; isplitr; swap
    · iexact HO
    · ipureintro; exact waits_ins _ (waits_ins _ (fun p hp => .inl hp))
  -- after the last trip: every slot at rest, all 512 columns filled; the write-out and its wait
  iintro %acc HI
  ihave HI' := (inv_exit m d L O W ((sIdxW).view.writes (Elt F) fi [⟨Rect.unit (s := S528) ![0] S512.size inb_S528_S512_0, tile_body_at.sl.dma0 m d L⟩]) ((sTailW).view.write (Elt F) ft (tile_body_at.sl.dma0_1 m d) Finset.univ) acc) $$ HI
  icases HI' with ⟨-, Hsi, Hst, ⟨%gc, %hgc, Hsc⟩, F0, F1, F2, F3, F4, F5, F6, F7, ⟨%W', %hW', HO⟩⟩
  sl_exec
  sl_step
  -- what the subcore holds is what it hands back and what it owns
  ihave Hcl := (close_task m d L ((sIdxW).view.writes (Elt F) fi [⟨Rect.unit (s := S528) ![0] S512.size inb_S528_S512_0, tile_body_at.sl.dma0 m d L⟩]) ((sTailW).view.write (Elt F) ft (tile_body_at.sl.dma0_1 m d) Finset.univ) gc _ (outOK_of_cols m d L gc hgc)) $$ [Htrest Htail Hidx Hout Hsi Hst Hsc F0 F1 F2 F3 F4 F5 F6 F7 Hr0 Hr1 Hr2 Hbrest Hsrest]
  · isplitl [Htrest]; · iexact Htrest
    isplitl [Htail]; · iexact Htail
    isplitl [Hidx]; · iexact Hidx
    isplitl [Hout]; · iexact Hout
    isplitl [Hsi]; · iexact Hsi
    isplitl [Hst]; · iexact Hst
    isplitl [Hsc]; · iexact Hsc
    isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [Hr0]; · iexact Hr0
    isplitl [Hr1]; · iexact Hr1
    isplitl [Hr2]; · iexact Hr2
    isplitl [Hbrest]; · iexact Hbrest
    iexact Hsrest
  icases Hcl with ⟨Htd, Hsb, Hss⟩
  isplitl [Htd]; · iexact Htd
  isplitl [Hsb]; · iexact Hsb
  isplitl [Hss]; · iexact Hss
  iexists _
  isplitr
  rotate_left
  · iexact HO
  · ipureintro; exact waits_ins _ hW'

/-- Every subcore's task meets its specification, once every index names a row of the table. -/
theorem tile_body (hr : ∀ d : Dev nD, Cert.Lookup.InRange (m (idxLoc d))) : TileBody (F := F) m :=
  fun d L O W hO => tile_body_at m d L O W hO (hr d)

end Cert.Proof.KI

end
-- ==== Proof.KB.Words.lean ====
/-
  The 32-bit word arithmetic of the column lookup.  For an index word c with 0 ≤ c ≤ 999999 the kernel
  fetches the 128-column slab that starts at t = min ((c >>> 7) <<< 7) 999808, reads lane min (c − t) 127
  of it, reads column min 63 (max 0 (c − 999936)) of the last 64 columns (which start at 999936), and takes
  the latter exactly when c ≥ 999936 (every comparison signed).  Since c < 2^31 its sign bit is clear, so
  the arithmetic shift is the division by 128, the left shift the multiplication by 128 (no wrap), and the
  signed comparisons of the non-negative words are the comparisons of their values; the only word that may
  be negative is c − 999936, which is compared with 0 through its integer value.
-/
import proofs.«209800_g17188459118626_cont_7to1_163_19_alg».proof.Proof.Gen.Kernel
import Idealize.ShloMosaic.PureOps

noncomputable section

namespace Cert.Proof.KB.Words

open Idealize.ShloMosaic Cert.Kernel Cert.Kernel.Gen

/-- The first column of the slab fetched for index c. -/
def slabW (c : BitVec 32) : BitVec 32 := Scalar.minsi (Scalar.shli (Scalar.shrsi c 7#32) 7#32) 999808#32
/-- The lane of the slab read for index c. -/
def laneW (c : BitVec 32) : BitVec 32 := Scalar.minsi (Scalar.subi c (slabW c)) 127#32
/-- The column of the last 64 columns read for index c. -/
def tailW (c : BitVec 32) : BitVec 32 := Scalar.minsi 63#32 (Scalar.maxsi 0#32 (Scalar.subi c 999936#32))
/-- Whether the value is taken from the last 64 columns. -/
def useTailW (c : BitVec 32) : BitVec 1 := Scalar.cmpi .sge c 999936#32
/-- The lane numbers 0 … 15. -/
def iotaV : IVec S16 32 := iota .scVector S16 32 [0] iota_S16_d0_w32_scVector
/-- The lane numbers 16 … 31. -/
def iota16V : IVec S16 32 := addi iotaV (broadcast S16 16#32)

/-! ## Signed comparison of words below 2^31 -/

/-- A word below 2^31 has its value as integer value. -/
theorem toInt_of_lt (x : BitVec 32) (hx : x.toNat < 2147483648) : x.toInt = (x.toNat : Int) := by
  rw [BitVec.toInt_eq_toNat_cond]; split <;> omega

/-- Signed < of two words below 2^31 is < of their values. -/
theorem slt_of_lt (x y : BitVec 32) (hx : x.toNat < 2147483648) (hy : y.toNat < 2147483648) :
    x.slt y = decide (x.toNat < y.toNat) := by
  rw [BitVec.slt_eq_decide, toInt_of_lt x hx, toInt_of_lt y hy]
  simp only [Int.ofNat_lt]

/-- Signed ≤ of two words below 2^31 is ≤ of their values. -/
theorem sle_of_lt (x y : BitVec 32) (hx : x.toNat < 2147483648) (hy : y.toNat < 2147483648) :
    x.sle y = decide (x.toNat ≤ y.toNat) := by
  rw [BitVec.sle_eq_decide, toInt_of_lt x hx, toInt_of_lt y hy]
  simp only [Int.ofNat_le]

/-! ## The slab -/

/-- (c >>ₛ 7) <<< 7 of a word below 2^31 is c / 128 * 128. -/
theorem shift_toNat (c : BitVec 32) (hc : c.toNat < 2147483648) :
    (Scalar.shli (Scalar.shrsi c 7#32) 7#32).toNat = c.toNat / 128 * 128 := by
  have hmsb : c.msb = false := by rw [BitVec.msb_eq_false_iff_two_mul_lt]; omega
  have h7 : (7#32 : BitVec 32).toNat = 7 := by decide
  have hs : (Scalar.shrsi c 7#32).toNat = c.toNat / 128 := by
    unfold Scalar.shrsi IntOp.shrsi
    rw [if_pos (by rw [h7]; omega), BitVec.toNat_sshiftRight'_of_msb_false hmsb, h7,
      Nat.shiftRight_eq_div_pow]
  unfold Scalar.shli IntOp.shli
  rw [if_pos (by rw [h7]; omega), BitVec.shiftLeft_eq', BitVec.toNat_shiftLeft, h7, hs,
    Nat.shiftLeft_eq]
  omega

theorem slabW_toNat (c : BitVec 32) (hc : c.toNat ≤ 999999) :
    (slabW c).toNat = min (c.toNat / 128 * 128) 999808 := by
  have hs := shift_toNat c (by omega)
  have hk : (999808#32 : BitVec 32).toNat = 999808 := by decide
  unfold slabW Scalar.minsi IntOp.minsi
  rw [slt_of_lt _ _ (by rw [hs]; omega) (by rw [hk]; omega), hs, hk]
  by_cases h : c.toNat / 128 * 128 < 999808
  · rw [if_pos (by simpa using h), hs]; omega
  · rw [if_neg (by simpa using h), hk]; omega

theorem slabW_le (c : BitVec 32) (hc : c.toNat ≤ 999999) : (slabW c).toNat ≤ c.toNat := by
  rw [slabW_toNat c hc]; omega

theorem slabW_dvd (c : BitVec 32) (hc : c.toNat ≤ 999999) : 128 ∣ (slabW c).toNat := by
  rw [slabW_toNat c hc]; omega

/-! ## The lane -/

theorem laneW_toNat (c : BitVec 32) (hc : c.toNat ≤ 999999) :
    (laneW c).toNat = if c.toNat < 999936 then c.toNat % 128 else 127 := by
  have hs := slabW_toNat c hc
  have hd : (Scalar.subi c (slabW c)).toNat = c.toNat - (slabW c).toNat := by
    unfold Scalar.subi IntOp.subi
    rw [BitVec.toNat_sub_of_le (by rw [BitVec.le_def]; exact slabW_le c hc)]
  have hk : (127#32 : BitVec 32).toNat = 127 := by decide
  unfold laneW Scalar.minsi IntOp.minsi
  rw [slt_of_lt _ _ (by rw [hd]; omega) (by rw [hk]; omega), hd, hk]
  by_cases h : c.toNat - (slabW c).toNat < 127
  · rw [if_pos (by simpa using h), hd]; split <;> omega
  · rw [if_neg (by simpa using h), hk]; split <;> omega

theorem laneW_lt (c : BitVec 32) (hc : c.toNat ≤ 999999) : (laneW c).toNat < 128 := by
  rw [laneW_toNat c hc]; split <;> omega

/-! ## The column of the last 64 -/

theorem tailW_toNat (c : BitVec 32) (hc : c.toNat ≤ 999999) :
    (tailW c).toNat = if 999936 ≤ c.toNat then c.toNat - 999936 else 0 := by
  have hk : (999936#32 : BitVec 32).toNat = 999936 := by decide
  have h63 : (63#32 : BitVec 32).toNat = 63 := by decide
  have h0 : (0#32 : BitVec 32).toNat = 0 := by decide
  have h0i : (0#32 : BitVec 32).toInt = 0 := by decide
  unfold tailW Scalar.minsi Scalar.maxsi Scalar.subi IntOp.minsi IntOp.maxsi IntOp.subi
  by_cases h : 999936 ≤ c.toNat
  · have hd : (c - 999936#32).toNat = c.toNat - 999936 := by
      rw [BitVec.toNat_sub_of_le (by rw [BitVec.le_def, hk]; exact h), hk]
    have hm : (if (c - 999936#32).slt 0#32 then 0#32 else c - 999936#32) = c - 999936#32 := by
      rw [slt_of_lt _ _ (by rw [hd]; omega) (by rw [h0]; omega), h0]; simp
    rw [hm, slt_of_lt _ _ (by rw [h63]; omega) (by rw [hd]; omega), h63, hd, if_pos h]
    by_cases h' : 63 < c.toNat - 999936
    · omega
    · rw [if_neg (by simpa using h'), hd]
  · have hd : (c - 999936#32).toNat = c.toNat + 4294967296 - 999936 := by
      rw [BitVec.toNat_sub, hk]; omega
    have hm : (if (c - 999936#32).slt 0#32 then 0#32 else c - 999936#32) = 0#32 := by
      rw [if_pos]
      rw [BitVec.slt_eq_decide, h0i, BitVec.toInt_eq_toNat_cond, hd]
      simp only [decide_eq_true_eq]; split <;> omega
    rw [hm, slt_of_lt _ _ (by rw [h63]; omega) (by rw [h0]; omega), h63, h0, if_neg h]
    simp

theorem tailW_lt (c : BitVec 32) (hc : c.toNat ≤ 999999) : (tailW c).toNat < 64 := by
  rw [tailW_toNat c hc]; split <;> omega

/-! ## The selector -/

theorem useTailW_eq (c : BitVec 32) (hc : c.toNat ≤ 999999) : useTailW c = 1#1 ↔ 999936 ≤ c.toNat := by
  have hk : (999936#32 : BitVec 32).toNat = 999936 := by decide
  unfold useTailW Scalar.cmpi IntOp.cmpi
  show BitVec.ofBool ((999936#32 : BitVec 32).sle c) = 1#1 ↔ _
  rw [sle_of_lt _ _ (by rw [hk]; omega) (by omega), hk]
  by_cases h : 999936 ≤ c.toNat <;> simp [h]

theorem useTailW_eq_zero (c : BitVec 32) (hc : c.toNat ≤ 999999) : useTailW c = 0#1 ↔ c.toNat < 999936 := by
  have hk : (999936#32 : BitVec 32).toNat = 999936 := by decide
  unfold useTailW Scalar.cmpi IntOp.cmpi
  show BitVec.ofBool ((999936#32 : BitVec 32).sle c) = 0#1 ↔ _
  rw [sle_of_lt _ _ (by rw [hk]; omega) (by omega), hk]
  by_cases h : 999936 ≤ c.toNat <;> simp [h] <;> omega

/-! ## The column read is column c -/

theorem column_eq (c : BitVec 32) (hc : c.toNat ≤ 999999) :
    (if 999936 ≤ c.toNat then 999936 + (tailW c).toNat else (slabW c).toNat + (laneW c).toNat) = c.toNat := by
  rw [tailW_toNat c hc, slabW_toNat c hc, laneW_toNat c hc]
  by_cases h : 999936 ≤ c.toNat
  · rw [if_pos h, if_pos h]; omega
  · rw [if_neg h, if_pos (by omega)]; omega

/-! ## The slab is a whole number of 128-column blocks inside the table -/

theorem fire_ok (c : BitVec 32) (hc : c.toNat ≤ 999999) :
    (128 ∣ (slabW c).toNat) ∧
    (∀ a, (![0, (slabW c).toNat] : Fin 2 → Nat) a + S32x128.size a ≤ S32x1000000.size a) := by
  refine ⟨slabW_dvd c hc, ?_⟩
  have hs := slabW_toNat c hc
  intro a
  fin_cases a
  · show 0 + 32 ≤ 32; omega
  · show (slabW c).toNat + 128 ≤ 1000000; omega

theorem fire_ok_cond (P : Prop) (c : BitVec 32) (hc : c.toNat ≤ 999999) :
    (∀ _ : P, 128 ∣ (slabW c).toNat) ∧
    (∀ _ : P, ∀ a, (![0, (slabW c).toNat] : Fin 2 → Nat) a + S32x128.size a ≤ S32x1000000.size a) :=
  ⟨fun _ => (fire_ok c hc).1, fun _ => (fire_ok c hc).2⟩

example (c : BitVec 32) (hc : c.toNat ≤ 999999) : k0_chk1 c := fire_ok c hc
example (c : BitVec 32) (hc : c.toNat ≤ 999999) : k0_chk2 c := fire_ok c hc
example (c : BitVec 32) (hc : c.toNat ≤ 999999) : k0_chk3 c := fire_ok c hc
example (c : BitVec 32) (hc : c.toNat ≤ 999999) : k0_chk4 c := fire_ok c hc
example (c : BitVec 32) (hc : c.toNat ≤ 999999) : k0_chk5 c := fire_ok c hc
example (c : BitVec 32) (hc : c.toNat ≤ 999999) : k0_chk6 c := fire_ok c hc
example (c : BitVec 32) (hc : c.toNat ≤ 999999) : k0_chk7 c := fire_ok c hc
example (c : BitVec 32) (hc : c.toNat ≤ 999999) : k0_chk8 c := fire_ok c hc
example (t : Fin k0_t1_loop.trips) (c : BitVec 32) (hc : c.toNat ≤ 999999) : k0_chk12 t c := fire_ok_cond _ c hc
example (t : Fin k0_t1_loop.trips) (c : BitVec 32) (hc : c.toNat ≤ 999999) : k0_chk16 t c := fire_ok_cond _ c hc
example (t : Fin k0_t1_loop.trips) (c : BitVec 32) (hc : c.toNat ≤ 999999) : k0_chk20 t c := fire_ok_cond _ c hc
example (t : Fin k0_t1_loop.trips) (c : BitVec 32) (hc : c.toNat ≤ 999999) : k0_chk24 t c := fire_ok_cond _ c hc
example (t : Fin k0_t1_loop.trips) (c : BitVec 32) (hc : c.toNat ≤ 999999) : k0_chk28 t c := fire_ok_cond _ c hc
example (t : Fin k0_t1_loop.trips) (c : BitVec 32) (hc : c.toNat ≤ 999999) : k0_chk32 t c := fire_ok_cond _ c hc
example (t : Fin k0_t1_loop.trips) (c : BitVec 32) (hc : c.toNat ≤ 999999) : k0_chk36 t c := fire_ok_cond _ c hc
example (t : Fin k0_t1_loop.trips) (c : BitVec 32) (hc : c.toNat ≤ 999999) : k0_chk40 t c := fire_ok_cond _ c hc

/-! ## The lane numbers -/

theorem iotaV_toNat (x : S16.Idx) : (iotaV x).toNat = (x 0).val := by
  have hx : (x 0).val < 16 := (x 0).isLt
  show (BitVec.ofNat 32 (0 * 16 + (x 0).val)).toNat = (x 0).val
  rw [BitVec.toNat_ofNat]; omega

theorem iota16V_toNat (x : S16.Idx) : (iota16V x).toNat = (x 0).val + 16 := by
  have hx : (x 0).val < 16 := (x 0).isLt
  have hk : (16#32 : BitVec 32).toNat = 16 := by decide
  show (iotaV x + 16#32).toNat = (x 0).val + 16
  rw [BitVec.toNat_add, iotaV_toNat, hk]; omega

/-! ## Row r and column e of a 32 × n block: r is a lane number below 32, e is below n -/

theorem chk_gen (n : Nat) (e : BitVec 32) (he : e.toNat < n) :
    (∀ a x, ((![iotaV, broadcast S16 e] : Fin 2 → IVec S16 32) a x).toNat < (⟨2, ![32, n]⟩ : Shape).size a) ∧
    (∀ a x, ((![iota16V, broadcast S16 e] : Fin 2 → IVec S16 32) a x).toNat < (⟨2, ![32, n]⟩ : Shape).size a) := by
  constructor <;> intro a x <;> fin_cases a
  · have hx : (x 0).val < 16 := (x 0).isLt
    show (iotaV x).toNat < 32
    rw [iotaV_toNat]; omega
  · show e.toNat < n
    exact he
  · have hx : (x 0).val < 16 := (x 0).isLt
    show (iota16V x).toNat < 32
    rw [iota16V_toNat]; omega
  · show e.toNat < n
    exact he

theorem chkSlab (c : BitVec 32) (hc : c.toNat ≤ 999999) :
    (∀ a x, ((![iotaV, broadcast S16 (laneW c)] : Fin 2 → IVec S16 32) a x).toNat < S32x128.size a) ∧
    (∀ a x, ((![iota16V, broadcast S16 (laneW c)] : Fin 2 → IVec S16 32) a x).toNat < S32x128.size a) :=
  chk_gen 128 (laneW c) (laneW_lt c hc)

theorem chkTail (c : BitVec 32) (hc : c.toNat ≤ 999999) :
    (∀ a x, ((![iotaV, broadcast S16 (tailW c)] : Fin 2 → IVec S16 32) a x).toNat < S32x64.size a) ∧
    (∀ a x, ((![iota16V, broadcast S16 (tailW c)] : Fin 2 → IVec S16 32) a x).toNat < S32x64.size a) :=
  chk_gen 64 (tailW c) (tailW_lt c hc)

theorem chkCol (e : BitVec 32) (he : e.toNat < 512) :
    (∀ a x, ((![iotaV, broadcast S16 e] : Fin 2 → IVec S16 32) a x).toNat < S32x512.size a) ∧
    (∀ a x, ((![iota16V, broadcast S16 e] : Fin 2 → IVec S16 32) a x).toNat < S32x512.size a) :=
  chk_gen 512 e he

example (c : BitVec 32) (hc : c.toNat ≤ 999999) : k0_chk9 iotaV iota16V (broadcast S16 (laneW c)) := chkSlab c hc
example (c : BitVec 32) (hc : c.toNat ≤ 999999) : k0_chk10 iotaV iota16V (broadcast S16 (tailW c)) := chkTail c hc
example (e : BitVec 32) (he : e.toNat < 512) : k0_chk11 iotaV iota16V (broadcast S16 e) := chkCol e he

end Cert.Proof.KB.Words
-- ==== Proof.KB.Mems.lean ====
/-
  The pieces of memory a subcore's task names, in the program's own spelling: slab b of the eight-slab scratch
  (one 32 × 128 block), and the 128 columns of the transposed table that start at a given column.
-/
import proofs.«209800_g17188459118626_cont_7to1_163_19_alg».proof.Proof.KB.Iface
import proofs.«209800_g17188459118626_cont_7to1_163_19_alg».proof.Proof.KB.Words

noncomputable section

namespace Cert.Proof.KB

open Cert.Kernel Cert.Kernel.Gen
open Idealize.ShloMosaic

/-- Slab b of the slab scratch, as the program slices and squeezes it. -/
abbrev slabM (b : ℕ) (hb : ∀ a, (![b, 0, 0] : Fin 3 → Nat) a + S1x32x128.size a ≤ S8x32x128.size a) : Memref sig .scVector .vmem S32x128 .f32 :=
  ((Memref.whole cc0_scratch1 : Memref sig .scVector .vmem S8x32x128 .f32).slice (Rect.unit (s := S8x32x128) ![b, 0, 0] S1x32x128.size hb) (fun _ => rfl)).squeeze S32x128 squeezes_S1x32x128_S32x128

theorem slab_inb (b : Fin 8) : ∀ a, (![b.val, 0, 0] : Fin 3 → Nat) a + S1x32x128.size a ≤ S8x32x128.size a := by
  have := b.isLt; intro a; fin_cases a
  · show b.val + 1 ≤ 8; omega
  · show 0 + 32 ≤ 32; omega
  · show 0 + 128 ≤ 128; omega

/-- The 128 columns of the transposed table starting at column o 1 (o 0 = 0 in every use). -/
abbrev srcM (o : Fin 2 → Nat) (ho : ∀ a, o a + S32x128.size a ≤ S32x1000000.size a) : Memref sig .scVector .hbm S32x128 .f32 :=
  (Memref.whole main_v0_scv : Memref sig .scVector .hbm S32x1000000 .f32).slice (Rect.unit (s := S32x1000000) o S32x128.size ho) (fun _ => rfl)

/-- The slab of columns the index word c names: columns slabW c … slabW c + 127. -/
abbrev srcW (c : BitVec 32) (hc : c.toNat ≤ 999999) : Memref sig .scVector .hbm S32x128 .f32 :=
  srcM ![0, (Words.slabW c).toNat] (Words.fire_ok c hc).2

end Cert.Proof.KB

end
-- ==== Proof.KB.Inv.lean ====
/-
  What a subcore's task holds between two trips of its loop. Before trip j (j = 0 … 64): the index scratch holds the
  subcore's 512 indices, the tail scratch the table's last 64 columns, columns 0 … 8 j − 1 of the column scratch are
  filled with the looked-up columns, and — while trips remain — each of the eight slots is fetching the 128-column
  group of element 8 j + b; after the last trip every slot is at rest.
-/
import proofs.«209800_g17188459118626_cont_7to1_163_19_alg».proof.Proof.KB.Mems

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

/-- The arrays and scratches whole, as the body table passes them. -/
abbrev tabW : Memref sig .scVector .hbm S32x1000000 .f32 := Memref.whole main_v0_scv
abbrev idxW : Memref sig .scVector .hbm S16384 .i32 := Memref.whole main_arg0_scv
abbrev tailW : Memref sig .scVector .hbm S32x64 .f32 := Memref.whole main_v1_scv
abbrev outW : Memref sig .scVector .hbm S32x16384 .f32 := Memref.whole main_v2_scv
abbrev sIdxW : Memref sig .scVector .vmem S528 .i32 := Memref.whole cc0_scratch0
abbrev sSlabW : Memref sig .scVector .vmem S8x32x128 .f32 := Memref.whole cc0_scratch1
abbrev sTailW : Memref sig .scVector .vmem S32x64 .f32 := Memref.whole cc0_scratch2
abbrev sColW : Memref sig .scVector .vmem S32x512 .f32 := Memref.whole cc0_scratch3

/-- An index word that names a row of the table. -/
abbrev RW : Type := {v : BitVec 32 // v.toNat ≤ 999999}

variable (m : (ℓ : Loc nD τ sig) → Buf (Elt F) ℓ) (d : Dev nD) (L : grid0.Coords)

/-- Word e of the index scratch (zero past its end). -/
def cw (gi : Buf (Elt F) ((sIdxW).view.loc (VT d L))) (e : ℕ) : BitVec 32 :=
  if h : e < 528 then gi (ix1 ⟨e, h⟩) else 0#32

variable [FloatOps F]

/-- Slot 0 fetching the 128 columns the index word w names: the wait's capability, which delivers the slab filled
    and the lent piece of the slot's read token, beside the rest of that token. -/
def fly0 (w : RW) : sProp (MM F) :=
  iprop((∃ f, Transfers.Flight countersEmb (VT d L) (SemLoc.dma ⟨0, by decide⟩ : SemLoc sig) default 131072
        iprop(((slabM 0 inb_S8x32x128_S1x32x128_0_0_0).view.loc (VT d L) ↦[(slabM 0 inb_S8x32x128_S1x32x128_0_0_0).view.set]{fullShare}
              (slabM 0 inb_S8x32x128_S1x32x128_0_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 0} tabT m d)))
    ∗ ((tabW).view.loc (VT d L) ↦[Finset.univ \ (srcW w.1 w.2).view.set]{Transfers.shareTokN (tq L) 0} tabT m d))

/-- Slot 0 at rest: its counter at zero, its slab at anything, its read token whole. -/
def free0 : sProp (MM F) :=
  iprop(semVal ((VT d L, (SemLoc.dma ⟨0, by decide⟩ : SemLoc sig)) : GSem nD τ sig) 0
    ∗ (∃ f, (slabM 0 inb_S8x32x128_S1x32x128_0_0_0).view.loc (VT d L) ↦[(slabM 0 inb_S8x32x128_S1x32x128_0_0_0).view.set]{fullShare} f)
    ∗ ((tabW).view.loc (VT d L) ↦{Transfers.shareTokN (tq L) 0} tabT m d))

/-- Slot 0 before trip j: fetching for element 8 j + 0 while trips remain, at rest after the last. -/
def slot0 (gi : Buf (Elt F) ((sIdxW).view.loc (VT d L))) (j : ℕ) : sProp (MM F) :=
  if j < 64 then iprop(∃ w : RW, ⌜w.1 = cw d L gi (8 * j + 0)⌝ ∗ fly0 m d L w) else free0 m d L

/-- Slot 1 fetching the 128 columns the index word w names: the wait's capability, which delivers the slab filled
    and the lent piece of the slot's read token, beside the rest of that token. -/
def fly1 (w : RW) : sProp (MM F) :=
  iprop((∃ f, Transfers.Flight countersEmb (VT d L) (SemLoc.dma ⟨1, by decide⟩ : SemLoc sig) default 131072
        iprop(((slabM 1 inb_S8x32x128_S1x32x128_1_0_0).view.loc (VT d L) ↦[(slabM 1 inb_S8x32x128_S1x32x128_1_0_0).view.set]{fullShare}
              (slabM 1 inb_S8x32x128_S1x32x128_1_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 1} tabT m d)))
    ∗ ((tabW).view.loc (VT d L) ↦[Finset.univ \ (srcW w.1 w.2).view.set]{Transfers.shareTokN (tq L) 1} tabT m d))

/-- Slot 1 at rest: its counter at zero, its slab at anything, its read token whole. -/
def free1 : sProp (MM F) :=
  iprop(semVal ((VT d L, (SemLoc.dma ⟨1, by decide⟩ : SemLoc sig)) : GSem nD τ sig) 0
    ∗ (∃ f, (slabM 1 inb_S8x32x128_S1x32x128_1_0_0).view.loc (VT d L) ↦[(slabM 1 inb_S8x32x128_S1x32x128_1_0_0).view.set]{fullShare} f)
    ∗ ((tabW).view.loc (VT d L) ↦{Transfers.shareTokN (tq L) 1} tabT m d))

/-- Slot 1 before trip j: fetching for element 8 j + 1 while trips remain, at rest after the last. -/
def slot1 (gi : Buf (Elt F) ((sIdxW).view.loc (VT d L))) (j : ℕ) : sProp (MM F) :=
  if j < 64 then iprop(∃ w : RW, ⌜w.1 = cw d L gi (8 * j + 1)⌝ ∗ fly1 m d L w) else free1 m d L

/-- Slot 2 fetching the 128 columns the index word w names: the wait's capability, which delivers the slab filled
    and the lent piece of the slot's read token, beside the rest of that token. -/
def fly2 (w : RW) : sProp (MM F) :=
  iprop((∃ f, Transfers.Flight countersEmb (VT d L) (SemLoc.dma ⟨2, by decide⟩ : SemLoc sig) default 131072
        iprop(((slabM 2 inb_S8x32x128_S1x32x128_2_0_0).view.loc (VT d L) ↦[(slabM 2 inb_S8x32x128_S1x32x128_2_0_0).view.set]{fullShare}
              (slabM 2 inb_S8x32x128_S1x32x128_2_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 2} tabT m d)))
    ∗ ((tabW).view.loc (VT d L) ↦[Finset.univ \ (srcW w.1 w.2).view.set]{Transfers.shareTokN (tq L) 2} tabT m d))

/-- Slot 2 at rest: its counter at zero, its slab at anything, its read token whole. -/
def free2 : sProp (MM F) :=
  iprop(semVal ((VT d L, (SemLoc.dma ⟨2, by decide⟩ : SemLoc sig)) : GSem nD τ sig) 0
    ∗ (∃ f, (slabM 2 inb_S8x32x128_S1x32x128_2_0_0).view.loc (VT d L) ↦[(slabM 2 inb_S8x32x128_S1x32x128_2_0_0).view.set]{fullShare} f)
    ∗ ((tabW).view.loc (VT d L) ↦{Transfers.shareTokN (tq L) 2} tabT m d))

/-- Slot 2 before trip j: fetching for element 8 j + 2 while trips remain, at rest after the last. -/
def slot2 (gi : Buf (Elt F) ((sIdxW).view.loc (VT d L))) (j : ℕ) : sProp (MM F) :=
  if j < 64 then iprop(∃ w : RW, ⌜w.1 = cw d L gi (8 * j + 2)⌝ ∗ fly2 m d L w) else free2 m d L

/-- Slot 3 fetching the 128 columns the index word w names: the wait's capability, which delivers the slab filled
    and the lent piece of the slot's read token, beside the rest of that token. -/
def fly3 (w : RW) : sProp (MM F) :=
  iprop((∃ f, Transfers.Flight countersEmb (VT d L) (SemLoc.dma ⟨3, by decide⟩ : SemLoc sig) default 131072
        iprop(((slabM 3 inb_S8x32x128_S1x32x128_3_0_0).view.loc (VT d L) ↦[(slabM 3 inb_S8x32x128_S1x32x128_3_0_0).view.set]{fullShare}
              (slabM 3 inb_S8x32x128_S1x32x128_3_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 3} tabT m d)))
    ∗ ((tabW).view.loc (VT d L) ↦[Finset.univ \ (srcW w.1 w.2).view.set]{Transfers.shareTokN (tq L) 3} tabT m d))

/-- Slot 3 at rest: its counter at zero, its slab at anything, its read token whole. -/
def free3 : sProp (MM F) :=
  iprop(semVal ((VT d L, (SemLoc.dma ⟨3, by decide⟩ : SemLoc sig)) : GSem nD τ sig) 0
    ∗ (∃ f, (slabM 3 inb_S8x32x128_S1x32x128_3_0_0).view.loc (VT d L) ↦[(slabM 3 inb_S8x32x128_S1x32x128_3_0_0).view.set]{fullShare} f)
    ∗ ((tabW).view.loc (VT d L) ↦{Transfers.shareTokN (tq L) 3} tabT m d))

/-- Slot 3 before trip j: fetching for element 8 j + 3 while trips remain, at rest after the last. -/
def slot3 (gi : Buf (Elt F) ((sIdxW).view.loc (VT d L))) (j : ℕ) : sProp (MM F) :=
  if j < 64 then iprop(∃ w : RW, ⌜w.1 = cw d L gi (8 * j + 3)⌝ ∗ fly3 m d L w) else free3 m d L

/-- Slot 4 fetching the 128 columns the index word w names: the wait's capability, which delivers the slab filled
    and the lent piece of the slot's read token, beside the rest of that token. -/
def fly4 (w : RW) : sProp (MM F) :=
  iprop((∃ f, Transfers.Flight countersEmb (VT d L) (SemLoc.dma ⟨4, by decide⟩ : SemLoc sig) default 131072
        iprop(((slabM 4 inb_S8x32x128_S1x32x128_4_0_0).view.loc (VT d L) ↦[(slabM 4 inb_S8x32x128_S1x32x128_4_0_0).view.set]{fullShare}
              (slabM 4 inb_S8x32x128_S1x32x128_4_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 4} tabT m d)))
    ∗ ((tabW).view.loc (VT d L) ↦[Finset.univ \ (srcW w.1 w.2).view.set]{Transfers.shareTokN (tq L) 4} tabT m d))

/-- Slot 4 at rest: its counter at zero, its slab at anything, its read token whole. -/
def free4 : sProp (MM F) :=
  iprop(semVal ((VT d L, (SemLoc.dma ⟨4, by decide⟩ : SemLoc sig)) : GSem nD τ sig) 0
    ∗ (∃ f, (slabM 4 inb_S8x32x128_S1x32x128_4_0_0).view.loc (VT d L) ↦[(slabM 4 inb_S8x32x128_S1x32x128_4_0_0).view.set]{fullShare} f)
    ∗ ((tabW).view.loc (VT d L) ↦{Transfers.shareTokN (tq L) 4} tabT m d))

/-- Slot 4 before trip j: fetching for element 8 j + 4 while trips remain, at rest after the last. -/
def slot4 (gi : Buf (Elt F) ((sIdxW).view.loc (VT d L))) (j : ℕ) : sProp (MM F) :=
  if j < 64 then iprop(∃ w : RW, ⌜w.1 = cw d L gi (8 * j + 4)⌝ ∗ fly4 m d L w) else free4 m d L

/-- Slot 5 fetching the 128 columns the index word w names: the wait's capability, which delivers the slab filled
    and the lent piece of the slot's read token, beside the rest of that token. -/
def fly5 (w : RW) : sProp (MM F) :=
  iprop((∃ f, Transfers.Flight countersEmb (VT d L) (SemLoc.dma ⟨5, by decide⟩ : SemLoc sig) default 131072
        iprop(((slabM 5 inb_S8x32x128_S1x32x128_5_0_0).view.loc (VT d L) ↦[(slabM 5 inb_S8x32x128_S1x32x128_5_0_0).view.set]{fullShare}
              (slabM 5 inb_S8x32x128_S1x32x128_5_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 5} tabT m d)))
    ∗ ((tabW).view.loc (VT d L) ↦[Finset.univ \ (srcW w.1 w.2).view.set]{Transfers.shareTokN (tq L) 5} tabT m d))

/-- Slot 5 at rest: its counter at zero, its slab at anything, its read token whole. -/
def free5 : sProp (MM F) :=
  iprop(semVal ((VT d L, (SemLoc.dma ⟨5, by decide⟩ : SemLoc sig)) : GSem nD τ sig) 0
    ∗ (∃ f, (slabM 5 inb_S8x32x128_S1x32x128_5_0_0).view.loc (VT d L) ↦[(slabM 5 inb_S8x32x128_S1x32x128_5_0_0).view.set]{fullShare} f)
    ∗ ((tabW).view.loc (VT d L) ↦{Transfers.shareTokN (tq L) 5} tabT m d))

/-- Slot 5 before trip j: fetching for element 8 j + 5 while trips remain, at rest after the last. -/
def slot5 (gi : Buf (Elt F) ((sIdxW).view.loc (VT d L))) (j : ℕ) : sProp (MM F) :=
  if j < 64 then iprop(∃ w : RW, ⌜w.1 = cw d L gi (8 * j + 5)⌝ ∗ fly5 m d L w) else free5 m d L

/-- Slot 6 fetching the 128 columns the index word w names: the wait's capability, which delivers the slab filled
    and the lent piece of the slot's read token, beside the rest of that token. -/
def fly6 (w : RW) : sProp (MM F) :=
  iprop((∃ f, Transfers.Flight countersEmb (VT d L) (SemLoc.dma ⟨6, by decide⟩ : SemLoc sig) default 131072
        iprop(((slabM 6 inb_S8x32x128_S1x32x128_6_0_0).view.loc (VT d L) ↦[(slabM 6 inb_S8x32x128_S1x32x128_6_0_0).view.set]{fullShare}
              (slabM 6 inb_S8x32x128_S1x32x128_6_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 6} tabT m d)))
    ∗ ((tabW).view.loc (VT d L) ↦[Finset.univ \ (srcW w.1 w.2).view.set]{Transfers.shareTokN (tq L) 6} tabT m d))

/-- Slot 6 at rest: its counter at zero, its slab at anything, its read token whole. -/
def free6 : sProp (MM F) :=
  iprop(semVal ((VT d L, (SemLoc.dma ⟨6, by decide⟩ : SemLoc sig)) : GSem nD τ sig) 0
    ∗ (∃ f, (slabM 6 inb_S8x32x128_S1x32x128_6_0_0).view.loc (VT d L) ↦[(slabM 6 inb_S8x32x128_S1x32x128_6_0_0).view.set]{fullShare} f)
    ∗ ((tabW).view.loc (VT d L) ↦{Transfers.shareTokN (tq L) 6} tabT m d))

/-- Slot 6 before trip j: fetching for element 8 j + 6 while trips remain, at rest after the last. -/
def slot6 (gi : Buf (Elt F) ((sIdxW).view.loc (VT d L))) (j : ℕ) : sProp (MM F) :=
  if j < 64 then iprop(∃ w : RW, ⌜w.1 = cw d L gi (8 * j + 6)⌝ ∗ fly6 m d L w) else free6 m d L

/-- Slot 7 fetching the 128 columns the index word w names: the wait's capability, which delivers the slab filled
    and the lent piece of the slot's read token, beside the rest of that token. -/
def fly7 (w : RW) : sProp (MM F) :=
  iprop((∃ f, Transfers.Flight countersEmb (VT d L) (SemLoc.dma ⟨7, by decide⟩ : SemLoc sig) default 131072
        iprop(((slabM 7 inb_S8x32x128_S1x32x128_7_0_0).view.loc (VT d L) ↦[(slabM 7 inb_S8x32x128_S1x32x128_7_0_0).view.set]{fullShare}
              (slabM 7 inb_S8x32x128_S1x32x128_7_0_0).view.writes (Elt F) f
                [⟨Rect.whole S32x128, ReadAs.same.apply (View.read (Elt F) (srcW w.1 w.2).view (tabT m d))⟩])
          ∗ ((tabW).view.loc (VT d L) ↦[(srcW w.1 w.2).view.set]{Transfers.shareTokN (tq L) 7} tabT m d)))
    ∗ ((tabW).view.loc (VT d L) ↦[Finset.univ \ (srcW w.1 w.2).view.set]{Transfers.shareTokN (tq L) 7} tabT m d))

/-- Slot 7 at rest: its counter at zero, its slab at anything, its read token whole. -/
def free7 : sProp (MM F) :=
  iprop(semVal ((VT d L, (SemLoc.dma ⟨7, by decide⟩ : SemLoc sig)) : GSem nD τ sig) 0
    ∗ (∃ f, (slabM 7 inb_S8x32x128_S1x32x128_7_0_0).view.loc (VT d L) ↦[(slabM 7 inb_S8x32x128_S1x32x128_7_0_0).view.set]{fullShare} f)
    ∗ ((tabW).view.loc (VT d L) ↦{Transfers.shareTokN (tq L) 7} tabT m d))

/-- Slot 7 before trip j: fetching for element 8 j + 7 while trips remain, at rest after the last. -/
def slot7 (gi : Buf (Elt F) ((sIdxW).view.loc (VT d L))) (j : ℕ) : sProp (MM F) :=
  if j < 64 then iprop(∃ w : RW, ⌜w.1 = cw d L gi (8 * j + 7)⌝ ∗ fly7 m d L w) else free7 m d L

/-- Columns 0 … n − 1 of the column scratch are the looked-up columns. -/
def ColsOK (n : ℕ) (gc : Buf (Elt F) ((sColW).view.loc (VT d L))) : Prop :=
  ∀ (r : Fin 32) (k : Fin 512), k.val < n →
    gc (ix2 r k) = tabT m d (ix2 r (Cert.Lookup.rowOf (m (idxLoc d)) ⟨base L + k.val, base_add_lt L k⟩))

/-- The loop's invariant before trip j. -/
def inv (O : CellTallies nD τ sig (HIx 1)) (W : Waits sig (HIx 1))
    (gi : Buf (Elt F) ((sIdxW).view.loc (VT d L))) (gt : Buf (Elt F) ((sTailW).view.loc (VT d L))) (j : ℕ) (_ : Unit) : sProp (MM F) :=
  iprop(Transfers.MayWaits (VT d L) (none : HIx 1) O
    ∗ ((sIdxW).view.loc (VT d L) ↦{fullShare} gi)
    ∗ ((sTailW).view.loc (VT d L) ↦{fullShare} gt)
    ∗ (∃ gc, ⌜ColsOK m d L (8 * j) gc⌝ ∗ ((sColW).view.loc (VT d L) ↦{fullShare} gc))
    ∗ slot0 m d L gi j ∗ slot1 m d L gi j ∗ slot2 m d L gi j ∗ slot3 m d L gi j
    ∗ slot4 m d L gi j ∗ slot5 m d L gi j ∗ slot6 m d L gi j ∗ slot7 m d L gi j
    ∗ ∃ W', ⌜∀ p ∈ W', p ∈ W ∨ p.2 = none⌝ ∗ owes (VT d L) O W')

/-- The index scratch holds the subcore's 512 indices. -/
def IdxHolds (gi : Buf (Elt F) ((sIdxW).view.loc (VT d L))) : Prop :=
  ∀ k : Fin 512, gi (ix1 ⟨k.val, by have := k.isLt; omega⟩) = m (idxLoc d) (ix1 ⟨base L + k.val, base_add_lt L k⟩)

/-- The tail scratch holds the table's last 64 columns. -/
def TailHolds (gt : Buf (Elt F) ((sTailW).view.loc (VT d L))) : Prop :=
  ∀ (r : Fin 32) (l : Fin 64), gt (ix2 r l) = tabT m d (ix2 r ⟨999936 + l.val, by have := l.isLt; omega⟩)

/-- One trip of the loop takes the invariant before it to the invariant after it. -/
def RegionStep (O : CellTallies nD τ sig (HIx 1)) (W : Waits sig (HIx 1))
    (gi : Buf (Elt F) ((sIdxW).view.loc (VT d L))) (gt : Buf (Elt F) ((sTailW).view.loc (VT d L))) : Prop :=
  ∀ (k : Fin k0_t1_loop.trips) (acc : Unit),
    inv m d L O W gi gt k.val acc
      ⊢ wp frame (wpE (defs₀ (F := F)) 𝒱₀ (VT d L) none) Set.univ
          (k0_t1_body (F := F) L tabW (Memref.isWhole_whole _) idxW (Memref.isWhole_whole _) tailW (Memref.isWhole_whole _) outW (Memref.isWhole_whole _)
            sIdxW (Memref.isWhole_whole _) sSlabW (Memref.isWhole_whole _) sTailW (Memref.isWhole_whole _) sColW (Memref.isWhole_whole _)
            cc0_scratch4 cc0_scratch5 cc0_scratch6 cc0_scratch7 cc0_scratch8 cc0_scratch9 cc0_scratch10 cc0_scratch11 cc0_scoped0 cc0_scoped1 cc0_scoped2
            Words.iotaV Words.iota16V 0#32 1#32 k acc)
          (inv m d L O W gi gt (k.val + 1))

end Cert.Proof.KB

end
-- ==== Proof.KB.Open.lean ====
/-
  Opening a vector subcore's resources into the separate hypotheses a step-by-step run of its task names, and
  closing them again: its eleven scoped DMA semaphores (at zero) and four scratch buffers out of everything it
  owns, the eight 32 × 128 slabs of the slab scratch, the arrays under the spelling the task's memrefs give
  them, and the subcore's read share of the transposed table cut into eight tokens and a remainder.
  Separation-logic algebra over finite sets only: a separating conjunction over a finite set is the
  conjunction over any duplicate-free list of its elements beside the conjunction over the rest, and a
  points-to over a disjoint union is the conjunction of the points-tos over the parts.
-/
import proofs.«209800_g17188459118626_cont_7to1_163_19_alg».proof.Proof.KB.Mems
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## Separating conjunctions over lists -/

section Lists

variable {M : Type} [URA M] {I : Type} [DecidableEq I]

/-- The propositions of a list, separated (right-nested, no trailing emp after the last). -/
def sepList : List (sProp M) → sProp M
  | [] => iprop(emp)
  | [P] => P
  | P :: Q :: l => iprop(P ∗ sepList (Q :: l))

/-- Over the elements of a duplicate-free list, the conjunction is the list's. -/
theorem bigSep_toFinset (l : List I) (hnd : l.Nodup) (Φ : I → sProp M) :
    bigSep l.toFinset Φ = sepList (l.map Φ) := by
  induction l with
  | nil => rw [List.toFinset_nil, bigSep_empty]; rfl
  | cons a l ih =>
    have hnd' := List.nodup_cons.mp hnd
    cases l with
    | nil => rw [List.toFinset_cons, List.toFinset_nil, LawfulSingleton.insert_empty_eq, bigSep_singleton]; rfl
    | cons b l =>
      have ha : a ∉ (b :: l).toFinset := by rw [List.mem_toFinset]; exact hnd'.1
      rw [List.toFinset_cons, SparseCore.bigSep_insert' ha, ih hnd'.2]; rfl

/-- A finite set that holds the elements of a duplicate-free list: they first, one by one, then the rest. -/
theorem bigSep_open_list (l : List I) (hnd : l.Nodup) (s : Finset I) (hs : ∀ a ∈ l, a ∈ s) (Φ : I → sProp M) :
    bigSep s Φ = l.foldr (fun a P => iprop(Φ a ∗ P)) (bigSep (s \ l.toFinset) Φ) := by
  induction l generalizing s with
  | nil => rw [List.toFinset_nil, Finset.sdiff_empty]; rfl
  | cons a l ih =>
    have hnd' := List.nodup_cons.mp hnd
    have e : s.erase a \ l.toFinset = s \ (a :: l).toFinset := by
      ext x
      simp only [Finset.mem_sdiff, Finset.mem_erase, List.toFinset_cons, Finset.mem_insert]
      tauto
    rw [SparseCore.bigSep_erase' (hs a (List.mem_cons_self ..)),
      ih hnd'.2 (s.erase a) (fun b hb => Finset.mem_erase.mpr
        ⟨fun e => hnd'.1 (e ▸ hb), hs b (List.mem_cons_of_mem _ hb)⟩), e]
    rfl

end Lists

section Tile

variable (d : Dev nD) (L : grid0.Coords)

/-! ## The subcore's own semaphores and buffers -/

/-- The subcore's eleven scoped DMA semaphores. -/
def semLocs : List (SemLoc sig) :=
  [.dma (SemArray.sem cc0_scratch4), .dma (SemArray.sem cc0_scratch5), .dma (SemArray.sem cc0_scratch6),
   .dma (SemArray.sem cc0_scratch7), .dma (SemArray.sem cc0_scratch8), .dma (SemArray.sem cc0_scratch9),
   .dma (SemArray.sem cc0_scratch10), .dma (SemArray.sem cc0_scratch11), .dma (SemArray.sem cc0_scoped0),
   .dma (SemArray.sem cc0_scoped1), .dma (SemArray.sem cc0_scoped2)]

/-- Their cells on a thread. -/
def semCells (thr : Thread nD τ) : Finset (GSem nD τ sig) :=
  (semLocs.map fun a => ((thr, a) : GSem nD τ sig)).toFinset

theorem semLocs_nodup : semLocs.Nodup := by decide
theorem semLocs_scoped : ∀ a ∈ semLocs, a.isScoped .scVector = true := by decide

theorem ownSems0_VT :
    (ownSems0 (VT d L) : sProp (MM F))
      = iprop(semVal ((VT d L, SemLoc.dma (SemArray.sem cc0_scratch4)) : GSem nD τ sig) 0
          ∗ semVal ((VT d L, SemLoc.dma (SemArray.sem cc0_scratch5)) : GSem nD τ sig) 0
          ∗ semVal ((VT d L, SemLoc.dma (SemArray.sem cc0_scratch6)) : GSem nD τ sig) 0
          ∗ semVal ((VT d L, SemLoc.dma (SemArray.sem cc0_scratch7)) : GSem nD τ sig) 0
          ∗ semVal ((VT d L, SemLoc.dma (SemArray.sem cc0_scratch8)) : GSem nD τ sig) 0
          ∗ semVal ((VT d L, SemLoc.dma (SemArray.sem cc0_scratch9)) : GSem nD τ sig) 0
          ∗ semVal ((VT d L, SemLoc.dma (SemArray.sem cc0_scratch10)) : GSem nD τ sig) 0
          ∗ semVal ((VT d L, SemLoc.dma (SemArray.sem cc0_scratch11)) : GSem nD τ sig) 0
          ∗ semVal ((VT d L, SemLoc.dma (SemArray.sem cc0_scoped0)) : GSem nD τ sig) 0
          ∗ semVal ((VT d L, SemLoc.dma (SemArray.sem cc0_scoped1)) : GSem nD τ sig) 0
          ∗ semVal ((VT d L, SemLoc.dma (SemArray.sem cc0_scoped2)) : GSem nD τ sig) 0
          ∗ bigSep (ownCells (VT d L) \ semCells (VT d L)) fun g => semVal g 0) := by
  unfold SparseCore.Cfg.ownSems0 semCells
  have h := bigSep_open_list (M := MM F) (semLocs.map fun a => ((VT d L, a) : GSem nD τ sig))
    (List.Nodup.map (fun a b e => (Prod.ext_iff.mp e).2) semLocs_nodup)
    (ownCells (VT d L))
    (fun g hg => by
      obtain ⟨a, ha, rfl⟩ := List.mem_map.mp hg
      exact mem_ownCells.mpr ⟨rfl, semLocs_scoped a ha⟩)
    (fun g => semVal g 0)
  simpa only [semLocs, List.map_cons, List.map_nil, List.foldr_cons, List.foldr_nil] using h

/-- The subcore's four scratch buffers. -/
def bufList : List (Ref sig .scVector) := [cc0_scratch0, cc0_scratch1, cc0_scratch2, cc0_scratch3]

/-- The same as buffers of a processor. -/
def bufRefs (c : Fin τ.nSC) (i : Fin τ.nSub) : Finset (DevRef τ sig) :=
  (bufList.map (Proc.scVector c i).devRef).toFinset

theorem bufList_nodup : bufList.Nodup := by decide

theorem ownBufs_VT :
    (ownBufs (VT d L) : sProp (MM F))
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (ownRefs (τ := τ) (.scVector ((L 0).castLE hcore0) ((L 1).castLE hsub0)) \ bufRefs ((L 0).castLE hcore0) ((L 1).castLE hsub0))
              fun b => iprop(∃ f, (((VT d L).1, b) : Loc nD τ sig) ↦{fullShare} f)) := by
  unfold SparseCore.Cfg.ownBufs bufRefs
  have h := bigSep_open_list (M := MM F) (bufList.map (Proc.scVector ((L 0).castLE hcore0) ((L 1).castLE hsub0)).devRef)
    (List.Nodup.map (Proc.devRef_injective _) bufList_nodup)
    (ownRefs (τ := τ) (.scVector ((L 0).castLE hcore0) ((L 1).castLE hsub0)))
    (fun b hb => by
      obtain ⟨r, hr, rfl⟩ := List.mem_map.mp hb
      simp only [bufList, List.mem_cons, List.mem_nil_iff, or_false] at hr
      rcases hr with rfl | rfl | rfl | rfl <;> exact SparseCore.Cfg.mem_ownRefs_of_owner rfl)
    (fun b => iprop(∃ f, (((VT d L).1, b) : Loc nD τ sig) ↦{fullShare} f))
  simpa only [bufList, List.map_cons, List.map_nil, List.foldr_cons, List.foldr_nil] using h

/-! ## The slab scratch as its eight slabs -/

/-- The elements of slab b of the slab scratch: those whose first coordinate is b. -/
def slabSet (b : Fin 8) : Finset S8x32x128.Idx := (slabM b.val (slab_inb b)).view.set

theorem slabSet_eq (b : Fin 8) :
    slabSet b = (Rect.unit (s := S8x32x128) ![b.val, 0, 0] S1x32x128.size (slab_inb b)).set := by
  unfold slabSet
  simp only [Memref.view_squeeze, Memref.view_slice, Memref.view_whole, View.set_reshape, View.set_slice_whole]

/-- Two different slabs share no element: they differ in the first coordinate. -/
theorem slab_disjoint : ∀ b ∈ (Finset.univ : Finset (Fin 8)), ∀ b' ∈ (Finset.univ : Finset (Fin 8)), b ≠ b' →
    Disjoint (slabSet b) (slabSet b') := by
  intro b _ b' _ h
  rw [slabSet_eq, slabSet_eq]
  refine Rect.unit_disjoint (0 : Fin 3) ?_
  have hne : b.val ≠ b'.val := fun e => h (Fin.ext e)
  show b.val + 1 ≤ b'.val ∨ b'.val + 1 ≤ b.val
  omega

/-- Every element lies in the slab its first coordinate names. -/
theorem slab_cover : (Finset.univ : Finset (Fin 8)).biUnion slabSet = Finset.univ := by
  ext i
  simp only [Finset.mem_biUnion, Finset.mem_univ, true_and, iff_true]
  have h0 : (i 0).val < 8 := (i 0).isLt
  have h1 : (i 1).val < 32 := (i 1).isLt
  have h2 : (i 2).val < 128 := (i 2).isLt
  refine ⟨⟨(i 0).val, h0⟩, ?_⟩
  rw [slabSet_eq]
  refine Rect.mem_set_unit.mpr fun a => ?_
  fin_cases a
  · show (i 0).val ≤ (i 0).val ∧ (i 0).val < (i 0).val + 1; omega
  · show 0 ≤ (i 1).val ∧ (i 1).val < 0 + 32; omega
  · show 0 ≤ (i 2).val ∧ (i 2).val < 0 + 128; omega

/-- The slab scratch whole is its eight slabs. -/
theorem scratch1_slabs (q : PosShare TreeShare) (f : Buf (Elt F) ((VT d L).loc cc0_scratch1)) :
    ((VT d L).loc cc0_scratch1 ↦{q} f : sProp (MM F))
      = bigSep Finset.univ fun b : Fin 8 => (VT d L).loc cc0_scratch1 ↦[slabSet b]{q} f := by
  rw [← pointsTo_biUnion Finset.univ (ℓ := (VT d L).loc cc0_scratch1) slabSet slab_disjoint, slab_cover]

/-- A conjunction over the eight slab numbers, written out. -/
theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = ([0, 1, 2, 3, 4, 5, 6, 7] : List (Fin 8)).toFinset by decide,
    bigSep_toFinset _ (by decide)]
  simp only [List.map_cons, List.map_nil, sepList]

/-- Slab b under the task's spelling is the slab scratch over the elements of slab b. -/
theorem slabPts_eq (b : Fin 8) (hb : ∀ a, (![b.val, 0, 0] : Fin 3 → Nat) a + S1x32x128.size a ≤ S8x32x128.size a)
    (q : PosShare TreeShare) (f : Buf (Elt F) ((VT d L).loc cc0_scratch1)) :
    ((slabM b.val hb).view.loc (VT d L) ↦[(slabM b.val hb).view.set]{q} f : sProp (MM F))
      = ((VT d L).loc cc0_scratch1 ↦[slabSet b]{q} f) := rfl

theorem slabs_split (f : Buf (Elt F) ((VT d L).loc cc0_scratch1)) :
    ((VT d L).loc cc0_scratch1 ↦{fullShare} f : sProp (MM F))
      ⊣⊢ iprop(((slabM 0 inb_S8x32x128_S1x32x128_0_0_0).view.loc (VT d L) ↦[(slabM 0 inb_S8x32x128_S1x32x128_0_0_0).view.set]{fullShare} f)
          ∗ ((slabM 1 inb_S8x32x128_S1x32x128_1_0_0).view.loc (VT d L) ↦[(slabM 1 inb_S8x32x128_S1x32x128_1_0_0).view.set]{fullShare} f)
          ∗ ((slabM 2 inb_S8x32x128_S1x32x128_2_0_0).view.loc (VT d L) ↦[(slabM 2 inb_S8x32x128_S1x32x128_2_0_0).view.set]{fullShare} f)
          ∗ ((slabM 3 inb_S8x32x128_S1x32x128_3_0_0).view.loc (VT d L) ↦[(slabM 3 inb_S8x32x128_S1x32x128_3_0_0).view.set]{fullShare} f)
          ∗ ((slabM 4 inb_S8x32x128_S1x32x128_4_0_0).view.loc (VT d L) ↦[(slabM 4 inb_S8x32x128_S1x32x128_4_0_0).view.set]{fullShare} f)
          ∗ ((slabM 5 inb_S8x32x128_S1x32x128_5_0_0).view.loc (VT d L) ↦[(slabM 5 inb_S8x32x128_S1x32x128_5_0_0).view.set]{fullShare} f)
          ∗ ((slabM 6 inb_S8x32x128_S1x32x128_6_0_0).view.loc (VT d L) ↦[(slabM 6 inb_S8x32x128_S1x32x128_6_0_0).view.set]{fullShare} f)
          ∗ ((slabM 7 inb_S8x32x128_S1x32x128_7_0_0).view.loc (VT d L) ↦[(slabM 7 inb_S8x32x128_S1x32x128_7_0_0).view.set]{fullShare} f)) := by
  rw [scratch1_slabs d L fullShare f, bigSep_fin8]
  exact BIBase.BiEntails.rfl

/-- Eight slabs, each at some contents, are the slab scratch at some contents (contents exist: the element type is
    inhabited). -/
theorem slabs_join [FloatOps F] :
    iprop((∃ f, (slabM 0 inb_S8x32x128_S1x32x128_0_0_0).view.loc (VT d L) ↦[(slabM 0 inb_S8x32x128_S1x32x128_0_0_0).view.set]{fullShare} f)
        ∗ (∃ f, (slabM 1 inb_S8x32x128_S1x32x128_1_0_0).view.loc (VT d L) ↦[(slabM 1 inb_S8x32x128_S1x32x128_1_0_0).view.set]{fullShare} f)
        ∗ (∃ f, (slabM 2 inb_S8x32x128_S1x32x128_2_0_0).view.loc (VT d L) ↦[(slabM 2 inb_S8x32x128_S1x32x128_2_0_0).view.set]{fullShare} f)
        ∗ (∃ f, (slabM 3 inb_S8x32x128_S1x32x128_3_0_0).view.loc (VT d L) ↦[(slabM 3 inb_S8x32x128_S1x32x128_3_0_0).view.set]{fullShare} f)
        ∗ (∃ f, (slabM 4 inb_S8x32x128_S1x32x128_4_0_0).view.loc (VT d L) ↦[(slabM 4 inb_S8x32x128_S1x32x128_4_0_0).view.set]{fullShare} f)
        ∗ (∃ f, (slabM 5 inb_S8x32x128_S1x32x128_5_0_0).view.loc (VT d L) ↦[(slabM 5 inb_S8x32x128_S1x32x128_5_0_0).view.set]{fullShare} f)
        ∗ (∃ f, (slabM 6 inb_S8x32x128_S1x32x128_6_0_0).view.loc (VT d L) ↦[(slabM 6 inb_S8x32x128_S1x32x128_6_0_0).view.set]{fullShare} f)
        ∗ (∃ f, (slabM 7 inb_S8x32x128_S1x32x128_7_0_0).view.loc (VT d L) ↦[(slabM 7 inb_S8x32x128_S1x32x128_7_0_0).view.set]{fullShare} f))
      ⊢ (iprop(∃ f, (VT d L).loc cc0_scratch1 ↦{fullShare} f) : sProp (MM F)) := by
  have e : (iprop((∃ f, (slabM 0 inb_S8x32x128_S1x32x128_0_0_0).view.loc (VT d L) ↦[(slabM 0 inb_S8x32x128_S1x32x128_0_0_0).view.set]{fullShare} f)
        ∗ (∃ f, (slabM 1 inb_S8x32x128_S1x32x128_1_0_0).view.loc (VT d L) ↦[(slabM 1 inb_S8x32x128_S1x32x128_1_0_0).view.set]{fullShare} f)
        ∗ (∃ f, (slabM 2 inb_S8x32x128_S1x32x128_2_0_0).view.loc (VT d L) ↦[(slabM 2 inb_S8x32x128_S1x32x128_2_0_0).view.set]{fullShare} f)
        ∗ (∃ f, (slabM 3 inb_S8x32x128_S1x32x128_3_0_0).view.loc (VT d L) ↦[(slabM 3 inb_S8x32x128_S1x32x128_3_0_0).view.set]{fullShare} f)
        ∗ (∃ f, (slabM 4 inb_S8x32x128_S1x32x128_4_0_0).view.loc (VT d L) ↦[(slabM 4 inb_S8x32x128_S1x32x128_4_0_0).view.set]{fullShare} f)
        ∗ (∃ f, (slabM 5 inb_S8x32x128_S1x32x128_5_0_0).view.loc (VT d L) ↦[(slabM 5 inb_S8x32x128_S1x32x128_5_0_0).view.set]{fullShare} f)
        ∗ (∃ f, (slabM 6 inb_S8x32x128_S1x32x128_6_0_0).view.loc (VT d L) ↦[(slabM 6 inb_S8x32x128_S1x32x128_6_0_0).view.set]{fullShare} f)
        ∗ (∃ f, (slabM 7 inb_S8x32x128_S1x32x128_7_0_0).view.loc (VT d L) ↦[(slabM 7 inb_S8x32x128_S1x32x128_7_0_0).view.set]{fullShare} f)) : sProp (MM F))
      = bigSep Finset.univ fun b : Fin 8 =>
          iprop(∃ f : Buf (Elt F) ((VT d L).loc cc0_scratch1), (VT d L).loc cc0_scratch1 ↦[slabSet b]{fullShare} f) :=
    (bigSep_fin8 (fun b : Fin 8 =>
      (iprop(∃ f : Buf (Elt F) ((VT d L).loc cc0_scratch1), (VT d L).loc cc0_scratch1 ↦[slabSet b]{fullShare} f) : sProp (MM F)))).symm
  rw [e]
  refine (bigSep_exists_pi Finset.univ
    (fun b (f : Buf (Elt F) ((VT d L).loc cc0_scratch1)) => ((VT d L).loc cc0_scratch1 ↦[slabSet b]{fullShare} f : sProp (MM F)))).trans ?_
  iintro ⟨%fs, H⟩
  ihave H' := (pointsTo_biUnion_join Finset.univ slabSet fs (fs 0) slab_disjoint) $$ H
  icases H' with ⟨%g, -, Hg⟩
  rw [slab_cover]
  iexists g; iexact Hg

/-! ## The arrays under the spelling the task's memrefs give them -/

theorem pts_tab (S : Finset (Idx (tabLoc d))) (q : PosShare TreeShare) (f : Buf (Elt F) (tabLoc d)) :
    ((Memref.whole main_v0_scv : Memref sig .scVector .hbm S32x1000000 .f32).view.loc (VT d L) ↦[S]{q} f : sProp (MM F))
      = (tabLoc d ↦[S]{q} f) := rfl
theorem pts_tail (S : Finset (Idx (tailLoc d))) (q : PosShare TreeShare) (f : Buf (Elt F) (tailLoc d)) :
    ((Memref.whole main_v1_scv : Memref sig .scVector .hbm S32x64 .f32).view.loc (VT d L) ↦[S]{q} f : sProp (MM F))
      = (tailLoc d ↦[S]{q} f) := rfl
theorem pts_idx (S : Finset (Idx (idxLoc d))) (q : PosShare TreeShare) (f : Buf (Elt F) (idxLoc d)) :
    ((Memref.whole main_arg0_scv : Memref sig .scVector .hbm S16384 .i32).view.loc (VT d L) ↦[S]{q} f : sProp (MM F))
      = (idxLoc d ↦[S]{q} f) := rfl
theorem pts_out (q : PosShare TreeShare) (f : Buf (Elt F) (outLoc d)) :
    ((outBlk L).view.loc (VT d L) ↦[(outBlk L).view.set]{q} f : sProp (MM F)) = (outLoc d ↦[outSet L]{q} f) := rfl
theorem pts_s0 (q : PosShare TreeShare) (f : Buf (Elt F) ((VT d L).loc cc0_scratch0)) :
    ((Memref.whole cc0_scratch0 : Memref sig .scVector .vmem S528 .i32).view.loc (VT d L) ↦{q} f : sProp (MM F))
      = ((VT d L).loc cc0_scratch0 ↦{q} f) := rfl
theorem pts_s1 (q : PosShare TreeShare) (f : Buf (Elt F) ((VT d L).loc cc0_scratch1)) :
    ((Memref.whole cc0_scratch1 : Memref sig .scVector .vmem S8x32x128 .f32).view.loc (VT d L) ↦{q} f : sProp (MM F))
      = ((VT d L).loc cc0_scratch1 ↦{q} f) := rfl
theorem pts_s2 (q : PosShare TreeShare) (f : Buf (Elt F) ((VT d L).loc cc0_scratch2)) :
    ((Memref.whole cc0_scratch2 : Memref sig .scVector .vmem S32x64 .f32).view.loc (VT d L) ↦{q} f : sProp (MM F))
      = ((VT d L).loc cc0_scratch2 ↦{q} f) := rfl
theorem pts_s3 (q : PosShare TreeShare) (f : Buf (Elt F) ((VT d L).loc cc0_scratch3)) :
    ((Memref.whole cc0_scratch3 : Memref sig .scVector .vmem S32x512 .f32).view.loc (VT d L) ↦{q} f : sProp (MM F))
      = ((VT d L).loc cc0_scratch3 ↦{q} f) := rfl

/-! ## The read share of the transposed table as eight tokens and a remainder -/

theorem toks8 (f : Buf (Elt F) (tabLoc d)) :
    (tabLoc d ↦{tq L} f : sProp (MM F))
      ⊣⊢ iprop((tabLoc d ↦{Transfers.shareDrop (tq L) 8} f)
          ∗ (tabLoc d ↦{Transfers.shareTokN (tq L) 0} f) ∗ (tabLoc d ↦{Transfers.shareTokN (tq L) 1} f)
          ∗ (tabLoc d ↦{Transfers.shareTokN (tq L) 2} f) ∗ (tabLoc d ↦{Transfers.shareTokN (tq L) 3} f)
          ∗ (tabLoc d ↦{Transfers.shareTokN (tq L) 4} f) ∗ (tabLoc d ↦{Transfers.shareTokN (tq L) 5} f)
          ∗ (tabLoc d ↦{Transfers.shareTokN (tq L) 6} f) ∗ (tabLoc d ↦{Transfers.shareTokN (tq L) 7} f)) := by
  have h := Transfers.pointsTo_toks_range (nD := nD) (τ := τ) (sig := sig) (Ix := HIx 1) (Val := Elt F) (Name := ℕ) (U := UU) (Lvl := ℕ)
    (ℓ := tabLoc d) (S := Finset.univ) (f := f) (tq L) 8
  rw [show Finset.range 8 = ([0, 1, 2, 3, 4, 5, 6, 7] : List ℕ).toFinset by decide, bigSep_toFinset _ (by decide)] at h
  simpa only [List.map_cons, List.map_nil, sepList] using h

end Tile

end Cert.Proof.KB

end
-- ==== Proof.KB.Lanes.lean ====
/-
  The vector subcore's indexed load and store, read lane by lane. An indexed load's lane x reads the base array at the
  index the index vectors name for x. An unmasked, non-adding indexed store is a left fold over the lanes, each writing
  its element at the index it names; an index some lane names ends at that lane's element when no other lane names it,
  and an index no lane names keeps what it held. With the row vector "lane + off" and one broadcast column word these
  read as a 16-entry piece of one column: rows off … off + 15 of column ce.
-/
import proofs.«209800_g17188459118626_cont_7to1_163_19_alg».proof.Proof.Gen.Kernel
import Idealize.ShloMosaic.Lib.ValueIdx

noncomputable section

namespace Cert.Proof.KB.Lanes

open Idealize.ShloMosaic Idealize.ShloMosaic.ValueIdx Cert.Kernel Cert.Kernel.Gen

variable {F : FTy → Type} [FloatOps F] {e : EltTy}

/-! ## A left fold of writes at one index -/

section Fold
variable {ι β γ : Type} (step : (β → γ) → ι → (β → γ)) (hit : ι → β → Prop) (val : ι → γ)

/-- A fold of writes, none of which names j, leaves j as it was. -/
theorem foldl_miss (hs0 : ∀ g k j, ¬hit k j → step g k j = g j) (j : β) :
    ∀ (L : List ι) (g : β → γ), (∀ k ∈ L, ¬hit k j) → L.foldl step g j = g j
  | [], _, _ => rfl
  | a :: L, g, h => by
    rw [List.foldl_cons, foldl_miss hs0 j L _ fun k hk => h k (List.mem_cons_of_mem _ hk), hs0 g a j (h a List.mem_cons_self)]

/-- A fold of writes over distinct positions, exactly one of which (k0) names j, leaves k0's value at j. -/
theorem foldl_hit (hs1 : ∀ g k j, hit k j → step g k j = val k) (hs0 : ∀ g k j, ¬hit k j → step g k j = g j) (j : β) (k0 : ι)
    (hk0 : hit k0 j) :
    ∀ (L : List ι) (g : β → γ), L.Nodup → k0 ∈ L → (∀ k ∈ L, hit k j → k = k0) → L.foldl step g j = val k0
  | [], _, _, hm, _ => nomatch hm
  | a :: L, g, hnd, hm, hu => by
    rw [List.foldl_cons]
    by_cases ha : a = k0
    · subst ha
      have hnot : ∀ k ∈ L, ¬hit k j := fun k hk hh =>
        (List.nodup_cons.1 hnd).1 (hu k (List.mem_cons_of_mem _ hk) hh ▸ hk)
      rw [foldl_miss step hit hs0 j L _ hnot, hs1 g a j hk0]
    · have hm' : k0 ∈ L := by
        rcases List.mem_cons.1 hm with h | h
        · exact absurd h.symm ha
        · exact h
      exact foldl_hit hs1 hs0 j k0 hk0 L _ (List.nodup_cons.1 hnd).2 hm' fun k hk => hu k (List.mem_cons_of_mem _ hk)

end Fold

/-! ## The indexed store at an index -/

section Store
variable {s : Shape} {d : Fin 1 → Nat} (f : Vec F s e) (idxs : Fin s.rank → IVec ⟨1, d⟩ 32) (v : Vec F ⟨1, d⟩ e)
  (h : ∀ a x, (idxs a x).toNat < s.size a) (j : s.Idx)

/-- A lane's multi-index has the lane as its one coordinate. -/
theorem ofLane_val (k : Fin (d 0)) : ((Shape.ofLane k : (⟨1, d⟩ : Shape).Idx) 0).val = k.val := rfl

/-- An unmasked, non-adding indexed store at an index exactly one lane (k0) names: that lane's element. -/
theorem storeIdx_hit (k0 : Fin (d 0)) (hk0 : ∀ a, (j a).val = (idxs a (Shape.ofLane k0)).toNat)
    (huniq : ∀ k : Fin (d 0), (∀ a, (j a).val = (idxs a (Shape.ofLane k)).toNat) → k = k0) :
    storeIdx f idxs v (fun _ => 1#1) false h j = v (Shape.ofLane k0) := by
  unfold storeIdx
  refine foldl_hit _ (fun k j => ∀ a, (j a).val = (idxs a (Shape.ofLane k)).toNat) (fun k => v (Shape.ofLane k)) ?_ ?_ j k0 hk0
    (List.finRange (d 0)) f (List.nodup_finRange _) (List.mem_finRange _) (fun k _ => huniq k)
  · intro g k j hh
    show (if (1#1 : BitVec 1) = 1 then _ else g) j = _
    rw [if_pos (show (1#1 : BitVec 1) = 1 from rfl)]
    exact if_pos hh
  · intro g k j hh
    show (if (1#1 : BitVec 1) = 1 then _ else g) j = _
    rw [if_pos (show (1#1 : BitVec 1) = 1 from rfl)]
    exact if_neg hh

/-- An unmasked, non-adding indexed store at an index no lane names: what was there. -/
theorem storeIdx_miss (hmiss : ∀ k : Fin (d 0), ¬∀ a, (j a).val = (idxs a (Shape.ofLane k)).toNat) :
    storeIdx f idxs v (fun _ => 1#1) false h j = f j := by
  unfold storeIdx
  refine foldl_miss _ (fun k j => ∀ a, (j a).val = (idxs a (Shape.ofLane k)).toNat) ?_ j (List.finRange (d 0)) f (fun k _ => hmiss k)
  intro g k j hh
  show (if (1#1 : BitVec 1) = 1 then _ else g) j = _
  rw [if_pos (show (1#1 : BitVec 1) = 1 from rfl)]
  exact if_neg hh

end Store

/-! ## Rows "lane + off" of one column -/

/-- (L1) THE INDEXED LOAD AT A LANE, rank-2 base [R, C], rows "lane + off", one column word l: lane x reads the base
    at row (x + off), column l. -/
theorem loadIdx_apply {R C : Nat} (f : Vec F ⟨2, ![R, C]⟩ e) (rv : IVec S16 32) (off : Nat)
    (hrv : ∀ x : S16.Idx, (rv x).toNat = (x 0).val + off) (hoff : off + 16 ≤ R) (l : BitVec 32) (hl : l.toNat < C)
    (h : ∀ a x, ((![rv, broadcast S16 l] : Fin 2 → IVec S16 32) a x).toNat < (⟨2, ![R, C]⟩ : Shape).size a) (x : S16.Idx) :
    loadIdx f ![rv, broadcast S16 l] h x
      = f (ix2 (⟨(x 0).val + off, by have hx : (x 0).val < 16 := (x 0).isLt; omega⟩ : Fin R) (⟨l.toNat, hl⟩ : Fin C)) := by
  unfold loadIdx
  refine congrArg f (funext fun a => ?_)
  match a with
  | ⟨0, _⟩ => exact Fin.ext (hrv x)
  | ⟨1, _⟩ => exact Fin.ext rfl

/-- (L2) THE INDEXED STORE AT AN INDEX, base [32, 512], rows "lane + off", one column word ce, unmasked and not adding:
    entry (r, k) is lane (r − off)'s element when k is the column and off ≤ r < off + 16, and what was there otherwise. -/
theorem storeIdx_apply (cols : Vec F S32x512 e) (rv : IVec S16 32) (off : Nat)
    (hrv : ∀ x : S16.Idx, (rv x).toNat = (x 0).val + off) (ce : BitVec 32) (v : Vec F S16 e)
    (h : ∀ a x, ((![rv, broadcast S16 ce] : Fin 2 → IVec S16 32) a x).toNat < S32x512.size a) (r : Fin 32) (k : Fin 512) :
    storeIdx cols ![rv, broadcast S16 ce] v (fun _ => 1#1) false h (ix2 r k)
      = if hc : k.val = ce.toNat ∧ off ≤ r.val ∧ r.val < off + 16 then v (ix1 (⟨r.val - off, by omega⟩ : Fin 16))
        else cols (ix2 r k) := by
  by_cases hc : k.val = ce.toNat ∧ off ≤ r.val ∧ r.val < off + 16
  · rw [dif_pos hc]
    have hlt : r.val - off < 16 := by omega
    refine (storeIdx_hit cols ![rv, broadcast S16 ce] v h (ix2 r k) ⟨r.val - off, hlt⟩ ?_ ?_).trans ?_
    · intro a
      match a with
      | ⟨0, _⟩ =>
        show r.val = (rv (Shape.ofLane _)).toNat
        rw [hrv]
        show r.val = (r.val - off) + off
        omega
      | ⟨1, _⟩ => exact hc.1
    · intro kk hkk
      have h0 : r.val = (rv (Shape.ofLane kk)).toNat := hkk ⟨0, Nat.zero_lt_two⟩
      rw [hrv] at h0
      have h0' : r.val = kk.val + off := h0
      exact Fin.ext (by show kk.val = r.val - off; omega)
    · exact congrArg v (funext fun a => match a with | ⟨0, _⟩ => rfl)
  · rw [dif_neg hc]
    refine storeIdx_miss cols ![rv, broadcast S16 ce] v h (ix2 r k) fun kk hkk => hc ?_
    have h0 : r.val = (rv (Shape.ofLane kk)).toNat := hkk ⟨0, Nat.zero_lt_two⟩
    rw [hrv] at h0
    have h0' : r.val = kk.val + off := h0
    have h1 : k.val = ce.toNat := hkk ⟨1, Nat.one_lt_two⟩
    have hk : kk.val < 16 := kk.isLt
    exact ⟨h1, by omega, by omega⟩

/-- (L3) THE TWO STORES OF ONE COLUMN TOGETHER: rows 0 … 15 from vA, then rows 16 … 31 from vB, both at column ce. -/
theorem storeIdx_pair (cols : Vec F S32x512 e) (rvA rvB : IVec S16 32)
    (hrvA : ∀ x : S16.Idx, (rvA x).toNat = (x 0).val) (hrvB : ∀ x : S16.Idx, (rvB x).toNat = (x 0).val + 16)
    (ce : BitVec 32) (vA vB : Vec F S16 e)
    (hA : ∀ a x, ((![rvA, broadcast S16 ce] : Fin 2 → IVec S16 32) a x).toNat < S32x512.size a)
    (hB : ∀ a x, ((![rvB, broadcast S16 ce] : Fin 2 → IVec S16 32) a x).toNat < S32x512.size a) (r : Fin 32) (k : Fin 512) :
    storeIdx (storeIdx cols ![rvA, broadcast S16 ce] vA (fun _ => 1#1) false hA) ![rvB, broadcast S16 ce] vB (fun _ => 1#1) false hB
        (ix2 r k)
      = if k.val = ce.toNat then
          (if h16 : r.val < 16 then vA (ix1 (⟨r.val, h16⟩ : Fin 16)) else vB (ix1 (⟨r.val - 16, by omega⟩ : Fin 16)))
        else cols (ix2 r k) := by
  have hr : r.val < 32 := r.isLt
  rw [storeIdx_apply _ rvB 16 hrvB, storeIdx_apply cols rvA 0 hrvA]
  by_cases hk : k.val = ce.toNat
  · rw [if_pos hk]
    by_cases h16 : r.val < 16
    · rw [dif_neg (by omega), dif_pos ⟨hk, by omega, by omega⟩, dif_pos h16]
      rfl
    · rw [dif_pos ⟨hk, by omega, by omega⟩, dif_neg h16]
  · rw [if_neg hk, dif_neg (fun hc => hk hc.1), dif_neg (fun hc => hk hc.1)]

/-- (L4) A SELECT ON A BROADCAST BIT, AT A LANE: the bit decides for every lane. -/
theorem select_broadcast_apply {s : Shape} {α : Type} (b : BitVec 1) (u v : s.Idx → α) (x : s.Idx) :
    select (broadcast s b) u v x = if b = 1#1 then u x else v x := rfl

end Cert.Proof.KB.Lanes

end
-- ==== Proof.KB.Value.lean ====
/-
  What the scratches hold, read at an index, and what one element's two indexed stores leave in the column scratch.
  For an index word c in the table's range the kernel reads row r of column c of the transposed table either from the
  128-column slab that starts at column slabW c (lane laneW c) or from the last 64 columns (column tailW c), the
  selector choosing the latter exactly when c ≥ 999936; either way the word read is entry (r, c) of the table. The two
  stores of an element put rows 0 … 15 and rows 16 … 31 of that column into column e of the column scratch.
-/
import proofs.«209800_g17188459118626_cont_7to1_163_19_alg».proof.Proof.KB.Mems
import proofs.«209800_g17188459118626_cont_7to1_163_19_alg».proof.Proof.KB.Lanes

noncomputable section

namespace Cert.Proof.KB.Value

open Idealize.ShloMosaic Idealize.ShloMosaic.ValueIdx Cert.Kernel Cert.Kernel.Gen Cert.Proof.KB

variable {F : FTy → Type} [FloatOps F]

/-! ## One element's column, lane by lane -/

section Block
variable {e : EltTy} (T : Vec F S32x1000000 e) (slab : Vec F S32x128 e) (tail : Vec F S32x64 e)
  (c : BitVec 32) (hc : c.toNat ≤ 999999)
  (hslab : ∀ (r : Fin 32) (l : Fin 128),
    slab (ix2 r l) = T (ix2 r (⟨(Words.slabW c).toNat + l.val, by have := Words.slabW_toNat c hc; have := l.isLt; omega⟩ : Fin 1000000)))
  (htail : ∀ (r : Fin 32) (l : Fin 64),
    tail (ix2 r l) = T (ix2 r (⟨999936 + l.val, by have := l.isLt; omega⟩ : Fin 1000000)))
include hc hslab htail

/-- The selected load at a lane: with rows "lane + off", lane x holds entry (x + off, c) of the table, whether it was
    read from the slab or from the last 64 columns. -/
theorem pick_apply (rv : IVec S16 32) (off : Nat) (hrv : ∀ x : S16.Idx, (rv x).toNat = (x 0).val + off) (hoff : off + 16 ≤ 32)
    (h1 : ∀ a x, ((![rv, broadcast S16 (Words.laneW c)] : Fin 2 → IVec S16 32) a x).toNat < S32x128.size a)
    (h2 : ∀ a x, ((![rv, broadcast S16 (Words.tailW c)] : Fin 2 → IVec S16 32) a x).toNat < S32x64.size a) (x : S16.Idx) :
    select (broadcast S16 (Words.useTailW c)) (loadIdx tail ![rv, broadcast S16 (Words.tailW c)] h2)
        (loadIdx slab ![rv, broadcast S16 (Words.laneW c)] h1) x
      = T (ix2 (⟨(x 0).val + off, by have hx : (x 0).val < 16 := (x 0).isLt; omega⟩ : Fin 32) (⟨c.toNat, by omega⟩ : Fin 1000000)) := by
  rw [Lanes.select_broadcast_apply]
  have hcol := Words.column_eq c hc
  by_cases hu : Words.useTailW c = 1#1
  · rw [if_pos hu, Lanes.loadIdx_apply tail rv off hrv hoff (Words.tailW c) (Words.tailW_lt c hc) h2 x, htail]
    rw [if_pos ((Words.useTailW_eq c hc).1 hu)] at hcol
    refine congrArg T (funext fun a => ?_)
    match a with
    | ⟨0, _⟩ => rfl
    | ⟨1, _⟩ => exact Fin.ext hcol
  · rw [if_neg hu, Lanes.loadIdx_apply slab rv off hrv hoff (Words.laneW c) (Words.laneW_lt c hc) h1 x, hslab]
    rw [if_neg (fun hge => hu ((Words.useTailW_eq c hc).2 hge))] at hcol
    refine congrArg T (funext fun a => ?_)
    match a with
    | ⟨0, _⟩ => rfl
    | ⟨1, _⟩ => exact Fin.ext hcol

/-- (V1) ONE ELEMENT'S TWO STORES: after them column e of the column scratch is column c of the table, and every other
    column is what it was. -/
theorem block_value (cols : Vec F S32x512 e) (ce : BitVec 32)
    (h1 : ∀ a x, ((![Words.iotaV, broadcast S16 (Words.laneW c)] : Fin 2 → IVec S16 32) a x).toNat < S32x128.size a)
    (h2 : ∀ a x, ((![Words.iotaV, broadcast S16 (Words.tailW c)] : Fin 2 → IVec S16 32) a x).toNat < S32x64.size a)
    (h3 : ∀ a x, ((![Words.iota16V, broadcast S16 (Words.laneW c)] : Fin 2 → IVec S16 32) a x).toNat < S32x128.size a)
    (h4 : ∀ a x, ((![Words.iota16V, broadcast S16 (Words.tailW c)] : Fin 2 → IVec S16 32) a x).toNat < S32x64.size a)
    (h5 : ∀ a x, ((![Words.iotaV, broadcast S16 ce] : Fin 2 → IVec S16 32) a x).toNat < S32x512.size a)
    (h6 : ∀ a x, ((![Words.iota16V, broadcast S16 ce] : Fin 2 → IVec S16 32) a x).toNat < S32x512.size a)
    (r : Fin 32) (k : Fin 512) :
    storeIdx
        (storeIdx cols ![Words.iotaV, broadcast S16 ce]
          (select (broadcast S16 (Words.useTailW c)) (loadIdx tail ![Words.iotaV, broadcast S16 (Words.tailW c)] h2)
            (loadIdx slab ![Words.iotaV, broadcast S16 (Words.laneW c)] h1)) (fun _ => 1#1) false h5)
        ![Words.iota16V, broadcast S16 ce]
        (select (broadcast S16 (Words.useTailW c)) (loadIdx tail ![Words.iota16V, broadcast S16 (Words.tailW c)] h4)
          (loadIdx slab ![Words.iota16V, broadcast S16 (Words.laneW c)] h3)) (fun _ => 1#1) false h6 (ix2 r k)
      = if k.val = ce.toNat then T (ix2 r (⟨c.toNat, by omega⟩ : Fin 1000000)) else cols (ix2 r k) := by
  have hr : r.val < 32 := r.isLt
  rw [Lanes.storeIdx_pair cols Words.iotaV Words.iota16V Words.iotaV_toNat Words.iota16V_toNat ce _ _ h5 h6 r k]
  by_cases hk : k.val = ce.toNat
  · rw [if_pos hk, if_pos hk]
    by_cases h16 : r.val < 16
    · rw [dif_pos h16, pick_apply T slab tail c hc hslab htail Words.iotaV 0 Words.iotaV_toNat (by omega) h1 h2]
      exact congrArg T (funext fun a => match a with | ⟨0, _⟩ => rfl | ⟨1, _⟩ => rfl)
    · rw [dif_neg h16, pick_apply T slab tail c hc hslab htail Words.iota16V 16 Words.iota16V_toNat (by omega) h3 h4]
      refine congrArg T (funext fun a => ?_)
      match a with
      | ⟨0, _⟩ => exact Fin.ext (by show r.val - 16 + 16 = r.val; omega)
      | ⟨1, _⟩ => rfl
  · rw [if_neg hk, if_neg hk]

/-- THE COLUMN SCRATCH'S INVARIANT ADVANCED BY ONE ELEMENT: if columns below n of the column scratch agree with R, and the
    element stored at column n (= ce) is column c of the table, which R names at column n, then after the element's two
    stores columns below n + 1 agree with R. -/
theorem upd_step (cols : Vec F S32x512 e) (ce : BitVec 32)
    (h1 : ∀ a x, ((![Words.iotaV, broadcast S16 (Words.laneW c)] : Fin 2 → IVec S16 32) a x).toNat < S32x128.size a)
    (h2 : ∀ a x, ((![Words.iotaV, broadcast S16 (Words.tailW c)] : Fin 2 → IVec S16 32) a x).toNat < S32x64.size a)
    (h3 : ∀ a x, ((![Words.iota16V, broadcast S16 (Words.laneW c)] : Fin 2 → IVec S16 32) a x).toNat < S32x128.size a)
    (h4 : ∀ a x, ((![Words.iota16V, broadcast S16 (Words.tailW c)] : Fin 2 → IVec S16 32) a x).toNat < S32x64.size a)
    (h5 : ∀ a x, ((![Words.iotaV, broadcast S16 ce] : Fin 2 → IVec S16 32) a x).toNat < S32x512.size a)
    (h6 : ∀ a x, ((![Words.iota16V, broadcast S16 ce] : Fin 2 → IVec S16 32) a x).toNat < S32x512.size a)
    (n : ℕ) (R : Fin 32 → Fin 512 → Elt F e) (hce : ce.toNat = n)
    (hR : ∀ (r : Fin 32) (k : Fin 512), k.val = n → T (ix2 r (⟨c.toNat, by omega⟩ : Fin 1000000)) = R r k)
    (hcols : ∀ (r : Fin 32) (k : Fin 512), k.val < n → cols (ix2 r k) = R r k) :
    ∀ (r : Fin 32) (k : Fin 512), k.val < n + 1 →
      storeIdx
          (storeIdx cols ![Words.iotaV, broadcast S16 ce]
            (select (broadcast S16 (Words.useTailW c)) (loadIdx tail ![Words.iotaV, broadcast S16 (Words.tailW c)] h2)
              (loadIdx slab ![Words.iotaV, broadcast S16 (Words.laneW c)] h1)) (fun _ => 1#1) false h5)
          ![Words.iota16V, broadcast S16 ce]
          (select (broadcast S16 (Words.useTailW c)) (loadIdx tail ![Words.iota16V, broadcast S16 (Words.tailW c)] h4)
            (loadIdx slab ![Words.iota16V, broadcast S16 (Words.laneW c)] h3)) (fun _ => 1#1) false h6 (ix2 r k)
        = R r k := by
  intro r k hk
  rw [block_value T slab tail c hc hslab htail cols ce h1 h2 h3 h4 h5 h6 r k]
  by_cases hkc : k.val = ce.toNat
  · rw [if_pos hkc]
    exact hR r k (hkc.trans hce)
  · rw [if_neg hkc]
    exact hcols r k (by omega)

end Block

/-! ## What the scratches hold -/

section Scratches
variable (m : (ℓ : Loc nD τ sig) → Buf (Elt F) ℓ) (d : Dev nD)

/-- (V2) A SLAB AFTER ITS TRANSFER LANDED, read whole: entry (r, l) is entry (r, o 1 + l) of the transposed table, for a
    transfer out of the 128 columns that start at column o 1 (row offset o 0 = 0). -/
theorem slab_read (b : ℕ) (hb : ∀ a, (![b, 0, 0] : Fin 3 → Nat) a + S1x32x128.size a ≤ S8x32x128.size a)
    (o : Fin 2 → Nat) (ho : ∀ a, o a + S32x128.size a ≤ S32x1000000.size a) (ho0 : o 0 = 0)
    (f : (slabM b hb).view.ty.Contents (Elt F)) (r : Fin 32) (l : Fin 128) :
    ((slabM b hb).access (.whole S32x128)).read (Elt F)
        ((slabM b hb).view.writes (Elt F) f
          [⟨Rect.whole S32x128, ReadAs.same.apply ((srcM o ho).view.read (Elt F) (tabT m d))⟩]) (ix2 r l)
      = tabT m d (ix2 r (⟨o 1 + l.val, by have h1 : o 1 + 128 ≤ 1000000 := ho 1; have := l.isLt; omega⟩ : Fin 1000000)) := by
  refine ((View.read_writes_cons_emb (slabM b hb).view f (Rect.whole S32x128)
    (ReadAs.same.apply ((srcM o ho).view.read (Elt F) (tabT m d))) [] (ix2 r l)).trans ?_)
  refine ((View.read_apply (v := (srcM o ho).view) (tabT m d) (ix2 r l)).trans (cast_eq _ _)).trans ?_
  refine congrArg (tabT m d) (funext fun a => ?_)
  match a with
  | ⟨0, _⟩ => exact Fin.ext (by show o 0 + 1 * r.val = r.val; rw [ho0]; omega)
  | ⟨1, _⟩ => exact Fin.ext (by show o 1 + 1 * l.val = o 1 + l.val; omega)

/-- (V3) THE TAIL SCRATCH AFTER ITS COPY, read whole: entry (r, l) is entry (r, 999936 + l) of the transposed table. -/
theorem tail_read (ft : (Memref.whole cc0_scratch2).view.ty.Contents (Elt F)) (r : Fin 32) (l : Fin 64) :
    ((Memref.whole cc0_scratch2).access (.whole S32x64)).read (Elt F)
        ((Memref.whole cc0_scratch2).view.write (Elt F) ft
          (ReadAs.same.apply ((Memref.whole main_v1_scv).view.read (Elt F) (tailT m d))) Finset.univ) (ix2 r l)
      = tabT m d (ix2 r (⟨999936 + l.val, by have := l.isLt; omega⟩ : Fin 1000000)) := by
  refine (congrFun (Memref.read_access_whole (Elt F) cc0_scratch2 _) (ix2 r l)).trans ?_
  refine (congrFun (View.write_whole_univ cc0_scratch2 ft _) (ix2 r l)).trans ?_
  show tailT m d (ix2 r l) = _
  unfold tailT extractStridedSlice
  refine congrArg (tabT m d) (funext fun a => ?_)
  match a with
  | ⟨0, _⟩ => exact Fin.ext (by show 0 + r.val = r.val; omega)
  | ⟨1, _⟩ => rfl

/-- (V4) THE INDEX SCRATCH AFTER ITS COPY: word k < 512 is index base L + k. -/
theorem idx_read (L : grid0.Coords) (fi : (Memref.whole cc0_scratch0).view.ty.Contents (Elt F)) (k : Nat) (hk : k < 512) :
    ((Memref.whole cc0_scratch0).view.writes (Elt F) fi
        [⟨Rect.unit (s := S528) ![0] S512.size inb_S528_S512_0,
          ReadAs.same.apply (((Memref.whole main_arg0_scv).slice (Rect.unit (s := S16384) (k0_off1 L) S512.size (k0_off1_inb L))
            (fun _ => rfl)).view.read (Elt F) (m (idxLoc d)))⟩]) (ix1 (⟨k, by omega⟩ : Fin 528))
      = m (idxLoc d) (ix1 (⟨base L + k, base_add_lt L ⟨k, hk⟩⟩ : Fin 16384)) := by
  have e := View.read_writes_cons_emb (Memref.whole cc0_scratch0).view fi (Rect.unit (s := S528) ![0] S512.size inb_S528_S512_0)
    (ReadAs.same.apply (((Memref.whole main_arg0_scv).slice (Rect.unit (s := S16384) (k0_off1 L) S512.size (k0_off1_inb L))
      (fun _ => rfl)).view.read (Elt F) (m (idxLoc d)))) [] (ix1 (⟨k, hk⟩ : Fin 512))
  have hemb : (Rect.unit (s := S528) ![0] S512.size inb_S528_S512_0).emb (ix1 (⟨k, hk⟩ : Fin 512)) = ix1 (⟨k, by omega⟩ : Fin 528) :=
    funext fun a => match a with | ⟨0, _⟩ => Fin.ext (by show 0 + 1 * k = k; omega)
  rw [hemb] at e
  refine e.trans ?_
  refine ((View.read_apply (v := ((Memref.whole main_arg0_scv).slice (Rect.unit (s := S16384) (k0_off1 L) S512.size (k0_off1_inb L))
      (fun _ => rfl)).view) (m (idxLoc d)) (ix1 (⟨k, hk⟩ : Fin 512))).trans (cast_eq _ _)).trans ?_
  refine congrArg (m (idxLoc d)) (funext fun a => ?_)
  match a with
  | ⟨0, _⟩ =>
    refine Fin.ext ?_
    show (k0_off1 L) 0 + 1 * k = base L + k
    rw [k0_off1_eq L]
    show 1024 * (L 1).val + 512 * (L 0).val + 1 * k = base L + k
    unfold base wid
    omega

/-- (V5) THE WORD A 16-LANE LOAD OF THE INDEX SCRATCH PUTS IN LANE 0: the scratch's word at the load's offset. -/
theorem lane0_read (gi : (Memref.whole cc0_scratch0).view.ty.Contents (Elt F)) (o : Fin 1 → Nat)
    (ho : ∀ a, o a + S16.size a ≤ S528.size a) :
    extractAt ![0] (extractStridedSlice (s := S16) S1 ![0]
        ((Memref.whole cc0_scratch0).view.readAt (Elt F) (Rect.unit (s := S528) o S16.size ho).toLoadRect gi)
        slices_S16_o0_S1) inpos_S1_p0
      = gi (ix1 (⟨o 0, by have h0 : o 0 + 16 ≤ 528 := ho 0; omega⟩ : Fin 528)) := by
  unfold extractAt extractStridedSlice
  refine (View.readAt_apply _ _ _).trans ?_
  refine ((View.read_apply (v := (Memref.whole cc0_scratch0).view) gi _).trans (cast_eq _ _)).trans ?_
  refine congrArg gi (funext fun a => ?_)
  match a with
  | ⟨0, _⟩ => exact Fin.ext (by show o 0 + 1 * (0 + 0) = o 0; omega)

end Scratches

/-- The tail scratch read through its whole-rectangle access is its contents: what the contents hold, the access reads. -/
theorem tail_of_holds (gt : Vec F S32x64 .f32) (T : Vec F S32x1000000 .f32)
    (h : ∀ (r : Fin 32) (l : Fin 64), gt (ix2 r l) = T (ix2 r (⟨999936 + l.val, by have := l.isLt; omega⟩ : Fin 1000000))) :
    ∀ (r : Fin 32) (l : Fin 64),
      ((Memref.whole cc0_scratch2 : Memref sig .scVector .vmem S32x64 .f32).access (.whole S32x64)).read (Elt F) gt (ix2 r l)
        = T (ix2 r (⟨999936 + l.val, by have := l.isLt; omega⟩ : Fin 1000000)) :=
  fun r l => (congrFun (Memref.read_access_whole (Elt F) cc0_scratch2 gt) (ix2 r l)).trans (h r l)

/-- THE SUBCORE'S 512 COLUMNS OF THE RESULT AFTER ITS WRITE-OUT: column base L + k of the result array is column k of
    the column scratch. -/
theorem out_read (L : grid0.Coords) (f0 : (outBlk L).view.ty.Contents (Elt F))
    (gc : (Memref.whole cc0_scratch3 : Memref sig .scVector .vmem S32x512 .f32).view.ty.Contents (Elt F)) (r : Fin 32) (k : Fin 512) :
    ((outBlk L).view.writes (Elt F) f0
        [⟨Rect.whole S32x512,
          ReadAs.same.apply ((Memref.whole cc0_scratch3 : Memref sig .scVector .vmem S32x512 .f32).view.read (Elt F) gc)⟩])
        (ix2 r (⟨base L + k.val, base_add_lt L k⟩ : Fin 16384))
      = gc (ix2 r k) := by
  have e := View.read_writes_cons_emb (outBlk L).view f0 (Rect.whole S32x512)
    (ReadAs.same.apply ((Memref.whole cc0_scratch3 : Memref sig .scVector .vmem S32x512 .f32).view.read (Elt F) gc)) [] (ix2 r k)
  rw [View.read_apply] at e
  have hidx : (outBlk L).view.emb ((Rect.whole S32x512).emb (ix2 r k)) = ix2 r (⟨base L + k.val, base_add_lt L k⟩ : Fin 16384) :=
    funext fun a => match a with
      | ⟨0, _⟩ => Fin.ext (by
          show (k0_off34 L) 0 + 1 * (0 + 1 * r.val) = r.val
          rw [k0_off34_eq L]
          show 0 + 1 * (0 + 1 * r.val) = r.val
          omega)
      | ⟨1, _⟩ => Fin.ext (by
          show (k0_off34 L) 1 + 1 * (0 + 1 * k.val) = base L + k.val
          rw [k0_off34_eq L]
          show 1024 * (L 1).val + 512 * (L 0).val + 1 * (0 + 1 * k.val) = base L + k.val
          unfold base wid
          omega)
  rw [hidx] at e
  exact ((cast_eq _ _).symm.trans e).trans rfl

end Cert.Proof.KB.Value

end
-- ==== Proof.KB.Steps.lean ====
/-
  The indexed load and the indexed store of a vector subcore, as steps from hypotheses in the spelling the
  rest of the run keeps them in: a memref held by its own elements, or a whole scratch buffer.
-/
import proofs.«209800_g17188459118626_cont_7to1_163_19_alg».proof.Proof.KB.Mems

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable {Λ : Labels} {defs : Defs nD τ sig (Elt F) Λ} (𝒱 : Variants) (c : Thread nD τ) (bd : Option 𝒱.V) (E : Set ℕ)
variable {αp : Type} {s t : Shape} {e : EltTy}

set_option maxHeartbeats 1000000 in
omit [FloatOps F] in
/-- The whole-rectangle access of a memref goes through the memref's own elements. -/
theorem set_access_whole' {κ : Kind} {sp : Space} (mm : Memref sig κ sp s e) : (mm.access (Rect.whole s)).set = mm.view.set := by
  show (mm.view.slice (Rect.whole s)).set = mm.view.set
  rw [View.set_slice, Rect.set_whole]; rfl

/-- The indexed load through a memref held by its own elements. -/
theorem wp_loadIdx_own {base : Memref sig c.2.kind .vmem s e} {idxs : Fin s.rank → IVec t 32}
    {h : ∀ a x, (idxs a x).toNat < s.size a} {hl : base.view.Loads} {k : Vec F t e → Prog (TpuEff nD τ sig (Elt F) Λ c.2) αp}
    {q : PosShare TreeShare} {f : Buf (Elt F) (base.view.loc c)} {Qp : αp → sProp (MT nD τ sig (HIx 1) (Elt F) ℕ UU ℕ)} :
    (base.view.loc c ↦[base.view.set]{q} f : sProp 𝕄)
      ⊢ iprop(((base.view.loc c ↦[base.view.set]{q} f)
          -∗ wp frame (wpE defs 𝒱 c bd) E (k (loadIdx ((base.access (.whole s)).read (Elt F) f) idxs h)) Qp)
        -∗ wp frame (wpE defs 𝒱 c bd) E (SparseCore.vectorLoadIdx base idxs h hl >>= k) Qp) := by
  exact SparseCore.wp_vectorLoadIdx (defs := defs) 𝒱 c bd E (base := base) (idxs := idxs) (h := h) (hl := hl) (q := q) (f := f)
    (S := base.view.set) (set_access_whole' base).le

/-- The indexed load through a buffer held whole. -/
theorem wp_loadIdx_univ {base : Memref sig c.2.kind .vmem s e} {idxs : Fin s.rank → IVec t 32}
    {h : ∀ a x, (idxs a x).toNat < s.size a} {hl : base.view.Loads} {k : Vec F t e → Prog (TpuEff nD τ sig (Elt F) Λ c.2) αp}
    {q : PosShare TreeShare} {f : Buf (Elt F) (base.view.loc c)} {Qp : αp → sProp (MT nD τ sig (HIx 1) (Elt F) ℕ UU ℕ)} :
    (base.view.loc c ↦{q} f : sProp 𝕄)
      ⊢ iprop(((base.view.loc c ↦{q} f)
          -∗ wp frame (wpE defs 𝒱 c bd) E (k (loadIdx ((base.access (.whole s)).read (Elt F) f) idxs h)) Qp)
        -∗ wp frame (wpE defs 𝒱 c bd) E (SparseCore.vectorLoadIdx base idxs h hl >>= k) Qp) := by
  exact SparseCore.wp_vectorLoadIdx (defs := defs) 𝒱 c bd E (base := base) (idxs := idxs) (h := h) (hl := hl) (q := q) (f := f)
    (S := Finset.univ) (Finset.subset_univ _)

/-- The column scratch, whole. -/
abbrev sColsW : Memref sig .scVector .vmem S32x512 .f32 := Memref.whole cc0_scratch3

/-- The indexed store into the column scratch held whole: it ends holding the scatter of what it held. -/
theorem wp_storeCols (d : Dev nD) (L : grid0.Coords) (bd : Option 𝒱.V) {idxs : Fin S32x512.rank → IVec S16 32} {v : Vec F S16 .f32}
    {mask : IVec S16 1} {add : Bool} {h : ∀ a x, (idxs a x).toNat < S32x512.size a} {hs : (sColsW.access (.whole S32x512)).Stores Finset.univ}
    {k : PUnit → Prog (TpuEff nD τ sig (Elt F) Λ (VT d L).2) αp} {f : Buf (Elt F) (sColsW.view.loc (VT d L))}
    {Qp : αp → sProp (MT nD τ sig (HIx 1) (Elt F) ℕ UU ℕ)} :
    (sColsW.view.loc (VT d L) ↦{fullShare} f : sProp 𝕄)
      ⊢ iprop(((sColsW.view.loc (VT d L) ↦{fullShare} (storeIdx f idxs v mask add h : Vec F S32x512 .f32))
          -∗ wp frame (wpE defs 𝒱 (VT d L) bd) E (k ⟨⟩) Qp)
        -∗ wp frame (wpE defs 𝒱 (VT d L) bd) E (SparseCore.vectorStoreIdx sColsW idxs v mask add h hs >>= k) Qp) := by
  have key := SparseCore.wp_vectorStoreIdx (defs := defs) 𝒱 (VT d L) bd E (base := sColsW) (idxs := idxs) (v := v) (mask := mask) (add := add)
    (h := h) (hs := hs) (k := k) (f := f) (Q := Qp)
  have e1 : (sColsW.access (Rect.whole S32x512)).set = Finset.univ := Memref.set_access_whole cc0_scratch3
  have e2 : ∀ g : Vec F S32x512 .f32, (sColsW.access (Rect.whole S32x512)).read (Elt F) g = g := Memref.read_access_whole (Elt F) cc0_scratch3
  have e3 : ∀ g w : Vec F S32x512 .f32, (sColsW.access (Rect.whole S32x512)).write (Elt F) g w Finset.univ = w :=
    Memref.write_access_whole_univ (Elt F) cc0_scratch3
  rw [e1, e2, e3] at key
  exact key

end Cert.Proof.KB

end
-- ==== Proof.KB.Chk.lean ====
/-
  The side conditions one trip of the loop owes, each from the fact that the index word it was computed from names
  a row of the table: the slab's start is a multiple of 128 inside the table, the lane is below 128, the tail column
  below 64, the column written below 512; and each "fetch ahead" condition holds exactly on the trips before the last.
-/
import proofs.«209800_g17188459118626_cont_7to1_163_19_alg».proof.Proof.KB.Inv
import proofs.«209800_g17188459118626_cont_7to1_163_19_alg».proof.Proof.KB.Value

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

local notation "𝕄" => MT nD τ sig (HIx 1) (Elt F) ℕ UU ℕ

-- the trip's side conditions, one lemma per check
variable (m : (ℓ : Loc nD τ sig) → Buf (Elt F) ℓ) (d : Dev nD) (L : grid0.Coords)

/-- The loop makes 64 trips. -/
theorem trips_eq : k0_t1_loop.trips = 64 := by decide +kernel

/-- Element 8 k + b of the trip, as the program computes its word. -/
theorem elt_toNat (b : Fin 8) : ∀ k : Fin k0_t1_loop.trips,
    (Scalar.addi (Scalar.muli (Scf.iv 0#32 1#32 k) 8#32) (BitVec.ofNat 32 b.val)).toNat = 8 * k.val + b.val := by
  revert b; decide +kernel

/-- The word a 16-lane load of the index scratch at an offset below 512 puts in lane 0 names a row of the table. -/
theorem lane_le (hr : Cert.Lookup.InRange (m (idxLoc d))) (gi : Buf (Elt F) ((sIdxW).view.loc (VT d L))) (hgi : IdxHolds m d L gi)
    (o : Fin 1 → Nat) (ho : ∀ a, o a + S16.size a ≤ S528.size a) (h512 : o 0 < 512) :
    (extractAt ![0] (extractStridedSlice (s := S16) S1 ![0] ((sIdxW).view.readAt (Elt F) (Rect.unit (s := S528) o S16.size ho).toLoadRect gi) slices_S16_o0_S1) inpos_S1_p0).toNat ≤ 999999 := by
  rw [Value.lane0_read]
  have := hgi ⟨o 0, h512⟩
  rw [this]
  exact hr ⟨base L + o 0, base_add_lt L ⟨o 0, h512⟩⟩

theorem chk9_of (c : BitVec 32) (hc : c.toNat ≤ 999999) : k0_chk9 Words.iotaV Words.iota16V (broadcast S16 (Words.laneW c)) := Words.chkSlab c hc
theorem chk10_of (c : BitVec 32) (hc : c.toNat ≤ 999999) : k0_chk10 Words.iotaV Words.iota16V (broadcast S16 (Words.tailW c)) := Words.chkTail c hc
theorem chk11_of (e : BitVec 32) (he : e.toNat < 512) : k0_chk11 Words.iotaV Words.iota16V (broadcast S16 e) := Words.chkCol e he
theorem chk12_of (k : Fin k0_t1_loop.trips) (c : BitVec 32) (hc : c.toNat ≤ 999999) : k0_chk12 k c := Words.fire_ok_cond _ c hc
theorem cond1_iff : ∀ k : Fin k0_t1_loop.trips, k0_cond1 k = 1#1 ↔ k.val < 63 := by decide +kernel
theorem off10_lt (k : Fin k0_t1_loop.trips) : (k0_off10 k) 0 < 512 := by
  have h : k.val < 64 := lt_of_lt_of_eq k.isLt trips_eq; rw [k0_off10_eq]; show 8 * k.val + 0 < 512; omega
theorem off11_lt (k : Fin k0_t1_loop.trips) (hk : k.val < 63) : (k0_off11 k) 0 < 512 := by
  rw [k0_off11_eq]; show 8 * k.val + 8 < 512; omega

theorem chk13_of (c : BitVec 32) (hc : c.toNat ≤ 999999) : k0_chk13 Words.iotaV Words.iota16V (broadcast S16 (Words.laneW c)) := Words.chkSlab c hc
theorem chk14_of (c : BitVec 32) (hc : c.toNat ≤ 999999) : k0_chk14 Words.iotaV Words.iota16V (broadcast S16 (Words.tailW c)) := Words.chkTail c hc
theorem chk15_of (e : BitVec 32) (he : e.toNat < 512) : k0_chk15 Words.iotaV Words.iota16V (broadcast S16 e) := Words.chkCol e he
theorem chk16_of (k : Fin k0_t1_loop.trips) (c : BitVec 32) (hc : c.toNat ≤ 999999) : k0_chk16 k c := Words.fire_ok_cond _ c hc
theorem cond2_iff : ∀ k : Fin k0_t1_loop.trips, k0_cond2 k = 1#1 ↔ k.val < 63 := by decide +kernel
theorem off13_lt (k : Fin k0_t1_loop.trips) : (k0_off13 k) 0 < 512 := by
  have h : k.val < 64 := lt_of_lt_of_eq k.isLt trips_eq; rw [k0_off13_eq]; show 8 * k.val + 1 < 512; omega
theorem off14_lt (k : Fin k0_t1_loop.trips) (hk : k.val < 63) : (k0_off14 k) 0 < 512 := by
  rw [k0_off14_eq]; show 8 * k.val + 9 < 512; omega

theorem chk17_of (c : BitVec 32) (hc : c.toNat ≤ 999999) : k0_chk17 Words.iotaV Words.iota16V (broadcast S16 (Words.laneW c)) := Words.chkSlab c hc
theorem chk18_of (c : BitVec 32) (hc : c.toNat ≤ 999999) : k0_chk18 Words.iotaV Words.iota16V (broadcast S16 (Words.tailW c)) := Words.chkTail c hc
theorem chk19_of (e : BitVec 32) (he : e.toNat < 512) : k0_chk19 Words.iotaV Words.iota16V (broadcast S16 e) := Words.chkCol e he
theorem chk20_of (k : Fin k0_t1_loop.trips) (c : BitVec 32) (hc : c.toNat ≤ 999999) : k0_chk20 k c := Words.fire_ok_cond _ c hc
theorem cond3_iff : ∀ k : Fin k0_t1_loop.trips, k0_cond3 k = 1#1 ↔ k.val < 63 := by decide +kernel
theorem off16_lt (k : Fin k0_t1_loop.trips) : (k0_off16 k) 0 < 512 := by
  have h : k.val < 64 := lt_of_lt_of_eq k.isLt trips_eq; rw [k0_off16_eq]; show 8 * k.val + 2 < 512; omega
theorem off17_lt (k : Fin k0_t1_loop.trips) (hk : k.val < 63) : (k0_off17 k) 0 < 512 := by
  rw [k0_off17_eq]; show 8 * k.val + 10 < 512; omega

theorem chk21_of (c : BitVec 32) (hc : c.toNat ≤ 999999) : k0_chk21 Words.iotaV Words.iota16V (broadcast S16 (Words.laneW c)) := Words.chkSlab c hc
theorem chk22_of (c : BitVec 32) (hc : c.toNat ≤ 999999) : k0_chk22 Words.iotaV Words.iota16V (broadcast S16 (Words.tailW c)) := Words.chkTail c hc
theorem chk23_of (e : BitVec 32) (he : e.toNat < 512) : k0_chk23 Words.iotaV Words.iota16V (broadcast S16 e) := Words.chkCol e he
theorem chk24_of (k : Fin k0_t1_loop.trips) (c : BitVec 32) (hc : c.toNat ≤ 999999) : k0_chk24 k c := Words.fire_ok_cond _ c hc
theorem cond4_iff : ∀ k : Fin k0_t1_loop.trips, k0_cond4 k = 1#1 ↔ k.val < 63 := by decide +kernel
theorem off19_lt (k : Fin k0_t1_loop.trips) : (k0_off19 k) 0 < 512 := by
  have h : k.val < 64 := lt_of_lt_of_eq k.isLt trips_eq; rw [k0_off19_eq]; show 8 * k.val + 3 < 512; omega
theorem off20_lt (k : Fin k0_t1_loop.trips) (hk : k.val < 63) : (k0_off20 k) 0 < 512 := by
  rw [k0_off20_eq]; show 8 * k.val + 11 < 512; omega

theorem chk25_of (c : BitVec 32) (hc : c.toNat ≤ 999999) : k0_chk25 Words.iotaV Words.iota16V (broadcast S16 (Words.laneW c)) := Words.chkSlab c hc
theorem chk26_of (c : BitVec 32) (hc : c.toNat ≤ 999999) : k0_chk26 Words.iotaV Words.iota16V (broadcast S16 (Words.tailW c)) := Words.chkTail c hc
theorem chk27_of (e : BitVec 32) (he : e.toNat < 512) : k0_chk27 Words.iotaV Words.iota16V (broadcast S16 e) := Words.chkCol e he
theorem chk28_of (k : Fin k0_t1_loop.trips) (c : BitVec 32) (hc : c.toNat ≤ 999999) : k0_chk28 k c := Words.fire_ok_cond _ c hc
theorem cond5_iff : ∀ k : Fin k0_t1_loop.trips, k0_cond5 k = 1#1 ↔ k.val < 63 := by decide +kernel
theorem off22_lt (k : Fin k0_t1_loop.trips) : (k0_off22 k) 0 < 512 := by
  have h : k.val < 64 := lt_of_lt_of_eq k.isLt trips_eq; rw [k0_off22_eq]; show 8 * k.val + 4 < 512; omega
theorem off23_lt (k : Fin k0_t1_loop.trips) (hk : k.val < 63) : (k0_off23 k) 0 < 512 := by
  rw [k0_off23_eq]; show 8 * k.val + 12 < 512; omega

theorem chk29_of (c : BitVec 32) (hc : c.toNat ≤ 999999) : k0_chk29 Words.iotaV Words.iota16V (broadcast S16 (Words.laneW c)) := Words.chkSlab c hc
theorem chk30_of (c : BitVec 32) (hc : c.toNat ≤ 999999) : k0_chk30 Words.iotaV Words.iota16V (broadcast S16 (Words.tailW c)) := Words.chkTail c hc
theorem chk31_of (e : BitVec 32) (he : e.toNat < 512) : k0_chk31 Words.iotaV Words.iota16V (broadcast S16 e) := Words.chkCol e he
theorem chk32_of (k : Fin k0_t1_loop.trips) (c : BitVec 32) (hc : c.toNat ≤ 999999) : k0_chk32 k c := Words.fire_ok_cond _ c hc
theorem cond6_iff : ∀ k : Fin k0_t1_loop.trips, k0_cond6 k = 1#1 ↔ k.val < 63 := by decide +kernel
theorem off25_lt (k : Fin k0_t1_loop.trips) : (k0_off25 k) 0 < 512 := by
  have h : k.val < 64 := lt_of_lt_of_eq k.isLt trips_eq; rw [k0_off25_eq]; show 8 * k.val + 5 < 512; omega
theorem off26_lt (k : Fin k0_t1_loop.trips) (hk : k.val < 63) : (k0_off26 k) 0 < 512 := by
  rw [k0_off26_eq]; show 8 * k.val + 13 < 512; omega

theorem chk33_of (c : BitVec 32) (hc : c.toNat ≤ 999999) : k0_chk33 Words.iotaV Words.iota16V (broadcast S16 (Words.laneW c)) := Words.chkSlab c hc
theorem chk34_of (c : BitVec 32) (hc : c.toNat ≤ 999999) : k0_chk34 Words.iotaV Words.iota16V (broadcast S16 (Words.tailW c)) := Words.chkTail c hc
theorem chk35_of (e : BitVec 32) (he : e.toNat < 512) : k0_chk35 Words.iotaV Words.iota16V (broadcast S16 e) := Words.chkCol e he
theorem chk36_of (k : Fin k0_t1_loop.trips) (c : BitVec 32) (hc : c.toNat ≤ 999999) : k0_chk36 k c := Words.fire_ok_cond _ c hc
theorem cond7_iff : ∀ k : Fin k0_t1_loop.trips, k0_cond7 k = 1#1 ↔ k.val < 63 := by decide +kernel
theorem off28_lt (k : Fin k0_t1_loop.trips) : (k0_off28 k) 0 < 512 := by
  have h : k.val < 64 := lt_of_lt_of_eq k.isLt trips_eq; rw [k0_off28_eq]; show 8 * k.val + 6 < 512; omega
theorem off29_lt (k : Fin k0_t1_loop.trips) (hk : k.val < 63) : (k0_off29 k) 0 < 512 := by
  rw [k0_off29_eq]; show 8 * k.val + 14 < 512; omega

theorem chk37_of (c : BitVec 32) (hc : c.toNat ≤ 999999) : k0_chk37 Words.iotaV Words.iota16V (broadcast S16 (Words.laneW c)) := Words.chkSlab c hc
theorem chk38_of (c : BitVec 32) (hc : c.toNat ≤ 999999) : k0_chk38 Words.iotaV Words.iota16V (broadcast S16 (Words.tailW c)) := Words.chkTail c hc
theorem chk39_of (e : BitVec 32) (he : e.toNat < 512) : k0_chk39 Words.iotaV Words.iota16V (broadcast S16 e) := Words.chkCol e he
theorem chk40_of (k : Fin k0_t1_loop.trips) (c : BitVec 32) (hc : c.toNat ≤ 999999) : k0_chk40 k c := Words.fire_ok_cond _ c hc
theorem cond8_iff : ∀ k : Fin k0_t1_loop.trips, k0_cond8 k = 1#1 ↔ k.val < 63 := by decide +kernel
theorem off31_lt (k : Fin k0_t1_loop.trips) : (k0_off31 k) 0 < 512 := by
  have h : k.val < 64 := lt_of_lt_of_eq k.isLt trips_eq; rw [k0_off31_eq]; show 8 * k.val + 7 < 512; omega
theorem off32_lt (k : Fin k0_t1_loop.trips) (hk : k.val < 63) : (k0_off32 k) 0 < 512 := by
  rw [k0_off32_eq]; show 8 * k.val + 15 < 512; omega

theorem elt0 : ∀ k : Fin k0_t1_loop.trips, (Scalar.addi (Scalar.muli (Scf.iv 0#32 1#32 k) 8#32) 0#32).toNat = 8 * k.val + 0 := by decide +kernel
theorem elt1 : ∀ k : Fin k0_t1_loop.trips, (Scalar.addi (Scalar.muli (Scf.iv 0#32 1#32 k) 8#32) 1#32).toNat = 8 * k.val + 1 := by decide +kernel
theorem elt2 : ∀ k : Fin k0_t1_loop.trips, (Scalar.addi (Scalar.muli (Scf.iv 0#32 1#32 k) 8#32) 2#32).toNat = 8 * k.val + 2 := by decide +kernel
theorem elt3 : ∀ k : Fin k0_t1_loop.trips, (Scalar.addi (Scalar.muli (Scf.iv 0#32 1#32 k) 8#32) 3#32).toNat = 8 * k.val + 3 := by decide +kernel
theorem elt4 : ∀ k : Fin k0_t1_loop.trips, (Scalar.addi (Scalar.muli (Scf.iv 0#32 1#32 k) 8#32) 4#32).toNat = 8 * k.val + 4 := by decide +kernel
theorem elt5 : ∀ k : Fin k0_t1_loop.trips, (Scalar.addi (Scalar.muli (Scf.iv 0#32 1#32 k) 8#32) 5#32).toNat = 8 * k.val + 5 := by decide +kernel
theorem elt6 : ∀ k : Fin k0_t1_loop.trips, (Scalar.addi (Scalar.muli (Scf.iv 0#32 1#32 k) 8#32) 6#32).toNat = 8 * k.val + 6 := by decide +kernel
theorem elt7 : ∀ k : Fin k0_t1_loop.trips, (Scalar.addi (Scalar.muli (Scf.iv 0#32 1#32 k) 8#32) 7#32).toNat = 8 * k.val + 7 := by decide +kernel

end Cert.Proof.KB

end
-- ==== Proof.KB.Cw.lean ====
/-
  The index word a trip of the loop works on. A 16-lane load of the index scratch at offset o puts the scratch's
  word o in lane 0; while the scratch holds the subcore's 512 indices, word e < 512 is index base + e of the batch,
  so (every index naming a row of the table) it is at most 999999, its value is the row the lookup takes for
  element base + e, and column (that value) of the transposed table is the column the result owes there.
-/
import proofs.«209800_g17188459118626_cont_7to1_163_19_alg».proof.Proof.KB.Inv
import proofs.«209800_g17188459118626_cont_7to1_163_19_alg».proof.Proof.KB.Value

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
variable (m : (ℓ : Loc nD τ sig) → Buf (Elt F) ℓ) (d : Dev nD) (L : grid0.Coords)

/-- Lane 0 of a 16-lane load of the index scratch at offset o is word o of the scratch. -/
theorem lw_eq_cw (gi : Buf (Elt F) ((sIdxW).view.loc (VT d L))) (o : Fin 1 → Nat)
    (ho : ∀ a, o a + S16.size a ≤ S528.size a) :
    extractAt ![0] (extractStridedSlice (s := S16) S1 ![0]
        ((sIdxW).view.readAt (Elt F) (Rect.unit (s := S528) o S16.size ho).toLoadRect gi)
        slices_S16_o0_S1) inpos_S1_p0
      = cw d L gi (o 0) := by
  have h0 : o 0 + 16 ≤ 528 := ho 0
  refine (Value.lane0_read gi o ho).trans ?_
  unfold cw
  rw [dif_pos (show o 0 < 528 by omega)]

/-- Word e < 512 of the index scratch is index base + e of the batch. -/
theorem cw_eq (gi : Buf (Elt F) ((sIdxW).view.loc (VT d L))) (hgi : IdxHolds m d L gi) (e : ℕ) (he : e < 512) :
    cw d L gi e = m (idxLoc d) (ix1 ⟨base L + e, base_add_lt L ⟨e, he⟩⟩) := by
  unfold cw
  rw [dif_pos (show e < 528 by omega)]
  exact hgi ⟨e, he⟩

/-- It names a row of the table. -/
theorem cw_le (gi : Buf (Elt F) ((sIdxW).view.loc (VT d L))) (hr : Cert.Lookup.InRange (m (idxLoc d)))
    (hgi : IdxHolds m d L gi) (e : ℕ) (he : e < 512) : (cw d L gi e).toNat ≤ 999999 := by
  rw [cw_eq m d L gi hgi e he]
  exact hr ⟨base L + e, base_add_lt L ⟨e, he⟩⟩

/-- Its value is the row the lookup takes for element base + e. -/
theorem cw_row (gi : Buf (Elt F) ((sIdxW).view.loc (VT d L))) (hr : Cert.Lookup.InRange (m (idxLoc d)))
    (hgi : IdxHolds m d L gi) (e : ℕ) (he : e < 512) :
    (cw d L gi e).toNat = (Cert.Lookup.rowOf (m (idxLoc d)) ⟨base L + e, base_add_lt L ⟨e, he⟩⟩).val := by
  rw [Cert.Lookup.rowOf_val hr, cw_eq m d L gi hgi e he]

/-- Column (its value) of the transposed table is the column the result owes at element base + e. -/
theorem cw_col (gi : Buf (Elt F) ((sIdxW).view.loc (VT d L))) (hr : Cert.Lookup.InRange (m (idxLoc d)))
    (hgi : IdxHolds m d L gi) (e : ℕ) (he : e < 512) (r : Fin 32) (h : (cw d L gi e).toNat < 1000000) :
    tabT m d (ix2 r ⟨(cw d L gi e).toNat, h⟩)
      = tabT m d (ix2 r (Cert.Lookup.rowOf (m (idxLoc d)) ⟨base L + e, base_add_lt L ⟨e, he⟩⟩)) := by
  refine congrArg (tabT m d) (funext fun a => ?_)
  match a with
  | ⟨0, _⟩ => rfl
  | ⟨1, _⟩ => exact Fin.ext (cw_row m d L gi hr hgi e he)

end Cert.Proof.KB

end
-- ==== Proof.KB.Region.lean ====
/-
  One trip of the loop. Before trip k every slot b holds a fetch in flight for element 8 k + b. The trip goes slot by
  slot: it waits for the fetch, so that slab b holds columns slabW c … slabW c + 127 of the transposed table, c the
  element's index word; it reads lane laneW c of the slab and column tailW c of the tail, for rows 0 … 15 and then
  16 … 31, keeps the tail's value exactly when c ≥ 999936, and writes the 32 values into column 8 k + b of the column
  scratch — which is therefore column c of the table, because slabW c + laneW c = c below 999936 and
  999936 + tailW c = c from there on; then, except on the last trip, it starts the fetch for element 8 (k + 1) + b
  into the same slab. So the invariant holds again at k + 1: eight more columns filled, every slot fetching for the
  next trip, or at rest after the last.
-/
import proofs.«209800_g17188459118626_cont_7to1_163_19_alg».proof.Proof.KB.Inv
import proofs.«209800_g17188459118626_cont_7to1_163_19_alg».proof.Proof.KB.Steps
import proofs.«209800_g17188459118626_cont_7to1_163_19_alg».proof.Proof.KB.Value
import proofs.«209800_g17188459118626_cont_7to1_163_19_alg».proof.Proof.KB.Chk
import proofs.«209800_g17188459118626_cont_7to1_163_19_alg».proof.Proof.KB.Cw

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-- Lane 0 of the 16-lane load of the index scratch at offset o: the index word a slot's element works on. -/
abbrev laneWord (gi : Buf (Elt F) ((sIdxW).view.loc (VT d L))) (o : Fin 1 → Nat) (ho : ∀ a, o a + S16.size a ≤ S528.size a) : BitVec 32 :=
  extractAt ![0] (extractStridedSlice (s := S16) S1 ![0]
    ((sIdxW).view.readAt (Elt F) (Rect.unit (s := S528) o S16.size ho).toLoadRect gi) slices_S16_o0_S1) inpos_S1_p0

/-- ONE ELEMENT OF A TRIP: slab b holds the 128 columns fetched for the index word w = word n of the index scratch, which
    is also lane 0 of the load at offset o = n; the element's two indexed stores at column ce = n take "columns below n
    are the looked-up ones" to "columns below n + 1 are". -/
theorem slot_step (hr : Cert.Lookup.InRange (m (idxLoc d))) (gi : Buf (Elt F) ((sIdxW).view.loc (VT d L))) (hgi : IdxHolds m d L gi)
    (gt : Buf (Elt F) ((sTailW).view.loc (VT d L))) (hgt : TailHolds m d L gt)
    (b : ℕ) (hb : ∀ a, (![b, 0, 0] : Fin 3 → Nat) a + S1x32x128.size a ≤ S8x32x128.size a)
    (o : Fin 1 → Nat) (ho : ∀ a, o a + S16.size a ≤ S528.size a) (n : ℕ) (hn : n < 512) (hon : o 0 = n)
    (w : RW) (hw : w.1 = cw d L gi n) (f : (slabM b hb).view.ty.Contents (Elt F))
    (cols : Buf (Elt F) ((sColW).view.loc (VT d L))) (ce : BitVec 32) (hce : ce.toNat = n)
    (h1 : ∀ a x, ((![Words.iotaV, broadcast S16 (Words.laneW (laneWord d L gi o ho))] : Fin 2 → IVec S16 32) a x).toNat < S32x128.size a)
    (h2 : ∀ a x, ((![Words.iotaV, broadcast S16 (Words.tailW (laneWord d L gi o ho))] : Fin 2 → IVec S16 32) a x).toNat < S32x64.size a)
    (h3 : ∀ a x, ((![Words.iota16V, broadcast S16 (Words.laneW (laneWord d L gi o ho))] : Fin 2 → IVec S16 32) a x).toNat < S32x128.size a)
    (h4 : ∀ a x, ((![Words.iota16V, broadcast S16 (Words.tailW (laneWord d L gi o ho))] : Fin 2 → IVec S16 32) a x).toNat < S32x64.size a)
    (h5 : ∀ a x, ((![Words.iotaV, broadcast S16 ce] : Fin 2 → IVec S16 32) a x).toNat < S32x512.size a)
    (h6 : ∀ a x, ((![Words.iota16V, broadcast S16 ce] : Fin 2 → IVec S16 32) a x).toNat < S32x512.size a)
    (hcols : ColsOK m d L n cols) :
    ColsOK m d L (n + 1)
      (storeIdx
        (storeIdx cols ![Words.iotaV, broadcast S16 ce]
          (select (broadcast S16 (Words.useTailW (laneWord d L gi o ho)))
            (loadIdx (View.read (Elt F) (sTailW.access (Rect.whole S32x64)) gt)
              ![Words.iotaV, broadcast S16 (Words.tailW (laneWord d L gi o ho))] h2)
            (loadIdx
              (View.read (Elt F) ((slabM b hb).access (Rect.whole S32x128))
                ((slabM b hb).view.writes (Elt F) f
                  [⟨Rect.whole S32x128, ReadAs.same.apply (View.read (Elt F) (srcW w.1 w.2).view (tabT m d))⟩]))
              ![Words.iotaV, broadcast S16 (Words.laneW (laneWord d L gi o ho))] h1))
          (fun _ => 1#1) false h5)
        ![Words.iota16V, broadcast S16 ce]
        (select (broadcast S16 (Words.useTailW (laneWord d L gi o ho)))
          (loadIdx (View.read (Elt F) (sTailW.access (Rect.whole S32x64)) gt)
            ![Words.iota16V, broadcast S16 (Words.tailW (laneWord d L gi o ho))] h4)
          (loadIdx
            (View.read (Elt F) ((slabM b hb).access (Rect.whole S32x128))
              ((slabM b hb).view.writes (Elt F) f
                [⟨Rect.whole S32x128, ReadAs.same.apply (View.read (Elt F) (srcW w.1 w.2).view (tabT m d))⟩]))
            ![Words.iota16V, broadcast S16 (Words.laneW (laneWord d L gi o ho))] h3))
        (fun _ => 1#1) false h6) := by
  have hc : (laneWord d L gi o ho).toNat ≤ 999999 := lane_le m d L hr gi hgi o ho (by omega)
  have ecn : laneWord d L gi o ho = cw d L gi n := (lw_eq_cw d L gi o ho).trans (congrArg (cw d L gi) hon)
  have ec : laneWord d L gi o ho = w.1 := ecn.trans hw.symm
  have hslab : ∀ (r : Fin 32) (l : Fin 128),
      View.read (Elt F) ((slabM b hb).access (Rect.whole S32x128))
          ((slabM b hb).view.writes (Elt F) f
            [⟨Rect.whole S32x128, ReadAs.same.apply (View.read (Elt F) (srcW w.1 w.2).view (tabT m d))⟩]) (ix2 r l)
        = tabT m d (ix2 r (⟨(Words.slabW (laneWord d L gi o ho)).toNat + l.val,
            by have := Words.slabW_toNat (laneWord d L gi o ho) hc; have := l.isLt; omega⟩ : Fin 1000000)) := fun r l =>
    (Value.slab_read m d b hb ![0, (Words.slabW w.1).toNat] (Words.fire_ok w.1 w.2).2 rfl f r l).trans
      (congrArg (tabT m d) (funext fun a => match a with
        | ⟨0, _⟩ => rfl
        | ⟨1, _⟩ => Fin.ext (by show (Words.slabW w.1).toNat + l.val = (Words.slabW (laneWord d L gi o ho)).toNat + l.val; rw [ec])))
  have htail := Value.tail_of_holds gt (tabT m d) hgt
  have hR : ∀ (r : Fin 32) (k' : Fin 512), k'.val = n →
      tabT m d (ix2 r (⟨(laneWord d L gi o ho).toNat, by omega⟩ : Fin 1000000))
        = tabT m d (ix2 r (Cert.Lookup.rowOf (m (idxLoc d)) ⟨base L + k'.val, base_add_lt L k'⟩)) := by
    intro r k' hk'
    have e1 : laneWord d L gi o ho = cw d L gi k'.val := by rw [hk']; exact ecn
    have hle := cw_le m d L gi hr hgi k'.val k'.isLt
    exact (congrArg (fun j : Fin 1000000 => tabT m d (ix2 r j))
      (Fin.ext (congrArg BitVec.toNat e1) :
        (⟨(laneWord d L gi o ho).toNat, by omega⟩ : Fin 1000000) = ⟨(cw d L gi k'.val).toNat, by omega⟩)).trans
      (cw_col m d L gi hr hgi k'.val k'.isLt r (by omega))
  exact Value.upd_step (tabT m d) _ _ (laneWord d L gi o ho) hc hslab htail cols ce h1 h2 h3 h4 h5 h6 n
    (fun r k' => tabT m d (ix2 r (Cert.Lookup.rowOf (m (idxLoc d)) ⟨base L + k'.val, base_add_lt L k'⟩))) hce hR hcols

set_option hygiene false in
/-- The side conditions of a trip before the last, each from the range of the index word it was computed from. -/
local macro "trip_disch" : tactic => `(tactic| first
    | (guard_target = k0_chk9 _ _ _; exact chk9_of _ (lane_le m d L hr gi hgi _ _ (off10_lt k)))
    | (guard_target = k0_chk10 _ _ _; exact chk10_of _ (lane_le m d L hr gi hgi _ _ (off10_lt k)))
    | (guard_target = k0_chk11 _ _ _; exact chk11_of _ (lt_of_eq_of_lt (elt0 k) (by omega)))
    | (guard_target = k0_chk12 _ _; exact chk12_of k _ (lane_le m d L hr gi hgi _ _ (off11_lt k hk)))
    | (guard_target = k0_chk13 _ _ _; exact chk13_of _ (lane_le m d L hr gi hgi _ _ (off13_lt k)))
    | (guard_target = k0_chk14 _ _ _; exact chk14_of _ (lane_le m d L hr gi hgi _ _ (off13_lt k)))
    | (guard_target = k0_chk15 _ _ _; exact chk15_of _ (lt_of_eq_of_lt (elt1 k) (by omega)))
    | (guard_target = k0_chk16 _ _; exact chk16_of k _ (lane_le m d L hr gi hgi _ _ (off14_lt k hk)))
    | (guard_target = k0_chk17 _ _ _; exact chk17_of _ (lane_le m d L hr gi hgi _ _ (off16_lt k)))
    | (guard_target = k0_chk18 _ _ _; exact chk18_of _ (lane_le m d L hr gi hgi _ _ (off16_lt k)))
    | (guard_target = k0_chk19 _ _ _; exact chk19_of _ (lt_of_eq_of_lt (elt2 k) (by omega)))
    | (guard_target = k0_chk20 _ _; exact chk20_of k _ (lane_le m d L hr gi hgi _ _ (off17_lt k hk)))
    | (guard_target = k0_chk21 _ _ _; exact chk21_of _ (lane_le m d L hr gi hgi _ _ (off19_lt k)))
    | (guard_target = k0_chk22 _ _ _; exact chk22_of _ (lane_le m d L hr gi hgi _ _ (off19_lt k)))
    | (guard_target = k0_chk23 _ _ _; exact chk23_of _ (lt_of_eq_of_lt (elt3 k) (by omega)))
    | (guard_target = k0_chk24 _ _; exact chk24_of k _ (lane_le m d L hr gi hgi _ _ (off20_lt k hk)))
    | (guard_target = k0_chk25 _ _ _; exact chk25_of _ (lane_le m d L hr gi hgi _ _ (off22_lt k)))
    | (guard_target = k0_chk26 _ _ _; exact chk26_of _ (lane_le m d L hr gi hgi _ _ (off22_lt k)))
    | (guard_target = k0_chk27 _ _ _; exact chk27_of _ (lt_of_eq_of_lt (elt4 k) (by omega)))
    | (guard_target = k0_chk28 _ _; exact chk28_of k _ (lane_le m d L hr gi hgi _ _ (off23_lt k hk)))
    | (guard_target = k0_chk29 _ _ _; exact chk29_of _ (lane_le m d L hr gi hgi _ _ (off25_lt k)))
    | (guard_target = k0_chk30 _ _ _; exact chk30_of _ (lane_le m d L hr gi hgi _ _ (off25_lt k)))
    | (guard_target = k0_chk31 _ _ _; exact chk31_of _ (lt_of_eq_of_lt (elt5 k) (by omega)))
    | (guard_target = k0_chk32 _ _; exact chk32_of k _ (lane_le m d L hr gi hgi _ _ (off26_lt k hk)))
    | (guard_target = k0_chk33 _ _ _; exact chk33_of _ (lane_le m d L hr gi hgi _ _ (off28_lt k)))
    | (guard_target = k0_chk34 _ _ _; exact chk34_of _ (lane_le m d L hr gi hgi _ _ (off28_lt k)))
    | (guard_target = k0_chk35 _ _ _; exact chk35_of _ (lt_of_eq_of_lt (elt6 k) (by omega)))
    | (guard_target = k0_chk36 _ _; exact chk36_of k _ (lane_le m d L hr gi hgi _ _ (off29_lt k hk)))
    | (guard_target = k0_chk37 _ _ _; exact chk37_of _ (lane_le m d L hr gi hgi _ _ (off31_lt k)))
    | (guard_target = k0_chk38 _ _ _; exact chk38_of _ (lane_le m d L hr gi hgi _ _ (off31_lt k)))
    | (guard_target = k0_chk39 _ _ _; exact chk39_of _ (lt_of_eq_of_lt (elt7 k) (by omega)))
    | (guard_target = k0_chk40 _ _; exact chk40_of k _ (lane_le m d L hr gi hgi _ _ (off32_lt k hk))))

set_option hygiene false in
/-- The side conditions of the last trip (no fetch ahead). -/
local macro "last_disch" : tactic => `(tactic| first
    | (guard_target = k0_chk9 _ _ _; exact chk9_of _ (lane_le m d L hr gi hgi _ _ (off10_lt k)))
    | (guard_target = k0_chk10 _ _ _; exact chk10_of _ (lane_le m d L hr gi hgi _ _ (off10_lt k)))
    | (guard_target = k0_chk11 _ _ _; exact chk11_of _ (lt_of_eq_of_lt (elt0 k) (by omega)))
    | (guard_target = k0_chk13 _ _ _; exact chk13_of _ (lane_le m d L hr gi hgi _ _ (off13_lt k)))
    | (guard_target = k0_chk14 _ _ _; exact chk14_of _ (lane_le m d L hr gi hgi _ _ (off13_lt k)))
    | (guard_target = k0_chk15 _ _ _; exact chk15_of _ (lt_of_eq_of_lt (elt1 k) (by omega)))
    | (guard_target = k0_chk17 _ _ _; exact chk17_of _ (lane_le m d L hr gi hgi _ _ (off16_lt k)))
    | (guard_target = k0_chk18 _ _ _; exact chk18_of _ (lane_le m d L hr gi hgi _ _ (off16_lt k)))
    | (guard_target = k0_chk19 _ _ _; exact chk19_of _ (lt_of_eq_of_lt (elt2 k) (by omega)))
    | (guard_target = k0_chk21 _ _ _; exact chk21_of _ (lane_le m d L hr gi hgi _ _ (off19_lt k)))
    | (guard_target = k0_chk22 _ _ _; exact chk22_of _ (lane_le m d L hr gi hgi _ _ (off19_lt k)))
    | (guard_target = k0_chk23 _ _ _; exact chk23_of _ (lt_of_eq_of_lt (elt3 k) (by omega)))
    | (guard_target = k0_chk25 _ _ _; exact chk25_of _ (lane_le m d L hr gi hgi _ _ (off22_lt k)))
    | (guard_target = k0_chk26 _ _ _; exact chk26_of _ (lane_le m d L hr gi hgi _ _ (off22_lt k)))
    | (guard_target = k0_chk27 _ _ _; exact chk27_of _ (lt_of_eq_of_lt (elt4 k) (by omega)))
    | (guard_target = k0_chk29 _ _ _; exact chk29_of _ (lane_le m d L hr gi hgi _ _ (off25_lt k)))
    | (guard_target = k0_chk30 _ _ _; exact chk30_of _ (lane_le m d L hr gi hgi _ _ (off25_lt k)))
    | (guard_target = k0_chk31 _ _ _; exact chk31_of _ (lt_of_eq_of_lt (elt5 k) (by omega)))
    | (guard_target = k0_chk33 _ _ _; exact chk33_of _ (lane_le m d L hr gi hgi _ _ (off28_lt k)))
    | (guard_target = k0_chk34 _ _ _; exact chk34_of _ (lane_le m d L hr gi hgi _ _ (off28_lt k)))
    | (guard_target = k0_chk35 _ _ _; exact chk35_of _ (lt_of_eq_of_lt (elt6 k) (by omega)))
    | (guard_target = k0_chk37 _ _ _; exact chk37_of _ (lane_le m d L hr gi hgi _ _ (off31_lt k)))
    | (guard_target = k0_chk38 _ _ _; exact chk38_of _ (lane_le m d L hr gi hgi _ _ (off31_lt k)))
    | (guard_target = k0_chk39 _ _ _; exact chk39_of _ (lt_of_eq_of_lt (elt7 k) (by omega))))

set_option maxHeartbeats 8000000 in
theorem region_lt (O : CellTallies nD τ sig (HIx 1)) (W : Waits sig (HIx 1))
    (gi : Buf (Elt F) ((sIdxW).view.loc (VT d L))) (gt : Buf (Elt F) ((sTailW).view.loc (VT d L)))
    (hr : Cert.Lookup.InRange (m (idxLoc d))) (hgi : IdxHolds m d L gi) (hgt : TailHolds m d L gt) (hO : ∀ g, O g none = 0)
    (k : Fin k0_t1_loop.trips) (hk : k.val < 63) (acc : Unit) :
    inv m d L O W gi gt k.val acc
      ⊢ wp frame (wpE (defs₀ (F := F)) 𝒱₀ (VT d L) none) Set.univ
          (k0_t1_body (F := F) L tabW (Memref.isWhole_whole _) idxW (Memref.isWhole_whole _) tailW (Memref.isWhole_whole _) outW (Memref.isWhole_whole _)
            sIdxW (Memref.isWhole_whole _) sSlabW (Memref.isWhole_whole _) sTailW (Memref.isWhole_whole _) sColW (Memref.isWhole_whole _)
            cc0_scratch4 cc0_scratch5 cc0_scratch6 cc0_scratch7 cc0_scratch8 cc0_scratch9 cc0_scratch10 cc0_scratch11 cc0_scoped0 cc0_scoped1 cc0_scoped2
            Words.iotaV Words.iota16V 0#32 1#32 k acc)
          (inv m d L O W gi gt (k.val + 1)) := by
  have hk64 : k.val < 64 := by omega
  have hc1 : k0_cond1 k = 1#1 := (cond1_iff k).mpr hk
  have hc2 : k0_cond2 k = 1#1 := (cond2_iff k).mpr hk
  have hc3 : k0_cond3 k = 1#1 := (cond3_iff k).mpr hk
  have hc4 : k0_cond4 k = 1#1 := (cond4_iff k).mpr hk
  have hc5 : k0_cond5 k = 1#1 := (cond5_iff k).mpr hk
  have hc6 : k0_cond6 k = 1#1 := (cond6_iff k).mpr hk
  have hc7 : k0_cond7 k = 1#1 := (cond7_iff k).mpr hk
  have hc8 : k0_cond8 k = 1#1 := (cond8_iff k).mpr hk
  unfold inv slot0 slot1 slot2 slot3 slot4 slot5 slot6 slot7
  have hk1 : k.val + 1 < 64 := by omega
  rw [if_pos hk64, if_pos hk64, if_pos hk64, if_pos hk64, if_pos hk64, if_pos hk64, if_pos hk64, if_pos hk64]
  rw [if_pos hk1, if_pos hk1, if_pos hk1, if_pos hk1, if_pos hk1, if_pos hk1, if_pos hk1, if_pos hk1]
  unfold fly0 fly1 fly2 fly3 fly4 fly5 fly6 fly7
  unfold k0_t1_body
  iintro ⟨#Hmw, Hsi, Hst, ⟨%gc, %hgc, Hsc⟩, ⟨%w0, %hw0, ⟨%f0, Hf0⟩, Hk0⟩, ⟨%w1, %hw1, ⟨%f1, Hf1⟩, Hk1⟩, ⟨%w2, %hw2, ⟨%f2, Hf2⟩, Hk2⟩, ⟨%w3, %hw3, ⟨%f3, Hf3⟩, Hk3⟩, ⟨%w4, %hw4, ⟨%f4, Hf4⟩, Hk4⟩, ⟨%w5, %hw5, ⟨%f5, Hf5⟩, Hk5⟩, ⟨%w6, %hw6, ⟨%f6, Hf6⟩, Hk6⟩, ⟨%w7, %hw7, ⟨%f7, Hf7⟩, Hk7⟩, ⟨%W', %hW', HO⟩⟩
  try sl_exec (disch := trip_disch)
  iapply (wp_loadIdx_own 𝒱₀ (VT d L) none Set.univ (base := slabM 0 inb_S8x32x128_S1x32x128_0_0_0)) $$ Hf0_dst
  iintro Hf0_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 0 inb_S8x32x128_S1x32x128_0_0_0)) $$ Hf0_dst
  iintro Hf0_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 1 inb_S8x32x128_S1x32x128_1_0_0)) $$ Hf1_dst
  iintro Hf1_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 1 inb_S8x32x128_S1x32x128_1_0_0)) $$ Hf1_dst
  iintro Hf1_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 2 inb_S8x32x128_S1x32x128_2_0_0)) $$ Hf2_dst
  iintro Hf2_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 2 inb_S8x32x128_S1x32x128_2_0_0)) $$ Hf2_dst
  iintro Hf2_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 3 inb_S8x32x128_S1x32x128_3_0_0)) $$ Hf3_dst
  iintro Hf3_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 3 inb_S8x32x128_S1x32x128_3_0_0)) $$ Hf3_dst
  iintro Hf3_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 4 inb_S8x32x128_S1x32x128_4_0_0)) $$ Hf4_dst
  iintro Hf4_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 4 inb_S8x32x128_S1x32x128_4_0_0)) $$ Hf4_dst
  iintro Hf4_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 5 inb_S8x32x128_S1x32x128_5_0_0)) $$ Hf5_dst
  iintro Hf5_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 5 inb_S8x32x128_S1x32x128_5_0_0)) $$ Hf5_dst
  iintro Hf5_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 6 inb_S8x32x128_S1x32x128_6_0_0)) $$ Hf6_dst
  iintro Hf6_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 6 inb_S8x32x128_S1x32x128_6_0_0)) $$ Hf6_dst
  iintro Hf6_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 7 inb_S8x32x128_S1x32x128_7_0_0)) $$ Hf7_dst
  iintro Hf7_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  iapply (wp_loadIdx_own 𝒱₀ (VT d L) none Set.univ (base := slabM 7 inb_S8x32x128_S1x32x128_7_0_0)) $$ Hf7_dst
  iintro Hf7_dst
  try sl_exec (disch := trip_disch)
  iapply (wp_loadIdx_univ 𝒱₀ (VT d L) none Set.univ (base := sTailW)) $$ Hst
  iintro Hst
  try sl_exec (disch := trip_disch)
  iapply (wp_storeCols 𝒱₀ Set.univ d L none) $$ Hsc
  iintro Hsc
  try sl_exec (disch := trip_disch)
  sl_step
  isplitr
  · iexact Hmw
  isplitl [Hsi]
  · iexact Hsi
  isplitl [Hst]
  · iexact Hst
  isplitl [Hsc]
  · iexists _
    isplitr
    rotate_left
    · iexact Hsc
    · ipureintro
      rw [show 8 * (k.val + 1) = 8 * k.val + 7 + 1 from by omega]
      refine slot_step m d L hr gi hgi gt hgt 7 _ (k0_off31 k) (k0_off31_inb k) (8 * k.val + 7) (by omega) (by rw [k0_off31_eq]; rfl) w7 hw7 f7 _ _ (elt7 k) _ _ _ _ _ _ ?_
      refine slot_step m d L hr gi hgi gt hgt 6 _ (k0_off28 k) (k0_off28_inb k) (8 * k.val + 6) (by omega) (by rw [k0_off28_eq]; rfl) w6 hw6 f6 _ _ (elt6 k) _ _ _ _ _ _ ?_
      refine slot_step m d L hr gi hgi gt hgt 5 _ (k0_off25 k) (k0_off25_inb k) (8 * k.val + 5) (by omega) (by rw [k0_off25_eq]; rfl) w5 hw5 f5 _ _ (elt5 k) _ _ _ _ _ _ ?_
      refine slot_step m d L hr gi hgi gt hgt 4 _ (k0_off22 k) (k0_off22_inb k) (8 * k.val + 4) (by omega) (by rw [k0_off22_eq]; rfl) w4 hw4 f4 _ _ (elt4 k) _ _ _ _ _ _ ?_
      refine slot_step m d L hr gi hgi gt hgt 3 _ (k0_off19 k) (k0_off19_inb k) (8 * k.val + 3) (by omega) (by rw [k0_off19_eq]; rfl) w3 hw3 f3 _ _ (elt3 k) _ _ _ _ _ _ ?_
      refine slot_step m d L hr gi hgi gt hgt 2 _ (k0_off16 k) (k0_off16_inb k) (8 * k.val + 2) (by omega) (by rw [k0_off16_eq]; rfl) w2 hw2 f2 _ _ (elt2 k) _ _ _ _ _ _ ?_
      refine slot_step m d L hr gi hgi gt hgt 1 _ (k0_off13 k) (k0_off13_inb k) (8 * k.val + 1) (by omega) (by rw [k0_off13_eq]; rfl) w1 hw1 f1 _ _ (elt1 k) _ _ _ _ _ _ ?_
      refine slot_step m d L hr gi hgi gt hgt 0 _ (k0_off10 k) (k0_off10_inb k) (8 * k.val + 0) (by omega) (by rw [k0_off10_eq]; rfl) w0 hw0 f0 _ _ (elt0 k) _ _ _ _ _ _ ?_
      exact hgc
  isplitl [Hf0 Hk0]
  · iexists ⟨_, lane_le m d L hr gi hgi (k0_off11 k) (k0_off11_inb k hc1) (off11_lt k hk)⟩
    isplitr
    · ipureintro
      exact (lw_eq_cw d L gi _ _).trans (congrArg (cw d L gi) (by rw [k0_off11_eq]; show 8 * k.val + 8 = 8 * (k.val + 1) + 0; omega))
    isplitl [Hf0]
    · iexists _
      iexact Hf0
    · iexact Hk0
  isplitl [Hf1 Hk1]
  · iexists ⟨_, lane_le m d L hr gi hgi (k0_off14 k) (k0_off14_inb k hc2) (off14_lt k hk)⟩
    isplitr
    · ipureintro
      exact (lw_eq_cw d L gi _ _).trans (congrArg (cw d L gi) (by rw [k0_off14_eq]; show 8 * k.val + 9 = 8 * (k.val + 1) + 1; omega))
    isplitl [Hf1]
    · iexists _
      iexact Hf1
    · iexact Hk1
  isplitl [Hf2 Hk2]
  · iexists ⟨_, lane_le m d L hr gi hgi (k0_off17 k) (k0_off17_inb k hc3) (off17_lt k hk)⟩
    isplitr
    · ipureintro
      exact (lw_eq_cw d L gi _ _).trans (congrArg (cw d L gi) (by rw [k0_off17_eq]; show 8 * k.val + 10 = 8 * (k.val + 1) + 2; omega))
    isplitl [Hf2]
    · iexists _
      iexact Hf2
    · iexact Hk2
  isplitl [Hf3 Hk3]
  · iexists ⟨_, lane_le m d L hr gi hgi (k0_off20 k) (k0_off20_inb k hc4) (off20_lt k hk)⟩
    isplitr
    · ipureintro
      exact (lw_eq_cw d L gi _ _).trans (congrArg (cw d L gi) (by rw [k0_off20_eq]; show 8 * k.val + 11 = 8 * (k.val + 1) + 3; omega))
    isplitl [Hf3]
    · iexists _
      iexact Hf3
    · iexact Hk3
  isplitl [Hf4 Hk4]
  · iexists ⟨_, lane_le m d L hr gi hgi (k0_off23 k) (k0_off23_inb k hc5) (off23_lt k hk)⟩
    isplitr
    · ipureintro
      exact (lw_eq_cw d L gi _ _).trans (congrArg (cw d L gi) (by rw [k0_off23_eq]; show 8 * k.val + 12 = 8 * (k.val + 1) + 4; omega))
    isplitl [Hf4]
    · iexists _
      iexact Hf4
    · iexact Hk4
  isplitl [Hf5 Hk5]
  · iexists ⟨_, lane_le m d L hr gi hgi (k0_off26 k) (k0_off26_inb k hc6) (off26_lt k hk)⟩
    isplitr
    · ipureintro
      exact (lw_eq_cw d L gi _ _).trans (congrArg (cw d L gi) (by rw [k0_off26_eq]; show 8 * k.val + 13 = 8 * (k.val + 1) + 5; omega))
    isplitl [Hf5]
    · iexists _
      iexact Hf5
    · iexact Hk5
  isplitl [Hf6 Hk6]
  · iexists ⟨_, lane_le m d L hr gi hgi (k0_off29 k) (k0_off29_inb k hc7) (off29_lt k hk)⟩
    isplitr
    · ipureintro
      exact (lw_eq_cw d L gi _ _).trans (congrArg (cw d L gi) (by rw [k0_off29_eq]; show 8 * k.val + 14 = 8 * (k.val + 1) + 6; omega))
    isplitl [Hf6]
    · iexists _
      iexact Hf6
    · iexact Hk6
  isplitl [Hf7 Hk7]
  · iexists ⟨_, lane_le m d L hr gi hgi (k0_off32 k) (k0_off32_inb k hc8) (off32_lt k hk)⟩
    isplitr
    · ipureintro
      exact (lw_eq_cw d L gi _ _).trans (congrArg (cw d L gi) (by rw [k0_off32_eq]; show 8 * k.val + 15 = 8 * (k.val + 1) + 7; omega))
    isplitl [Hf7]
    · iexists _
      iexact Hf7
    · iexact Hk7
  iexists _
  isplitr
  rotate_left
  · iexact HO
  · ipureintro
    intro p hp
    simp only [Finset.mem_insert] at hp
    rcases hp with rfl | rfl | rfl | rfl | rfl | rfl | rfl | rfl | hp
    all_goals first | exact Or.inr rfl | exact hW' p hp

set_option maxHeartbeats 8000000 in
theorem region_last (O : CellTallies nD τ sig (HIx 1)) (W : Waits sig (HIx 1))
    (gi : Buf (Elt F) ((sIdxW).view.loc (VT d L))) (gt : Buf (Elt F) ((sTailW).view.loc (VT d L)))
    (hr : Cert.Lookup.InRange (m (idxLoc d))) (hgi : IdxHolds m d L gi) (hgt : TailHolds m d L gt) (hO : ∀ g, O g none = 0)
    (k : Fin k0_t1_loop.trips) (hk : ¬ k.val < 63) (acc : Unit) :
    inv m d L O W gi gt k.val acc
      ⊢ wp frame (wpE (defs₀ (F := F)) 𝒱₀ (VT d L) none) Set.univ
          (k0_t1_body (F := F) L tabW (Memref.isWhole_whole _) idxW (Memref.isWhole_whole _) tailW (Memref.isWhole_whole _) outW (Memref.isWhole_whole _)
            sIdxW (Memref.isWhole_whole _) sSlabW (Memref.isWhole_whole _) sTailW (Memref.isWhole_whole _) sColW (Memref.isWhole_whole _)
            cc0_scratch4 cc0_scratch5 cc0_scratch6 cc0_scratch7 cc0_scratch8 cc0_scratch9 cc0_scratch10 cc0_scratch11 cc0_scoped0 cc0_scoped1 cc0_scoped2
            Words.iotaV Words.iota16V 0#32 1#32 k acc)
          (inv m d L O W gi gt (k.val + 1)) := by
  have hk64 : k.val < 64 := lt_of_lt_of_eq k.isLt trips_eq
  have hc1 : ¬ k0_cond1 k = 1#1 := fun h => hk ((cond1_iff k).mp h)
  have hc2 : ¬ k0_cond2 k = 1#1 := fun h => hk ((cond2_iff k).mp h)
  have hc3 : ¬ k0_cond3 k = 1#1 := fun h => hk ((cond3_iff k).mp h)
  have hc4 : ¬ k0_cond4 k = 1#1 := fun h => hk ((cond4_iff k).mp h)
  have hc5 : ¬ k0_cond5 k = 1#1 := fun h => hk ((cond5_iff k).mp h)
  have hc6 : ¬ k0_cond6 k = 1#1 := fun h => hk ((cond6_iff k).mp h)
  have hc7 : ¬ k0_cond7 k = 1#1 := fun h => hk ((cond7_iff k).mp h)
  have hc8 : ¬ k0_cond8 k = 1#1 := fun h => hk ((cond8_iff k).mp h)
  unfold inv slot0 slot1 slot2 slot3 slot4 slot5 slot6 slot7
  have hk1 : ¬ k.val + 1 < 64 := by omega
  rw [if_pos hk64, if_pos hk64, if_pos hk64, if_pos hk64, if_pos hk64, if_pos hk64, if_pos hk64, if_pos hk64]
  rw [if_neg hk1, if_neg hk1, if_neg hk1, if_neg hk1, if_neg hk1, if_neg hk1, if_neg hk1, if_neg hk1]
  unfold fly0 fly1 fly2 fly3 fly4 fly5 fly6 fly7
  unfold k0_t1_body
  iintro ⟨#Hmw, Hsi, Hst, ⟨%gc, %hgc, Hsc⟩, ⟨%w0, %hw0, ⟨%f0, Hf0⟩, Hk0⟩, ⟨%w1, %hw1, ⟨%f1, Hf1⟩, Hk1⟩, ⟨%w2, %hw2, ⟨%f2, Hf2⟩, Hk2⟩, ⟨%w3, %hw3, ⟨%f3, Hf3⟩, Hk3⟩, ⟨%w4, %hw4, ⟨%f4, Hf4⟩, Hk4⟩, ⟨%w5, %hw5, ⟨%f5, Hf5⟩, Hk5⟩, ⟨%w6, %hw6, ⟨%f6, Hf6⟩, Hk6⟩, ⟨%w7, %hw7, ⟨%f7, Hf7⟩, Hk7⟩, ⟨%W', %hW', HO⟩⟩
  try sl_exec (disch := last_disch)
  iapply (wp_loadIdx_own 𝒱₀ (VT d L) none Set.univ (base := slabM 0 inb_S8x32x128_S1x32x128_0_0_0)) $$ Hf0_dst
  iintro Hf0_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 0 inb_S8x32x128_S1x32x128_0_0_0)) $$ Hf0_dst
  iintro Hf0_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 1 inb_S8x32x128_S1x32x128_1_0_0)) $$ Hf1_dst
  iintro Hf1_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 1 inb_S8x32x128_S1x32x128_1_0_0)) $$ Hf1_dst
  iintro Hf1_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 2 inb_S8x32x128_S1x32x128_2_0_0)) $$ Hf2_dst
  iintro Hf2_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 2 inb_S8x32x128_S1x32x128_2_0_0)) $$ Hf2_dst
  iintro Hf2_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 3 inb_S8x32x128_S1x32x128_3_0_0)) $$ Hf3_dst
  iintro Hf3_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 3 inb_S8x32x128_S1x32x128_3_0_0)) $$ Hf3_dst
  iintro Hf3_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 4 inb_S8x32x128_S1x32x128_4_0_0)) $$ Hf4_dst
  iintro Hf4_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 4 inb_S8x32x128_S1x32x128_4_0_0)) $$ Hf4_dst
  iintro Hf4_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 5 inb_S8x32x128_S1x32x128_5_0_0)) $$ Hf5_dst
  iintro Hf5_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 5 inb_S8x32x128_S1x32x128_5_0_0)) $$ Hf5_dst
  iintro Hf5_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 6 inb_S8x32x128_S1x32x128_6_0_0)) $$ Hf6_dst
  iintro Hf6_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 6 inb_S8x32x128_S1x32x128_6_0_0)) $$ Hf6_dst
  iintro Hf6_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 7 inb_S8x32x128_S1x32x128_7_0_0)) $$ Hf7_dst
  iintro Hf7_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  iapply (wp_loadIdx_own 𝒱₀ (VT d L) none Set.univ (base := slabM 7 inb_S8x32x128_S1x32x128_7_0_0)) $$ Hf7_dst
  iintro Hf7_dst
  try sl_exec (disch := last_disch)
  iapply (wp_loadIdx_univ 𝒱₀ (VT d L) none Set.univ (base := sTailW)) $$ Hst
  iintro Hst
  try sl_exec (disch := last_disch)
  iapply (wp_storeCols 𝒱₀ Set.univ d L none) $$ Hsc
  iintro Hsc
  try sl_exec (disch := last_disch)
  sl_step
  isplitr
  · iexact Hmw
  isplitl [Hsi]
  · iexact Hsi
  isplitl [Hst]
  · iexact Hst
  isplitl [Hsc]
  · iexists _
    isplitr
    rotate_left
    · iexact Hsc
    · ipureintro
      rw [show 8 * (k.val + 1) = 8 * k.val + 7 + 1 from by omega]
      refine slot_step m d L hr gi hgi gt hgt 7 _ (k0_off31 k) (k0_off31_inb k) (8 * k.val + 7) (by omega) (by rw [k0_off31_eq]; rfl) w7 hw7 f7 _ _ (elt7 k) _ _ _ _ _ _ ?_
      refine slot_step m d L hr gi hgi gt hgt 6 _ (k0_off28 k) (k0_off28_inb k) (8 * k.val + 6) (by omega) (by rw [k0_off28_eq]; rfl) w6 hw6 f6 _ _ (elt6 k) _ _ _ _ _ _ ?_
      refine slot_step m d L hr gi hgi gt hgt 5 _ (k0_off25 k) (k0_off25_inb k) (8 * k.val + 5) (by omega) (by rw [k0_off25_eq]; rfl) w5 hw5 f5 _ _ (elt5 k) _ _ _ _ _ _ ?_
      refine slot_step m d L hr gi hgi gt hgt 4 _ (k0_off22 k) (k0_off22_inb k) (8 * k.val + 4) (by omega) (by rw [k0_off22_eq]; rfl) w4 hw4 f4 _ _ (elt4 k) _ _ _ _ _ _ ?_
      refine slot_step m d L hr gi hgi gt hgt 3 _ (k0_off19 k) (k0_off19_inb k) (8 * k.val + 3) (by omega) (by rw [k0_off19_eq]; rfl) w3 hw3 f3 _ _ (elt3 k) _ _ _ _ _ _ ?_
      refine slot_step m d L hr gi hgi gt hgt 2 _ (k0_off16 k) (k0_off16_inb k) (8 * k.val + 2) (by omega) (by rw [k0_off16_eq]; rfl) w2 hw2 f2 _ _ (elt2 k) _ _ _ _ _ _ ?_
      refine slot_step m d L hr gi hgi gt hgt 1 _ (k0_off13 k) (k0_off13_inb k) (8 * k.val + 1) (by omega) (by rw [k0_off13_eq]; rfl) w1 hw1 f1 _ _ (elt1 k) _ _ _ _ _ _ ?_
      refine slot_step m d L hr gi hgi gt hgt 0 _ (k0_off10 k) (k0_off10_inb k) (8 * k.val + 0) (by omega) (by rw [k0_off10_eq]; rfl) w0 hw0 f0 _ _ (elt0 k) _ _ _ _ _ _ ?_
      exact hgc
  isplitl [Hf0 Hf0_dst Hk0]
  · unfold free0
    isplitl [Hf0]
    · iexact Hf0
    isplitl [Hf0_dst]
    · iexists _
      iexact Hf0_dst
    · iexact Hk0
  isplitl [Hf1 Hf1_dst Hk1]
  · unfold free1
    isplitl [Hf1]
    · iexact Hf1
    isplitl [Hf1_dst]
    · iexists _
      iexact Hf1_dst
    · iexact Hk1
  isplitl [Hf2 Hf2_dst Hk2]
  · unfold free2
    isplitl [Hf2]
    · iexact Hf2
    isplitl [Hf2_dst]
    · iexists _
      iexact Hf2_dst
    · iexact Hk2
  isplitl [Hf3 Hf3_dst Hk3]
  · unfold free3
    isplitl [Hf3]
    · iexact Hf3
    isplitl [Hf3_dst]
    · iexists _
      iexact Hf3_dst
    · iexact Hk3
  isplitl [Hf4 Hf4_dst Hk4]
  · unfold free4
    isplitl [Hf4]
    · iexact Hf4
    isplitl [Hf4_dst]
    · iexists _
      iexact Hf4_dst
    · iexact Hk4
  isplitl [Hf5 Hf5_dst Hk5]
  · unfold free5
    isplitl [Hf5]
    · iexact Hf5
    isplitl [Hf5_dst]
    · iexists _
      iexact Hf5_dst
    · iexact Hk5
  isplitl [Hf6 Hf6_dst Hk6]
  · unfold free6
    isplitl [Hf6]
    · iexact Hf6
    isplitl [Hf6_dst]
    · iexists _
      iexact Hf6_dst
    · iexact Hk6
  isplitl [Hf7 Hf7_dst Hk7]
  · unfold free7
    isplitl [Hf7]
    · iexact Hf7
    isplitl [Hf7_dst]
    · iexists _
      iexact Hf7_dst
    · iexact Hk7
  iexists _
  isplitr
  rotate_left
  · iexact HO
  · ipureintro
    intro p hp
    simp only [Finset.mem_insert] at hp
    rcases hp with rfl | rfl | rfl | rfl | rfl | rfl | rfl | rfl | hp
    all_goals first | exact Or.inr rfl | exact hW' p hp

/-- One trip of the loop takes the invariant before it to the invariant after it. -/
theorem region_step (O : CellTallies nD τ sig (HIx 1)) (W : Waits sig (HIx 1))
    (gi : Buf (Elt F) ((sIdxW).view.loc (VT d L))) (gt : Buf (Elt F) ((sTailW).view.loc (VT d L)))
    (hr : Cert.Lookup.InRange (m (idxLoc d))) (hgi : IdxHolds m d L gi) (hgt : TailHolds m d L gt) (hO : ∀ g, O g none = 0) :
    RegionStep m d L O W gi gt := by
  intro k acc
  by_cases hk : k.val < 63
  · exact region_lt m d L O W gi gt hr hgi hgt hO k hk acc
  · exact region_last m d L O W gi gt hr hgi hgt hO k hk acc

end Cert.Proof.KB

end
-- ==== Proof.KB.Exit.lean ====
/-
  The end of a subcore's task. After the last trip all 512 columns of the column scratch are the looked-up ones and
  every slot is at rest; the write-out copies the column scratch into the subcore's 512 columns of the result; what
  the subcore then holds is exactly what it hands back: its three read shares, its columns of the result filled, its
  own scratch buffers and its own semaphores at zero.
-/
import proofs.«209800_g17188459118626_cont_7to1_163_19_alg».proof.Proof.KB.Inv
import proofs.«209800_g17188459118626_cont_7to1_163_19_alg».proof.Proof.KB.Open

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-- The loop makes 64 trips. -/
theorem trips64 : Scf.trips k0_t1_loop.lb k0_t1_loop.ub k0_t1_loop.st = 64 := by decide +kernel

/-- After the last trip: all 512 columns are filled and every slot is at rest. -/
theorem inv_exit (O : CellTallies nD τ sig (HIx 1)) (W : Waits sig (HIx 1))
    (gi : Buf (Elt F) ((sIdxW).view.loc (VT d L))) (gt : Buf (Elt F) ((sTailW).view.loc (VT d L))) (acc : Unit) :
    inv m d L O W gi gt (Scf.trips k0_t1_loop.lb k0_t1_loop.ub k0_t1_loop.st) acc
    ⊢ iprop(Transfers.MayWaits (VT d L) (none : HIx 1) O
      ∗ ((sIdxW).view.loc (VT d L) ↦{fullShare} gi) ∗ ((sTailW).view.loc (VT d L) ↦{fullShare} gt)
      ∗ (∃ gc, ⌜ColsOK m d L 512 gc⌝ ∗ ((sColW).view.loc (VT d L) ↦{fullShare} gc))
      ∗ free0 m d L ∗ free1 m d L ∗ free2 m d L ∗ free3 m d L ∗ free4 m d L ∗ free5 m d L ∗ free6 m d L ∗ free7 m d L
      ∗ ∃ W', ⌜∀ p ∈ W', p ∈ W ∨ p.2 = none⌝ ∗ owes (VT d L) O W') := by
  have h64 : ¬ (64 : ℕ) < 64 := by decide
  rw [trips64]
  unfold inv slot0 slot1 slot2 slot3 slot4 slot5 slot6 slot7
  rw [if_neg h64, if_neg h64, if_neg h64, if_neg h64, if_neg h64, if_neg h64, if_neg h64, if_neg h64]

/-- Everything the subcore holds at the end is what it hands back and what it owns. -/
theorem close_task (gi : Buf (Elt F) ((VT d L).loc cc0_scratch0)) (gt : Buf (Elt F) ((VT d L).loc cc0_scratch2))
    (gc : Buf (Elt F) ((VT d L).loc cc0_scratch3)) (fout : Buf (Elt F) (outLoc d)) (hout : OutOK m d L fout) :
    iprop((tabLoc d ↦{Transfers.shareDrop (tq L) 8} tabT m d) ∗ (tailLoc d ↦{tq L} tailT m d) ∗ (idxLoc d ↦{tq L} m (idxLoc d))
        ∗ (outLoc d ↦[outSet L]{fullShare} fout)
        ∗ ((VT d L).loc cc0_scratch0 ↦{fullShare} gi) ∗ ((VT d L).loc cc0_scratch2 ↦{fullShare} gt) ∗ ((VT d L).loc cc0_scratch3 ↦{fullShare} gc)
        ∗ free0 m d L ∗ free1 m d L ∗ free2 m d L ∗ free3 m d L ∗ free4 m d L ∗ free5 m d L ∗ free6 m d L ∗ free7 m d L
        ∗ semVal ((VT d L, SemLoc.dma (SemArray.sem cc0_scoped0)) : GSem nD τ sig) 0
        ∗ semVal ((VT d L, SemLoc.dma (SemArray.sem cc0_scoped1)) : GSem nD τ sig) 0
        ∗ semVal ((VT d L, SemLoc.dma (SemArray.sem cc0_scoped2)) : GSem nD τ sig) 0
        ∗ (bigSep (ownRefs (τ := τ) (.scVector ((L 0).castLE hcore0) ((L 1).castLE hsub0)) \ bufRefs ((L 0).castLE hcore0) ((L 1).castLE hsub0))
            fun b => iprop(∃ f, (((VT d L).1, b) : Loc nD τ sig) ↦{fullShare} f))
        ∗ (bigSep (ownCells (VT d L) \ semCells (VT d L)) fun g => semVal g 0))
      ⊢ (iprop(tileTd m d L ∗ scopedBufs (VT d L) ∗ scopedSems0 (VT d L)) : sProp 𝕄) := by
  rw [(K (F := F)).scopedBufs_V facts d _ _, ownBufs_VT, SparseCore.Cfg.scopedSems0_V (Val := Elt F) d _ _, ownSems0_VT]
  unfold tileTd free0 free1 free2 free3 free4 free5 free6 free7
  iintro ⟨Htrest, Htail, Hidx, Hout, Hsi, Hst, Hsc, ⟨Hc0, Hs0, Ht0⟩, ⟨Hc1, Hs1, Ht1⟩, ⟨Hc2, Hs2, Ht2⟩, ⟨Hc3, Hs3, Ht3⟩, ⟨Hc4, Hs4, Ht4⟩, ⟨Hc5, Hs5, Ht5⟩, ⟨Hc6, Hs6, Ht6⟩, ⟨Hc7, Hs7, Ht7⟩, Hr0, Hr1, Hr2, Hbrest, Hsrest⟩
  isplitl [Htrest Ht0 Ht1 Ht2 Ht3 Ht4 Ht5 Ht6 Ht7 Htail Hidx Hout]
  · isplitl [Htrest Ht0 Ht1 Ht2 Ht3 Ht4 Ht5 Ht6 Ht7]
    · iapply (toks8 (F := F) d L (tabT m d)).2
      isplitl [Htrest]; · iexact Htrest
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    isplitl [Htail]; · iexact Htail
    isplitl [Hidx]; · iexact Hidx
    iexists fout
    isplitr
    · ipureintro; exact hout
    · iexact Hout
  isplitl [Hsi Hst Hsc Hs0 Hs1 Hs2 Hs3 Hs4 Hs5 Hs6 Hs7 Hbrest]
  · isplitl [Hsi]; · iexists gi; iexact Hsi
    isplitl [Hs0 Hs1 Hs2 Hs3 Hs4 Hs5 Hs6 Hs7]
    · iapply (slabs_join (F := F) d L)
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    isplitl [Hst]; · iexists gt; iexact Hst
    isplitl [Hsc]; · iexists gc; iexact Hsc
    iexact Hbrest
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hr0]; · iexact Hr0
  isplitl [Hr1]; · iexact Hr1
  isplitl [Hr2]; · iexact Hr2
  iexact Hsrest

end Cert.Proof.KB

end
-- ==== Proof.KB.OutOK.lean ====
/-
  The subcore's columns of the result after its write-out: when every column of the column scratch is the looked-up
  column, the 512 columns of the result the subcore owns hold what the result owes there.
-/
import proofs.«209800_g17188459118626_cont_7to1_163_19_alg».proof.Proof.KB.Inv
import proofs.«209800_g17188459118626_cont_7to1_163_19_alg».proof.Proof.KB.Value

noncomputable section

namespace Cert.Proof.KB

open Cert.Kernel Cert.Kernel.Gen
open Idealize.ShloMosaic Idealize.ShloMosaic.ValueIdx

variable {F : FTy → Type} [FloatOps F]
variable (m : (ℓ : Loc nD τ sig) → Buf (Elt F) ℓ) (d : Dev nD) (L : grid0.Coords)

/-- All 512 columns of the column scratch looked up: the write-out leaves the subcore's columns of the result right. -/
theorem outOK_of_cols (gc : Buf (Elt F) ((sColW).view.loc (VT d L))) (hgc : ColsOK m d L 512 gc) :
    OutOK m d L ((outBlk L).view.writes (Elt F) (m (outLoc d))
      [⟨Rect.whole S32x512,
        ReadAs.same.apply (View.read (Elt F) (Memref.whole cc0_scratch3 : Memref sig .scVector .vmem S32x512 .f32).view gc)⟩]) :=
  fun r k => (Value.out_read L (m (outLoc d)) gc r k).trans (hgc r k k.isLt)

end Cert.Proof.KB

end
-- ==== Proof.KB.Body.lean ====
/-
  One vector subcore's task meets its specification. The task copies its 512 indices and the table's last 64 columns into
  its scratch, reads its first eight index words and starts, for each, the fetch of the 128 columns of the transposed
  table that hold the column the word names — one fetch per slot, each reading through its own share of the table —,
  then makes 64 trips, each waiting for the eight fetches in turn, copying the looked-up column of each into the column
  scratch and starting the fetch for the element eight places on; after the last trip every slot is at rest and all 512
  columns of the column scratch are the looked-up ones, and the write-out copies them to the subcore's columns of the
  result. Every index word read is an entry of the index array, so it names a row of the table: that is what lets each
  fetch start. The trips are the step proved apart (Region.lean); here are the state before the first trip, the
  loop by its invariant, and the end, where what the subcore holds is what it hands back and what it owns.
-/
import proofs.«209800_g17188459118626_cont_7to1_163_19_alg».proof.Proof.KB.Inv
import proofs.«209800_g17188459118626_cont_7to1_163_19_alg».proof.Proof.KB.Open
import proofs.«209800_g17188459118626_cont_7to1_163_19_alg».proof.Proof.KB.Value
import proofs.«209800_g17188459118626_cont_7to1_163_19_alg».proof.Proof.KB.Region
import proofs.«209800_g17188459118626_cont_7to1_163_19_alg».proof.Proof.KB.Exit
import proofs.«209800_g17188459118626_cont_7to1_163_19_alg».proof.Proof.KB.OutOK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

variable (m : (ℓ : Loc nD τ sig) → Buf (Elt F) ℓ)

variable [FloatOps F]

/-! ## The index words the prologue loads -/

/-- The index scratch after its copy, and the tail scratch after its copy. -/
abbrev giOf (d : Dev nD) (L : grid0.Coords) (fi : Buf (Elt F) ((sIdxW).view.loc (VT d L))) : Buf (Elt F) ((sIdxW).view.loc (VT d L)) :=
  (sIdxW).view.writes (Elt F) fi
    [⟨Rect.unit (s := S528) ![0] S512.size inb_S528_S512_0,
      ReadAs.same.apply (((idxW).slice (Rect.unit (s := S16384) (k0_off1 L) S512.size (k0_off1_inb L)) (fun _ => rfl)).view.read (Elt F) (m (idxLoc d)))⟩]
abbrev gtOf (d : Dev nD) (L : grid0.Coords) (ft : Buf (Elt F) ((sTailW).view.loc (VT d L))) : Buf (Elt F) ((sTailW).view.loc (VT d L)) :=
  (sTailW).view.write (Elt F) ft (ReadAs.same.apply ((tailW).view.read (Elt F) (tailT m d))) Finset.univ

/-- Lane 0 of a 16-lane load of the index scratch at offset o < 512, after the copy: index base L + o of the index array. -/
theorem cov_word (d : Dev nD) (L : grid0.Coords) (o : Fin 1 → ℕ) (ho : ∀ a, o a + S16.size a ≤ S528.size a) (hk : o 0 < 512)
    (hsl : S16.Slices ![0] S1) (hp : ∀ a, (![0] : Fin 1 → Nat) a < S1.size a) :
    extractAt ![0] (extractStridedSlice (s := S16) S1 ![0]
        ((sIdxW).view.readCov (Val := Elt F)
          [⟨Rect.unit (s := S528) ![0] S512.size inb_S528_S512_0,
            ReadAs.same.apply (((idxW).slice (Rect.unit (s := S16384) (k0_off1 L) S512.size (k0_off1_inb L)) (fun _ => rfl)).view.read (Elt F) (m (idxLoc d)))⟩]
          (Rect.unit (s := S528) o S16.size ho).toLoadRect) hsl) hp
      = m (idxLoc d) (ix1 ⟨base L + o 0, base_add_lt L ⟨o 0, hk⟩⟩) := by
  unfold View.readCov
  exact (Value.lane0_read _ o ho).trans (Value.idx_read m d L _ (o 0) hk)

theorem cov_word_le (d : Dev nD) (L : grid0.Coords) (hr : Cert.Lookup.InRange (m (idxLoc d))) (o : Fin 1 → ℕ)
    (ho : ∀ a, o a + S16.size a ≤ S528.size a) (hk : o 0 < 512)
    (hsl : S16.Slices ![0] S1) (hp : ∀ a, (![0] : Fin 1 → Nat) a < S1.size a) :
    (extractAt ![0] (extractStridedSlice (s := S16) S1 ![0]
        ((sIdxW).view.readCov (Val := Elt F)
          [⟨Rect.unit (s := S528) ![0] S512.size inb_S528_S512_0,
            ReadAs.same.apply (((idxW).slice (Rect.unit (s := S16384) (k0_off1 L) S512.size (k0_off1_inb L)) (fun _ => rfl)).view.read (Elt F) (m (idxLoc d)))⟩]
          (Rect.unit (s := S528) o S16.size ho).toLoadRect) hsl) hp).toNat ≤ 999999 := by
  rw [cov_word m d L o ho hk hsl hp]; exact hr _

theorem idxHolds (d : Dev nD) (L : grid0.Coords) (fi : Buf (Elt F) ((sIdxW).view.loc (VT d L))) : IdxHolds m d L (giOf m d L fi) :=
  fun k => Value.idx_read m d L fi k.val k.isLt

theorem tailHolds (d : Dev nD) (L : grid0.Coords) (ft : Buf (Elt F) ((sTailW).view.loc (VT d L))) : TailHolds m d L (gtOf m d L ft) :=
  fun r l => (congrFun (Memref.read_access_whole (Elt F) cc0_scratch2 _) (ix2 r l)).symm.trans (Value.tail_read m d ft r l)

theorem cov_word_cw (d : Dev nD) (L : grid0.Coords) (fi : Buf (Elt F) ((sIdxW).view.loc (VT d L))) (b : ℕ)
    (hb : ∀ a, (![b] : Fin 1 → ℕ) a + S16.size a ≤ S528.size a) (hk : b < 512)
    (hsl : S16.Slices ![0] S1) (hp : ∀ a, (![0] : Fin 1 → Nat) a < S1.size a) (e : ℕ) (he : e = b) :
    extractAt ![0] (extractStridedSlice (s := S16) S1 ![0]
        ((sIdxW).view.readCov (Val := Elt F) [⟨Rect.unit (s := S528) ![0] S512.size inb_S528_S512_0,
      ReadAs.same.apply (((idxW).slice (Rect.unit (s := S16384) (k0_off1 L) S512.size (k0_off1_inb L)) (fun _ => rfl)).view.read (Elt F) (m (idxLoc d)))⟩]
          (Rect.unit (s := S528) ![b] S16.size hb).toLoadRect) hsl) hp
      = cw d L (giOf m d L fi) e := by
  subst he
  unfold cw
  rw [dif_pos (by omega : e < 528)]
  exact (cov_word m d L ![e] hb hk hsl hp).trans (Value.idx_read m d L fi e hk).symm
theorem waits_ins {W W' : Waits sig (HIx 1)} (a : SemLoc sig) (h : ∀ p ∈ W', p ∈ W ∨ p.2 = none) :
    ∀ p ∈ insert (a, (default : HIx 1)) W', p ∈ W ∨ p.2 = none := by
  intro p hp
  rcases Finset.mem_insert.mp hp with rfl | hp
  · exact .inr rfl
  · exact h p hp

/-- Before the first trip: no column is filled yet, and every slot is fetching for its own first element. -/
theorem inv_zero (d : Dev nD) (L : grid0.Coords) (O : CellTallies nD τ sig (HIx 1)) (W : Waits sig (HIx 1))
    (gi : Buf (Elt F) ((sIdxW).view.loc (VT d L))) (gt : Buf (Elt F) ((sTailW).view.loc (VT d L))) (gc : Buf (Elt F) ((sColW).view.loc (VT d L)))
    (w0 : RW) (h0 : w0.1 = cw d L gi (8 * 0 + 0)) (w1 : RW) (h1 : w1.1 = cw d L gi (8 * 0 + 1)) (w2 : RW) (h2 : w2.1 = cw d L gi (8 * 0 + 2)) (w3 : RW) (h3 : w3.1 = cw d L gi (8 * 0 + 3)) (w4 : RW) (h4 : w4.1 = cw d L gi (8 * 0 + 4)) (w5 : RW) (h5 : w5.1 = cw d L gi (8 * 0 + 5)) (w6 : RW) (h6 : w6.1 = cw d L gi (8 * 0 + 6)) (w7 : RW) (h7 : w7.1 = cw d L gi (8 * 0 + 7)) :
    iprop(Transfers.MayWaits (VT d L) (none : HIx 1) O
      ∗ ((sIdxW).view.loc (VT d L) ↦{fullShare} gi) ∗ ((sTailW).view.loc (VT d L) ↦{fullShare} gt) ∗ ((sColW).view.loc (VT d L) ↦{fullShare} gc)
      ∗ fly0 m d L w0 ∗ fly1 m d L w1 ∗ fly2 m d L w2 ∗ fly3 m d L w3 ∗ fly4 m d L w4 ∗ fly5 m d L w5 ∗ fly6 m d L w6 ∗ fly7 m d L w7
      ∗ ∃ W', ⌜∀ p ∈ W', p ∈ W ∨ p.2 = none⌝ ∗ owes (VT d L) O W')
    ⊢ inv m d L O W gi gt 0 () := by
  have h64 : (0 : ℕ) < 64 := by decide
  unfold inv slot0 slot1 slot2 slot3 slot4 slot5 slot6 slot7
  rw [if_pos h64, if_pos h64, if_pos h64, if_pos h64, if_pos h64, if_pos h64, if_pos h64, if_pos h64]
  iintro ⟨Hmw, Hsi, Hst, Hsc, H0, H1, H2, H3, H4, H5, H6, H7, HO⟩
  isplitl [Hmw]; · iexact Hmw
  isplitl [Hsi]; · iexact Hsi
  isplitl [Hst]; · iexact Hst
  isplitl [Hsc]
  · iexists gc; isplitr
    · ipureintro; exact fun r k h => absurd h (by omega)
    · iexact Hsc
  isplitl [H0]
  · iexists w0; isplitr
    · ipureintro; exact h0
    · iexact H0
  isplitl [H1]
  · iexists w1; isplitr
    · ipureintro; exact h1
    · iexact H1
  isplitl [H2]
  · iexists w2; isplitr
    · ipureintro; exact h2
    · iexact H2
  isplitl [H3]
  · iexists w3; isplitr
    · ipureintro; exact h3
    · iexact H3
  isplitl [H4]
  · iexists w4; isplitr
    · ipureintro; exact h4
    · iexact H4
  isplitl [H5]
  · iexists w5; isplitr
    · ipureintro; exact h5
    · iexact H5
  isplitl [H6]
  · iexists w6; isplitr
    · ipureintro; exact h6
    · iexact H6
  isplitl [H7]
  · iexists w7; isplitr
    · ipureintro; exact h7
    · iexact H7
  iexact HO

/-- Before the first trip, from what the prologue leaves: no column is filled yet, and slot b is fetching the 128 columns
    the index word v b names. -/
theorem init_goal (d : Dev nD) (L : grid0.Coords) (O : CellTallies nD τ sig (HIx 1)) (W : Waits sig (HIx 1))
    (gi : Buf (Elt F) ((sIdxW).view.loc (VT d L))) (gt : Buf (Elt F) ((sTailW).view.loc (VT d L))) (gc : Buf (Elt F) ((sColW).view.loc (VT d L)))
    (fs : Buf (Elt F) ((VT d L).loc cc0_scratch1))
    (v0 : BitVec 32) (hv0 : v0.toNat ≤ 999999) (hc0 : v0 = cw d L gi (8 * 0 + 0)) (p0 : ∀ a, (k0_off2 v0) a + S32x128.size a ≤ S32x1000000.size a)
    (v1 : BitVec 32) (hv1 : v1.toNat ≤ 999999) (hc1 : v1 = cw d L gi (8 * 0 + 1)) (p1 : ∀ a, (k0_off3 v1) a + S32x128.size a ≤ S32x1000000.size a)
    (v2 : BitVec 32) (hv2 : v2.toNat ≤ 999999) (hc2 : v2 = cw d L gi (8 * 0 + 2)) (p2 : ∀ a, (k0_off4 v2) a + S32x128.size a ≤ S32x1000000.size a)
    (v3 : BitVec 32) (hv3 : v3.toNat ≤ 999999) (hc3 : v3 = cw d L gi (8 * 0 + 3)) (p3 : ∀ a, (k0_off5 v3) a + S32x128.size a ≤ S32x1000000.size a)
    (v4 : BitVec 32) (hv4 : v4.toNat ≤ 999999) (hc4 : v4 = cw d L gi (8 * 0 + 4)) (p4 : ∀ a, (k0_off6 v4) a + S32x128.size a ≤ S32x1000000.size a)
    (v5 : BitVec 32) (hv5 : v5.toNat ≤ 999999) (hc5 : v5 = cw d L gi (8 * 0 + 5)) (p5 : ∀ a, (k0_off7 v5) a + S32x128.size a ≤ S32x1000000.size a)
    (v6 : BitVec 32) (hv6 : v6.toNat ≤ 999999) (hc6 : v6 = cw d L gi (8 * 0 + 6)) (p6 : ∀ a, (k0_off8 v6) a + S32x128.size a ≤ S32x1000000.size a)
    (v7 : BitVec 32) (hv7 : v7.toNat ≤ 999999) (hc7 : v7 = cw d L gi (8 * 0 + 7)) (p7 : ∀ a, (k0_off9 v7) a + S32x128.size a ≤ S32x1000000.size a) :
    iprop(Transfers.MayWaits (VT d L) (none : HIx 1) O
      ∗ ((sIdxW).view.loc (VT d L) ↦{fullShare} gi) ∗ ((sTailW).view.loc (VT d L) ↦{fullShare} gt) ∗ ((sColW).view.loc (VT d L) ↦{fullShare} gc)
      ∗ (Transfers.Flight countersEmb (VT d L) (SemLoc.dma ⟨0, by decide⟩ : SemLoc sig) default 131072
          iprop(((slabM 0 inb_S8x32x128_S1x32x128_0_0_0).view.loc (VT d L) ↦[(slabM 0 inb_S8x32x128_S1x32x128_0_0_0).view.set]{fullShare}
                (slabM 0 inb_S8x32x128_S1x32x128_0_0_0).view.writes (Elt F) fs [⟨Rect.whole S32x128, ReadAs.same.apply (View.read (Elt F) ((Memref.whole main_v0_scv : Memref sig .scVector .hbm S32x1000000 .f32).slice (Rect.unit (s := S32x1000000) (k0_off2 v0) S32x128.size p0) (fun _ => rfl)).view (tabT m d))⟩])
            ∗ ((tabW).view.loc (VT d L) ↦[((Memref.whole main_v0_scv : Memref sig .scVector .hbm S32x1000000 .f32).slice (Rect.unit (s := S32x1000000) (k0_off2 v0) S32x128.size p0) (fun _ => rfl)).view.set]{Transfers.shareTokN (tq L) 0} tabT m d)))
      ∗ ((tabW).view.loc (VT d L) ↦[Finset.univ \ ((Memref.whole main_v0_scv : Memref sig .scVector .hbm S32x1000000 .f32).slice (Rect.unit (s := S32x1000000) (k0_off2 v0) S32x128.size p0) (fun _ => rfl)).view.set]{Transfers.shareTokN (tq L) 0} tabT m d)
      ∗ (Transfers.Flight countersEmb (VT d L) (SemLoc.dma ⟨1, by decide⟩ : SemLoc sig) default 131072
          iprop(((slabM 1 inb_S8x32x128_S1x32x128_1_0_0).view.loc (VT d L) ↦[(slabM 1 inb_S8x32x128_S1x32x128_1_0_0).view.set]{fullShare}
                (slabM 1 inb_S8x32x128_S1x32x128_1_0_0).view.writes (Elt F) fs [⟨Rect.whole S32x128, ReadAs.same.apply (View.read (Elt F) ((Memref.whole main_v0_scv : Memref sig .scVector .hbm S32x1000000 .f32).slice (Rect.unit (s := S32x1000000) (k0_off3 v1) S32x128.size p1) (fun _ => rfl)).view (tabT m d))⟩])
            ∗ ((tabW).view.loc (VT d L) ↦[((Memref.whole main_v0_scv : Memref sig .scVector .hbm S32x1000000 .f32).slice (Rect.unit (s := S32x1000000) (k0_off3 v1) S32x128.size p1) (fun _ => rfl)).view.set]{Transfers.shareTokN (tq L) 1} tabT m d)))
      ∗ ((tabW).view.loc (VT d L) ↦[Finset.univ \ ((Memref.whole main_v0_scv : Memref sig .scVector .hbm S32x1000000 .f32).slice (Rect.unit (s := S32x1000000) (k0_off3 v1) S32x128.size p1) (fun _ => rfl)).view.set]{Transfers.shareTokN (tq L) 1} tabT m d)
      ∗ (Transfers.Flight countersEmb (VT d L) (SemLoc.dma ⟨2, by decide⟩ : SemLoc sig) default 131072
          iprop(((slabM 2 inb_S8x32x128_S1x32x128_2_0_0).view.loc (VT d L) ↦[(slabM 2 inb_S8x32x128_S1x32x128_2_0_0).view.set]{fullShare}
                (slabM 2 inb_S8x32x128_S1x32x128_2_0_0).view.writes (Elt F) fs [⟨Rect.whole S32x128, ReadAs.same.apply (View.read (Elt F) ((Memref.whole main_v0_scv : Memref sig .scVector .hbm S32x1000000 .f32).slice (Rect.unit (s := S32x1000000) (k0_off4 v2) S32x128.size p2) (fun _ => rfl)).view (tabT m d))⟩])
            ∗ ((tabW).view.loc (VT d L) ↦[((Memref.whole main_v0_scv : Memref sig .scVector .hbm S32x1000000 .f32).slice (Rect.unit (s := S32x1000000) (k0_off4 v2) S32x128.size p2) (fun _ => rfl)).view.set]{Transfers.shareTokN (tq L) 2} tabT m d)))
      ∗ ((tabW).view.loc (VT d L) ↦[Finset.univ \ ((Memref.whole main_v0_scv : Memref sig .scVector .hbm S32x1000000 .f32).slice (Rect.unit (s := S32x1000000) (k0_off4 v2) S32x128.size p2) (fun _ => rfl)).view.set]{Transfers.shareTokN (tq L) 2} tabT m d)
      ∗ (Transfers.Flight countersEmb (VT d L) (SemLoc.dma ⟨3, by decide⟩ : SemLoc sig) default 131072
          iprop(((slabM 3 inb_S8x32x128_S1x32x128_3_0_0).view.loc (VT d L) ↦[(slabM 3 inb_S8x32x128_S1x32x128_3_0_0).view.set]{fullShare}
                (slabM 3 inb_S8x32x128_S1x32x128_3_0_0).view.writes (Elt F) fs [⟨Rect.whole S32x128, ReadAs.same.apply (View.read (Elt F) ((Memref.whole main_v0_scv : Memref sig .scVector .hbm S32x1000000 .f32).slice (Rect.unit (s := S32x1000000) (k0_off5 v3) S32x128.size p3) (fun _ => rfl)).view (tabT m d))⟩])
            ∗ ((tabW).view.loc (VT d L) ↦[((Memref.whole main_v0_scv : Memref sig .scVector .hbm S32x1000000 .f32).slice (Rect.unit (s := S32x1000000) (k0_off5 v3) S32x128.size p3) (fun _ => rfl)).view.set]{Transfers.shareTokN (tq L) 3} tabT m d)))
      ∗ ((tabW).view.loc (VT d L) ↦[Finset.univ \ ((Memref.whole main_v0_scv : Memref sig .scVector .hbm S32x1000000 .f32).slice (Rect.unit (s := S32x1000000) (k0_off5 v3) S32x128.size p3) (fun _ => rfl)).view.set]{Transfers.shareTokN (tq L) 3} tabT m d)
      ∗ (Transfers.Flight countersEmb (VT d L) (SemLoc.dma ⟨4, by decide⟩ : SemLoc sig) default 131072
          iprop(((slabM 4 inb_S8x32x128_S1x32x128_4_0_0).view.loc (VT d L) ↦[(slabM 4 inb_S8x32x128_S1x32x128_4_0_0).view.set]{fullShare}
                (slabM 4 inb_S8x32x128_S1x32x128_4_0_0).view.writes (Elt F) fs [⟨Rect.whole S32x128, ReadAs.same.apply (View.read (Elt F) ((Memref.whole main_v0_scv : Memref sig .scVector .hbm S32x1000000 .f32).slice (Rect.unit (s := S32x1000000) (k0_off6 v4) S32x128.size p4) (fun _ => rfl)).view (tabT m d))⟩])
            ∗ ((tabW).view.loc (VT d L) ↦[((Memref.whole main_v0_scv : Memref sig .scVector .hbm S32x1000000 .f32).slice (Rect.unit (s := S32x1000000) (k0_off6 v4) S32x128.size p4) (fun _ => rfl)).view.set]{Transfers.shareTokN (tq L) 4} tabT m d)))
      ∗ ((tabW).view.loc (VT d L) ↦[Finset.univ \ ((Memref.whole main_v0_scv : Memref sig .scVector .hbm S32x1000000 .f32).slice (Rect.unit (s := S32x1000000) (k0_off6 v4) S32x128.size p4) (fun _ => rfl)).view.set]{Transfers.shareTokN (tq L) 4} tabT m d)
      ∗ (Transfers.Flight countersEmb (VT d L) (SemLoc.dma ⟨5, by decide⟩ : SemLoc sig) default 131072
          iprop(((slabM 5 inb_S8x32x128_S1x32x128_5_0_0).view.loc (VT d L) ↦[(slabM 5 inb_S8x32x128_S1x32x128_5_0_0).view.set]{fullShare}
                (slabM 5 inb_S8x32x128_S1x32x128_5_0_0).view.writes (Elt F) fs [⟨Rect.whole S32x128, ReadAs.same.apply (View.read (Elt F) ((Memref.whole main_v0_scv : Memref sig .scVector .hbm S32x1000000 .f32).slice (Rect.unit (s := S32x1000000) (k0_off7 v5) S32x128.size p5) (fun _ => rfl)).view (tabT m d))⟩])
            ∗ ((tabW).view.loc (VT d L) ↦[((Memref.whole main_v0_scv : Memref sig .scVector .hbm S32x1000000 .f32).slice (Rect.unit (s := S32x1000000) (k0_off7 v5) S32x128.size p5) (fun _ => rfl)).view.set]{Transfers.shareTokN (tq L) 5} tabT m d)))
      ∗ ((tabW).view.loc (VT d L) ↦[Finset.univ \ ((Memref.whole main_v0_scv : Memref sig .scVector .hbm S32x1000000 .f32).slice (Rect.unit (s := S32x1000000) (k0_off7 v5) S32x128.size p5) (fun _ => rfl)).view.set]{Transfers.shareTokN (tq L) 5} tabT m d)
      ∗ (Transfers.Flight countersEmb (VT d L) (SemLoc.dma ⟨6, by decide⟩ : SemLoc sig) default 131072
          iprop(((slabM 6 inb_S8x32x128_S1x32x128_6_0_0).view.loc (VT d L) ↦[(slabM 6 inb_S8x32x128_S1x32x128_6_0_0).view.set]{fullShare}
                (slabM 6 inb_S8x32x128_S1x32x128_6_0_0).view.writes (Elt F) fs [⟨Rect.whole S32x128, ReadAs.same.apply (View.read (Elt F) ((Memref.whole main_v0_scv : Memref sig .scVector .hbm S32x1000000 .f32).slice (Rect.unit (s := S32x1000000) (k0_off8 v6) S32x128.size p6) (fun _ => rfl)).view (tabT m d))⟩])
            ∗ ((tabW).view.loc (VT d L) ↦[((Memref.whole main_v0_scv : Memref sig .scVector .hbm S32x1000000 .f32).slice (Rect.unit (s := S32x1000000) (k0_off8 v6) S32x128.size p6) (fun _ => rfl)).view.set]{Transfers.shareTokN (tq L) 6} tabT m d)))
      ∗ ((tabW).view.loc (VT d L) ↦[Finset.univ \ ((Memref.whole main_v0_scv : Memref sig .scVector .hbm S32x1000000 .f32).slice (Rect.unit (s := S32x1000000) (k0_off8 v6) S32x128.size p6) (fun _ => rfl)).view.set]{Transfers.shareTokN (tq L) 6} tabT m d)
      ∗ (Transfers.Flight countersEmb (VT d L) (SemLoc.dma ⟨7, by decide⟩ : SemLoc sig) default 131072
          iprop(((slabM 7 inb_S8x32x128_S1x32x128_7_0_0).view.loc (VT d L) ↦[(slabM 7 inb_S8x32x128_S1x32x128_7_0_0).view.set]{fullShare}
                (slabM 7 inb_S8x32x128_S1x32x128_7_0_0).view.writes (Elt F) fs [⟨Rect.whole S32x128, ReadAs.same.apply (View.read (Elt F) ((Memref.whole main_v0_scv : Memref sig .scVector .hbm S32x1000000 .f32).slice (Rect.unit (s := S32x1000000) (k0_off9 v7) S32x128.size p7) (fun _ => rfl)).view (tabT m d))⟩])
            ∗ ((tabW).view.loc (VT d L) ↦[((Memref.whole main_v0_scv : Memref sig .scVector .hbm S32x1000000 .f32).slice (Rect.unit (s := S32x1000000) (k0_off9 v7) S32x128.size p7) (fun _ => rfl)).view.set]{Transfers.shareTokN (tq L) 7} tabT m d)))
      ∗ ((tabW).view.loc (VT d L) ↦[Finset.univ \ ((Memref.whole main_v0_scv : Memref sig .scVector .hbm S32x1000000 .f32).slice (Rect.unit (s := S32x1000000) (k0_off9 v7) S32x128.size p7) (fun _ => rfl)).view.set]{Transfers.shareTokN (tq L) 7} tabT m d)
      ∗ ∃ W', ⌜∀ p ∈ W', p ∈ W ∨ p.2 = none⌝ ∗ owes (VT d L) O W')
    ⊢ inv m d L O W gi gt 0 () := by
  refine BIBase.Entails.trans ?_ (inv_zero m d L O W gi gt gc ⟨v0, hv0⟩ hc0 ⟨v1, hv1⟩ hc1 ⟨v2, hv2⟩ hc2 ⟨v3, hv3⟩ hc3 ⟨v4, hv4⟩ hc4 ⟨v5, hv5⟩ hc5 ⟨v6, hv6⟩ hc6 ⟨v7, hv7⟩ hc7)
  iintro ⟨Hmw, Hsi, Hst, Hsc, Hc0, Ht0, Hc1, Ht1, Hc2, Ht2, Hc3, Ht3, Hc4, Ht4, Hc5, Ht5, Hc6, Ht6, Hc7, Ht7, HO⟩
  isplitl [Hmw]; · iexact Hmw
  isplitl [Hsi]; · iexact Hsi
  isplitl [Hst]; · iexact Hst
  isplitl [Hsc]; · iexact Hsc
  isplitl [Hc0 Ht0]
  · unfold fly0
    isplitl [Hc0]
    · iexists fs; iexact Hc0
    · iexact Ht0
  isplitl [Hc1 Ht1]
  · unfold fly1
    isplitl [Hc1]
    · iexists fs; iexact Hc1
    · iexact Ht1
  isplitl [Hc2 Ht2]
  · unfold fly2
    isplitl [Hc2]
    · iexists fs; iexact Hc2
    · iexact Ht2
  isplitl [Hc3 Ht3]
  · unfold fly3
    isplitl [Hc3]
    · iexists fs; iexact Hc3
    · iexact Ht3
  isplitl [Hc4 Ht4]
  · unfold fly4
    isplitl [Hc4]
    · iexists fs; iexact Hc4
    · iexact Ht4
  isplitl [Hc5 Ht5]
  · unfold fly5
    isplitl [Hc5]
    · iexists fs; iexact Hc5
    · iexact Ht5
  isplitl [Hc6 Ht6]
  · unfold fly6
    isplitl [Hc6]
    · iexists fs; iexact Hc6
    · iexact Ht6
  isplitl [Hc7 Ht7]
  · unfold fly7
    isplitl [Hc7]
    · iexists fs; iexact Hc7
    · iexact Ht7
  iexact HO

set_option maxHeartbeats 8000000 in
theorem tile_body_at
    (d : Dev nD) (L : grid0.Coords) (O : CellTallies nD τ sig (HIx 1)) (W : Waits sig (HIx 1)) (hO : ∀ g, O g none = 0)
    (hr : Cert.Lookup.InRange (m (idxLoc d))) :
    iprop(levAts (K (F := F)).L (K (F := F)).lev ∗ emp ∗ tileGo m d L
        ∗ scopedBufs (VT d L) ∗ scopedSems0 (VT d L) ∗ owes (VT d L) O W)
      ⊢ wp frame (wpE (defs₀ (F := F)) 𝒱₀ (VT d L) none) Set.univ (task (F := F) L)
          fun _ => (iprop(tileTd m d L ∗ scopedBufs (VT d L) ∗ scopedSems0 (VT d L)
            ∗ ∃ W', ⌜∀ p ∈ W', p ∈ W ∨ p.2 = none⌝ ∗ owes (VT d L) O W') : sProp (MM F)) := by
  unfold tileGo
  unfold task
  rw [cc0_gather_eq_skeleton]; unfold cc0_gather_skel
  iintro ⟨#Hlv, -, ⟨Htab, Htail, Hidx, Hout⟩, Hsb, Hss, HO⟩
  ihave Hsb' := (Entails.of_eq ((K (F := F)).scopedBufs_V facts d _ _)) $$ Hsb
  ihave Hob := (Entails.of_eq (ownBufs_VT (F := F) d L)) $$ Hsb'
  icases Hob with ⟨⟨%fi, Hsi⟩, ⟨%fs, Hs⟩, ⟨%ft, Hst⟩, ⟨%fc, Hsc⟩, Hbrest⟩
  ihave Hss' := (Entails.of_eq (SparseCore.Cfg.scopedSems0_V (Val := Elt F) d _ _)) $$ Hss
  ihave Hos := (Entails.of_eq (ownSems0_VT (F := F) d L)) $$ Hss'
  icases Hos with ⟨Hc0, Hc1, Hc2, Hc3, Hc4, Hc5, Hc6, Hc7, Hr0, Hr1, Hr2, Hsrest⟩
  ihave Hmw := ((K (F := F)).mayWaits_none (thr := VT d L) hO) $$ Hlv
  ihave Ht8 := (toks8 (F := F) d L (tabT m d)).1 $$ Htab
  icases Ht8 with ⟨Htrest, Ht0, Ht1, Ht2, Ht3, Ht4, Ht5, Ht6, Ht7⟩
  ihave Hs8 := (slabs_split (F := F) d L fs).1 $$ Hs
  icases Hs8 with ⟨Hs0, Hs1, Hs2, Hs3, Hs4, Hs5, Hs6, Hs7⟩
  -- the arrays and scratches under the spelling the task's memrefs give them
  ihave Ht0 := (Entails.of_eq (pts_tab (F := F) d L Finset.univ _ _).symm) $$ Ht0
  ihave Ht1 := (Entails.of_eq (pts_tab (F := F) d L Finset.univ _ _).symm) $$ Ht1
  ihave Ht2 := (Entails.of_eq (pts_tab (F := F) d L Finset.univ _ _).symm) $$ Ht2
  ihave Ht3 := (Entails.of_eq (pts_tab (F := F) d L Finset.univ _ _).symm) $$ Ht3
  ihave Ht4 := (Entails.of_eq (pts_tab (F := F) d L Finset.univ _ _).symm) $$ Ht4
  ihave Ht5 := (Entails.of_eq (pts_tab (F := F) d L Finset.univ _ _).symm) $$ Ht5
  ihave Ht6 := (Entails.of_eq (pts_tab (F := F) d L Finset.univ _ _).symm) $$ Ht6
  ihave Ht7 := (Entails.of_eq (pts_tab (F := F) d L Finset.univ _ _).symm) $$ Ht7
  ihave Htail := (Entails.of_eq (pts_tail (F := F) d L Finset.univ _ _).symm) $$ Htail
  ihave Hidx := (Entails.of_eq (pts_idx (F := F) d L Finset.univ _ _).symm) $$ Hidx
  ihave Hout := (Entails.of_eq (pts_out (F := F) d L _ _).symm) $$ Hout
  ihave Hsi := (Entails.of_eq (pts_s0 (F := F) d L _ _).symm) $$ Hsi
  ihave Hst := (Entails.of_eq (pts_s2 (F := F) d L _ _).symm) $$ Hst
  ihave Hsc := (Entails.of_eq (pts_s3 (F := F) d L _ _).symm) $$ Hsc
  sl_exec (disch := exact Words.fire_ok _ (cov_word_le m d L hr _ _ (by decide) _ _))
  have hgi : IdxHolds m d L ((sIdxW).view.writes (Elt F) fi [⟨Rect.unit (s := S528) ![0] S512.size inb_S528_S512_0, tile_body_at.sl.dma0 m d L⟩]) := idxHolds m d L fi
  have hgt : TailHolds m d L ((sTailW).view.write (Elt F) ft (tile_body_at.sl.dma0_1 m d) Finset.univ) := tailHolds m d L ft
  have hv0 : (tile_body_at.sl.v8 m d L).toNat ≤ 999999 := cov_word_le m d L hr ![0] inb_S528_S16_0 (by decide) _ _
  have hc0 : tile_body_at.sl.v8 m d L = cw d L ((sIdxW).view.writes (Elt F) fi [⟨Rect.unit (s := S528) ![0] S512.size inb_S528_S512_0, tile_body_at.sl.dma0 m d L⟩]) (8 * 0 + 0) := cov_word_cw m d L fi 0 inb_S528_S16_0 (by decide) _ _ _ rfl
  have hv1 : (tile_body_at.sl.v21 m d L).toNat ≤ 999999 := cov_word_le m d L hr ![1] inb_S528_S16_1 (by decide) _ _
  have hc1 : tile_body_at.sl.v21 m d L = cw d L ((sIdxW).view.writes (Elt F) fi [⟨Rect.unit (s := S528) ![0] S512.size inb_S528_S512_0, tile_body_at.sl.dma0 m d L⟩]) (8 * 0 + 1) := cov_word_cw m d L fi 1 inb_S528_S16_1 (by decide) _ _ _ rfl
  have hv2 : (tile_body_at.sl.v34 m d L).toNat ≤ 999999 := cov_word_le m d L hr ![2] inb_S528_S16_2 (by decide) _ _
  have hc2 : tile_body_at.sl.v34 m d L = cw d L ((sIdxW).view.writes (Elt F) fi [⟨Rect.unit (s := S528) ![0] S512.size inb_S528_S512_0, tile_body_at.sl.dma0 m d L⟩]) (8 * 0 + 2) := cov_word_cw m d L fi 2 inb_S528_S16_2 (by decide) _ _ _ rfl
  have hv3 : (tile_body_at.sl.v47 m d L).toNat ≤ 999999 := cov_word_le m d L hr ![3] inb_S528_S16_3 (by decide) _ _
  have hc3 : tile_body_at.sl.v47 m d L = cw d L ((sIdxW).view.writes (Elt F) fi [⟨Rect.unit (s := S528) ![0] S512.size inb_S528_S512_0, tile_body_at.sl.dma0 m d L⟩]) (8 * 0 + 3) := cov_word_cw m d L fi 3 inb_S528_S16_3 (by decide) _ _ _ rfl
  have hv4 : (tile_body_at.sl.v60 m d L).toNat ≤ 999999 := cov_word_le m d L hr ![4] inb_S528_S16_4 (by decide) _ _
  have hc4 : tile_body_at.sl.v60 m d L = cw d L ((sIdxW).view.writes (Elt F) fi [⟨Rect.unit (s := S528) ![0] S512.size inb_S528_S512_0, tile_body_at.sl.dma0 m d L⟩]) (8 * 0 + 4) := cov_word_cw m d L fi 4 inb_S528_S16_4 (by decide) _ _ _ rfl
  have hv5 : (tile_body_at.sl.v73 m d L).toNat ≤ 999999 := cov_word_le m d L hr ![5] inb_S528_S16_5 (by decide) _ _
  have hc5 : tile_body_at.sl.v73 m d L = cw d L ((sIdxW).view.writes (Elt F) fi [⟨Rect.unit (s := S528) ![0] S512.size inb_S528_S512_0, tile_body_at.sl.dma0 m d L⟩]) (8 * 0 + 5) := cov_word_cw m d L fi 5 inb_S528_S16_5 (by decide) _ _ _ rfl
  have hv6 : (tile_body_at.sl.v86 m d L).toNat ≤ 999999 := cov_word_le m d L hr ![6] inb_S528_S16_6 (by decide) _ _
  have hc6 : tile_body_at.sl.v86 m d L = cw d L ((sIdxW).view.writes (Elt F) fi [⟨Rect.unit (s := S528) ![0] S512.size inb_S528_S512_0, tile_body_at.sl.dma0 m d L⟩]) (8 * 0 + 6) := cov_word_cw m d L fi 6 inb_S528_S16_6 (by decide) _ _ _ rfl
  have hv7 : (tile_body_at.sl.v99 m d L).toNat ≤ 999999 := cov_word_le m d L hr ![7] inb_S528_S16_7 (by decide) _ _
  have hc7 : tile_body_at.sl.v99 m d L = cw d L ((sIdxW).view.writes (Elt F) fi [⟨Rect.unit (s := S528) ![0] S512.size inb_S528_S512_0, tile_body_at.sl.dma0 m d L⟩]) (8 * 0 + 7) := cov_word_cw m d L fi 7 inb_S528_S16_7 (by decide) _ _ _ rfl
  sl_for (inv m d L O W ((sIdxW).view.writes (Elt F) fi [⟨Rect.unit (s := S528) ![0] S512.size inb_S528_S512_0, tile_body_at.sl.dma0 m d L⟩]) ((sTailW).view.write (Elt F) ft (tile_body_at.sl.dma0_1 m d) Finset.univ)) $$ [Hmw Hsi Hst Hsc Hc0 Ht0 Hc1 Ht1 Hc2 Ht2 Hc3 Ht3 Hc4 Ht4 Hc5 Ht5 Hc6 Ht6 Hc7 Ht7 HO]
  case region => exact region_step m d L O W _ _ hr hgi hgt hO
  · -- before the first trip: slot b is fetching for the index word the prologue loaded at offset b
    iapply (init_goal m d L O W ((sIdxW).view.writes (Elt F) fi [⟨Rect.unit (s := S528) ![0] S512.size inb_S528_S512_0, tile_body_at.sl.dma0 m d L⟩]) ((sTailW).view.write (Elt F) ft (tile_body_at.sl.dma0_1 m d) Finset.univ) fc fs
      (tile_body_at.sl.v8 m d L) hv0 hc0 (k0_off2_inb _ (Words.fire_ok _ hv0))
      (tile_body_at.sl.v21 m d L) hv1 hc1 (k0_off3_inb _ (Words.fire_ok _ hv1))
      (tile_body_at.sl.v34 m d L) hv2 hc2 (k0_off4_inb _ (Words.fire_ok _ hv2))
      (tile_body_at.sl.v47 m d L) hv3 hc3 (k0_off5_inb _ (Words.fire_ok _ hv3))
      (tile_body_at.sl.v60 m d L) hv4 hc4 (k0_off6_inb _ (Words.fire_ok _ hv4))
      (tile_body_at.sl.v73 m d L) hv5 hc5 (k0_off7_inb _ (Words.fire_ok _ hv5))
      (tile_body_at.sl.v86 m d L) hv6 hc6 (k0_off8_inb _ (Words.fire_ok _ hv6))
      (tile_body_at.sl.v99 m d L) hv7 hc7 (k0_off9_inb _ (Words.fire_ok _ hv7)))
    isplitl [Hmw]; · iexact Hmw
    isplitl [Hsi]; · iexact Hsi
    isplitl [Hst]; · iexact Hst
    isplitl [Hsc]; · iexact Hsc
    isplitl [Hc0]; · iexact Hc0
    isplitl [Ht0]; · iexact Ht0
    isplitl [Hc1]; · iexact Hc1
    isplitl [Ht1]; · iexact Ht1
    isplitl [Hc2]; · iexact Hc2
    isplitl [Ht2]; · iexact Ht2
    isplitl [Hc3]; · iexact Hc3
    isplitl [Ht3]; · iexact Ht3
    isplitl [Hc4]; · iexact Hc4
    isplitl [Ht4]; · iexact Ht4
    isplitl [Hc5]; · iexact Hc5
    isplitl [Ht5]; · iexact Ht5
    isplitl [Hc6]; · iexact Hc6
    isplitl [Ht6]; · iexact Ht6
    isplitl [Hc7]; · iexact Hc7
    isplitl [Ht7]; · iexact Ht7
    iexists _; isplitr; swap
    · iexact HO
    · ipureintro; exact waits_ins _ (waits_ins _ (fun p hp => .inl hp))
  -- after the last trip: every slot at rest, all 512 columns filled; the write-out and its wait
  iintro %acc HI
  ihave HI' := (inv_exit m d L O W ((sIdxW).view.writes (Elt F) fi [⟨Rect.unit (s := S528) ![0] S512.size inb_S528_S512_0, tile_body_at.sl.dma0 m d L⟩]) ((sTailW).view.write (Elt F) ft (tile_body_at.sl.dma0_1 m d) Finset.univ) acc) $$ HI
  icases HI' with ⟨-, Hsi, Hst, ⟨%gc, %hgc, Hsc⟩, F0, F1, F2, F3, F4, F5, F6, F7, ⟨%W', %hW', HO⟩⟩
  sl_exec
  sl_step
  -- what the subcore holds is what it hands back and what it owns
  ihave Hcl := (close_task m d L ((sIdxW).view.writes (Elt F) fi [⟨Rect.unit (s := S528) ![0] S512.size inb_S528_S512_0, tile_body_at.sl.dma0 m d L⟩]) ((sTailW).view.write (Elt F) ft (tile_body_at.sl.dma0_1 m d) Finset.univ) gc _ (outOK_of_cols m d L gc hgc)) $$ [Htrest Htail Hidx Hout Hsi Hst Hsc F0 F1 F2 F3 F4 F5 F6 F7 Hr0 Hr1 Hr2 Hbrest Hsrest]
  · isplitl [Htrest]; · iexact Htrest
    isplitl [Htail]; · iexact Htail
    isplitl [Hidx]; · iexact Hidx
    isplitl [Hout]; · iexact Hout
    isplitl [Hsi]; · iexact Hsi
    isplitl [Hst]; · iexact Hst
    isplitl [Hsc]; · iexact Hsc
    isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [Hr0]; · iexact Hr0
    isplitl [Hr1]; · iexact Hr1
    isplitl [Hr2]; · iexact Hr2
    isplitl [Hbrest]; · iexact Hbrest
    iexact Hsrest
  icases Hcl with ⟨Htd, Hsb, Hss⟩
  isplitl [Htd]; · iexact Htd
  isplitl [Hsb]; · iexact Hsb
  isplitl [Hss]; · iexact Hss
  iexists _
  isplitr
  rotate_left
  · iexact HO
  · ipureintro; exact waits_ins _ hW'

/-- Every subcore's task meets its specification, once every index names a row of the table. -/
theorem tile_body (hr : ∀ d : Dev nD, Cert.Lookup.InRange (m (idxLoc d))) : TileBody (F := F) m :=
  fun d L O W hO => tile_body_at m d L O W hO (hr d)

end Cert.Proof.KB

end
-- ==== Proof.lean ====
/-
  The certificate of a lookup. Both programs take 16384 indices cond and a table of 1000000 rows of 32 numbers, and both
  return, for every b, row cond b of the table: result (b, d) = table (cond b, d), the function G of Proof/Spec.lean.
  The precondition says that every index names a row, 0 ≤ cond b ≤ 999999.

  The reference is one gather behind a test that the index names a row; the precondition makes the test true everywhere,
  so its composed term is G (Proof/RefRun.lean, Proof/RefValue.lean).

  The kernel moves the same rows by hand. @main transposes the table (32 × 1000000) and slices off its last 64 columns
  (1000000 = 7812 · 128 + 64: they fill no whole group of 128 columns). Thirty-two vector subcores, numbered
  w = 2 s + c, take 512 indices each, those from 512 w. For each of its indices v a subcore fetches the group of 128
  columns of the transposed table that holds column v — the one from 128 ⌊v / 128⌋, capped at 999808 —, eight fetches
  in flight at a time, and copies, for each of the 32 rows, lane v − 128 ⌊v / 128⌋ of the group — or, when v ≥ 999936,
  lane v − 999936 of the 64 last columns — into column i of a 32 × 512 block, which it writes out as columns 512 w + i
  of the 32 × 16384 result; @main transposes the result back. Column b of the result is therefore column cond b of
  the transposed table, that is row cond b of the table: G again (Proof/KI/Body.lean for one subcore's task,
  Proof/KI/Launch.lean from the tasks to the run of the whole program, Proof/Assemble.lean for the five conjuncts).

  No law of arithmetic joins the two sides: the numbers are moved, never computed with, and the only arithmetic is on
  indices — the word operations on an index (shifts, a minimum, a difference) read as natural-number arithmetic inside
  the table's range. So one proof serves both float instances (Proof/KI at the ideal one; Proof/KB, the same text over
  the program as printed, at the bit-exact one), the idealization rewrote no operation, each frame is the corresponding
  run with the value dropped, and at the ideal instance the two results are the same array, G of arguments that agree.
-/
import proofs.«209800_g17188459118626_cont_7to1_163_19_alg».proof.Defs
import proofs.«209800_g17188459118626_cont_7to1_163_19_alg».proof.Proof.Assemble
import proofs.«209800_g17188459118626_cont_7to1_163_19_alg».proof.Proof.KI.Body
import proofs.«209800_g17188459118626_cont_7to1_163_19_alg».proof.Proof.KB.Body

noncomputable section

namespace Cert.Proof

theorem claim : Cert.Claim :=
  Cert.Proof.Assemble.claim_of (fun m hr => Cert.Proof.KI.tile_body m hr) (fun m hr => Cert.Proof.KB.tile_body m hr)

end Cert.Proof

end
